-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v107)) (v2 : (c : Dev Cert.KernelIdeal.nD) → Buf (Elt Ideal) ((c.tc : Thread Cert.KernelIdeal.nD Cert.KernelIdeal.τ).loc Cert.KernelIdeal.main_v63)) (v3 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v107) = v1 c
          ∧ r.2.mem ((c.tc : Thread Cert.KernelIdeal.nD Cert.KernelIdeal.τ).loc Cert.KernelIdeal.main_v63) = v2 c
          ∧ r.2.mem ((c.tc : Thread Cert.KernelIdeal.nD Cert.KernelIdeal.τ).loc Cert.KernelIdeal.main_v96) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v231) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_v218) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x24x12 : Shape := ⟨4, ![32, 2048, 24, 12]⟩
abbrev S32 : Shape := ⟨1, ![32]⟩
abbrev S1x16x2048 : Shape := ⟨3, ![1, 16, 2048]⟩
abbrev S1x2048x2048 : Shape := ⟨3, ![1, 2048, 2048]⟩
abbrev S1x16x1 : Shape := ⟨3, ![1, 16, 1]⟩
abbrev S6x1x2048 : Shape := ⟨3, ![6, 1, 2048]⟩
abbrev S1x288x2048 : Shape := ⟨3, ![1, 288, 2048]⟩
abbrev S2048x2048 : Shape := ⟨2, ![2048, 2048]⟩
abbrev S_ : Shape := ⟨0, ![]⟩

class Facts : Prop where
  bcast_S_S32x2048x24x12 : S_.BroadcastsInDim S32x2048x24x12 (![] : Fin 0 → Fin S32x2048x24x12.rank)
  reducesTo_S32x2048x24x12_S_d0_1_2_3 : S32x2048x24x12.ReducesTo [0, 1, 2, 3] S_
  h_S_ : 0 < S_.numel
  bcast_S_S1x16x2048 : S_.BroadcastsInDim S1x16x2048 (![] : Fin 0 → Fin S1x16x2048.rank)
  reducesTo_S1x16x2048_S_d0_1_2 : S1x16x2048.ReducesTo [0, 1, 2] S_
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S1x16x1 : S_.BroadcastsInDim S1x16x1 (![] : Fin 0 → Fin S1x16x1.rank)
  reducesTo_S1x16x1_S_d0_1_2 : S1x16x1.ReducesTo [0, 1, 2] S_
  bcast_S_S6x1x2048 : S_.BroadcastsInDim S6x1x2048 (![] : Fin 0 → Fin S6x1x2048.rank)
  reducesTo_S6x1x2048_S_d0_1_2 : S6x1x2048.ReducesTo [0, 1, 2] S_
  bcast_S_S1x288x2048 : S_.BroadcastsInDim S1x288x2048 (![] : Fin 0 → Fin S1x288x2048.rank)
  reducesTo_S1x288x2048_S_d0_1_2 : S1x288x2048.ReducesTo [0, 1, 2] S_
  bcast_S_S2048x2048 : S_.BroadcastsInDim S2048x2048 (![] : Fin 0 → Fin S2048x2048.rank)
  reducesTo_S2048x2048_S_d0_1 : S2048x2048.ReducesTo [0, 1] S_

variable [Facts]

def fn_part2 {F : FTy → Type} [FloatOps F] (main_arg9 : FVec F S2048x2048 .f32) (main_arg10 : FVec F S2048x2048 .f32) (main_arg11 : FVec F S2048x2048 .f32) (main_v33 : IVec S_ 1) : IVec S_ 1 :=
  let main_v34 : FVec F S2048x2048 .f32 := Host.absf main_arg9
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg10
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg11
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  main_v48

def fn_part1 {F : FTy → Type} [FloatOps F] (main_arg6 : FVec F S6x1x2048 .f32) (main_arg7 : FVec F S1x288x2048 .f32) (main_arg8 : FVec F S2048x2048 .f32) (main_arg9 : FVec F S2048x2048 .f32) (main_arg10 : FVec F S2048x2048 .f32) (main_arg11 : FVec F S2048x2048 .f32) (main_v13 : IVec S_ 1) (main_v16 : IVec S1x16x1 1) : IVec S_ 1 :=
  let main_c_5 : IVec S_ 1 := constantI S_ 1 1#1
  let main_v17 : IVec S_ 1 := (fun x v => Host.reduce IntOp.andi x v reducesTo_S1x16x1_S_d0_1_2 h_S_) main_v16 main_c_5
  let main_v18 : IVec S_ 1 := andi main_v13 main_v17
  let main_v19 : FVec F S6x1x2048 .f32 := Host.absf main_arg6
  let main_cst_6 : FVec F S_ .f32 := constant S_ .f32 0x7F800000#32
  let main_v20 : FVec F S6x1x2048 .f32 := broadcastInDim S6x1x2048 ![] bcast_S_S6x1x2048 main_cst_6
  let main_v21 : IVec S6x1x2048 1 := cmpf .olt main_v19 main_v20
  let main_c_7 : IVec S_ 1 := constantI S_ 1 1#1
  let main_v22 : IVec S_ 1 := (fun x v => Host.reduce IntOp.andi x v reducesTo_S6x1x2048_S_d0_1_2 h_S_) main_v21 main_c_7
  let main_v23 : IVec S_ 1 := andi main_v18 main_v22
  let main_v24 : FVec F S1x288x2048 .f32 := Host.absf main_arg7
  let main_cst_8 : FVec F S_ .f32 := constant S_ .f32 0x7F800000#32
  let main_v25 : FVec F S1x288x2048 .f32 := broadcastInDim S1x288x2048 ![] bcast_S_S1x288x2048 main_cst_8
  let main_v26 : IVec S1x288x2048 1 := cmpf .olt main_v24 main_v25
  let main_c_9 : IVec S_ 1 := constantI S_ 1 1#1
  let main_v27 : IVec S_ 1 := (fun x v => Host.reduce IntOp.andi x v reducesTo_S1x288x2048_S_d0_1_2 h_S_) main_v26 main_c_9
  let main_v28 : IVec S_ 1 := andi main_v23 main_v27
  let main_v29 : FVec F S2048x2048 .f32 := Host.absf main_arg8
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg9 main_arg10 main_arg11 main_v33

def fn {F : FTy → Type} [FloatOps F] (main_arg0 : FVec F S32x2048x24x12 .f32) (main_arg1 : IVec S32 32) (main_arg2 : IVec S32 1) (main_arg3 : FVec F S1x16x2048 .f32) (main_arg4 : FVec F S1x2048x2048 .f32) (main_arg5 : FVec F S1x16x1 .f32) (main_arg6 : FVec F S6x1x2048 .f32) (main_arg7 : FVec F S1x288x2048 .f32) (main_arg8 : FVec F S2048x2048 .f32) (main_arg9 : FVec F S2048x2048 .f32) (main_arg10 : FVec F S2048x2048 .f32) (main_arg11 : FVec F S2048x2048 .f32) : IVec S_ 1 :=
  let main_v0 : FVec F S32x2048x24x12 .f32 := Host.absf main_arg0
  let main_cst : FVec F S_ .f32 := constant S_ .f32 0x7F800000#32
  let main_v1 : FVec F S32x2048x24x12 .f32 := broadcastInDim S32x2048x24x12 ![] bcast_S_S32x2048x24x12 main_cst
  let main_v2 : IVec S32x2048x24x12 1 := cmpf .olt main_v0 main_v1
  let main_c : IVec S_ 1 := constantI S_ 1 1#1
  let main_v3 : IVec S_ 1 := (fun x v => Host.reduce IntOp.andi x v reducesTo_S32x2048x24x12_S_d0_1_2_3 h_S_) main_v2 main_c
  let main_v4 : FVec F S1x16x2048 .f32 := Host.absf main_arg3
  let main_cst_0 : FVec F S_ .f32 := constant S_ .f32 0x7F800000#32
  let main_v5 : FVec F S1x16x2048 .f32 := broadcastInDim S1x16x2048 ![] bcast_S_S1x16x2048 main_cst_0
  let main_v6 : IVec S1x16x2048 1 := cmpf .olt main_v4 main_v5
  let main_c_1 : IVec S_ 1 := constantI S_ 1 1#1
  let main_v7 : IVec S_ 1 := (fun x v => Host.reduce IntOp.andi x v reducesTo_S1x16x2048_S_d0_1_2 h_S_) main_v6 main_c_1
  let main_v8 : IVec S_ 1 := andi main_v3 main_v7
  let main_v9 : FVec F S1x2048x2048 .f32 := Host.absf main_arg4
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  let main_c_3 : IVec S_ 1 := constantI S_ 1 1#1
  let main_v12 : IVec S_ 1 := (fun x v => Host.reduce IntOp.andi x v reducesTo_S1x2048x2048_S_d0_1_2 h_S_) main_v11 main_c_3
  let main_v13 : IVec S_ 1 := andi main_v8 main_v12
  let main_v14 : FVec F S1x16x1 .f32 := Host.absf main_arg5
  let main_cst_4 : FVec F S_ .f32 := constant S_ .f32 0x7F800000#32
  let main_v15 : FVec F S1x16x1 .f32 := broadcastInDim S1x16x1 ![] bcast_S_S1x16x1 main_cst_4
  let main_v16 : IVec S1x16x1 1 := cmpf .olt main_v14 main_v15
  fn_part1 (F := F) main_arg6 main_arg7 main_arg8 main_arg9 main_arg10 main_arg11 main_v13 main_v16
-- ==== Kernel.lean ====
abbrev S32x2048x24x12 : Shape := ⟨4, ![32, 2048, 24, 12]⟩
abbrev S32 : Shape := ⟨1, ![32]⟩
abbrev S1x16x2048 : Shape := ⟨3, ![1, 16, 2048]⟩
abbrev S1x2048x2048 : Shape := ⟨3, ![1, 2048, 2048]⟩
abbrev S1x16x1 : Shape := ⟨3, ![1, 16, 1]⟩
abbrev S6x1x2048 : Shape := ⟨3, ![6, 1, 2048]⟩
abbrev S1x288x2048 : Shape := ⟨3, ![1, 288, 2048]⟩
abbrev S2048x2048 : Shape := ⟨2, ![2048, 2048]⟩
abbrev S32x2048x288 : Shape := ⟨3, ![32, 2048, 288]⟩
abbrev S32x288x2048 : Shape := ⟨3, ![32, 288, 2048]⟩
abbrev S32x16x2048 : Shape := ⟨3, ![32, 16, 2048]⟩
abbrev S_ : Shape := ⟨0, ![]⟩
abbrev S32x1 : Shape := ⟨2, ![32, 1]⟩
abbrev S32x1x2048 : Shape := ⟨3, ![32, 1, 2048]⟩
abbrev S288x2048 : Shape := ⟨2, ![288, 2048]⟩
abbrev S288 : Shape := ⟨1, ![288]⟩
abbrev S288x1 : Shape := ⟨2, ![288, 1]⟩
abbrev S2048x288 : Shape := ⟨2, ![2048, 288]⟩
abbrev S288x288 : Shape := ⟨2, ![288, 288]⟩
abbrev S9216x2048 : Shape := ⟨2, ![9216, 2048]⟩
abbrev S512x2048 : Shape := ⟨2, ![512, 2048]⟩
abbrev S16x2048 : Shape := ⟨2, ![16, 2048]⟩
abbrev S16x288 : Shape := ⟨2, ![16, 288]⟩
abbrev S16 : Shape := ⟨1, ![16]⟩
abbrev S16x1 : Shape := ⟨2, ![16, 1]⟩
abbrev S32x2048 : Shape := ⟨2, ![32, 2048]⟩
abbrev S32x16 : Shape := ⟨2, ![32, 16]⟩
abbrev S32x16x1 : Shape := ⟨3, ![32, 16, 1]⟩
abbrev S32x2048x2048 : Shape := ⟨3, ![32, 2048, 2048]⟩
abbrev S256x2048 : Shape := ⟨2, ![256, 2048]⟩
abbrev S1x1x2048 : Shape := ⟨3, ![1, 1, 2048]⟩
abbrev S1x256x2048 : Shape := ⟨3, ![1, 256, 2048]⟩
abbrev S1x2048 : Shape := ⟨2, ![1, 2048]⟩
abbrev S256 : Shape := ⟨1, ![256]⟩
abbrev S256x1 : Shape := ⟨2, ![256, 1]⟩
abbrev S8x1x4x1x2048 : Shape := ⟨5, ![8, 1, 4, 1, 2048]⟩
abbrev S8x4x4x1x2048 : Shape := ⟨5, ![8, 4, 4, 1, 2048]⟩
abbrev S32x4x2048 : Shape := ⟨3, ![32, 4, 2048]⟩
abbrev S8x1x4x288x2048 : Shape := ⟨5, ![8, 1, 4, 288, 2048]⟩
abbrev S8x4x4x288x2048 : Shape := ⟨5, ![8, 4, 4, 288, 2048]⟩
abbrev S32x1152x2048 : Shape := ⟨3, ![32, 1152, 2048]⟩
abbrev S128x1x2048 : Shape := ⟨3, ![128, 1, 2048]⟩
abbrev S128x288x2048 : Shape := ⟨3, ![128, 288, 2048]⟩
abbrev S36864x2048 : Shape := ⟨2, ![36864, 2048]⟩
abbrev S1x1152x2048 : Shape := ⟨3, ![1, 1152, 2048]⟩
abbrev S1152x2048 : Shape := ⟨2, ![1152, 2048]⟩
abbrev S2048x1152 : Shape := ⟨2, ![2048, 1152]⟩
abbrev S16x1152 : Shape := ⟨2, ![16, 1152]⟩
abbrev S1x1 : Shape := ⟨2, ![1, 1]⟩
abbrev S1x1x1 : Shape := ⟨3, ![1, 1, 1]⟩

abbrev nBuf : Space → Nat
  | .hbm => 139
  | .vmem => 68
  | .smem => 0
  | _ => 0

abbrev hbmTy0_0 (i : Nat) : BufTy := match i % 128 with
  | 0 => ⟨S32x2048x24x12, .f32⟩
  | 1 => ⟨S32, .i32⟩
  | 2 => ⟨S32, .i1⟩
  | 3 => ⟨S1x16x2048, .f32⟩
  | 4 => ⟨S1x2048x2048, .f32⟩
  | 5 => ⟨S1x16x1, .f32⟩
  | 6 => ⟨S6x1x2048, .f32⟩
  | 7 => ⟨S1x288x2048, .f32⟩
  | 8 => ⟨S2048x2048, .f32⟩
  | 9 => ⟨S2048x2048, .f32⟩
  | 10 => ⟨S2048x2048, .f32⟩
  | 11 => ⟨S2048x2048, .f32⟩
  | 12 => ⟨S32x2048x288, .f32⟩
  | 13 => ⟨S32x288x2048, .f32⟩
  | 14 => ⟨S32x16x2048, .f32⟩
  | 15 => ⟨S2048x2048, .f32⟩
  | 16 => ⟨S_, .i32⟩
  | 17 => ⟨S32, .i32⟩
  | 18 => ⟨S32, .i32⟩
  | 19 => ⟨S_, .i32⟩
  | 20 => ⟨S32, .i32⟩
  | 21 => ⟨S32, .i1⟩
  | 22 => ⟨S_, .i32⟩
  | 23 => ⟨S32, .i32⟩
  | 24 => ⟨S32, .i32⟩
  | 25 => ⟨S32, .i32⟩
  | 26 => ⟨S32x1, .i32⟩
  | 27 => ⟨S32x1x2048, .f32⟩
  | 28 => ⟨S2048x2048, .f32⟩
  | 29 => ⟨S2048x2048, .bf16⟩
  | 30 => ⟨S2048x2048, .f32⟩
  | 31 => ⟨S2048x2048, .bf16⟩
  | 32 => ⟨S2048x2048, .f32⟩
  | 33 => ⟨S2048x2048, .bf16⟩
  | 34 => ⟨S2048x2048, .f32⟩
  | 35 => ⟨S2048x2048, .bf16⟩
  | 36 => ⟨S32x288x2048, .bf16⟩
  | 37 => ⟨S32x288x2048, .f32⟩
  | 38 => ⟨S32x288x2048, .f32⟩
  | 39 => ⟨S32x288x2048, .f32⟩
  | 40 => ⟨S9216x2048, .f32⟩
  | 41 => ⟨S9216x2048, .bf16⟩
  | 42 => ⟨S32x288x2048, .bf16⟩
  | 43 => ⟨S512x2048, .f32⟩
  | 44 => ⟨S512x2048, .bf16⟩
  | 45 => ⟨S32x16x2048, .bf16⟩
  | 46 => ⟨S32x16x2048, .f32⟩
  | 47 => ⟨S_, .f32⟩
  | 48 => ⟨S32x2048, .f32⟩
  | 49 => ⟨S32x1x2048, .f32⟩
  | 50 => ⟨S_, .f32⟩
  | 51 => ⟨S32x1x2048, .f32⟩
  | 52 => ⟨S32x1x2048, .f32⟩
  | 53 => ⟨S_, .f32⟩
  | 54 => ⟨S32x16, .f32⟩
  | 55 => ⟨S32x16x1, .f32⟩
  | 56 => ⟨S_, .f32⟩
  | 57 => ⟨S32x16x1, .f32⟩
  | 58 => ⟨S32x16x1, .f32⟩
  | 59 => ⟨S32x16x2048, .f32⟩
  | 60 => ⟨S32x16x2048, .f32⟩
  | 61 => ⟨S32x16x2048, .f32⟩
  | 62 => ⟨S_, .f32⟩
  | 63 => ⟨S32x16, .f32⟩
  | 64 => ⟨S32x16x1, .f32⟩
  | 65 => ⟨S_, .f32⟩
  | 66 => ⟨S32x16x1, .f32⟩
  | 67 => ⟨S32x16x1, .f32⟩
  | 68 => ⟨S32x16x2048, .f32⟩
  | 69 => ⟨S32x16x2048, .f32⟩
  | 70 => ⟨S_, .f32⟩
  | 71 => ⟨S32x16x1, .f32⟩
  | 72 => ⟨S32x16x1, .f32⟩
  | 73 => ⟨S32x16x1, .f32⟩
  | 74 => ⟨S32x16x2048, .f32⟩
  | 75 => ⟨S32x16x2048, .f32⟩
  | 76 => ⟨S512x2048, .f32⟩
  | 77 => ⟨S512x2048, .bf16⟩
  | 78 => ⟨S32x16x2048, .bf16⟩
  | 79 => ⟨S32x2048x2048, .bf16⟩
  | 80 => ⟨S32x2048x2048, .bf16⟩
  | 81 => ⟨S32x16x2048, .f32⟩
  | 82 => ⟨S32x16x2048, .f32⟩
  | 83 => ⟨S512x2048, .f32⟩
  | 84 => ⟨S512x2048, .bf16⟩
  | 85 => ⟨S32x16x2048, .bf16⟩
  | 86 => ⟨S32x16x2048, .f32⟩
  | 87 => ⟨S8x1x4x1x2048, .f32⟩
  | 88 => ⟨S8x4x4x1x2048, .f32⟩
  | 89 => ⟨S32x4x2048, .f32⟩
  | 90 => ⟨S8x1x4x288x2048, .f32⟩
  | 91 => ⟨S8x4x4x288x2048, .f32⟩
  | 92 => ⟨S32x1152x2048, .f32⟩
  | 93 => ⟨S32, .i32⟩
  | 94 => ⟨S32, .i32⟩
  | 95 => ⟨S32, .i32⟩
  | 96 => ⟨S32, .i32⟩
  | 97 => ⟨S_, .i32⟩
  | 98 => ⟨S32, .i32⟩
  | 99 => ⟨S32, .i1⟩
  | 100 => ⟨S_, .i32⟩
  | 101 => ⟨S32, .i32⟩
  | 102 => ⟨S32, .i32⟩
  | 103 => ⟨S32, .i32⟩
  | 104 => ⟨S32x1, .i32⟩
  | 105 => ⟨S32x4x2048, .f32⟩
  | 106 => ⟨S_, .i32⟩
  | 107 => ⟨S32, .i32⟩
  | 108 => ⟨S32, .i1⟩
  | 109 => ⟨S_, .i32⟩
  | 110 => ⟨S32, .i32⟩
  | 111 => ⟨S32, .i32⟩
  | 112 => ⟨S32, .i32⟩
  | 113 => ⟨S32x1, .i32⟩
  | 114 => ⟨S32x1152x2048, .f32⟩
  | 115 => ⟨S128x1x2048, .f32⟩
  | 116 => ⟨S128x288x2048, .f32⟩
  | 117 => ⟨S128x288x2048, .bf16⟩
  | 118 => ⟨S128x288x2048, .f32⟩
  | 119 => ⟨S128x288x2048, .f32⟩
  | 120 => ⟨S128x288x2048, .f32⟩
  | 121 => ⟨S32x1152x2048, .bf16⟩
  | 122 => ⟨S36864x2048, .f32⟩
  | 123 => ⟨S36864x2048, .bf16⟩
  | 124 => ⟨S32x1152x2048, .bf16⟩
  | 125 => ⟨S32x16x2048, .f32⟩
  | 126 => ⟨S_, .f32⟩
  | 127 => ⟨S1x1, .f32⟩
  | _ => ⟨S32x2048x24x12, .f32⟩

abbrev hbmTy0_1 (i : Nat) : BufTy := match i % 128 with
  | 0 => ⟨S1x1x1, .f32⟩
  | 1 => ⟨S1x16x1, .f32⟩
  | 2 => ⟨S1x16x1, .f32⟩
  | 3 => ⟨S1x16x1, .f32⟩
  | 4 => ⟨S_, .f32⟩
  | 5 => ⟨S1x1, .f32⟩
  | 6 => ⟨S1x1x1, .f32⟩
  | 7 => ⟨S1x16x1, .f32⟩
  | 8 => ⟨S1x16x1, .f32⟩
  | 9 => ⟨S32x16x2048, .f32⟩
  | 10 => ⟨S32x16x2048, .f32⟩
  | _ => ⟨S32x2048x24x12, .f32⟩

abbrev hbmTy (i : Nat) : BufTy := match i / 128 with
  | 0 => hbmTy0_0 i
  | 1 => hbmTy0_1 i
  | _ => ⟨S32x2048x24x12, .f32⟩

abbrev bufTy : (tb : Table) → Fin (tcTables nBuf tb) → BufTy
  | .hbm, ⟨i, _⟩ => hbmTy i
  | .local _ .vmem, ⟨0, _⟩ => ⟨S1x288x2048, .f32⟩
  | .local _ .vmem, ⟨1, _⟩ => ⟨S1x288x2048, .f32⟩
  | .local _ .vmem, ⟨2, _⟩ => ⟨S1x288x2048, .bf16⟩
  | .local _ .vmem, ⟨3, _⟩ => ⟨S1x288x2048, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S2048x2048, .bf16⟩
  | .local _ .vmem, ⟨11, _⟩ => ⟨S512x2048, .bf16⟩
  | .local _ .vmem, ⟨12, _⟩ => ⟨S1x16x2048, .bf16⟩
  | .local _ .vmem, ⟨13, _⟩ => ⟨S1x16x2048, .bf16⟩
  | .local _ .vmem, ⟨14, _⟩ => ⟨S1x288x2048, .bf16⟩
  | .local _ .vmem, ⟨15, _⟩ => ⟨S1x288x2048, .bf16⟩
  | .local _ .vmem, ⟨16, _⟩ => ⟨S1x288x2048, .bf16⟩
  | .local _ .vmem, ⟨17, _⟩ => ⟨S1x288x2048, .bf16⟩
  | .local _ .vmem, ⟨18, _⟩ => ⟨S1x16x2048, .f32⟩
  | .local _ .vmem, ⟨19, _⟩ => ⟨S1x16x2048, .f32⟩
  | .local _ .vmem, ⟨20, _⟩ => ⟨S512x2048, .f32⟩
  | .local _ .vmem, ⟨21, _⟩ => ⟨S2048x2048, .bf16⟩
  | .local _ .vmem, ⟨22, _⟩ => ⟨S512x2048, .bf16⟩
  | .local _ .vmem, ⟨23, _⟩ => ⟨S256x2048, .f32⟩
  | .local _ .vmem, ⟨24, _⟩ => ⟨S256x2048, .f32⟩
  | .local _ .vmem, ⟨25, _⟩ => ⟨S1x1x2048, .f32⟩
  | .local _ .vmem, ⟨26, _⟩ => ⟨S1x1x2048, .f32⟩
  | .local _ .vmem, ⟨27, _⟩ => ⟨S2048x2048, .bf16⟩
  | .local _ .vmem, ⟨28, _⟩ => ⟨S1x256x2048, .bf16⟩
  | .local _ .vmem, ⟨29, _⟩ => ⟨S1x256x2048, .bf16⟩
  | .local _ .vmem, ⟨30, _⟩ => ⟨S1x256x2048, .bf16⟩
  | .local _ .vmem, ⟨31, _⟩ => ⟨S1x256x2048, .bf16⟩
  | .local _ .vmem, ⟨32, _⟩ => ⟨S1x16x2048, .bf16⟩
  | .local _ .vmem, ⟨33, _⟩ => ⟨S1x16x2048, .bf16⟩
  | .local _ .vmem, ⟨34, _⟩ => ⟨S1x2048x2048, .bf16⟩
  | .local _ .vmem, ⟨35, _⟩ => ⟨S1x2048x2048, .bf16⟩
  | .local _ .vmem, ⟨36, _⟩ => ⟨S1x2048x2048, .bf16⟩
  | .local _ .vmem, ⟨37, _⟩ => ⟨S1x2048x2048, .bf16⟩
  | .local _ .vmem, ⟨38, _⟩ => ⟨S1x16x2048, .f32⟩
  | .local _ .vmem, ⟨39, _⟩ => ⟨S1x16x2048, .f32⟩
  | .local _ .vmem, ⟨40, _⟩ => ⟨S512x2048, .f32⟩
  | .local _ .vmem, ⟨41, _⟩ => ⟨S2048x2048, .bf16⟩
  | .local _ .vmem, ⟨42, _⟩ => ⟨S512x2048, .bf16⟩
  | .local _ .vmem, ⟨43, _⟩ => ⟨S1x16x2048, .bf16⟩
  | .local _ .vmem, ⟨44, _⟩ => ⟨S1x16x2048, .bf16⟩
  | .local _ .vmem, ⟨45, _⟩ => ⟨S1x288x2048, .bf16⟩
  | .local _ .vmem, ⟨46, _⟩ => ⟨S1x288x2048, .bf16⟩
  | .local _ .vmem, ⟨47, _⟩ => ⟨S1x288x2048, .bf16⟩
  | .local _ .vmem, ⟨48, _⟩ => ⟨S1x288x2048, .bf16⟩
  | .local _ .vmem, ⟨49, _⟩ => ⟨S1x16x2048, .f32⟩
  | .local _ .vmem, ⟨50, _⟩ => ⟨S1x16x2048, .f32⟩
  | .local _ .vmem, ⟨51, _⟩ => ⟨S1x288x2048, .f32⟩
  | .local _ .vmem, ⟨52, _⟩ => ⟨S1x288x2048, .f32⟩
  | .local _ .vmem, ⟨53, _⟩ => ⟨S1x288x2048, .bf16⟩
  | .local _ .vmem, ⟨54, _⟩ => ⟨S1x288x2048, .bf16⟩
  | .local _ .vmem, ⟨55, _⟩ => ⟨S512x2048, .f32⟩
  | .local _ .vmem, ⟨56, _⟩ => ⟨S512x2048, .f32⟩
  | .local _ .vmem, ⟨57, _⟩ => ⟨S2048x2048, .bf16⟩
  | .local _ .vmem, ⟨58, _⟩ => ⟨S512x2048, .bf16⟩
  | .local _ .vmem, ⟨59, _⟩ => ⟨S512x2048, .bf16⟩
  | .local _ .vmem, ⟨60, _⟩ => ⟨S1x16x2048, .bf16⟩
  | .local _ .vmem, ⟨61, _⟩ => ⟨S1x16x2048, .bf16⟩
  | .local _ .vmem, ⟨62, _⟩ => ⟨S1x1152x2048, .bf16⟩
  | .local _ .vmem, ⟨63, _⟩ => ⟨S1x1152x2048, .bf16⟩
  | .local _ .vmem, ⟨64, _⟩ => ⟨S1x1152x2048, .bf16⟩
  | .local _ .vmem, ⟨65, _⟩ => ⟨S1x1152x2048, .bf16⟩
  | .local _ .vmem, ⟨66, _⟩ => ⟨S1x16x2048, .f32⟩
  | .local _ .vmem, ⟨67, _⟩ => ⟨S1x16x2048, .f32⟩
  | _, _ => ⟨S32x2048x24x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_v33 : Ref sig .tc := ⟨.hbm, 49, rfl⟩
abbrev main_cst_2 : Ref sig .tc := ⟨.hbm, 50, rfl⟩
abbrev main_v34 : Ref sig .tc := ⟨.hbm, 51, rfl⟩
abbrev main_v35 : Ref sig .tc := ⟨.hbm, 52, rfl⟩
abbrev main_cst_3 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57_0 : Ref sig .tc := ⟨.hbm, 79, rfl⟩
abbrev main_v57_1 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_call0_v0 : Ref sig .tc := ⟨.hbm, 94, rfl⟩
abbrev main_call0_v1_0 : Ref sig .tc := ⟨.hbm, 95, rfl⟩
abbrev main_v71 : Ref sig .tc := ⟨.hbm, 96, rfl⟩
abbrev main_c_8 : Ref sig .tc := ⟨.hbm, 97, rfl⟩
abbrev main_v72 : Ref sig .tc := ⟨.hbm, 98, rfl⟩
abbrev main_v73 : Ref sig .tc := ⟨.hbm, 99, rfl⟩
abbrev main_c_9 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_10 : Ref sig .tc := ⟨.hbm, 106, rfl⟩
abbrev main_v79 : Ref sig .tc := ⟨.hbm, 107, rfl⟩
abbrev main_v80 : Ref sig .tc := ⟨.hbm, 108, rfl⟩
abbrev main_c_11 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_12 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_13 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg1_1 : Ref sig .tc := ⟨.vmem, 26, rfl⟩
abbrev cc5_stg2_0 : Ref sig .tc := ⟨.vmem, 27, rfl⟩
abbrev cc5_stg3_0 : Ref sig .tc := ⟨.vmem, 28, rfl⟩
abbrev cc5_stg3_1 : Ref sig .tc := ⟨.vmem, 29, rfl⟩
abbrev cc5_stg4_0 : Ref sig .tc := ⟨.vmem, 30, rfl⟩
abbrev cc5_stg4_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg2_1 : Ref sig .tc := ⟨.vmem, 37, rfl⟩
abbrev cc6_stg3_0 : Ref sig .tc := ⟨.vmem, 38, rfl⟩
abbrev cc6_stg3_1 : Ref sig .tc := ⟨.vmem, 39, rfl⟩
abbrev cc7_stg0_0 : Ref sig .tc := ⟨.vmem, 40, rfl⟩
abbrev cc7_stg1_0 : Ref sig .tc := ⟨.vmem, 41, rfl⟩
abbrev cc7_stg2_0 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg1_1 : Ref sig .tc := ⟨.vmem, 46, rfl⟩
abbrev cc8_stg2_0 : Ref sig .tc := ⟨.vmem, 47, rfl⟩
abbrev cc8_stg2_1 : Ref sig .tc := ⟨.vmem, 48, rfl⟩
abbrev cc8_stg3_0 : Ref sig .tc := ⟨.vmem, 49, rfl⟩
abbrev cc8_stg3_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg1_1 : Ref sig .tc := ⟨.vmem, 54, rfl⟩
abbrev cc10_stg0_0 : Ref sig .tc := ⟨.vmem, 55, rfl⟩
abbrev cc10_stg0_1 : Ref sig .tc := ⟨.vmem, 56, rfl⟩
abbrev cc10_stg1_0 : Ref sig .tc := ⟨.vmem, 57, rfl⟩
abbrev cc10_stg2_0 : Ref sig .tc := ⟨.vmem, 58, rfl⟩
abbrev cc10_stg2_1 : Ref sig .tc := ⟨.vmem, 59, rfl⟩
abbrev cc11_stg0_0 : Ref sig .tc := ⟨.vmem, 60, rfl⟩
abbrev cc11_stg0_1 : Ref sig .tc := ⟨.vmem, 61, rfl⟩
abbrev cc11_stg1_0 : Ref sig .tc := ⟨.vmem, 62, rfl⟩
abbrev cc11_stg1_1 : Ref sig .tc := ⟨.vmem, 63, rfl⟩
abbrev cc11_stg2_0 : Ref sig .tc := ⟨.vmem, 64, rfl⟩
abbrev cc11_stg2_1 : Ref sig .tc := ⟨.vmem, 65, rfl⟩
abbrev cc11_stg3_0 : Ref sig .tc := ⟨.vmem, 66, rfl⟩
abbrev cc11_stg3_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem1_0 : DmaSem sig := 10
abbrev cc2_sem2_0 : DmaSem sig := 11
abbrev cc3_sem0_0 : DmaSem sig := 12
abbrev cc3_sem0_1 : DmaSem sig := 13
abbrev cc3_sem1_0 : DmaSem sig := 14
abbrev cc3_sem1_1 : DmaSem sig := 15
abbrev cc3_sem2_0 : DmaSem sig := 16
abbrev cc3_sem2_1 : DmaSem sig := 17
abbrev cc3_sem3_0 : DmaSem sig := 18
abbrev cc3_sem3_1 : DmaSem sig := 19
abbrev cc4_sem0_0 : DmaSem sig := 20
abbrev cc4_sem1_0 : DmaSem sig := 21
abbrev cc4_sem2_0 : DmaSem sig := 22
abbrev cc5_sem0_0 : DmaSem sig := 23
abbrev cc5_sem0_1 : DmaSem sig := 24
abbrev cc5_sem1_0 : DmaSem sig := 25
abbrev cc5_sem1_1 : DmaSem sig := 26
abbrev cc5_sem2_0 : DmaSem sig := 27
abbrev cc5_sem3_0 : DmaSem sig := 28
abbrev cc5_sem3_1 : DmaSem sig := 29
abbrev cc5_sem4_0 : DmaSem sig := 30
abbrev cc5_sem4_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem2_1 : DmaSem sig := 37
abbrev cc6_sem3_0 : DmaSem sig := 38
abbrev cc6_sem3_1 : DmaSem sig := 39
abbrev cc7_sem0_0 : DmaSem sig := 40
abbrev cc7_sem1_0 : DmaSem sig := 41
abbrev cc7_sem2_0 : DmaSem sig := 42
abbrev cc8_sem0_0 : DmaSem sig := 43
abbrev cc8_sem0_1 : DmaSem sig := 44
abbrev cc8_sem1_0 : DmaSem sig := 45
abbrev cc8_sem1_1 : DmaSem sig := 46
abbrev cc8_sem2_0 : DmaSem sig := 47
abbrev cc8_sem2_1 : DmaSem sig := 48
abbrev cc8_sem3_0 : DmaSem sig := 49
abbrev cc8_sem3_1 : DmaSem sig := 50
abbrev cc9_sem0_0 : DmaSem sig := 51
abbrev cc9_sem0_1 : DmaSem sig := 52
abbrev cc9_sem1_0 : DmaSem sig := 53
abbrev cc9_sem1_1 : DmaSem sig := 54
abbrev cc10_sem0_0 : DmaSem sig := 55
abbrev cc10_sem0_1 : DmaSem sig := 56
abbrev cc10_sem1_0 : DmaSem sig := 57
abbrev cc10_sem2_0 : DmaSem sig := 58
abbrev cc10_sem2_1 : DmaSem sig := 59
abbrev cc11_sem0_0 : DmaSem sig := 60
abbrev cc11_sem0_1 : DmaSem sig := 61
abbrev cc11_sem1_0 : DmaSem sig := 62
abbrev cc11_sem1_1 : DmaSem sig := 63
abbrev cc11_sem2_0 : DmaSem sig := 64
abbrev cc11_sem2_1 : DmaSem sig := 65
abbrev cc11_sem3_0 : DmaSem sig := 66
abbrev cc11_sem3_1 : DmaSem sig := 67

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x288x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x288x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![18], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x16x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x288x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x288x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x16x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S512x2048 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S2048x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512x2048 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev grid5 : Pipeline.Grid := ⟨2, ![8, 32], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage5_0 : Fin 2 → Memref sig .tc .vmem S256x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1x1x2048 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S2048x2048 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1x256x2048 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S1x256x2048 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev grid6 : Pipeline.Grid := ⟨1, ![32], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x16x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x2048x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x2048x2048 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S1x16x2048 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S512x2048 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S2048x2048 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S512x2048 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev grid8 : Pipeline.Grid := ⟨1, ![32], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_3 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x16x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x288x2048 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S1x288x2048 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S1x16x2048 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![128], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x288x2048 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x288x2048 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev grid10 : Pipeline.Grid := ⟨1, ![72], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S512x2048 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S2048x2048 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S512x2048 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![32], ![false]⟩

def cc11_transform_0 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_1 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_2 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_3 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x16x2048 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1x1152x2048 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S1x1152x2048 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S1x16x2048 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  shapeCasts_S32x2048x24x12_S32x2048x288 : S32x2048x24x12.ShapeCasts S32x2048x288
  transposes_S32x2048x288_S32x288x2048_0_2_1 : S32x2048x288.Transposes [0, 2, 1] S32x288x2048
  bcast_S1x16x2048_S32x16x2048_0_1_2 : S1x16x2048.BroadcastsInDim S32x16x2048 (![0, 1, 2] : Fin 3 → Fin S32x16x2048.rank)
  shapeCasts_S1x2048x2048_S2048x2048 : S1x2048x2048.ShapeCasts S2048x2048
  bcast_S_S32 : S_.BroadcastsInDim S32 (![] : Fin 0 → Fin S32.rank)
  bcast_S32_S32x1_0 : S32.BroadcastsInDim S32x1 (![0] : Fin 1 → Fin S32x1.rank)
  transposes_S2048x2048_S2048x2048_1_0 : S2048x2048.Transposes [1, 0] S2048x2048
  bitsLt_bf16_f32 : FTy.bits .bf16 < FTy.bits .f32
  inb_S1x288x2048_S1x288x2048_0_0_0 : ∀ a, (![0, 0, 0] : Fin 3 → Nat) a + S1x288x2048.size a ≤ S1x288x2048.size a
  h_S1x288x2048 : 0 < S1x288x2048.numel
  shapeCasts_S1x288x2048_S288x2048 : S1x288x2048.ShapeCasts S288x2048
  reduces_S288x2048_S288 : S288x2048.Reduces [1] S288
  shapeCasts_S288_S288x1 : S288.ShapeCasts S288x1
  broadcasts_S288x1_S288x2048 : S288x1.Broadcasts S288x2048
  transposes_S288x2048_p1_0_S2048x288 : S288x2048.Transposes [1, 0] S2048x288
  reduces_S288x288_S288 : S288x288.Reduces [1] S288
  broadcasts_S288x1_S288x288 : S288x1.Broadcasts S288x288
  shapeCasts_S288x2048_S1x288x2048 : S288x2048.ShapeCasts S1x288x2048
  packedbf16_S1x288x2048_S1x288x2048_0_0_0 : (Rect.unit (s := S1x288x2048) ![0, 0, 0] S1x288x2048.size inb_S1x288x2048_S1x288x2048_0_0_0).PackedRows (EltTy.packing .bf16)
  bcast_S32x1x2048_S32x288x2048_0_1_2 : S32x1x2048.BroadcastsInDim S32x288x2048 (![0, 1, 2] : Fin 3 → Fin S32x288x2048.rank)
  shapeCasts_S32x288x2048_S9216x2048 : S32x288x2048.ShapeCasts S9216x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S512x2048_S512x2048_0_0 : (Rect.unit (s := S512x2048) ![0, 0] S512x2048.size inb_S512x2048_S512x2048_0_0).PackedRows (EltTy.packing .bf16)
  shapeCasts_S9216x2048_S32x288x2048 : S9216x2048.ShapeCasts S32x288x2048
  shapeCasts_S32x16x2048_S512x2048 : S32x16x2048.ShapeCasts S512x2048
  shapeCasts_S512x2048_S32x16x2048 : S512x2048.ShapeCasts S32x16x2048
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  reduces_S16x288_S16 : S16x288.Reduces [1] S16
  shapeCasts_S16_S16x1 : S16.ShapeCasts S16x1
  broadcasts_S16x1_S16x288 : S16x1.Broadcasts S16x288
  shapeCasts_S16x2048_S1x16x2048 : S16x2048.ShapeCasts S1x16x2048
  reducesTo_S32x16x2048_S32x2048_d1 : S32x16x2048.ReducesTo [1] S32x2048
  h_S_ : 0 < S_.numel
  bcast_S32x2048_S32x1x2048_0_2 : S32x2048.BroadcastsInDim S32x1x2048 (![0, 2] : Fin 2 → Fin S32x1x2048.rank)
  bcast_S_S32x1x2048 : S_.BroadcastsInDim S32x1x2048 (![] : Fin 0 → Fin S32x1x2048.rank)
  reducesTo_S32x16x2048_S32x16_d2 : S32x16x2048.ReducesTo [2] S32x16
  bcast_S32x16_S32x16x1_0_1 : S32x16.BroadcastsInDim S32x16x1 (![0, 1] : Fin 2 → Fin S32x16x1.rank)
  bcast_S_S32x16x1 : S_.BroadcastsInDim S32x16x1 (![] : Fin 0 → Fin S32x16x1.rank)
  bcast_S32x16x1_S32x16x2048_0_1_2 : S32x16x1.BroadcastsInDim S32x16x2048 (![0, 1, 2] : Fin 3 → Fin S32x16x2048.rank)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  packedbf16_S1x256x2048_S1x256x2048_0_0_0 : (Rect.unit (s := S1x256x2048) ![0, 0, 0] S1x256x2048.size inb_S1x256x2048_S1x256x2048_0_0_0).PackedRows (EltTy.packing .bf16)
  inb_S1x2048x2048_S1x2048x2048_0_0_0 : ∀ a, (![0, 0, 0] : Fin 3 → Nat) a + S1x2048x2048.size a ≤ S1x2048x2048.size a
  h_S1x2048x2048 : 0 < S1x2048x2048.numel
  transposes_S2048x2048_p1_0_S2048x2048 : S2048x2048.Transposes [1, 0] S2048x2048
  reduces_S16x2048_S16 : S16x2048.Reduces [1] S16
  broadcasts_S16x1_S16x2048 : S16x1.Broadcasts S16x2048
  shapeCasts_S32x1x2048_S8x1x4x1x2048 : S32x1x2048.ShapeCasts S8x1x4x1x2048
  bcast_S8x1x4x1x2048_S8x4x4x1x2048_0_1_2_3_4 : S8x1x4x1x2048.BroadcastsInDim S8x4x4x1x2048 (![0, 1, 2, 3, 4] : Fin 5 → Fin S8x4x4x1x2048.rank)
  shapeCasts_S8x4x4x1x2048_S32x4x2048 : S8x4x4x1x2048.ShapeCasts S32x4x2048
  shapeCasts_S32x288x2048_S8x1x4x288x2048 : S32x288x2048.ShapeCasts S8x1x4x288x2048
  bcast_S8x1x4x288x2048_S8x4x4x288x2048_0_1_2_3_4 : S8x1x4x288x2048.BroadcastsInDim S8x4x4x288x2048 (![0, 1, 2, 3, 4] : Fin 5 → Fin S8x4x4x288x2048.rank)
  shapeCasts_S8x4x4x288x2048_S32x1152x2048 : S8x4x4x288x2048.ShapeCasts S32x1152x2048
  natLt_1_32 : 1 < 32
  shapeCasts_S32x4x2048_S128x1x2048 : S32x4x2048.ShapeCasts S128x1x2048
  shapeCasts_S32x1152x2048_S128x288x2048 : S32x1152x2048.ShapeCasts S128x288x2048
  bcast_S128x1x2048_S128x288x2048_0_1_2 : S128x1x2048.BroadcastsInDim S128x288x2048 (![0, 1, 2] : Fin 3 → Fin S128x288x2048.rank)
  shapeCasts_S128x288x2048_S32x1152x2048 : S128x288x2048.ShapeCasts S32x1152x2048
  shapeCasts_S128x288x2048_S36864x2048 : S128x288x2048.ShapeCasts S36864x2048
  shapeCasts_S36864x2048_S32x1152x2048 : S36864x2048.ShapeCasts S32x1152x2048
  inb_S1x1152x2048_S1x1152x2048_0_0_0 : ∀ a, (![0, 0, 0] : Fin 3 → Nat) a + S1x1152x2048.size a ≤ S1x1152x2048.size a
  h_S1x1152x2048 : 0 < S1x1152x2048.numel
  shapeCasts_S1x1152x2048_S1152x2048 : S1x1152x2048.ShapeCasts S1152x2048
  transposes_S1152x2048_p1_0_S2048x1152 : S1152x2048.Transposes [1, 0] S2048x1152
  reduces_S16x1152_S16 : S16x1152.Reduces [1] S16
  broadcasts_S16x1_S16x1152 : S16x1.Broadcasts S16x1152
  reducesTo_S1x16x1_S1x1_d1 : S1x16x1.ReducesTo [1] S1x1
  bcast_S1x1_S1x1x1_0_2 : S1x1.BroadcastsInDim S1x1x1 (![0, 2] : Fin 2 → Fin S1x1x1.rank)
  bcast_S1x1x1_S1x16x1_0_1_2 : S1x1x1.BroadcastsInDim S1x16x1 (![0, 1, 2] : Fin 3 → Fin S1x16x1.rank)
  bcast_S1x16x1_S32x16x2048_0_1_2 : S1x16x1.BroadcastsInDim S32x16x2048 (![0, 1, 2] : Fin 3 → Fin S32x16x2048.rank)
  gather_S6x1x2048_S32x1_S32x1x2048_12_0_n_n_0_1_112048_wf : GatherDims.WF S6x1x2048 S32x1 S32x1x2048 [1, 2] [0] [] [0] [] 1 ![1, 1, 2048]
  dot_S288x2048_S2048x288_S288x288_1_0_0_1_n_n_wf : DotDims.WF S288x2048 S2048x288 S288x288 [1] [0] [0] [1] [] []
  dot_S288x288_S288x2048_S288x2048_1_0_0_1_n_n_wf : DotDims.WF S288x288 S288x2048 S288x2048 [1] [0] [0] [1] [] []
  dot_S512x2048_S2048x2048_S512x2048_1_0_0_1_n_n_wf : DotDims.WF S512x2048 S2048x2048 S512x2048 [1] [0] [0] [1] [] []
  dot_S16x2048_S2048x288_S16x288_1_0_0_1_n_n_wf : DotDims.WF S16x2048 S2048x288 S16x288 [1] [0] [0] [1] [] []
  dot_S16x288_S288x2048_S16x2048_1_0_0_1_n_n_wf : DotDims.WF S16x288 S288x2048 S16x2048 [1] [0] [0] [1] [] []
  dot_S256x2048_S2048x2048_S256x2048_1_0_0_1_n_n_wf : DotDims.WF S256x2048 S2048x2048 S256x2048 [1] [0] [0] [1] [] []
  dot_S16x2048_S2048x2048_S16x2048_1_0_0_1_n_n_wf : DotDims.WF S16x2048 S2048x2048 S16x2048 [1] [0] [0] [1] [] []
  gather_S32x4x2048_S32x1_S32x4x2048_12_0_n_n_0_1_142048_wf : GatherDims.WF S32x4x2048 S32x1 S32x4x2048 [1, 2] [0] [] [0] [] 1 ![1, 4, 2048]
  gather_S32x1152x2048_S32x1_S32x1152x2048_12_0_n_n_0_1_111522048_wf : GatherDims.WF S32x1152x2048 S32x1 S32x1152x2048 [1, 2] [0] [] [0] [] 1 ![1, 1152, 2048]
  dot_S16x2048_S2048x1152_S16x1152_1_0_0_1_n_n_wf : DotDims.WF S16x2048 S2048x1152 S16x1152 [1] [0] [0] [1] [] []
  dot_S16x1152_S1152x2048_S16x2048_1_0_0_1_n_n_wf : DotDims.WF S16x1152 S1152x2048 S16x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x288x2048.size a ≤ S32x288x2048.size a
  hwx0_0 : ∀ i : grid0.Coords, EltTy.bits .f32 = 32 ∨ (Rect.block (s := S32x288x2048) S1x288x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x288x2048.size a ≤ S32x288x2048.size a
  hwx0_1 : ∀ i : grid0.Coords, EltTy.bits .bf16 = 32 ∨ (Rect.block (s := S32x288x2048) S1x288x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S9216x2048.size a
  hwx1_0 : ∀ i : grid1.Coords, EltTy.bits .f32 = 32 ∨ (Rect.block (s := S9216x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S9216x2048.size a
  hwx1_2 : ∀ i : grid1.Coords, EltTy.bits .bf16 = 32 ∨ (Rect.block (s := S9216x2048) S512x2048.size (cc1_transform_2 i) (hinb1_2 i)).WholeWords (EltTy.packing .bf16)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S512x2048.size a
  hwx2_0 : ∀ i : grid2.Coords, EltTy.bits .f32 = 32 ∨ (Rect.block (s := S512x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S512x2048.size a
  hwx2_2 : ∀ i : grid2.Coords, EltTy.bits .bf16 = 32 ∨ (Rect.block (s := S512x2048) S512x2048.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x16x2048.size a ≤ S32x16x2048.size a
  hwx3_0 : ∀ i : grid3.Coords, EltTy.bits .bf16 = 32 ∨ (Rect.block (s := S32x16x2048) S1x16x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x288x2048.size a ≤ S32x288x2048.size a
  hwx3_1 : ∀ i : grid3.Coords, EltTy.bits .bf16 = 32 ∨ (Rect.block (s := S32x288x2048) S1x288x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x288x2048.size a ≤ S32x288x2048.size a
  hwx3_2 : ∀ i : grid3.Coords, EltTy.bits .bf16 = 32 ∨ (Rect.block (s := S32x288x2048) S1x288x2048.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x16x2048.size a ≤ S32x16x2048.size a
  hwx3_3 : ∀ i : grid3.Coords, EltTy.bits .f32 = 32 ∨ (Rect.block (s := S32x16x2048) S1x16x2048.size (cc3_transform_3 i) (hinb3_3 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S512x2048.size a
  hwx4_0 : ∀ i : grid4.Coords, EltTy.bits .f32 = 32 ∨ (Rect.block (s := S512x2048) S512x2048.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x2048.size a ≤ S2048x2048.size a
  hwx4_1 : ∀ i : grid4.Coords, EltTy.bits .bf16 = 32 ∨ (Rect.block (s := S2048x2048) S2048x2048.size (cc4_transform_1 i) (hinb4_1 i)).WholeWords (EltTy.packing .bf16)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S512x2048.size a ≤ S512x2048.size a
  hwx4_2 : ∀ i : grid4.Coords, EltTy.bits .bf16 = 32 ∨ (Rect.block (s := S512x2048) S512x2048.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x2048.size a ≤ S2048x2048.size a
  hwx5_0 : ∀ i : grid5.Coords, EltTy.bits .f32 = 32 ∨ (Rect.block (s := S2048x2048) S256x2048.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1x2048.size a ≤ S32x1x2048.size a
  hwx5_1 : ∀ i : grid5.Coords, EltTy.bits .f32 = 32 ∨ (Rect.block (s := S32x1x2048) S1x1x2048.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S2048x2048.size a ≤ S2048x2048.size a
  hwx5_2 : ∀ i : grid5.Coords, EltTy.bits .bf16 = 32 ∨ (Rect.block (s := S2048x2048) S2048x2048.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x256x2048.size a ≤ S32x2048x2048.size a
  hwx5_3 : ∀ i : grid5.Coords, EltTy.bits .bf16 = 32 ∨ (Rect.block (s := S32x2048x2048) S1x256x2048.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x256x2048.size a ≤ S32x2048x2048.size a
  hwx5_4 : ∀ i : grid5.Coords, EltTy.bits .bf16 = 32 ∨ (Rect.block (s := S32x2048x2048) S1x256x2048.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x16x2048.size a ≤ S32x16x2048.size a
  hwx6_0 : ∀ i : grid6.Coords, EltTy.bits .bf16 = 32 ∨ (Rect.block (s := S32x16x2048) S1x16x2048.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x2048x2048.size a ≤ S32x2048x2048.size a
  hwx6_1 : ∀ i : grid6.Coords, EltTy.bits .bf16 = 32 ∨ (Rect.block (s := S32x2048x2048) S1x2048x2048.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x2048x2048.size a ≤ S32x2048x2048.size a
  hwx6_2 : ∀ i : grid6.Coords, EltTy.bits .bf16 = 32 ∨ (Rect.block (s := S32x2048x2048) S1x2048x2048.size (cc6_transform_2 i) (hinb6_2 i)).WholeWords (EltTy.packing .bf16)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1x16x2048.size a ≤ S32x16x2048.size a
  hwx6_3 : ∀ i : grid6.Coords, EltTy.bits .f32 = 32 ∨ (Rect.block (s := S32x16x2048) S1x16x2048.size (cc6_transform_3 i) (hinb6_3 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S512x2048.size a ≤ S512x2048.size a
  hwx7_0 : ∀ i : grid7.Coords, EltTy.bits .f32 = 32 ∨ (Rect.block (s := S512x2048) S512x2048.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2048x2048.size a ≤ S2048x2048.size a
  hwx7_1 : ∀ i : grid7.Coords, EltTy.bits .bf16 = 32 ∨ (Rect.block (s := S2048x2048) S2048x2048.size (cc7_transform_1 i) (hinb7_1 i)).WholeWords (EltTy.packing .bf16)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S512x2048.size a ≤ S512x2048.size a
  hwx7_2 : ∀ i : grid7.Coords, EltTy.bits .bf16 = 32 ∨ (Rect.block (s := S512x2048) S512x2048.size (cc7_transform_2 i) (hinb7_2 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x16x2048.size a ≤ S32x16x2048.size a
  hwx8_0 : ∀ i : grid8.Coords, EltTy.bits .bf16 = 32 ∨ (Rect.block (s := S32x16x2048) S1x16x2048.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x288x2048.size a ≤ S32x288x2048.size a
  hwx8_1 : ∀ i : grid8.Coords, EltTy.bits .bf16 = 32 ∨ (Rect.block (s := S32x288x2048) S1x288x2048.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x288x2048.size a ≤ S32x288x2048.size a
  hwx8_2 : ∀ i : grid8.Coords, EltTy.bits .bf16 = 32 ∨ (Rect.block (s := S32x288x2048) S1x288x2048.size (cc8_transform_2 i) (hinb8_2 i)).WholeWords (EltTy.packing .bf16)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1x16x2048.size a ≤ S32x16x2048.size a
  hwx8_3 : ∀ i : grid8.Coords, EltTy.bits .f32 = 32 ∨ (Rect.block (s := S32x16x2048) S1x16x2048.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x288x2048.size a ≤ S128x288x2048.size a
  hwx9_0 : ∀ i : grid9.Coords, EltTy.bits .f32 = 32 ∨ (Rect.block (s := S128x288x2048) S1x288x2048.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x288x2048.size a ≤ S128x288x2048.size a
  hwx9_1 : ∀ i : grid9.Coords, EltTy.bits .bf16 = 32 ∨ (Rect.block (s := S128x288x2048) S1x288x2048.size (cc9_transform_1 i) (hinb9_1 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S512x2048.size a ≤ S36864x2048.size a
  hwx10_0 : ∀ i : grid10.Coords, EltTy.bits .f32 = 32 ∨ (Rect.block (s := S36864x2048) S512x2048.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S2048x2048.size a ≤ S2048x2048.size a
  hwx10_1 : ∀ i : grid10.Coords, EltTy.bits .bf16 = 32 ∨ (Rect.block (s := S2048x2048) S2048x2048.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S512x2048.size a ≤ S36864x2048.size a
  hwx10_2 : ∀ i : grid10.Coords, EltTy.bits .bf16 = 32 ∨ (Rect.block (s := S36864x2048) S512x2048.size (cc10_transform_2 i) (hinb10_2 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1x16x2048.size a ≤ S32x16x2048.size a
  hwx11_0 : ∀ i : grid11.Coords, EltTy.bits .bf16 = 32 ∨ (Rect.block (s := S32x16x2048) S1x16x2048.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1x1152x2048.size a ≤ S32x1152x2048.size a
  hwx11_1 : ∀ i : grid11.Coords, EltTy.bits .bf16 = 32 ∨ (Rect.block (s := S32x1152x2048) S1x1152x2048.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1x1152x2048.size a ≤ S32x1152x2048.size a
  hwx11_2 : ∀ i : grid11.Coords, EltTy.bits .bf16 = 32 ∨ (Rect.block (s := S32x1152x2048) S1x1152x2048.size (cc11_transform_2 i) (hinb11_2 i)).WholeWords (EltTy.packing .bf16)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S1x16x2048.size a ≤ S32x16x2048.size a
  hwx11_3 : ∀ i : grid11.Coords, EltTy.bits .f32 = 32 ∨ (Rect.block (s := S32x16x2048) S1x16x2048.size (cc11_transform_3 i) (hinb11_3 i)).WholeWords (EltTy.packing .f32)

variable [Facts₀]

def gather_S6x1x2048_S32x1_S32x1x2048_12_0_n_n_0_1_112048 : GatherDims S6x1x2048 S32x1 S32x1x2048 where
  offsetDims := [1, 2]
  collapsedSliceDims := [0]
  operandBatchingDims := []
  startIndicesBatchingDims := []
  startIndexMap := [0]
  indexVectorDim := 1
  sliceSizes := ![1, 1, 2048]
  wf := gather_S6x1x2048_S32x1_S32x1x2048_12_0_n_n_0_1_112048_wf
def dot_S288x2048_S2048x288_S288x288_1_0_0_1_n_n : DotDims S288x2048 S2048x288 S288x288 where
  lhsContracting := [1]
  rhsContracting := [0]
  lhsNonContracting := [0]
  rhsNonContracting := [1]
  lhsBatch := []
  rhsBatch := []
  wf := dot_S288x2048_S2048x288_S288x288_1_0_0_1_n_n_wf
def dot_S288x288_S288x2048_S288x2048_1_0_0_1_n_n : DotDims S288x288 S288x2048 S288x2048 where
  lhsContracting := [1]
  rhsContracting := [0]
  lhsNonContracting := [0]
  rhsNonContracting := [1]
  lhsBatch := []
  rhsBatch := []
  wf := dot_S288x288_S288x2048_S288x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S16x2048_S2048x288_S16x288_1_0_0_1_n_n : DotDims S16x2048 S2048x288 S16x288 where
  lhsContracting := [1]
  rhsContracting := [0]
  lhsNonContracting := [0]
  rhsNonContracting := [1]
  lhsBatch := []
  rhsBatch := []
  wf := dot_S16x2048_S2048x288_S16x288_1_0_0_1_n_n_wf
def dot_S16x288_S288x2048_S16x2048_1_0_0_1_n_n : DotDims S16x288 S288x2048 S16x2048 where
  lhsContracting := [1]
  rhsContracting := [0]
  lhsNonContracting := [0]
  rhsNonContracting := [1]
  lhsBatch := []
  rhsBatch := []
  wf := dot_S16x288_S288x2048_S16x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S16x2048_S2048x2048_S16x2048_1_0_0_1_n_n : DotDims S16x2048 S2048x2048 S16x2048 where
  lhsContracting := [1]
  rhsContracting := [0]
  lhsNonContracting := [0]
  rhsNonContracting := [1]
  lhsBatch := []
  rhsBatch := []
  wf := dot_S16x2048_S2048x2048_S16x2048_1_0_0_1_n_n_wf
def comparator_i32_i32_d0 : BitVec 32 × BitVec 32 → BitVec 32 × BitVec 32 → BitVec 1 :=
  fun l r =>
    let v2 := IntOp.cmpi .slt l.1 r.1
    v2
def gather_S32x4x2048_S32x1_S32x4x2048_12_0_n_n_0_1_142048 : GatherDims S32x4x2048 S32x1 S32x4x2048 where
  offsetDims := [1, 2]
  collapsedSliceDims := [0]
  operandBatchingDims := []
  startIndicesBatchingDims := []
  startIndexMap := [0]
  indexVectorDim := 1
  sliceSizes := ![1, 4, 2048]
  wf := gather_S32x4x2048_S32x1_S32x4x2048_12_0_n_n_0_1_142048_wf
def gather_S32x1152x2048_S32x1_S32x1152x2048_12_0_n_n_0_1_111522048 : GatherDims S32x1152x2048 S32x1 S32x1152x2048 where
  offsetDims := [1, 2]
  collapsedSliceDims := [0]
  operandBatchingDims := []
  startIndicesBatchingDims := []
  startIndexMap := [0]
  indexVectorDim := 1
  sliceSizes := ![1, 1152, 2048]
  wf := gather_S32x1152x2048_S32x1_S32x1152x2048_12_0_n_n_0_1_111522048_wf
def dot_S16x2048_S2048x1152_S16x1152_1_0_0_1_n_n : DotDims S16x2048 S2048x1152 S16x1152 where
  lhsContracting := [1]
  rhsContracting := [0]
  lhsNonContracting := [0]
  rhsNonContracting := [1]
  lhsBatch := []
  rhsBatch := []
  wf := dot_S16x2048_S2048x1152_S16x1152_1_0_0_1_n_n_wf
def dot_S16x1152_S1152x2048_S16x2048_1_0_0_1_n_n : DotDims S16x1152 S1152x2048 S16x2048 where
  lhsContracting := [1]
  rhsContracting := [0]
  lhsNonContracting := [0]
  rhsNonContracting := [1]
  lhsBatch := []
  rhsBatch := []
  wf := dot_S16x1152_S1152x2048_S16x2048_1_0_0_1_n_n_wf

abbrev win0_0 : Pipeline.Window sig grid0 :=
  Pipeline.Window.ofSpec (Memref.whole main_v1) S1x288x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1x288x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v25) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v28) S512x2048.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S512x2048.size cc2_transform_2 reads2_2 true false 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v30) S1x16x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S1x288x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1x288x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x16x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v54) S512x2048.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v18) S2048x2048.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v55) S512x2048.size cc4_transform_2 reads4_2 true false 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v3) S256x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S1x1x2048.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v20) S2048x2048.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57_0) S1x256x2048.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v57_1) S1x256x2048.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v56) S1x16x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v57_1) S1x2048x2048.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v57_0) S1x2048x2048.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v58) S1x16x2048.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v60) S512x2048.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v14) S2048x2048.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v61) S512x2048.size cc7_transform_2 reads7_2 true false 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v62) S1x16x2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v27) S1x288x2048.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v21) S1x288x2048.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v63) S1x16x2048.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v87) S1x288x2048.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v88) S1x288x2048.size cc9_transform_1 reads9_1 true false 2 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

abbrev win10_0 : Pipeline.Window sig grid10 :=
  Pipeline.Window.ofSpec (Memref.whole main_v93) S512x2048.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v16) S2048x2048.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v94) S512x2048.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v62) S1x16x2048.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v95) S1x1152x2048.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v92) S1x1152x2048.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v96) S1x16x2048.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S32x2048x24x12 : Shape := ⟨4, ![32, 2048, 24, 12]⟩
abbrev S32 : Shape := ⟨1, ![32]⟩
abbrev S1x16x2048 : Shape := ⟨3, ![1, 16, 2048]⟩
abbrev S1x2048x2048 : Shape := ⟨3, ![1, 2048, 2048]⟩
abbrev S1x16x1 : Shape := ⟨3, ![1, 16, 1]⟩
abbrev S6x1x2048 : Shape := ⟨3, ![6, 1, 2048]⟩
abbrev S1x288x2048 : Shape := ⟨3, ![1, 288, 2048]⟩
abbrev S2048x2048 : Shape := ⟨2, ![2048, 2048]⟩
abbrev S32x2048x288 : Shape := ⟨3, ![32, 2048, 288]⟩
abbrev S32x288x2048 : Shape := ⟨3, ![32, 288, 2048]⟩
abbrev S32x16x2048 : Shape := ⟨3, ![32, 16, 2048]⟩
abbrev S32x2048x2048 : Shape := ⟨3, ![32, 2048, 2048]⟩
abbrev S_ : Shape := ⟨0, ![]⟩
abbrev S32x1 : Shape := ⟨2, ![32, 1]⟩
abbrev S32x1x2048 : Shape := ⟨3, ![32, 1, 2048]⟩
abbrev S32x288 : Shape := ⟨2, ![32, 288]⟩
abbrev S32x288x1 : Shape := ⟨3, ![32, 288, 1]⟩
abbrev S32x288x288 : Shape := ⟨3, ![32, 288, 288]⟩
abbrev S32x16x288 : Shape := ⟨3, ![32, 16, 288]⟩
abbrev S32x16 : Shape := ⟨2, ![32, 16]⟩
abbrev S32x16x1 : Shape := ⟨3, ![32, 16, 1]⟩
abbrev S32x2048 : Shape := ⟨2, ![32, 2048]⟩
abbrev S32x2048x1 : Shape := ⟨3, ![32, 2048, 1]⟩
abbrev S8x1x4x1x2048 : Shape := ⟨5, ![8, 1, 4, 1, 2048]⟩
abbrev S8x4x4x1x2048 : Shape := ⟨5, ![8, 4, 4, 1, 2048]⟩
abbrev S32x4x2048 : Shape := ⟨3, ![32, 4, 2048]⟩
abbrev S8x1x4x288x2048 : Shape := ⟨5, ![8, 1, 4, 288, 2048]⟩
abbrev S8x4x4x288x2048 : Shape := ⟨5, ![8, 4, 4, 288, 2048]⟩
abbrev S32x1152x2048 : Shape := ⟨3, ![32, 1152, 2048]⟩
abbrev S128x288x2048 : Shape := ⟨3, ![128, 288, 2048]⟩
abbrev S128x288 : Shape := ⟨2, ![128, 288]⟩
abbrev S128x288x1 : Shape := ⟨3, ![128, 288, 1]⟩
abbrev S128x288x288 : Shape := ⟨3, ![128, 288, 288]⟩
abbrev S128x1x2048 : Shape := ⟨3, ![128, 1, 2048]⟩
abbrev S32x16x1152 : Shape := ⟨3, ![32, 16, 1152]⟩
abbrev S1x1 : Shape := ⟨2, ![1, 1]⟩
abbrev S1x1x1 : Shape := ⟨3, ![1, 1, 1]⟩

abbrev nBuf : Space → Nat
  | .hbm => 299
  | .vmem => 0
  | .smem => 0
  | _ => 0

abbrev hbmTy0_0 (i : Nat) : BufTy := match i % 128 with
  | 0 => ⟨S32x2048x24x12, .f32⟩
  | 1 => ⟨S32, .i32⟩
  | 2 => ⟨S32, .i1⟩
  | 3 => ⟨S1x16x2048, .f32⟩
  | 4 => ⟨S1x2048x2048, .f32⟩
  | 5 => ⟨S1x16x1, .f32⟩
  | 6 => ⟨S6x1x2048, .f32⟩
  | 7 => ⟨S1x288x2048, .f32⟩
  | 8 => ⟨S2048x2048, .f32⟩
  | 9 => ⟨S2048x2048, .f32⟩
  | 10 => ⟨S2048x2048, .f32⟩
  | 11 => ⟨S2048x2048, .f32⟩
  | 12 => ⟨S32x2048x288, .f32⟩
  | 13 => ⟨S32x288x2048, .f32⟩
  | 14 => ⟨S32x16x2048, .f32⟩
  | 15 => ⟨S32x2048x2048, .f32⟩
  | 16 => ⟨S_, .i32⟩
  | 17 => ⟨S32, .i32⟩
  | 18 => ⟨S32, .i32⟩
  | 19 => ⟨S_, .i32⟩
  | 20 => ⟨S32, .i32⟩
  | 21 => ⟨S32, .i1⟩
  | 22 => ⟨S_, .i32⟩
  | 23 => ⟨S32, .i32⟩
  | 24 => ⟨S32, .i32⟩
  | 25 => ⟨S32, .i32⟩
  | 26 => ⟨S32x1, .i32⟩
  | 27 => ⟨S32x1x2048, .f32⟩
  | 28 => ⟨S32x16x2048, .f32⟩
  | 29 => ⟨S32x288x2048, .f32⟩
  | 30 => ⟨S_, .f32⟩
  | 31 => ⟨S32x288, .f32⟩
  | 32 => ⟨S32x288x1, .f32⟩
  | 33 => ⟨S32x288x1, .f32⟩
  | 34 => ⟨S_, .f32⟩
  | 35 => ⟨S32x288x1, .f32⟩
  | 36 => ⟨S32x288x1, .f32⟩
  | 37 => ⟨S32x288x2048, .f32⟩
  | 38 => ⟨S32x288x2048, .f32⟩
  | 39 => ⟨S32x288x288, .f32⟩
  | 40 => ⟨S_, .f32⟩
  | 41 => ⟨S32x288, .f32⟩
  | 42 => ⟨S_, .f32⟩
  | 43 => ⟨S32x288, .f32⟩
  | 44 => ⟨S32x288, .f32⟩
  | 45 => ⟨S32x288x1, .f32⟩
  | 46 => ⟨S32x288x288, .f32⟩
  | 47 => ⟨S32x288x288, .f32⟩
  | 48 => ⟨S32x288x288, .f32⟩
  | 49 => ⟨S_, .f32⟩
  | 50 => ⟨S32x288, .f32⟩
  | 51 => ⟨S32x288x1, .f32⟩
  | 52 => ⟨S32x288x288, .f32⟩
  | 53 => ⟨S32x288x288, .f32⟩
  | 54 => ⟨S32x288x2048, .f32⟩
  | 55 => ⟨S32x288x2048, .f32⟩
  | 56 => ⟨S32x288x2048, .f32⟩
  | 57 => ⟨S32x288x2048, .f32⟩
  | 58 => ⟨S32x16x288, .f32⟩
  | 59 => ⟨S_, .f32⟩
  | 60 => ⟨S32x16x288, .f32⟩
  | 61 => ⟨S32x16x288, .f32⟩
  | 62 => ⟨S_, .f32⟩
  | 63 => ⟨S32x16, .f32⟩
  | 64 => ⟨S_, .f32⟩
  | 65 => ⟨S32x16, .f32⟩
  | 66 => ⟨S32x16, .f32⟩
  | 67 => ⟨S32x16x1, .f32⟩
  | 68 => ⟨S32x16x288, .f32⟩
  | 69 => ⟨S32x16x288, .f32⟩
  | 70 => ⟨S32x16x288, .f32⟩
  | 71 => ⟨S_, .f32⟩
  | 72 => ⟨S32x16, .f32⟩
  | 73 => ⟨S32x16x1, .f32⟩
  | 74 => ⟨S32x16x288, .f32⟩
  | 75 => ⟨S32x16x288, .f32⟩
  | 76 => ⟨S32x16x2048, .f32⟩
  | 77 => ⟨S_, .f32⟩
  | 78 => ⟨S32x16, .f32⟩
  | 79 => ⟨S32x16x1, .f32⟩
  | 80 => ⟨S_, .f32⟩
  | 81 => ⟨S32x16x1, .f32⟩
  | 82 => ⟨S32x16x1, .f32⟩
  | 83 => ⟨S32x16x2048, .f32⟩
  | 84 => ⟨S32x16x2048, .f32⟩
  | 85 => ⟨S32x16x2048, .f32⟩
  | 86 => ⟨S_, .f32⟩
  | 87 => ⟨S32x16, .f32⟩
  | 88 => ⟨S32x16x1, .f32⟩
  | 89 => ⟨S_, .f32⟩
  | 90 => ⟨S32x16x1, .f32⟩
  | 91 => ⟨S32x16x1, .f32⟩
  | 92 => ⟨S32x16x2048, .f32⟩
  | 93 => ⟨S32x16x2048, .f32⟩
  | 94 => ⟨S_, .f32⟩
  | 95 => ⟨S32x16x1, .f32⟩
  | 96 => ⟨S32x16x1, .f32⟩
  | 97 => ⟨S32x16x1, .f32⟩
  | 98 => ⟨S32x16x2048, .f32⟩
  | 99 => ⟨S32x16x2048, .f32⟩
  | 100 => ⟨S32x16x2048, .f32⟩
  | 101 => ⟨S_, .f32⟩
  | 102 => ⟨S32x2048, .f32⟩
  | 103 => ⟨S32x1x2048, .f32⟩
  | 104 => ⟨S_, .f32⟩
  | 105 => ⟨S32x1x2048, .f32⟩
  | 106 => ⟨S32x1x2048, .f32⟩
  | 107 => ⟨S32x2048x2048, .f32⟩
  | 108 => ⟨S32x2048x2048, .f32⟩
  | 109 => ⟨S_, .f32⟩
  | 110 => ⟨S32x2048, .f32⟩
  | 111 => ⟨S32x2048x1, .f32⟩
  | 112 => ⟨S_, .f32⟩
  | 113 => ⟨S32x2048x1, .f32⟩
  | 114 => ⟨S32x2048x1, .f32⟩
  | 115 => ⟨S32x2048x2048, .f32⟩
  | 116 => ⟨S32x2048x2048, .f32⟩
  | 117 => ⟨S32x2048x2048, .f32⟩
  | 118 => ⟨S_, .f32⟩
  | 119 => ⟨S32x2048, .f32⟩
  | 120 => ⟨S32x2048x1, .f32⟩
  | 121 => ⟨S_, .f32⟩
  | 122 => ⟨S32x2048x1, .f32⟩
  | 123 => ⟨S32x2048x1, .f32⟩
  | 124 => ⟨S32x2048x2048, .f32⟩
  | 125 => ⟨S32x2048x2048, .f32⟩
  | 126 => ⟨S_, .f32⟩
  | 127 => ⟨S32x2048x1, .f32⟩
  | _ => ⟨S32x2048x24x12, .f32⟩

abbrev hbmTy0_1 (i : Nat) : BufTy := match i % 128 with
  | 0 => ⟨S32x2048x1, .f32⟩
  | 1 => ⟨S32x2048x1, .f32⟩
  | 2 => ⟨S32x2048x2048, .f32⟩
  | 3 => ⟨S32x2048x2048, .f32⟩
  | 4 => ⟨S32x2048x2048, .f32⟩
  | 5 => ⟨S32x16x2048, .f32⟩
  | 6 => ⟨S_, .f32⟩
  | 7 => ⟨S32x16x2048, .f32⟩
  | 8 => ⟨S32x16x2048, .f32⟩
  | 9 => ⟨S_, .f32⟩
  | 10 => ⟨S32x16, .f32⟩
  | 11 => ⟨S_, .f32⟩
  | 12 => ⟨S32x16, .f32⟩
  | 13 => ⟨S32x16, .f32⟩
  | 14 => ⟨S32x16x1, .f32⟩
  | 15 => ⟨S32x16x2048, .f32⟩
  | 16 => ⟨S32x16x2048, .f32⟩
  | 17 => ⟨S32x16x2048, .f32⟩
  | 18 => ⟨S_, .f32⟩
  | 19 => ⟨S32x16, .f32⟩
  | 20 => ⟨S32x16x1, .f32⟩
  | 21 => ⟨S32x16x2048, .f32⟩
  | 22 => ⟨S32x16x2048, .f32⟩
  | 23 => ⟨S32x16x2048, .f32⟩
  | 24 => ⟨S32x16x2048, .f32⟩
  | 25 => ⟨S32x16x2048, .f32⟩
  | 26 => ⟨S32x288x2048, .f32⟩
  | 27 => ⟨S_, .f32⟩
  | 28 => ⟨S32x288, .f32⟩
  | 29 => ⟨S32x288x1, .f32⟩
  | 30 => ⟨S32x288x1, .f32⟩
  | 31 => ⟨S_, .f32⟩
  | 32 => ⟨S32x288x1, .f32⟩
  | 33 => ⟨S32x288x1, .f32⟩
  | 34 => ⟨S32x288x2048, .f32⟩
  | 35 => ⟨S32x288x2048, .f32⟩
  | 36 => ⟨S32x288x288, .f32⟩
  | 37 => ⟨S_, .f32⟩
  | 38 => ⟨S32x288, .f32⟩
  | 39 => ⟨S_, .f32⟩
  | 40 => ⟨S32x288, .f32⟩
  | 41 => ⟨S32x288, .f32⟩
  | 42 => ⟨S32x288x1, .f32⟩
  | 43 => ⟨S32x288x288, .f32⟩
  | 44 => ⟨S32x288x288, .f32⟩
  | 45 => ⟨S32x288x288, .f32⟩
  | 46 => ⟨S_, .f32⟩
  | 47 => ⟨S32x288, .f32⟩
  | 48 => ⟨S32x288x1, .f32⟩
  | 49 => ⟨S32x288x288, .f32⟩
  | 50 => ⟨S32x288x288, .f32⟩
  | 51 => ⟨S32x288x2048, .f32⟩
  | 52 => ⟨S32x288x2048, .f32⟩
  | 53 => ⟨S32x288x2048, .f32⟩
  | 54 => ⟨S32x288x2048, .f32⟩
  | 55 => ⟨S32x16x288, .f32⟩
  | 56 => ⟨S_, .f32⟩
  | 57 => ⟨S32x16x288, .f32⟩
  | 58 => ⟨S32x16x288, .f32⟩
  | 59 => ⟨S_, .f32⟩
  | 60 => ⟨S32x16, .f32⟩
  | 61 => ⟨S_, .f32⟩
  | 62 => ⟨S32x16, .f32⟩
  | 63 => ⟨S32x16, .f32⟩
  | 64 => ⟨S32x16x1, .f32⟩
  | 65 => ⟨S32x16x288, .f32⟩
  | 66 => ⟨S32x16x288, .f32⟩
  | 67 => ⟨S32x16x288, .f32⟩
  | 68 => ⟨S_, .f32⟩
  | 69 => ⟨S32x16, .f32⟩
  | 70 => ⟨S32x16x1, .f32⟩
  | 71 => ⟨S32x16x288, .f32⟩
  | 72 => ⟨S32x16x288, .f32⟩
  | 73 => ⟨S32x16x2048, .f32⟩
  | 74 => ⟨S8x1x4x1x2048, .f32⟩
  | 75 => ⟨S8x4x4x1x2048, .f32⟩
  | 76 => ⟨S32x4x2048, .f32⟩
  | 77 => ⟨S8x1x4x288x2048, .f32⟩
  | 78 => ⟨S8x4x4x288x2048, .f32⟩
  | 79 => ⟨S32x1152x2048, .f32⟩
  | 80 => ⟨S32, .i32⟩
  | 81 => ⟨S32, .i32⟩
  | 82 => ⟨S32, .i32⟩
  | 83 => ⟨S32, .i32⟩
  | 84 => ⟨S_, .i32⟩
  | 85 => ⟨S32, .i32⟩
  | 86 => ⟨S32, .i1⟩
  | 87 => ⟨S_, .i32⟩
  | 88 => ⟨S32, .i32⟩
  | 89 => ⟨S32, .i32⟩
  | 90 => ⟨S32, .i32⟩
  | 91 => ⟨S32x1, .i32⟩
  | 92 => ⟨S32x4x2048, .f32⟩
  | 93 => ⟨S_, .i32⟩
  | 94 => ⟨S32, .i32⟩
  | 95 => ⟨S32, .i1⟩
  | 96 => ⟨S_, .i32⟩
  | 97 => ⟨S32, .i32⟩
  | 98 => ⟨S32, .i32⟩
  | 99 => ⟨S32, .i32⟩
  | 100 => ⟨S32x1, .i32⟩
  | 101 => ⟨S32x1152x2048, .f32⟩
  | 102 => ⟨S32x16x2048, .f32⟩
  | 103 => ⟨S128x288x2048, .f32⟩
  | 104 => ⟨S128x288x2048, .f32⟩
  | 105 => ⟨S_, .f32⟩
  | 106 => ⟨S128x288, .f32⟩
  | 107 => ⟨S128x288x1, .f32⟩
  | 108 => ⟨S128x288x1, .f32⟩
  | 109 => ⟨S_, .f32⟩
  | 110 => ⟨S128x288x1, .f32⟩
  | 111 => ⟨S128x288x1, .f32⟩
  | 112 => ⟨S128x288x2048, .f32⟩
  | 113 => ⟨S128x288x2048, .f32⟩
  | 114 => ⟨S128x288x288, .f32⟩
  | 115 => ⟨S_, .f32⟩
  | 116 => ⟨S128x288, .f32⟩
  | 117 => ⟨S_, .f32⟩
  | 118 => ⟨S128x288, .f32⟩
  | 119 => ⟨S128x288, .f32⟩
  | 120 => ⟨S128x288x1, .f32⟩
  | 121 => ⟨S128x288x288, .f32⟩
  | 122 => ⟨S128x288x288, .f32⟩
  | 123 => ⟨S128x288x288, .f32⟩
  | 124 => ⟨S_, .f32⟩
  | 125 => ⟨S128x288, .f32⟩
  | 126 => ⟨S128x288x1, .f32⟩
  | 127 => ⟨S128x288x288, .f32⟩
  | _ => ⟨S32x2048x24x12, .f32⟩

abbrev hbmTy0_2 (i : Nat) : BufTy := match i % 128 with
  | 0 => ⟨S128x288x288, .f32⟩
  | 1 => ⟨S128x288x2048, .f32⟩
  | 2 => ⟨S128x1x2048, .f32⟩
  | 3 => ⟨S128x288x2048, .f32⟩
  | 4 => ⟨S128x288x2048, .f32⟩
  | 5 => ⟨S32x1152x2048, .f32⟩
  | 6 => ⟨S32x1152x2048, .f32⟩
  | 7 => ⟨S32x1152x2048, .f32⟩
  | 8 => ⟨S32x16x1152, .f32⟩
  | 9 => ⟨S_, .f32⟩
  | 10 => ⟨S32x16x1152, .f32⟩
  | 11 => ⟨S32x16x1152, .f32⟩
  | 12 => ⟨S_, .f32⟩
  | 13 => ⟨S32x16, .f32⟩
  | 14 => ⟨S_, .f32⟩
  | 15 => ⟨S32x16, .f32⟩
  | 16 => ⟨S32x16, .f32⟩
  | 17 => ⟨S32x16x1, .f32⟩
  | 18 => ⟨S32x16x1152, .f32⟩
  | 19 => ⟨S32x16x1152, .f32⟩
  | 20 => ⟨S32x16x1152, .f32⟩
  | 21 => ⟨S_, .f32⟩
  | 22 => ⟨S32x16, .f32⟩
  | 23 => ⟨S32x16x1, .f32⟩
  | 24 => ⟨S32x16x1152, .f32⟩
  | 25 => ⟨S32x16x1152, .f32⟩
  | 26 => ⟨S32x16x2048, .f32⟩
  | 27 => ⟨S_, .f32⟩
  | 28 => ⟨S1x1, .f32⟩
  | 29 => ⟨S_, .f32⟩
  | 30 => ⟨S1x1, .f32⟩
  | 31 => ⟨S1x1, .f32⟩
  | 32 => ⟨S1x1x1, .f32⟩
  | 33 => ⟨S1x16x1, .f32⟩
  | 34 => ⟨S1x16x1, .f32⟩
  | 35 => ⟨S1x16x1, .f32⟩
  | 36 => ⟨S_, .f32⟩
  | 37 => ⟨S1x1, .f32⟩
  | 38 => ⟨S1x1x1, .f32⟩
  | 39 => ⟨S1x16x1, .f32⟩
  | 40 => ⟨S1x16x1, .f32⟩
  | 41 => ⟨S32x16x2048, .f32⟩
  | 42 => ⟨S32x16x2048, .f32⟩
  | _ => ⟨S32x2048x24x12, .f32⟩

abbrev hbmTy (i : Nat) : BufTy := match i / 128 with
  | 0 => hbmTy0_0 i
  | 1 => hbmTy0_1 i
  | 2 => hbmTy0_2 i
  | _ => ⟨S32x2048x24x12, .f32⟩

abbrev bufTy : (tb : Table) → Fin (tcTables nBuf tb) → BufTy
  | .hbm, ⟨i, _⟩ => hbmTy i
  | _, _ => ⟨S32x2048x24x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_15 : Ref sig .tc := ⟨.hbm, 101, rfl⟩
abbrev main_v72 : Ref sig .tc := ⟨.hbm, 102, rfl⟩
abbrev main_v73 : Ref sig .tc := ⟨.hbm, 103, rfl⟩
abbrev main_cst_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_cst_18 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_cst_20 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_21 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_22 : Ref sig .tc := ⟨.hbm, 134, rfl⟩
abbrev main_v98 : Ref sig .tc := ⟨.hbm, 135, rfl⟩
abbrev main_v99 : Ref sig .tc := ⟨.hbm, 136, rfl⟩
abbrev main_cst_23 : Ref sig .tc := ⟨.hbm, 137, rfl⟩
abbrev main_v100 : Ref sig .tc := ⟨.hbm, 138, rfl⟩
abbrev main_cst_24 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_25 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_26 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_27 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_28 : Ref sig .tc := ⟨.hbm, 165, rfl⟩
abbrev main_v123 : Ref sig .tc := ⟨.hbm, 166, rfl⟩
abbrev main_cst_29 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_30 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_31 : Ref sig .tc := ⟨.hbm, 184, rfl⟩
abbrev main_v139 : Ref sig .tc := ⟨.hbm, 185, rfl⟩
abbrev main_v140 : Ref sig .tc := ⟨.hbm, 186, rfl⟩
abbrev main_cst_32 : Ref sig .tc := ⟨.hbm, 187, rfl⟩
abbrev main_v141 : Ref sig .tc := ⟨.hbm, 188, rfl⟩
abbrev main_cst_33 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_cst_34 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_call0_v0 : Ref sig .tc := ⟨.hbm, 209, rfl⟩
abbrev main_call0_v1_0 : Ref sig .tc := ⟨.hbm, 210, rfl⟩
abbrev main_v160 : Ref sig .tc := ⟨.hbm, 211, rfl⟩
abbrev main_c_35 : Ref sig .tc := ⟨.hbm, 212, rfl⟩
abbrev main_v161 : Ref sig .tc := ⟨.hbm, 213, rfl⟩
abbrev main_v162 : Ref sig .tc := ⟨.hbm, 214, rfl⟩
abbrev main_c_36 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_c_37 : Ref sig .tc := ⟨.hbm, 221, rfl⟩
abbrev main_v168 : Ref sig .tc := ⟨.hbm, 222, rfl⟩
abbrev main_v169 : Ref sig .tc := ⟨.hbm, 223, rfl⟩
abbrev main_c_38 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_cst_39 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_cst_40 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_cst_41 : Ref sig .tc := ⟨.hbm, 243, rfl⟩
abbrev main_v186 : Ref sig .tc := ⟨.hbm, 244, rfl⟩
abbrev main_cst_42 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_cst_43 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_cst_44 : Ref sig .tc := ⟨.hbm, 265, rfl⟩
abbrev main_v205 : Ref sig .tc := ⟨.hbm, 266, rfl⟩
abbrev main_v206 : Ref sig .tc := ⟨.hbm, 267, rfl⟩
abbrev main_cst_45 : Ref sig .tc := ⟨.hbm, 268, rfl⟩
abbrev main_v207 : Ref sig .tc := ⟨.hbm, 269, rfl⟩
abbrev main_cst_46 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_cst_47 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_cst_48 : Ref sig .tc := ⟨.hbm, 283, rfl⟩
abbrev main_v219 : Ref sig .tc := ⟨.hbm, 284, rfl⟩
abbrev main_cst_49 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_cst_50 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩

abbrev nD : Nat := 1
abbrev τ : Topo := Topo.v7x

variable {F : FTy → Type} [FloatOps F]

class Facts₀ : Prop where
  shapeCasts_S32x2048x24x12_S32x2048x288 : S32x2048x24x12.ShapeCasts S32x2048x288
  transposes_S32x2048x288_S32x288x2048_0_2_1 : S32x2048x288.Transposes [0, 2, 1] S32x288x2048
  bcast_S1x16x2048_S32x16x2048_0_1_2 : S1x16x2048.BroadcastsInDim S32x16x2048 (![0, 1, 2] : Fin 3 → Fin S32x16x2048.rank)
  bcast_S1x2048x2048_S32x2048x2048_0_1_2 : S1x2048x2048.BroadcastsInDim S32x2048x2048 (![0, 1, 2] : Fin 3 → Fin S32x2048x2048.rank)
  bcast_S_S32 : S_.BroadcastsInDim S32 (![] : Fin 0 → Fin S32.rank)
  bcast_S32_S32x1_0 : S32.BroadcastsInDim S32x1 (![0] : Fin 1 → Fin S32x1.rank)
  reducesTo_S32x288x2048_S32x288_d2 : S32x288x2048.ReducesTo [2] S32x288
  h_S_ : 0 < S_.numel
  bcast_S32x288_S32x288x1_0_1 : S32x288.BroadcastsInDim S32x288x1 (![0, 1] : Fin 2 → Fin S32x288x1.rank)
  bcast_S_S32x288x1 : S_.BroadcastsInDim S32x288x1 (![] : Fin 0 → Fin S32x288x1.rank)
  bcast_S32x288x1_S32x288x2048_0_1_2 : S32x288x1.BroadcastsInDim S32x288x2048 (![0, 1, 2] : Fin 3 → Fin S32x288x2048.rank)
  reducesTo_S32x288x288_S32x288_d2 : S32x288x288.ReducesTo [2] S32x288
  bcast_S_S32x288 : S_.BroadcastsInDim S32x288 (![] : Fin 0 → Fin S32x288.rank)
  bcast_S32x288x1_S32x288x288_0_1_2 : S32x288x1.BroadcastsInDim S32x288x288 (![0, 1, 2] : Fin 3 → Fin S32x288x288.rank)
  bcast_S32x1x2048_S32x288x2048_0_1_2 : S32x1x2048.BroadcastsInDim S32x288x2048 (![0, 1, 2] : Fin 3 → Fin S32x288x2048.rank)
  bcast_S_S32x16x288 : S_.BroadcastsInDim S32x16x288 (![] : Fin 0 → Fin S32x16x288.rank)
  reducesTo_S32x16x288_S32x16_d2 : S32x16x288.ReducesTo [2] S32x16
  bcast_S_S32x16 : S_.BroadcastsInDim S32x16 (![] : Fin 0 → Fin S32x16.rank)
  bcast_S32x16_S32x16x1_0_1 : S32x16.BroadcastsInDim S32x16x1 (![0, 1] : Fin 2 → Fin S32x16x1.rank)
  bcast_S32x16x1_S32x16x288_0_1_2 : S32x16x1.BroadcastsInDim S32x16x288 (![0, 1, 2] : Fin 3 → Fin S32x16x288.rank)
  reducesTo_S32x16x2048_S32x16_d2 : S32x16x2048.ReducesTo [2] S32x16
  bcast_S_S32x16x1 : S_.BroadcastsInDim S32x16x1 (![] : Fin 0 → Fin S32x16x1.rank)
  bcast_S32x16x1_S32x16x2048_0_1_2 : S32x16x1.BroadcastsInDim S32x16x2048 (![0, 1, 2] : Fin 3 → Fin S32x16x2048.rank)
  reducesTo_S32x16x2048_S32x2048_d1 : S32x16x2048.ReducesTo [1] S32x2048
  bcast_S32x2048_S32x1x2048_0_2 : S32x2048.BroadcastsInDim S32x1x2048 (![0, 2] : Fin 2 → Fin S32x1x2048.rank)
  bcast_S_S32x1x2048 : S_.BroadcastsInDim S32x1x2048 (![] : Fin 0 → Fin S32x1x2048.rank)
  bcast_S32x1x2048_S32x2048x2048_0_1_2 : S32x1x2048.BroadcastsInDim S32x2048x2048 (![0, 1, 2] : Fin 3 → Fin S32x2048x2048.rank)
  reducesTo_S32x2048x2048_S32x2048_d2 : S32x2048x2048.ReducesTo [2] S32x2048
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x2048_0_1_2 : S32x2048x1.BroadcastsInDim S32x2048x2048 (![0, 1, 2] : Fin 3 → Fin S32x2048x2048.rank)
  bcast_S_S32x16x2048 : S_.BroadcastsInDim S32x16x2048 (![] : Fin 0 → Fin S32x16x2048.rank)
  shapeCasts_S32x1x2048_S8x1x4x1x2048 : S32x1x2048.ShapeCasts S8x1x4x1x2048
  bcast_S8x1x4x1x2048_S8x4x4x1x2048_0_1_2_3_4 : S8x1x4x1x2048.BroadcastsInDim S8x4x4x1x2048 (![0, 1, 2, 3, 4] : Fin 5 → Fin S8x4x4x1x2048.rank)
  shapeCasts_S8x4x4x1x2048_S32x4x2048 : S8x4x4x1x2048.ShapeCasts S32x4x2048
  shapeCasts_S32x288x2048_S8x1x4x288x2048 : S32x288x2048.ShapeCasts S8x1x4x288x2048
  bcast_S8x1x4x288x2048_S8x4x4x288x2048_0_1_2_3_4 : S8x1x4x288x2048.BroadcastsInDim S8x4x4x288x2048 (![0, 1, 2, 3, 4] : Fin 5 → Fin S8x4x4x288x2048.rank)
  shapeCasts_S8x4x4x288x2048_S32x1152x2048 : S8x4x4x288x2048.ShapeCasts S32x1152x2048
  natLt_1_32 : 1 < 32
  shapeCasts_S32x1152x2048_S128x288x2048 : S32x1152x2048.ShapeCasts S128x288x2048
  reducesTo_S128x288x2048_S128x288_d2 : S128x288x2048.ReducesTo [2] S128x288
  bcast_S128x288_S128x288x1_0_1 : S128x288.BroadcastsInDim S128x288x1 (![0, 1] : Fin 2 → Fin S128x288x1.rank)
  bcast_S_S128x288x1 : S_.BroadcastsInDim S128x288x1 (![] : Fin 0 → Fin S128x288x1.rank)
  bcast_S128x288x1_S128x288x2048_0_1_2 : S128x288x1.BroadcastsInDim S128x288x2048 (![0, 1, 2] : Fin 3 → Fin S128x288x2048.rank)
  reducesTo_S128x288x288_S128x288_d2 : S128x288x288.ReducesTo [2] S128x288
  bcast_S_S128x288 : S_.BroadcastsInDim S128x288 (![] : Fin 0 → Fin S128x288.rank)
  bcast_S128x288x1_S128x288x288_0_1_2 : S128x288x1.BroadcastsInDim S128x288x288 (![0, 1, 2] : Fin 3 → Fin S128x288x288.rank)
  shapeCasts_S32x4x2048_S128x1x2048 : S32x4x2048.ShapeCasts S128x1x2048
  bcast_S128x1x2048_S128x288x2048_0_1_2 : S128x1x2048.BroadcastsInDim S128x288x2048 (![0, 1, 2] : Fin 3 → Fin S128x288x2048.rank)
  shapeCasts_S128x288x2048_S32x1152x2048 : S128x288x2048.ShapeCasts S32x1152x2048
  bcast_S_S32x16x1152 : S_.BroadcastsInDim S32x16x1152 (![] : Fin 0 → Fin S32x16x1152.rank)
  reducesTo_S32x16x1152_S32x16_d2 : S32x16x1152.ReducesTo [2] S32x16
  bcast_S32x16x1_S32x16x1152_0_1_2 : S32x16x1.BroadcastsInDim S32x16x1152 (![0, 1, 2] : Fin 3 → Fin S32x16x1152.rank)
  reducesTo_S1x16x1_S1x1_d1 : S1x16x1.ReducesTo [1] S1x1
  bcast_S_S1x1 : S_.BroadcastsInDim S1x1 (![] : Fin 0 → Fin S1x1.rank)
  bcast_S1x1_S1x1x1_0_2 : S1x1.BroadcastsInDim S1x1x1 (![0, 2] : Fin 2 → Fin S1x1x1.rank)
  bcast_S1x1x1_S1x16x1_0_1_2 : S1x1x1.BroadcastsInDim S1x16x1 (![0, 1, 2] : Fin 3 → Fin S1x16x1.rank)
  bcast_S1x16x1_S32x16x2048_0_1_2 : S1x16x1.BroadcastsInDim S32x16x2048 (![0, 1, 2] : Fin 3 → Fin S32x16x2048.rank)
  gather_S6x1x2048_S32x1_S32x1x2048_12_0_n_n_0_1_112048_wf : GatherDims.WF S6x1x2048 S32x1 S32x1x2048 [1, 2] [0] [] [0] [] 1 ![1, 1, 2048]
  dot_S32x16x2048_S2048x2048_S32x16x2048_2_1_01_0_n_n_wf : DotDims.WF S32x16x2048 S2048x2048 S32x16x2048 [2] [1] [0, 1] [0] [] []
  dot_S32x288x2048_S32x288x2048_S32x288x288_2_2_1_1_0_0_wf : DotDims.WF S32x288x2048 S32x288x2048 S32x288x288 [2] [2] [1] [1] [0] [0]
  dot_S32x288x288_S32x288x2048_S32x288x2048_2_1_1_2_0_0_wf : DotDims.WF S32x288x288 S32x288x2048 S32x288x2048 [2] [1] [1] [2] [0] [0]
  dot_S32x288x2048_S2048x2048_S32x288x2048_2_1_01_0_n_n_wf : DotDims.WF S32x288x2048 S2048x2048 S32x288x2048 [2] [1] [0, 1] [0] [] []
  dot_S32x16x2048_S32x288x2048_S32x16x288_2_2_1_1_0_0_wf : DotDims.WF S32x16x2048 S32x288x2048 S32x16x288 [2] [2] [1] [1] [0] [0]
  dot_S32x16x288_S32x288x2048_S32x16x2048_2_1_1_2_0_0_wf : DotDims.WF S32x16x288 S32x288x2048 S32x16x2048 [2] [1] [1] [2] [0] [0]
  dot_S32x2048x2048_S2048x2048_S32x2048x2048_2_1_01_0_n_n_wf : DotDims.WF S32x2048x2048 S2048x2048 S32x2048x2048 [2] [1] [0, 1] [0] [] []
  dot_S32x16x2048_S32x2048x2048_S32x16x2048_2_2_1_1_0_0_wf : DotDims.WF S32x16x2048 S32x2048x2048 S32x16x2048 [2] [2] [1] [1] [0] [0]
  dot_S32x16x2048_S32x2048x2048_S32x16x2048_2_1_1_2_0_0_wf : DotDims.WF S32x16x2048 S32x2048x2048 S32x16x2048 [2] [1] [1] [2] [0] [0]
  gather_S32x4x2048_S32x1_S32x4x2048_12_0_n_n_0_1_142048_wf : GatherDims.WF S32x4x2048 S32x1 S32x4x2048 [1, 2] [0] [] [0] [] 1 ![1, 4, 2048]
  gather_S32x1152x2048_S32x1_S32x1152x2048_12_0_n_n_0_1_111522048_wf : GatherDims.WF S32x1152x2048 S32x1 S32x1152x2048 [1, 2] [0] [] [0] [] 1 ![1, 1152, 2048]
  dot_S128x288x2048_S128x288x2048_S128x288x288_2_2_1_1_0_0_wf : DotDims.WF S128x288x2048 S128x288x2048 S128x288x288 [2] [2] [1] [1] [0] [0]
  dot_S128x288x288_S128x288x2048_S128x288x2048_2_1_1_2_0_0_wf : DotDims.WF S128x288x288 S128x288x2048 S128x288x2048 [2] [1] [1] [2] [0] [0]
  dot_S32x1152x2048_S2048x2048_S32x1152x2048_2_1_01_0_n_n_wf : DotDims.WF S32x1152x2048 S2048x2048 S32x1152x2048 [2] [1] [0, 1] [0] [] []
  dot_S32x16x2048_S32x1152x2048_S32x16x1152_2_2_1_1_0_0_wf : DotDims.WF S32x16x2048 S32x1152x2048 S32x16x1152 [2] [2] [1] [1] [0] [0]
  dot_S32x16x1152_S32x1152x2048_S32x16x2048_2_1_1_2_0_0_wf : DotDims.WF S32x16x1152 S32x1152x2048 S32x16x2048 [2] [1] [1] [2] [0] [0]

variable [Facts₀]

def gather_S6x1x2048_S32x1_S32x1x2048_12_0_n_n_0_1_112048 : GatherDims S6x1x2048 S32x1 S32x1x2048 where
  offsetDims := [1, 2]
  collapsedSliceDims := [0]
  operandBatchingDims := []
  startIndicesBatchingDims := []
  startIndexMap := [0]
  indexVectorDim := 1
  sliceSizes := ![1, 1, 2048]
  wf := gather_S6x1x2048_S32x1_S32x1x2048_12_0_n_n_0_1_112048_wf
def dot_S32x16x2048_S2048x2048_S32x16x2048_2_1_01_0_n_n : DotDims S32x16x2048 S2048x2048 S32x16x2048 where
  lhsContracting := [2]
  rhsContracting := [1]
  lhsNonContracting := [0, 1]
  rhsNonContracting := [0]
  lhsBatch := []
  rhsBatch := []
  wf := dot_S32x16x2048_S2048x2048_S32x16x2048_2_1_01_0_n_n_wf
def dot_S32x288x2048_S32x288x2048_S32x288x288_2_2_1_1_0_0 : DotDims S32x288x2048 S32x288x2048 S32x288x288 where
  lhsContracting := [2]
  rhsContracting := [2]
  lhsNonContracting := [1]
  rhsNonContracting := [1]
  lhsBatch := [0]
  rhsBatch := [0]
  wf := dot_S32x288x2048_S32x288x2048_S32x288x288_2_2_1_1_0_0_wf
def dot_S32x288x288_S32x288x2048_S32x288x2048_2_1_1_2_0_0 : DotDims S32x288x288 S32x288x2048 S32x288x2048 where
  lhsContracting := [2]
  rhsContracting := [1]
  lhsNonContracting := [1]
  rhsNonContracting := [2]
  lhsBatch := [0]
  rhsBatch := [0]
  wf := dot_S32x288x288_S32x288x2048_S32x288x2048_2_1_1_2_0_0_wf
def dot_S32x288x2048_S2048x2048_S32x288x2048_2_1_01_0_n_n : DotDims S32x288x2048 S2048x2048 S32x288x2048 where
  lhsContracting := [2]
  rhsContracting := [1]
  lhsNonContracting := [0, 1]
  rhsNonContracting := [0]
  lhsBatch := []
  rhsBatch := []
  wf := dot_S32x288x2048_S2048x2048_S32x288x2048_2_1_01_0_n_n_wf
def dot_S32x16x2048_S32x288x2048_S32x16x288_2_2_1_1_0_0 : DotDims S32x16x2048 S32x288x2048 S32x16x288 where
  lhsContracting := [2]
  rhsContracting := [2]
  lhsNonContracting := [1]
  rhsNonContracting := [1]
  lhsBatch := [0]
  rhsBatch := [0]
  wf := dot_S32x16x2048_S32x288x2048_S32x16x288_2_2_1_1_0_0_wf
def dot_S32x16x288_S32x288x2048_S32x16x2048_2_1_1_2_0_0 : DotDims S32x16x288 S32x288x2048 S32x16x2048 where
  lhsContracting := [2]
  rhsContracting := [1]
  lhsNonContracting := [1]
  rhsNonContracting := [2]
  lhsBatch := [0]
  rhsBatch := [0]
  wf := dot_S32x16x288_S32x288x2048_S32x16x2048_2_1_1_2_0_0_wf
def dot_S32x2048x2048_S2048x2048_S32x2048x2048_2_1_01_0_n_n : DotDims S32x2048x2048 S2048x2048 S32x2048x2048 where
  lhsContracting := [2]
  rhsContracting := [1]
  lhsNonContracting := [0, 1]
  rhsNonContracting := [0]
  lhsBatch := []
  rhsBatch := []
  wf := dot_S32x2048x2048_S2048x2048_S32x2048x2048_2_1_01_0_n_n_wf
def dot_S32x16x2048_S32x2048x2048_S32x16x2048_2_2_1_1_0_0 : DotDims S32x16x2048 S32x2048x2048 S32x16x2048 where
  lhsContracting := [2]
  rhsContracting := [2]
  lhsNonContracting := [1]
  rhsNonContracting := [1]
  lhsBatch := [0]
  rhsBatch := [0]
  wf := dot_S32x16x2048_S32x2048x2048_S32x16x2048_2_2_1_1_0_0_wf
def dot_S32x16x2048_S32x2048x2048_S32x16x2048_2_1_1_2_0_0 : DotDims S32x16x2048 S32x2048x2048 S32x16x2048 where
  lhsContracting := [2]
  rhsContracting := [1]
  lhsNonContracting := [1]
  rhsNonContracting := [2]
  lhsBatch := [0]
  rhsBatch := [0]
  wf := dot_S32x16x2048_S32x2048x2048_S32x16x2048_2_1_1_2_0_0_wf
def comparator_i32_i32_d0 : BitVec 32 × BitVec 32 → BitVec 32 × BitVec 32 → BitVec 1 :=
  fun l r =>
    let v2 := IntOp.cmpi .slt l.1 r.1
    v2
def gather_S32x4x2048_S32x1_S32x4x2048_12_0_n_n_0_1_142048 : GatherDims S32x4x2048 S32x1 S32x4x2048 where
  offsetDims := [1, 2]
  collapsedSliceDims := [0]
  operandBatchingDims := []
  startIndicesBatchingDims := []
  startIndexMap := [0]
  indexVectorDim := 1
  sliceSizes := ![1, 4, 2048]
  wf := gather_S32x4x2048_S32x1_S32x4x2048_12_0_n_n_0_1_142048_wf
def gather_S32x1152x2048_S32x1_S32x1152x2048_12_0_n_n_0_1_111522048 : GatherDims S32x1152x2048 S32x1 S32x1152x2048 where
  offsetDims := [1, 2]
  collapsedSliceDims := [0]
  operandBatchingDims := []
  startIndicesBatchingDims := []
  startIndexMap := [0]
  indexVectorDim := 1
  sliceSizes := ![1, 1152, 2048]
  wf := gather_S32x1152x2048_S32x1_S32x1152x2048_12_0_n_n_0_1_111522048_wf
def dot_S128x288x2048_S128x288x2048_S128x288x288_2_2_1_1_0_0 : DotDims S128x288x2048 S128x288x2048 S128x288x288 where
  lhsContracting := [2]
  rhsContracting := [2]
  lhsNonContracting := [1]
  rhsNonContracting := [1]
  lhsBatch := [0]
  rhsBatch := [0]
  wf := dot_S128x288x2048_S128x288x2048_S128x288x288_2_2_1_1_0_0_wf
def dot_S128x288x288_S128x288x2048_S128x288x2048_2_1_1_2_0_0 : DotDims S128x288x288 S128x288x2048 S128x288x2048 where
  lhsContracting := [2]
  rhsContracting := [1]
  lhsNonContracting := [1]
  rhsNonContracting := [2]
  lhsBatch := [0]
  rhsBatch := [0]
  wf := dot_S128x288x288_S128x288x2048_S128x288x2048_2_1_1_2_0_0_wf
def dot_S32x1152x2048_S2048x2048_S32x1152x2048_2_1_01_0_n_n : DotDims S32x1152x2048 S2048x2048 S32x1152x2048 where
  lhsContracting := [2]
  rhsContracting := [1]
  lhsNonContracting := [0, 1]
  rhsNonContracting := [0]
  lhsBatch := []
  rhsBatch := []
  wf := dot_S32x1152x2048_S2048x2048_S32x1152x2048_2_1_01_0_n_n_wf
def dot_S32x16x2048_S32x1152x2048_S32x16x1152_2_2_1_1_0_0 : DotDims S32x16x2048 S32x1152x2048 S32x16x1152 where
  lhsContracting := [2]
  rhsContracting := [2]
  lhsNonContracting := [1]
  rhsNonContracting := [1]
  lhsBatch := [0]
  rhsBatch := [0]
  wf := dot_S32x16x2048_S32x1152x2048_S32x16x1152_2_2_1_1_0_0_wf
def dot_S32x16x1152_S32x1152x2048_S32x16x2048_2_1_1_2_0_0 : DotDims S32x16x1152 S32x1152x2048 S32x16x2048 where
  lhsContracting := [2]
  rhsContracting := [1]
  lhsNonContracting := [1]
  rhsNonContracting := [2]
  lhsBatch := [0]
  rhsBatch := [0]
  wf := dot_S32x16x1152_S32x1152x2048_S32x16x2048_2_1_1_2_0_0_wf

class Facts : Prop extends Facts₀ where

variable [Facts]
-- ==== Proof.KernelRun.lean ====
/-
  The kernel program's run, read at its last boundary.

  @main is twenty-six segments: stretches of host operations and twelve kernel regions. The run of the segments ends
  with every buffer that is not scoped to a kernel at the contents `W26` of the last boundary — the fold of every host
  stretch's operations and every region's write-backs over the launch memory. The frame claim reads only the argument
  arrays off that state; here every unscoped buffer is read, so that the four results can be named.
-/
import proofs.«101814_j47201690583535_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer at the last
    boundary's contents. -/
theorem run_last : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W26 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c b hb => h c _ (mem_uc b hb))

end Cert.KernelIdeal.RunValue

end
-- ==== Proof.Spec.lean ====
/-
  The network of this kernel as functions of coordinates on the extended reals.

  Every stage of the computation is one of five row-wise or matrix-wise functions: a softmax of a row of scores
  (the exponentials of the scores less their maximum, over their sum), the normalisation of a row by its Euclidean
  length (bounded below by a small constant), the self-attention of a patch of rows (each row's normalised inner
  products with every row, softmaxed, weight the rows themselves), a projection of a row by a square table
  (inner products with the table's rows), a scaled attention of one query row over key and value rows, and the
  normalisation of a row to zero mean and unit variance.  They are stated over finite index types `Fin n` of any
  extents, with the float literals kept as the values of their bit patterns.
-/
import Idealize.ShloMosaic.PureOps.Ideal
import Idealize.ShloMosaic.Lib.ValueIdx

noncomputable section

open scoped BigOperators

namespace Cert.Spec

open Idealize.ShloMosaic

/-- An array of extended reals read as such: names the reading of a float buffer's contents at the exact instance
    as a function from the shape's indices to the extended reals, so that arithmetic on its entries is EReal's. -/
abbrev arr (S : Shape) (x : S.Idx → EReal) : S.Idx → EReal := x

/-- The lower bound of a row's length in the normalisation (the literal 1e-12 as printed). -/
def epsNorm : EReal := Ideal.ofBits .f32 0x2B8CBCCC#32
/-- The variance offset (the literal 1e-5 as printed). -/
def epsVar : EReal := Ideal.ofBits .f32 0x3727C5AC#32
/-- The attention scale (the literal 2048^(-1/2) as printed). -/
def scale : EReal := Ideal.ofBits .f32 0x3CB504F3#32
/-- The row length 2048 as printed. -/
def c2048 : EReal := Ideal.ofBits .f32 0x45000000#32
/-- The number of query rows, 16, as printed. -/
def c16 : EReal := Ideal.ofBits .f32 0x41800000#32

/-- The maximum of a row, as the fold of `max` from -∞. -/
def rowMax {n : ℕ} (s : Fin n → EReal) : EReal := (Finset.univ : Finset (Fin n)).fold max (⊥ : EReal) s

/-- Softmax of a row of scores at position `j`. -/
def softmax {n : ℕ} (s : Fin n → EReal) (j : Fin n) : EReal :=
  Ideal.div (Ideal.exp (s j - rowMax s)) (∑ k : Fin n, Ideal.exp (s k - rowMax s))

/-- Row `p` of `g` divided by its Euclidean length, the length bounded below by `epsNorm`. -/
def l2n {P C : ℕ} (g : Fin P → Fin C → EReal) (p : Fin P) (c : Fin C) : EReal :=
  Ideal.div (g p c) (max (Ideal.sqrt (∑ k : Fin C, g p k * g p k)) epsNorm)

/-- Self-attention of a patch: row `p` of the result is the rows of `g` weighted by the softmax of row `p`'s
    normalised inner products with every row. -/
def patchAttn {P C : ℕ} (g : Fin P → Fin C → EReal) (p : Fin P) (c : Fin C) : EReal :=
  ∑ q : Fin P, softmax (fun q' => ∑ k : Fin C, l2n g p k * l2n g q' k) q * g q c

/-- A row projected by a table: entry `d` is the inner product of the row with row `d` of the table. -/
def proj {K N : ℕ} (x : Fin K → EReal) (w : Fin N → Fin K → EReal) (d : Fin N) : EReal :=
  ∑ k : Fin K, x k * w d k

/-- Scaled attention of one query row `q` over the key rows `k` and value rows `v`. -/
def attn {T C : ℕ} (q : Fin C → EReal) (k v : Fin T → Fin C → EReal) (c : Fin C) : EReal :=
  ∑ n : Fin T, softmax (fun n' => (∑ j : Fin C, q j * k n' j) * scale) n * v n c

/-- The sum of a row over a divisor. -/
def meanBy {C : ℕ} (d : EReal) (x : Fin C → EReal) : EReal := Ideal.div (∑ k : Fin C, x k) d

/-- A row normalised to zero mean and unit variance (variance offset `epsVar`), the row length as `c2048`. -/
def layernorm {C : ℕ} (x : Fin C → EReal) (c : Fin C) : EReal :=
  Ideal.div (x c - meanBy c2048 x)
    (Ideal.sqrt (meanBy c2048 (fun k => (x k - meanBy c2048 x) * (x k - meanBy c2048 x)) + epsVar))

end Cert.Spec

end
-- ==== Proof.KernelHostKeeps.lean ====
/-
  The host stretches of the kernel program leave every buffer they do not write as it was.

  A stretch is a list of operations, each writing one buffer; a reference outside the list of written buffers reads,
  after the stretch, what it read before.
-/
import proofs.«101814_j47201690583535_1_alg».proof.Proof.Gen.KernelIdeal.Launch
import proofs.«101814_j47201690583535_1_alg».proof.Proof.RefRead
import proofs.«101814_j47201690583535_1_alg».proof.Proof.Spec
import Idealize.ShloMosaic.Lib.StableHlo.Run

noncomputable section
open scoped BigOperators

namespace Cert.KernelIdeal.Host
open Cert.KernelIdeal Cert.KernelIdeal.Gen Idealize.ShloMosaic Idealize.ShloMosaic.ValueIdx Idealize.ShloMosaic.StableHlo Idealize.ShloMosaic.TcCoe
open Cert.ReferenceIdeal.ReadP

variable (W : Valuation τ sig (Elt Ideal))

/-! Buffers a stretch does not write keep their contents. -/
theorem keeps0 (r : Ref sig .tc) (hr : r ∉ [main_v0, main_v1, main_v2, main_v3, main_c, main_v4, main_v5, main_c_0, main_v6, main_v7, main_c_1, main_v8, main_v9, main_v10, main_v11, main_v12, main_v13, main_v14, main_v15, main_v16, main_v17, main_v18, main_v19, main_v20]) : after (hostOps0 (F := Ideal)) W (Proc.devRef .tc r) = W (Proc.devRef .tc r) :=
  after_of_writes_sub (hostOps0 (F := Ideal)) W (by
    simp only [hostOps0, List.Forall, nullary_writes, unary_writes, binary_writes, ternary_writes, quaternary_writes,
      reshape_writes, binaryIndexed_writes, nary_writes, unaryIndexed_writes, Finset.singleton_subset_iff]
    repeat' apply And.intro
    all_goals exact List.mem_toFinset.mpr (List.mem_map_of_mem (by decide))) hr
theorem keeps1 (r : Ref sig .tc) (hr : r ∉ [main_v22, main_v23, main_v24, main_v25]) : after (hostOps1 (F := Ideal)) W (Proc.devRef .tc r) = W (Proc.devRef .tc r) :=
  after_of_writes_sub (hostOps1 (F := Ideal)) W (by
    simp only [hostOps1, List.Forall, nullary_writes, unary_writes, binary_writes, ternary_writes, quaternary_writes,
      reshape_writes, binaryIndexed_writes, nary_writes, unaryIndexed_writes, Finset.singleton_subset_iff]
    repeat' apply And.intro
    all_goals exact List.mem_toFinset.mpr (List.mem_map_of_mem (by decide))) hr
theorem keeps2 (r : Ref sig .tc) (hr : r ∉ [main_v27, main_v28]) : after (hostOps2 (F := Ideal)) W (Proc.devRef .tc r) = W (Proc.devRef .tc r) :=
  after_of_writes_sub (hostOps2 (F := Ideal)) W (by
    simp only [hostOps2, List.Forall, nullary_writes, unary_writes, binary_writes, ternary_writes, quaternary_writes,
      reshape_writes, binaryIndexed_writes, nary_writes, unaryIndexed_writes, Finset.singleton_subset_iff]
    repeat' apply And.intro
    all_goals exact List.mem_toFinset.mpr (List.mem_map_of_mem (by decide))) hr
theorem keeps3 (r : Ref sig .tc) (hr : r ∉ [main_v30]) : after (hostOps3 (F := Ideal)) W (Proc.devRef .tc r) = W (Proc.devRef .tc r) :=
  after_of_writes_sub (hostOps3 (F := Ideal)) W (by
    simp only [hostOps3, List.Forall, nullary_writes, unary_writes, binary_writes, ternary_writes, quaternary_writes,
      reshape_writes, binaryIndexed_writes, nary_writes, unaryIndexed_writes, Finset.singleton_subset_iff]
    repeat' apply And.intro
    all_goals exact List.mem_toFinset.mpr (List.mem_map_of_mem (by decide))) hr
theorem keeps4 (r : Ref sig .tc) (hr : r ∉ [main_cst, main_v32, main_v33, main_cst_2, main_v34, main_v35, main_cst_3, main_v36, main_v37, main_cst_4, main_v38, main_v39, main_v40, main_v41, main_v42, main_cst_5, main_v43, main_v44, main_cst_6, main_v45, main_v46, main_v47, main_v48, main_cst_7, main_v49, main_v50, main_v51, main_v52, main_v53, main_v54]) : after (hostOps4 (F := Ideal)) W (Proc.devRef .tc r) = W (Proc.devRef .tc r) :=
  after_of_writes_sub (hostOps4 (F := Ideal)) W (by
    simp only [hostOps4, List.Forall, nullary_writes, unary_writes, binary_writes, ternary_writes, quaternary_writes,
      reshape_writes, binaryIndexed_writes, nary_writes, unaryIndexed_writes, Finset.singleton_subset_iff]
    repeat' apply And.intro
    all_goals exact List.mem_toFinset.mpr (List.mem_map_of_mem (by decide))) hr
theorem keeps5 (r : Ref sig .tc) (hr : r ∉ [main_v56]) : after (hostOps5 (F := Ideal)) W (Proc.devRef .tc r) = W (Proc.devRef .tc r) :=
  after_of_writes_sub (hostOps5 (F := Ideal)) W (by
    simp only [hostOps5, List.Forall, nullary_writes, unary_writes, binary_writes, ternary_writes, quaternary_writes,
      reshape_writes, binaryIndexed_writes, nary_writes, unaryIndexed_writes, Finset.singleton_subset_iff]
    repeat' apply And.intro
    all_goals exact List.mem_toFinset.mpr (List.mem_map_of_mem (by decide))) hr
theorem keeps7 (r : Ref sig .tc) (hr : r ∉ [main_v59, main_v60]) : after (hostOps7 (F := Ideal)) W (Proc.devRef .tc r) = W (Proc.devRef .tc r) :=
  after_of_writes_sub (hostOps7 (F := Ideal)) W (by
    simp only [hostOps7, List.Forall, nullary_writes, unary_writes, binary_writes, ternary_writes, quaternary_writes,
      reshape_writes, binaryIndexed_writes, nary_writes, unaryIndexed_writes, Finset.singleton_subset_iff]
    repeat' apply And.intro
    all_goals exact List.mem_toFinset.mpr (List.mem_map_of_mem (by decide))) hr
theorem keeps8 (r : Ref sig .tc) (hr : r ∉ [main_v62]) : after (hostOps8 (F := Ideal)) W (Proc.devRef .tc r) = W (Proc.devRef .tc r) :=
  after_of_writes_sub (hostOps8 (F := Ideal)) W (by
    simp only [hostOps8, List.Forall, nullary_writes, unary_writes, binary_writes, ternary_writes, quaternary_writes,
      reshape_writes, binaryIndexed_writes, nary_writes, unaryIndexed_writes, Finset.singleton_subset_iff]
    repeat' apply And.intro
    all_goals exact List.mem_toFinset.mpr (List.mem_map_of_mem (by decide))) hr
theorem keeps10 (r : Ref sig .tc) (hr : r ∉ [main_v89, main_v90, main_v91, main_v92, main_v93]) : after (hostOps10 (F := Ideal)) W (Proc.devRef .tc r) = W (Proc.devRef .tc r) :=
  after_of_writes_sub (hostOps10 (F := Ideal)) W (by
    simp only [hostOps10, List.Forall, nullary_writes, unary_writes, binary_writes, ternary_writes, quaternary_writes,
      reshape_writes, binaryIndexed_writes, nary_writes, unaryIndexed_writes, Finset.singleton_subset_iff]
    repeat' apply And.intro
    all_goals exact List.mem_toFinset.mpr (List.mem_map_of_mem (by decide))) hr
theorem keeps11 (r : Ref sig .tc) (hr : r ∉ [main_v95]) : after (hostOps11 (F := Ideal)) W (Proc.devRef .tc r) = W (Proc.devRef .tc r) :=
  after_of_writes_sub (hostOps11 (F := Ideal)) W (by
    simp only [hostOps11, List.Forall, nullary_writes, unary_writes, binary_writes, ternary_writes, quaternary_writes,
      reshape_writes, binaryIndexed_writes, nary_writes, unaryIndexed_writes, Finset.singleton_subset_iff]
    repeat' apply And.intro
    all_goals exact List.mem_toFinset.mpr (List.mem_map_of_mem (by decide))) hr
theorem keeps12 (r : Ref sig .tc) (hr : r ∉ [main_cst_12, main_v97, main_v98, main_v99, main_v100, main_v101, main_cst_13, main_v102, main_v103, main_v104, main_v105, main_v106, main_v107]) : after (hostOps12 (F := Ideal)) W (Proc.devRef .tc r) = W (Proc.devRef .tc r) :=
  after_of_writes_sub (hostOps12 (F := Ideal)) W (by
    simp only [hostOps12, List.Forall, nullary_writes, unary_writes, binary_writes, ternary_writes, quaternary_writes,
      reshape_writes, binaryIndexed_writes, nary_writes, unaryIndexed_writes, Finset.singleton_subset_iff]
    repeat' apply And.intro
    all_goals exact List.mem_toFinset.mpr (List.mem_map_of_mem (by decide))) hr

/-! The three stretches between the routing and the second patch attention. -/
theorem keeps9 (r : Ref sig .tc) (hr : r ∉ [main_v64, main_v65, main_v66, main_v67, main_v68, main_v69, main_v70]) : after (hostOps9 (F := Ideal)) W (Proc.devRef .tc r) = W (Proc.devRef .tc r) :=
  after_of_writes_sub (hostOps9 (F := Ideal)) W (by
    simp only [hostOps9, List.Forall, nullary_writes, unary_writes, binary_writes, ternary_writes, quaternary_writes,
      reshape_writes, binaryIndexed_writes, nary_writes, unaryIndexed_writes, Finset.singleton_subset_iff]
    repeat' apply And.intro
    all_goals exact List.mem_toFinset.mpr (List.mem_map_of_mem (by decide))) hr
theorem keeps9_1 (r : Ref sig .tc) (hr : r ∉ [main_call0_v0, main_call0_v1_0, main_v71]) : after (hostOps9_1 (F := Ideal)) W (Proc.devRef .tc r) = W (Proc.devRef .tc r) :=
  after_of_writes_sub (hostOps9_1 (F := Ideal)) W (by
    simp only [hostOps9_1, List.Forall, nullary_writes, unary_writes, binary_writes, ternary_writes, quaternary_writes,
      reshape_writes, binaryIndexed_writes, nary_writes, unaryIndexed_writes, Finset.singleton_subset_iff]
    repeat' apply And.intro
    all_goals exact List.mem_toFinset.mpr (List.mem_map_of_mem (by decide))) hr
theorem keeps9_2 (r : Ref sig .tc) (hr : r ∉ [main_c_8, main_v72, main_v73, main_c_9, main_v74, main_v75, main_v76, main_v77, main_v78, main_c_10, main_v79, main_v80, main_c_11, main_v81, main_v82, main_v83, main_v84, main_v85, main_v86, main_v87]) : after (hostOps9_2 (F := Ideal)) W (Proc.devRef .tc r) = W (Proc.devRef .tc r) :=
  after_of_writes_sub (hostOps9_2 (F := Ideal)) W (by
    simp only [hostOps9_2, List.Forall, nullary_writes, unary_writes, binary_writes, ternary_writes, quaternary_writes,
      reshape_writes, binaryIndexed_writes, nary_writes, unaryIndexed_writes, Finset.singleton_subset_iff]
    repeat' apply And.intro
    all_goals exact List.mem_toFinset.mpr (List.mem_map_of_mem (by decide))) hr

/-- The three glue stretches in a row (the instance broadcast, the argsort call, the gathers and regroupings). -/
abbrev glue (W : Valuation τ sig (Elt Ideal)) : Valuation τ sig (Elt Ideal) := after (hostOps9_2 (F := Ideal)) (after (hostOps9_1 (F := Ideal)) (after (hostOps9 (F := Ideal)) W))

theorem keepsGlue (r : Ref sig .tc) (hr : r ∈ [main_v1, main_v12, main_v14, main_v16, main_v21, main_v27, main_v31, main_v59, main_v62, main_v63, main_arg5]) : glue W (Proc.devRef .tc r) = W (Proc.devRef .tc r) := by
  have d9 : r ∉ [main_v64, main_v65, main_v66, main_v67, main_v68, main_v69, main_v70] :=
    (by decide : ∀ x ∈ [main_v1, main_v12, main_v14, main_v16, main_v21, main_v27, main_v31, main_v59, main_v62, main_v63, main_arg5],
      x ∉ [main_v64, main_v65, main_v66, main_v67, main_v68, main_v69, main_v70]) r hr
  have d91 : r ∉ [main_call0_v0, main_call0_v1_0, main_v71] :=
    (by decide : ∀ x ∈ [main_v1, main_v12, main_v14, main_v16, main_v21, main_v27, main_v31, main_v59, main_v62, main_v63, main_arg5],
      x ∉ [main_call0_v0, main_call0_v1_0, main_v71]) r hr
  have d92 : r ∉ [main_c_8, main_v72, main_v73, main_c_9, main_v74, main_v75, main_v76, main_v77, main_v78, main_c_10, main_v79, main_v80, main_c_11, main_v81, main_v82, main_v83, main_v84, main_v85, main_v86, main_v87] :=
    (by decide : ∀ x ∈ [main_v1, main_v12, main_v14, main_v16, main_v21, main_v27, main_v31, main_v59, main_v62, main_v63, main_arg5],
      x ∉ [main_c_8, main_v72, main_v73, main_c_9, main_v74, main_v75, main_v76, main_v77, main_v78, main_c_10, main_v79, main_v80, main_c_11, main_v81, main_v82, main_v83, main_v84, main_v85, main_v86, main_v87]) r hr
  exact ((keeps9_2 _ r d92).trans (keeps9_1 _ r d91)).trans (keeps9 W r d9)

end Cert.KernelIdeal.Host
end
-- ==== Proof.KernelKeeps.lean ====
/-
  Which buffers each segment of the kernel program leaves alone.

  The program writes every buffer once: a host stretch writes the results of its own operations, a kernel region
  writes its output arrays, and its input arrays come back as they were (an input window never writes back, so the
  array after the last grid point is the array the region found). So a buffer's contents at a later boundary are its
  contents at an earlier one whenever no segment in between writes it.
-/
import proofs.«101814_j47201690583535_1_alg».proof.Proof.KernelRun
import proofs.«101814_j47201690583535_1_alg».proof.Proof.KernelHostKeeps
import Idealize.ShloMosaic.Lib.Pipeline.Value

noncomputable section

namespace Cert.KernelIdeal.Keeps

open Cert.KernelIdeal Cert.KernelIdeal.Gen Idealize.ShloMosaic Idealize.ShloMosaic.StableHlo Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem reg0_in0 : W2 m ρ c (Proc.devRef .tc main_v1) = W1 m ρ c (Proc.devRef .tc main_v1) :=
  (W2_arr m ρ c 0).trans (((funext fun i => (dat0 (V1 m ρ) c).arrAt_apply_of_forall_not_mem 0 cfg0.N i
      fun t _ hf => absurd hf (by rw [(cfg0.win 0).flush_in rfl t]; decide))).trans (A_eq0 (V1 m ρ) c 0))
/-- Region 0 leaves every buffer but its output as it found it. -/
theorem reg0_keeps (b : Ref sig .tc) (hb : b ∉ [main_v21]) :
    W2 m ρ c (Proc.devRef .tc b) = W1 m ρ c (Proc.devRef .tc b) := by
  by_cases h0 : b = main_v1
  · subst h0; exact reg0_in0 m ρ c
  exact W2_of_ne m ρ c b fun w => match w with
      | ⟨0, _⟩ => fun e => h0 e.symm
      | ⟨1, _⟩ => fun e => hb (e ▸ (by simp : main_v21 ∈ [main_v21]))

theorem reg1_in0 : W4 m ρ c (Proc.devRef .tc main_v25) = W3 m ρ c (Proc.devRef .tc main_v25) :=
  (W4_arr m ρ c 0).trans (((funext fun i => (dat1 (V3 m ρ) c).arrAt_apply_of_forall_not_mem 0 cfg1.N i
      fun t _ hf => absurd hf (by rw [(cfg1.win 0).flush_in rfl t]; decide))).trans (A_eq1 (V3 m ρ) c 0))
theorem reg1_in1 : W4 m ρ c (Proc.devRef .tc main_v16) = W3 m ρ c (Proc.devRef .tc main_v16) :=
  (W4_arr m ρ c 1).trans (((funext fun i => (dat1 (V3 m ρ) c).arrAt_apply_of_forall_not_mem 1 cfg1.N i
      fun t _ hf => absurd hf (by rw [(cfg1.win 1).flush_in rfl t]; decide))).trans (A_eq1 (V3 m ρ) c 1))
/-- Region 1 leaves every buffer but its output as it found it. -/
theorem reg1_keeps (b : Ref sig .tc) (hb : b ∉ [main_v26]) :
    W4 m ρ c (Proc.devRef .tc b) = W3 m ρ c (Proc.devRef .tc b) := by
  by_cases h0 : b = main_v25
  · subst h0; exact reg1_in0 m ρ c
  by_cases h1 : b = main_v16
  · subst h1; exact reg1_in1 m ρ c
  exact W4_of_ne m ρ c b fun w => match w with
      | ⟨0, _⟩ => fun e => h0 e.symm
      | ⟨1, _⟩ => fun e => h1 e.symm
      | ⟨2, _⟩ => fun e => hb (e ▸ (by simp : main_v26 ∈ [main_v26]))

theorem reg2_in0 : W6 m ρ c (Proc.devRef .tc main_v28) = W5 m ρ c (Proc.devRef .tc main_v28) :=
  (W6_arr m ρ c 0).trans (((funext fun i => (dat2 (V5 m ρ) c).arrAt_apply_of_forall_not_mem 0 cfg2.N i
      fun t _ hf => absurd hf (by rw [(cfg2.win 0).flush_in rfl t]; decide))).trans (A_eq2 (V5 m ρ) c 0))
theorem reg2_in1 : W6 m ρ c (Proc.devRef .tc main_v14) = W5 m ρ c (Proc.devRef .tc main_v14) :=
  (W6_arr m ρ c 1).trans (((funext fun i => (dat2 (V5 m ρ) c).arrAt_apply_of_forall_not_mem 1 cfg2.N i
      fun t _ hf => absurd hf (by rw [(cfg2.win 1).flush_in rfl t]; decide))).trans (A_eq2 (V5 m ρ) c 1))
/-- Region 2 leaves every buffer but its output as it found it. -/
theorem reg2_keeps (b : Ref sig .tc) (hb : b ∉ [main_v29]) :
    W6 m ρ c (Proc.devRef .tc b) = W5 m ρ c (Proc.devRef .tc b) := by
  by_cases h0 : b = main_v28
  · subst h0; exact reg2_in0 m ρ c
  by_cases h1 : b = main_v14
  · subst h1; exact reg2_in1 m ρ c
  exact W6_of_ne m ρ c b fun w => match w with
      | ⟨0, _⟩ => fun e => h0 e.symm
      | ⟨1, _⟩ => fun e => h1 e.symm
      | ⟨2, _⟩ => fun e => hb (e ▸ (by simp : main_v29 ∈ [main_v29]))

theorem reg3_in0 : W8 m ρ c (Proc.devRef .tc main_v30) = W7 m ρ c (Proc.devRef .tc main_v30) :=
  (W8_arr m ρ c 0).trans (((funext fun i => (dat3 (V7 m ρ) c).arrAt_apply_of_forall_not_mem 0 cfg3.N i
      fun t _ hf => absurd hf (by rw [(cfg3.win 0).flush_in rfl t]; decide))).trans (A_eq3 (V7 m ρ) c 0))
theorem reg3_in1 : W8 m ρ c (Proc.devRef .tc main_v27) = W7 m ρ c (Proc.devRef .tc main_v27) :=
  (W8_arr m ρ c 1).trans (((funext fun i => (dat3 (V7 m ρ) c).arrAt_apply_of_forall_not_mem 1 cfg3.N i
      fun t _ hf => absurd hf (by rw [(cfg3.win 1).flush_in rfl t]; decide))).trans (A_eq3 (V7 m ρ) c 1))
theorem reg3_in2 : W8 m ρ c (Proc.devRef .tc main_v21) = W7 m ρ c (Proc.devRef .tc main_v21) :=
  (W8_arr m ρ c 2).trans (((funext fun i => (dat3 (V7 m ρ) c).arrAt_apply_of_forall_not_mem 2 cfg3.N i
      fun t _ hf => absurd hf (by rw [(cfg3.win 2).flush_in rfl t]; decide))).trans (A_eq3 (V7 m ρ) c 2))
/-- Region 3 leaves every buffer but its output as it found it. -/
theorem reg3_keeps (b : Ref sig .tc) (hb : b ∉ [main_v31]) :
    W8 m ρ c (Proc.devRef .tc b) = W7 m ρ c (Proc.devRef .tc b) := by
  by_cases h0 : b = main_v30
  · subst h0; exact reg3_in0 m ρ c
  by_cases h1 : b = main_v27
  · subst h1; exact reg3_in1 m ρ c
  by_cases h2 : b = main_v21
  · subst h2; exact reg3_in2 m ρ c
  exact W8_of_ne m ρ c b fun w => match w with
      | ⟨0, _⟩ => fun e => h0 e.symm
      | ⟨1, _⟩ => fun e => h1 e.symm
      | ⟨2, _⟩ => fun e => h2 e.symm
      | ⟨3, _⟩ => fun e => hb (e ▸ (by simp : main_v31 ∈ [main_v31]))

theorem reg4_in0 : W10 m ρ c (Proc.devRef .tc main_v54) = W9 m ρ c (Proc.devRef .tc main_v54) :=
  (W10_arr m ρ c 0).trans (((funext fun i => (dat4 (V9 m ρ) c).arrAt_apply_of_forall_not_mem 0 cfg4.N i
      fun t _ hf => absurd hf (by rw [(cfg4.win 0).flush_in rfl t]; decide))).trans (A_eq4 (V9 m ρ) c 0))
theorem reg4_in1 : W10 m ρ c (Proc.devRef .tc main_v18) = W9 m ρ c (Proc.devRef .tc main_v18) :=
  (W10_arr m ρ c 1).trans (((funext fun i => (dat4 (V9 m ρ) c).arrAt_apply_of_forall_not_mem 1 cfg4.N i
      fun t _ hf => absurd hf (by rw [(cfg4.win 1).flush_in rfl t]; decide))).trans (A_eq4 (V9 m ρ) c 1))
/-- Region 4 leaves every buffer but its output as it found it. -/
theorem reg4_keeps (b : Ref sig .tc) (hb : b ∉ [main_v55]) :
    W10 m ρ c (Proc.devRef .tc b) = W9 m ρ c (Proc.devRef .tc b) := by
  by_cases h0 : b = main_v54
  · subst h0; exact reg4_in0 m ρ c
  by_cases h1 : b = main_v18
  · subst h1; exact reg4_in1 m ρ c
  exact W10_of_ne m ρ c b fun w => match w with
      | ⟨0, _⟩ => fun e => h0 e.symm
      | ⟨1, _⟩ => fun e => h1 e.symm
      | ⟨2, _⟩ => fun e => hb (e ▸ (by simp : main_v55 ∈ [main_v55]))

theorem reg5_in0 : W12 m ρ c (Proc.devRef .tc main_v3) = W11 m ρ c (Proc.devRef .tc main_v3) :=
  (W12_arr m ρ c 0).trans (((funext fun i => (dat5 (V11 m ρ) c).arrAt_apply_of_forall_not_mem 0 cfg5.N i
      fun t _ hf => absurd hf (by rw [(cfg5.win 0).flush_in rfl t]; decide))).trans (A_eq5 (V11 m ρ) c 0))
theorem reg5_in1 : W12 m ρ c (Proc.devRef .tc main_v35) = W11 m ρ c (Proc.devRef .tc main_v35) :=
  (W12_arr m ρ c 1).trans (((funext fun i => (dat5 (V11 m ρ) c).arrAt_apply_of_forall_not_mem 1 cfg5.N i
      fun t _ hf => absurd hf (by rw [(cfg5.win 1).flush_in rfl t]; decide))).trans (A_eq5 (V11 m ρ) c 1))
theorem reg5_in2 : W12 m ρ c (Proc.devRef .tc main_v20) = W11 m ρ c (Proc.devRef .tc main_v20) :=
  (W12_arr m ρ c 2).trans (((funext fun i => (dat5 (V11 m ρ) c).arrAt_apply_of_forall_not_mem 2 cfg5.N i
      fun t _ hf => absurd hf (by rw [(cfg5.win 2).flush_in rfl t]; decide))).trans (A_eq5 (V11 m ρ) c 2))
/-- Region 5 leaves every buffer but its outputs as it found it. -/
theorem reg5_keeps (b : Ref sig .tc) (hb : b ∉ [main_v57_0, main_v57_1]) :
    W12 m ρ c (Proc.devRef .tc b) = W11 m ρ c (Proc.devRef .tc b) := by
  by_cases h0 : b = main_v3
  · subst h0; exact reg5_in0 m ρ c
  by_cases h1 : b = main_v35
  · subst h1; exact reg5_in1 m ρ c
  by_cases h2 : b = main_v20
  · subst h2; exact reg5_in2 m ρ c
  exact W12_of_ne m ρ c b fun w => match w with
      | ⟨0, _⟩ => fun e => h0 e.symm
      | ⟨1, _⟩ => fun e => h1 e.symm
      | ⟨2, _⟩ => fun e => h2 e.symm
      | ⟨3, _⟩ => fun e => hb (e ▸ (by simp : main_v57_0 ∈ [main_v57_0, main_v57_1]))
      | ⟨4, _⟩ => fun e => hb (e ▸ (by simp : main_v57_1 ∈ [main_v57_0, main_v57_1]))

theorem reg6_in0 : W13 m ρ c (Proc.devRef .tc main_v56) = W12 m ρ c (Proc.devRef .tc main_v56) :=
  (W13_arr m ρ c 0).trans (((funext fun i => (dat6 (V12 m ρ) c).arrAt_apply_of_forall_not_mem 0 cfg6.N i
      fun t _ hf => absurd hf (by rw [(cfg6.win 0).flush_in rfl t]; decide))).trans (A_eq6 (V12 m ρ) c 0))
theorem reg6_in1 : W13 m ρ c (Proc.devRef .tc main_v57_1) = W12 m ρ c (Proc.devRef .tc main_v57_1) :=
  (W13_arr m ρ c 1).trans (((funext fun i => (dat6 (V12 m ρ) c).arrAt_apply_of_forall_not_mem 1 cfg6.N i
      fun t _ hf => absurd hf (by rw [(cfg6.win 1).flush_in rfl t]; decide))).trans (A_eq6 (V12 m ρ) c 1))
theorem reg6_in2 : W13 m ρ c (Proc.devRef .tc main_v57_0) = W12 m ρ c (Proc.devRef .tc main_v57_0) :=
  (W13_arr m ρ c 2).trans (((funext fun i => (dat6 (V12 m ρ) c).arrAt_apply_of_forall_not_mem 2 cfg6.N i
      fun t _ hf => absurd hf (by rw [(cfg6.win 2).flush_in rfl t]; decide))).trans (A_eq6 (V12 m ρ) c 2))
/-- Region 6 leaves every buffer but its output as it found it. -/
theorem reg6_keeps (b : Ref sig .tc) (hb : b ∉ [main_v58]) :
    W13 m ρ c (Proc.devRef .tc b) = W12 m ρ c (Proc.devRef .tc b) := by
  by_cases h0 : b = main_v56
  · subst h0; exact reg6_in0 m ρ c
  by_cases h1 : b = main_v57_1
  · subst h1; exact reg6_in1 m ρ c
  by_cases h2 : b = main_v57_0
  · subst h2; exact reg6_in2 m ρ c
  exact W13_of_ne m ρ c b fun w => match w with
      | ⟨0, _⟩ => fun e => h0 e.symm
      | ⟨1, _⟩ => fun e => h1 e.symm
      | ⟨2, _⟩ => fun e => h2 e.symm
      | ⟨3, _⟩ => fun e => hb (e ▸ (by simp : main_v58 ∈ [main_v58]))

theorem reg7_in0 : W15 m ρ c (Proc.devRef .tc main_v60) = W14 m ρ c (Proc.devRef .tc main_v60) :=
  (W15_arr m ρ c 0).trans (((funext fun i => (dat7 (V14 m ρ) c).arrAt_apply_of_forall_not_mem 0 cfg7.N i
      fun t _ hf => absurd hf (by rw [(cfg7.win 0).flush_in rfl t]; decide))).trans (A_eq7 (V14 m ρ) c 0))
theorem reg7_in1 : W15 m ρ c (Proc.devRef .tc main_v14) = W14 m ρ c (Proc.devRef .tc main_v14) :=
  (W15_arr m ρ c 1).trans (((funext fun i => (dat7 (V14 m ρ) c).arrAt_apply_of_forall_not_mem 1 cfg7.N i
      fun t _ hf => absurd hf (by rw [(cfg7.win 1).flush_in rfl t]; decide))).trans (A_eq7 (V14 m ρ) c 1))
/-- Region 7 leaves every buffer but its output as it found it. -/
theorem reg7_keeps (b : Ref sig .tc) (hb : b ∉ [main_v61]) :
    W15 m ρ c (Proc.devRef .tc b) = W14 m ρ c (Proc.devRef .tc b) := by
  by_cases h0 : b = main_v60
  · subst h0; exact reg7_in0 m ρ c
  by_cases h1 : b = main_v14
  · subst h1; exact reg7_in1 m ρ c
  exact W15_of_ne m ρ c b fun w => match w with
      | ⟨0, _⟩ => fun e => h0 e.symm
      | ⟨1, _⟩ => fun e => h1 e.symm
      | ⟨2, _⟩ => fun e => hb (e ▸ (by simp : main_v61 ∈ [main_v61]))

theorem reg8_in0 : W17 m ρ c (Proc.devRef .tc main_v62) = W16 m ρ c (Proc.devRef .tc main_v62) :=
  (W17_arr m ρ c 0).trans (((funext fun i => (dat8 (V16 m ρ) c).arrAt_apply_of_forall_not_mem 0 cfg8.N i
      fun t _ hf => absurd hf (by rw [(cfg8.win 0).flush_in rfl t]; decide))).trans (A_eq8 (V16 m ρ) c 0))
theorem reg8_in1 : W17 m ρ c (Proc.devRef .tc main_v27) = W16 m ρ c (Proc.devRef .tc main_v27) :=
  (W17_arr m ρ c 1).trans (((funext fun i => (dat8 (V16 m ρ) c).arrAt_apply_of_forall_not_mem 1 cfg8.N i
      fun t _ hf => absurd hf (by rw [(cfg8.win 1).flush_in rfl t]; decide))).trans (A_eq8 (V16 m ρ) c 1))
theorem reg8_in2 : W17 m ρ c (Proc.devRef .tc main_v21) = W16 m ρ c (Proc.devRef .tc main_v21) :=
  (W17_arr m ρ c 2).trans (((funext fun i => (dat8 (V16 m ρ) c).arrAt_apply_of_forall_not_mem 2 cfg8.N i
      fun t _ hf => absurd hf (by rw [(cfg8.win 2).flush_in rfl t]; decide))).trans (A_eq8 (V16 m ρ) c 2))
/-- Region 8 leaves every buffer but its output as it found it. -/
theorem reg8_keeps (b : Ref sig .tc) (hb : b ∉ [main_v63]) :
    W17 m ρ c (Proc.devRef .tc b) = W16 m ρ c (Proc.devRef .tc b) := by
  by_cases h0 : b = main_v62
  · subst h0; exact reg8_in0 m ρ c
  by_cases h1 : b = main_v27
  · subst h1; exact reg8_in1 m ρ c
  by_cases h2 : b = main_v21
  · subst h2; exact reg8_in2 m ρ c
  exact W17_of_ne m ρ c b fun w => match w with
      | ⟨0, _⟩ => fun e => h0 e.symm
      | ⟨1, _⟩ => fun e => h1 e.symm
      | ⟨2, _⟩ => fun e => h2 e.symm
      | ⟨3, _⟩ => fun e => hb (e ▸ (by simp : main_v63 ∈ [main_v63]))

theorem reg9_in0 : W21 m ρ c (Proc.devRef .tc main_v87) = W20 m ρ c (Proc.devRef .tc main_v87) :=
  (W21_arr m ρ c 0).trans (((funext fun i => (dat9 (V20 m ρ) c).arrAt_apply_of_forall_not_mem 0 cfg9.N i
      fun t _ hf => absurd hf (by rw [(cfg9.win 0).flush_in rfl t]; decide))).trans (A_eq9 (V20 m ρ) c 0))
/-- Region 9 leaves every buffer but its output as it found it. -/
theorem reg9_keeps (b : Ref sig .tc) (hb : b ∉ [main_v88]) :
    W21 m ρ c (Proc.devRef .tc b) = W20 m ρ c (Proc.devRef .tc b) := by
  by_cases h0 : b = main_v87
  · subst h0; exact reg9_in0 m ρ c
  exact W21_of_ne m ρ c b fun w => match w with
      | ⟨0, _⟩ => fun e => h0 e.symm
      | ⟨1, _⟩ => fun e => hb (e ▸ (by simp : main_v88 ∈ [main_v88]))

theorem reg10_in0 : W23 m ρ c (Proc.devRef .tc main_v93) = W22 m ρ c (Proc.devRef .tc main_v93) :=
  (W23_arr m ρ c 0).trans (((funext fun i => (dat10 (V22 m ρ) c).arrAt_apply_of_forall_not_mem 0 cfg10.N i
      fun t _ hf => absurd hf (by rw [(cfg10.win 0).flush_in rfl t]; decide))).trans (A_eq10 (V22 m ρ) c 0))
theorem reg10_in1 : W23 m ρ c (Proc.devRef .tc main_v16) = W22 m ρ c (Proc.devRef .tc main_v16) :=
  (W23_arr m ρ c 1).trans (((funext fun i => (dat10 (V22 m ρ) c).arrAt_apply_of_forall_not_mem 1 cfg10.N i
      fun t _ hf => absurd hf (by rw [(cfg10.win 1).flush_in rfl t]; decide))).trans (A_eq10 (V22 m ρ) c 1))
/-- Region 10 leaves every buffer but its output as it found it. -/
theorem reg10_keeps (b : Ref sig .tc) (hb : b ∉ [main_v94]) :
    W23 m ρ c (Proc.devRef .tc b) = W22 m ρ c (Proc.devRef .tc b) := by
  by_cases h0 : b = main_v93
  · subst h0; exact reg10_in0 m ρ c
  by_cases h1 : b = main_v16
  · subst h1; exact reg10_in1 m ρ c
  exact W23_of_ne m ρ c b fun w => match w with
      | ⟨0, _⟩ => fun e => h0 e.symm
      | ⟨1, _⟩ => fun e => h1 e.symm
      | ⟨2, _⟩ => fun e => hb (e ▸ (by simp : main_v94 ∈ [main_v94]))

theorem reg11_in0 : W25 m ρ c (Proc.devRef .tc main_v62) = W24 m ρ c (Proc.devRef .tc main_v62) :=
  (W25_arr m ρ c 0).trans (((funext fun i => (dat11 (V24 m ρ) c).arrAt_apply_of_forall_not_mem 0 cfg11.N i
      fun t _ hf => absurd hf (by rw [(cfg11.win 0).flush_in rfl t]; decide))).trans (A_eq11 (V24 m ρ) c 0))
theorem reg11_in1 : W25 m ρ c (Proc.devRef .tc main_v95) = W24 m ρ c (Proc.devRef .tc main_v95) :=
  (W25_arr m ρ c 1).trans (((funext fun i => (dat11 (V24 m ρ) c).arrAt_apply_of_forall_not_mem 1 cfg11.N i
      fun t _ hf => absurd hf (by rw [(cfg11.win 1).flush_in rfl t]; decide))).trans (A_eq11 (V24 m ρ) c 1))
theorem reg11_in2 : W25 m ρ c (Proc.devRef .tc main_v92) = W24 m ρ c (Proc.devRef .tc main_v92) :=
  (W25_arr m ρ c 2).trans (((funext fun i => (dat11 (V24 m ρ) c).arrAt_apply_of_forall_not_mem 2 cfg11.N i
      fun t _ hf => absurd hf (by rw [(cfg11.win 2).flush_in rfl t]; decide))).trans (A_eq11 (V24 m ρ) c 2))
/-- Region 11 leaves every buffer but its output as it found it. -/
theorem reg11_keeps (b : Ref sig .tc) (hb : b ∉ [main_v96]) :
    W25 m ρ c (Proc.devRef .tc b) = W24 m ρ c (Proc.devRef .tc b) := by
  by_cases h0 : b = main_v62
  · subst h0; exact reg11_in0 m ρ c
  by_cases h1 : b = main_v95
  · subst h1; exact reg11_in1 m ρ c
  by_cases h2 : b = main_v92
  · subst h2; exact reg11_in2 m ρ c
  exact W25_of_ne m ρ c b fun w => match w with
      | ⟨0, _⟩ => fun e => h0 e.symm
      | ⟨1, _⟩ => fun e => h1 e.symm
      | ⟨2, _⟩ => fun e => h2 e.symm
      | ⟨3, _⟩ => fun e => hb (e ▸ (by simp : main_v96 ∈ [main_v96]))

/-! ## The boundaries in a row, and what each step leaves alone -/

/-- The buffer contents at boundary `j` of the run: 0 is the launch, an odd or even step is a host stretch or a region
    in program order, the three stretches between regions 8 and 9 count as one step, 24 is the return. -/
def B : Fin 25 → Valuation τ sig (Elt Ideal)
  | ⟨0, _⟩ => W0 m ρ c
  | ⟨1, _⟩ => W1 m ρ c
  | ⟨2, _⟩ => W2 m ρ c
  | ⟨3, _⟩ => W3 m ρ c
  | ⟨4, _⟩ => W4 m ρ c
  | ⟨5, _⟩ => W5 m ρ c
  | ⟨6, _⟩ => W6 m ρ c
  | ⟨7, _⟩ => W7 m ρ c
  | ⟨8, _⟩ => W8 m ρ c
  | ⟨9, _⟩ => W9 m ρ c
  | ⟨10, _⟩ => W10 m ρ c
  | ⟨11, _⟩ => W11 m ρ c
  | ⟨12, _⟩ => W12 m ρ c
  | ⟨13, _⟩ => W13 m ρ c
  | ⟨14, _⟩ => W14 m ρ c
  | ⟨15, _⟩ => W15 m ρ c
  | ⟨16, _⟩ => W16 m ρ c
  | ⟨17, _⟩ => W17 m ρ c
  | ⟨18, _⟩ => W20 m ρ c
  | ⟨19, _⟩ => W21 m ρ c
  | ⟨20, _⟩ => W22 m ρ c
  | ⟨21, _⟩ => W23 m ρ c
  | ⟨22, _⟩ => W24 m ρ c
  | ⟨23, _⟩ => W25 m ρ c
  | ⟨24, _⟩ => W26 m ρ c
  | ⟨_ + 25, h⟩ => absurd h (Nat.not_lt.2 (Nat.le_add_left _ _))

/-- Step `s` (from boundary `s` to `s + 1`) leaves buffer `b` alone: `b` is not among the buffers it writes (for the
    glue step, `b` is among the buffers known to pass through it). -/
def kept : Fin 24 → Ref sig .tc → Bool
  | ⟨0, _⟩, b => decide (b ∉ [main_v0, main_v1, main_v2, main_v3, main_c, main_v4, main_v5, main_c_0, main_v6, main_v7, main_c_1, main_v8, main_v9, main_v10, main_v11, main_v12, main_v13, main_v14, main_v15, main_v16, main_v17, main_v18, main_v19, main_v20])
  | ⟨1, _⟩, b => decide (b ∉ [main_v21])
  | ⟨2, _⟩, b => decide (b ∉ [main_v22, main_v23, main_v24, main_v25])
  | ⟨3, _⟩, b => decide (b ∉ [main_v26])
  | ⟨4, _⟩, b => decide (b ∉ [main_v27, main_v28])
  | ⟨5, _⟩, b => decide (b ∉ [main_v29])
  | ⟨6, _⟩, b => decide (b ∉ [main_v30])
  | ⟨7, _⟩, b => decide (b ∉ [main_v31])
  | ⟨8, _⟩, b => decide (b ∉ [main_cst, main_v32, main_v33, main_cst_2, main_v34, main_v35, main_cst_3, main_v36, main_v37, main_cst_4, main_v38, main_v39, main_v40, main_v41, main_v42, main_cst_5, main_v43, main_v44, main_cst_6, main_v45, main_v46, main_v47, main_v48, main_cst_7, main_v49, main_v50, main_v51, main_v52, main_v53, main_v54])
  | ⟨9, _⟩, b => decide (b ∉ [main_v55])
  | ⟨10, _⟩, b => decide (b ∉ [main_v56])
  | ⟨11, _⟩, b => decide (b ∉ [main_v57_0, main_v57_1])
  | ⟨12, _⟩, b => decide (b ∉ [main_v58])
  | ⟨13, _⟩, b => decide (b ∉ [main_v59, main_v60])
  | ⟨14, _⟩, b => decide (b ∉ [main_v61])
  | ⟨15, _⟩, b => decide (b ∉ [main_v62])
  | ⟨16, _⟩, b => decide (b ∉ [main_v63])
  | ⟨17, _⟩, b => decide (b ∈ [main_v1, main_v12, main_v14, main_v16, main_v21, main_v27, main_v31, main_v59, main_v62, main_v63, main_arg5])
  | ⟨18, _⟩, b => decide (b ∉ [main_v88])
  | ⟨19, _⟩, b => decide (b ∉ [main_v89, main_v90, main_v91, main_v92, main_v93])
  | ⟨20, _⟩, b => decide (b ∉ [main_v94])
  | ⟨21, _⟩, b => decide (b ∉ [main_v95])
  | ⟨22, _⟩, b => decide (b ∉ [main_v96])
  | ⟨23, _⟩, b => decide (b ∉ [main_cst_12, main_v97, main_v98, main_v99, main_v100, main_v101, main_cst_13, main_v102, main_v103, main_v104, main_v105, main_v106, main_v107])
  | ⟨_ + 24, _⟩, _ => false

theorem step (s : Fin 24) (b : Ref sig .tc) (h : kept s b = true) :
    B m ρ c ⟨s.val + 1, by omega⟩ (Proc.devRef .tc b) = B m ρ c ⟨s.val, by omega⟩ (Proc.devRef .tc b) :=
  match s, h with
  | ⟨0, _⟩, h => Cert.KernelIdeal.Host.keeps0 (W0 m ρ c) b (of_decide_eq_true h)
  | ⟨1, _⟩, h => reg0_keeps m ρ c b (of_decide_eq_true h)
  | ⟨2, _⟩, h => Cert.KernelIdeal.Host.keeps1 (W2 m ρ c) b (of_decide_eq_true h)
  | ⟨3, _⟩, h => reg1_keeps m ρ c b (of_decide_eq_true h)
  | ⟨4, _⟩, h => Cert.KernelIdeal.Host.keeps2 (W4 m ρ c) b (of_decide_eq_true h)
  | ⟨5, _⟩, h => reg2_keeps m ρ c b (of_decide_eq_true h)
  | ⟨6, _⟩, h => Cert.KernelIdeal.Host.keeps3 (W6 m ρ c) b (of_decide_eq_true h)
  | ⟨7, _⟩, h => reg3_keeps m ρ c b (of_decide_eq_true h)
  | ⟨8, _⟩, h => Cert.KernelIdeal.Host.keeps4 (W8 m ρ c) b (of_decide_eq_true h)
  | ⟨9, _⟩, h => reg4_keeps m ρ c b (of_decide_eq_true h)
  | ⟨10, _⟩, h => Cert.KernelIdeal.Host.keeps5 (W10 m ρ c) b (of_decide_eq_true h)
  | ⟨11, _⟩, h => reg5_keeps m ρ c b (of_decide_eq_true h)
  | ⟨12, _⟩, h => reg6_keeps m ρ c b (of_decide_eq_true h)
  | ⟨13, _⟩, h => Cert.KernelIdeal.Host.keeps7 (W13 m ρ c) b (of_decide_eq_true h)
  | ⟨14, _⟩, h => reg7_keeps m ρ c b (of_decide_eq_true h)
  | ⟨15, _⟩, h => Cert.KernelIdeal.Host.keeps8 (W15 m ρ c) b (of_decide_eq_true h)
  | ⟨16, _⟩, h => reg8_keeps m ρ c b (of_decide_eq_true h)
  | ⟨17, _⟩, h => Cert.KernelIdeal.Host.keepsGlue (W17 m ρ c) b (of_decide_eq_true h)
  | ⟨18, _⟩, h => reg9_keeps m ρ c b (of_decide_eq_true h)
  | ⟨19, _⟩, h => Cert.KernelIdeal.Host.keeps10 (W21 m ρ c) b (of_decide_eq_true h)
  | ⟨20, _⟩, h => reg10_keeps m ρ c b (of_decide_eq_true h)
  | ⟨21, _⟩, h => Cert.KernelIdeal.Host.keeps11 (W23 m ρ c) b (of_decide_eq_true h)
  | ⟨22, _⟩, h => reg11_keeps m ρ c b (of_decide_eq_true h)
  | ⟨23, _⟩, h => Cert.KernelIdeal.Host.keeps12 (W25 m ρ c) b (of_decide_eq_true h)
  | ⟨_ + 24, h'⟩, _ => absurd h' (Nat.not_lt.2 (Nat.le_add_left _ _))

/-- A buffer no step from boundary `i` to boundary `i + n` writes has there the contents it had at `i`. -/
theorem range (b : Ref sig .tc) : ∀ (n i : ℕ) (hi : i + n < 25),
    (∀ s : Fin 24, i ≤ s.val → s.val < i + n → kept s b = true) →
    B m ρ c ⟨i + n, hi⟩ (Proc.devRef .tc b) = B m ρ c ⟨i, by omega⟩ (Proc.devRef .tc b)
  | 0, _, _, _ => rfl
  | n + 1, i, hi, h =>
    (step m ρ c ⟨i + n, by omega⟩ b (h ⟨i + n, by omega⟩ (Nat.le_add_right _ _) (by simp only; omega))).trans
      (range b n i (by omega) fun s h1 h2 => h s h1 (by omega))

end Cert.KernelIdeal.Keeps

end
-- ==== Proof.KernelHostReads.lean ====
/-
  The host stretches of the kernel program that only re-lay arrays, read at an index.

  Between the regions the program regroups rows (row b·B+p of a flat table is row p of member b of the stack), adds a
  row broadcast along the middle axis, transposes square tables and changes float formats (the identity on the
  extended reals).  A regrouping keeps the row-major position, so it is read by comparing the two positions.
-/
import proofs.«101814_j47201690583535_1_alg».proof.Proof.Gen.KernelIdeal.Launch
import proofs.«101814_j47201690583535_1_alg».proof.Proof.RefRead
import proofs.«101814_j47201690583535_1_alg».proof.Proof.Spec
import Idealize.ShloMosaic.Lib.StableHlo.Run
import Idealize.ShloMosaic.Lib.ValueLayout
import Idealize.ShloMosaic.Lib.Pipeline.Value
noncomputable section
open scoped BigOperators

namespace Cert.KernelIdeal.Host
open Cert.KernelIdeal Cert.KernelIdeal.Gen Idealize.ShloMosaic Idealize.ShloMosaic.ValueIdx Idealize.ShloMosaic.StableHlo Idealize.ShloMosaic.TcCoe
open Cert.ReferenceIdeal.ReadP

variable (W : Valuation τ sig (Elt Ideal))

section Reads
variable {α : Type}

/-- A stack `[A, B, C]` regrouped as the flat table `[N, C]` reads, at row `b·B + p`, row `p` of member `b`. -/
theorem shapeCast_stack_flat_apply {A B C N : ℕ} (X : (⟨3, ![A, B, C]⟩ : Shape).Idx → α)
    (hc : (⟨3, ![A, B, C]⟩ : Shape).ShapeCasts ⟨2, ![N, C]⟩) (b : Fin A) (p : Fin B) (c : Fin C) (h : b.val * B + p.val < N) :
    shapeCast ⟨2, ![N, C]⟩ X hc (ix2 ⟨b.val * B + p.val, h⟩ c) = X (ix3 b p c) :=
  shapeCast_apply X hc _ _ (by rw [Shape.rowMajor_val_three, Shape.rowMajor_val_two]; rfl)

/-- A flat table `[N, C]` regrouped as the stack `[A, B, C]` reads, at row `p` of member `b`, row `b·B + p`. -/
theorem shapeCast_flat_stack_apply {A B C N : ℕ} (X : (⟨2, ![N, C]⟩ : Shape).Idx → α)
    (hc : (⟨2, ![N, C]⟩ : Shape).ShapeCasts ⟨3, ![A, B, C]⟩) (b : Fin A) (p : Fin B) (c : Fin C) (h : b.val * B + p.val < N) :
    shapeCast ⟨3, ![A, B, C]⟩ X hc (ix3 b p c) = X (ix2 ⟨b.val * B + p.val, h⟩ c) :=
  shapeCast_apply X hc _ _ (by rw [Shape.rowMajor_val_three, Shape.rowMajor_val_two]; rfl)

/-- One row per member `[A, 1, C]` broadcast along the middle axis reads, at `(b, p, c)`, the member's row at `c`. -/
theorem bcast_mid_apply {A B C : ℕ} (hA : A ≠ 1) (hC : C ≠ 1)
    (hb : (⟨3, ![A, 1, C]⟩ : Shape).BroadcastsInDim ⟨3, ![A, B, C]⟩ ![0, 1, 2]) (Y : (⟨3, ![A, 1, C]⟩ : Shape).Idx → α)
    (b : Fin A) (p : Fin B) (c : Fin C) :
    broadcastInDim ⟨3, ![A, B, C]⟩ ![0, 1, 2] hb Y (ix3 b p c) = Y (ix3 b (0 : Fin 1) c) :=
  broadcastInDim_apply _ hb Y (ix3 b p c) (ix3 b (0 : Fin 1) c) (fun a => match a with
    | ⟨0, _⟩ => by show b.val = if A = 1 then 0 else b.val; rw [if_neg hA]
    | ⟨1, _⟩ => by show 0 = if (1 : ℕ) = 1 then 0 else p.val; rw [if_pos rfl]
    | ⟨2, _⟩ => by show c.val = if C = 1 then 0 else c.val; rw [if_neg hC])

end Reads

/-! Stretch 0: the arguments re-laid. -/
theorem h0_v1 : after (hostOps0 (F := Ideal)) W (Proc.devRef .tc main_v1) = val_main_v1 (F := Ideal) (W (Proc.devRef .tc main_arg0)) := by
  after_results_simp; rfl
theorem h0_v2 : after (hostOps0 (F := Ideal)) W (Proc.devRef .tc main_v2) = val_main_v2 (F := Ideal) (W (Proc.devRef .tc main_arg3)) := by
  after_results_simp; rfl
theorem h0_v12 : after (hostOps0 (F := Ideal)) W (Proc.devRef .tc main_v12) = val_main_v12 (F := Ideal) (W (Proc.devRef .tc main_arg1)) (W (Proc.devRef .tc main_arg6)) := by
  after_results_simp
  unfold val_main_v12 val_main_v11 val_main_v10 val_main_v9 val_main_v8 val_main_v7 val_main_v6 val_main_v5 val_main_v4
  refine congrArg₂ (Host.gather _) rfl ?_
  rfl
theorem h0_v3 (n k : Fin 2048) : Cert.Spec.arr S2048x2048 (after (hostOps0 (F := Ideal)) W (Proc.devRef .tc main_v3)) (ix2 n k) = Cert.Spec.arr S1x2048x2048 (W (Proc.devRef .tc main_arg4)) (ix3 (0 : Fin 1) n k) := by
  after_results_simp
  exact shapeCast_1ab_ab_apply _ _ n k
theorem h0_v14 (k d : Fin 2048) : Cert.Spec.arr S2048x2048 (after (hostOps0 (F := Ideal)) W (Proc.devRef .tc main_v14)) (ix2 k d) = Cert.Spec.arr S2048x2048 (W (Proc.devRef .tc main_arg8)) (ix2 d k) := by
  after_results_simp
  exact transpose_ix2_apply _ _ k d
theorem h0_v16 (k d : Fin 2048) : Cert.Spec.arr S2048x2048 (after (hostOps0 (F := Ideal)) W (Proc.devRef .tc main_v16)) (ix2 k d) = Cert.Spec.arr S2048x2048 (W (Proc.devRef .tc main_arg9)) (ix2 d k) := by
  after_results_simp
  exact transpose_ix2_apply _ _ k d
theorem h0_v18 (k d : Fin 2048) : Cert.Spec.arr S2048x2048 (after (hostOps0 (F := Ideal)) W (Proc.devRef .tc main_v18)) (ix2 k d) = Cert.Spec.arr S2048x2048 (W (Proc.devRef .tc main_arg10)) (ix2 d k) := by
  after_results_simp
  exact transpose_ix2_apply _ _ k d
theorem h0_v20 (k d : Fin 2048) : Cert.Spec.arr S2048x2048 (after (hostOps0 (F := Ideal)) W (Proc.devRef .tc main_v20)) (ix2 k d) = Cert.Spec.arr S2048x2048 (W (Proc.devRef .tc main_arg11)) (ix2 d k) := by
  after_results_simp
  exact transpose_ix2_apply _ _ k d

/-! Stretches 1–3, 5, 7, 8, 10, 11: a sum with a broadcast row, and regroupings of rows (row b·288+p of the flat table is row p of member b). -/
theorem h1_v25 (b : Fin 32) (p : Fin 288) (c : Fin 2048) (h : b.val * 288 + p.val < 9216) :
    Cert.Spec.arr S9216x2048 (after (hostOps1 (F := Ideal)) W (Proc.devRef .tc main_v25)) (ix2 ⟨b.val * 288 + p.val, h⟩ c) = Cert.Spec.arr S32x288x2048 (W (Proc.devRef .tc main_v21)) (ix3 b p c) + Cert.Spec.arr S32x1x2048 (W (Proc.devRef .tc main_v12)) (ix3 b (0 : Fin 1) c) := by
  after_results_simp
  refine (shapeCast_stack_flat_apply _ _ b p c h).trans ?_
  exact congrArg (Cert.Spec.arr S32x288x2048 (W (Proc.devRef .tc main_v21)) (ix3 b p c) + ·)
    (bcast_mid_apply (by decide) (by decide) _ _ b p c)
theorem h2_v27 (b : Fin 32) (p : Fin 288) (dd : Fin 2048) (h : b.val * 288 + p.val < 9216) :
    Cert.Spec.arr S32x288x2048 (after (hostOps2 (F := Ideal)) W (Proc.devRef .tc main_v27)) (ix3 b p dd) = Cert.Spec.arr S9216x2048 (W (Proc.devRef .tc main_v26)) (ix2 ⟨b.val * 288 + p.val, h⟩ dd) := by
  after_results_simp
  exact shapeCast_flat_stack_apply _ _ b p dd h
theorem h2_v28 (b : Fin 32) (q : Fin 16) (k : Fin 2048) (h : b.val * 16 + q.val < 512) :
    Cert.Spec.arr S512x2048 (after (hostOps2 (F := Ideal)) W (Proc.devRef .tc main_v28)) (ix2 ⟨b.val * 16 + q.val, h⟩ k) = Cert.Spec.arr S32x16x2048 (W (Proc.devRef .tc main_v2)) (ix3 b q k) := by
  after_results_simp
  exact shapeCast_stack_flat_apply _ _ b q k h
theorem h3_v30 (b : Fin 32) (q : Fin 16) (dd : Fin 2048) (h : b.val * 16 + q.val < 512) :
    Cert.Spec.arr S32x16x2048 (after (hostOps3 (F := Ideal)) W (Proc.devRef .tc main_v30)) (ix3 b q dd) = Cert.Spec.arr S512x2048 (W (Proc.devRef .tc main_v29)) (ix2 ⟨b.val * 16 + q.val, h⟩ dd) := by
  after_results_simp
  exact shapeCast_flat_stack_apply _ _ b q dd h
theorem h5_v56 (b : Fin 32) (q : Fin 16) (dd : Fin 2048) (h : b.val * 16 + q.val < 512) :
    Cert.Spec.arr S32x16x2048 (after (hostOps5 (F := Ideal)) W (Proc.devRef .tc main_v56)) (ix3 b q dd) = Cert.Spec.arr S512x2048 (W (Proc.devRef .tc main_v55)) (ix2 ⟨b.val * 16 + q.val, h⟩ dd) := by
  after_results_simp
  exact shapeCast_flat_stack_apply _ _ b q dd h
theorem h7_v59 (i : S32x16x2048.Idx) :
    Cert.Spec.arr S32x16x2048 (after (hostOps7 (F := Ideal)) W (Proc.devRef .tc main_v59)) i = Cert.Spec.arr S32x16x2048 (W (Proc.devRef .tc main_v31)) i + Cert.Spec.arr S32x16x2048 (W (Proc.devRef .tc main_v58)) i := by
  after_results_simp
  rfl
theorem h7_v60 (b : Fin 32) (q : Fin 16) (k : Fin 2048) (h : b.val * 16 + q.val < 512) :
    Cert.Spec.arr S512x2048 (after (hostOps7 (F := Ideal)) W (Proc.devRef .tc main_v60)) (ix2 ⟨b.val * 16 + q.val, h⟩ k) = Cert.Spec.arr S32x16x2048 (W (Proc.devRef .tc main_v31)) (ix3 b q k) + Cert.Spec.arr S32x16x2048 (W (Proc.devRef .tc main_v58)) (ix3 b q k) := by
  after_results_simp
  exact (shapeCast_stack_flat_apply _ _ b q k h).trans rfl
theorem h8_v62 (b : Fin 32) (q : Fin 16) (dd : Fin 2048) (h : b.val * 16 + q.val < 512) :
    Cert.Spec.arr S32x16x2048 (after (hostOps8 (F := Ideal)) W (Proc.devRef .tc main_v62)) (ix3 b q dd) = Cert.Spec.arr S512x2048 (W (Proc.devRef .tc main_v61)) (ix2 ⟨b.val * 16 + q.val, h⟩ dd) := by
  after_results_simp
  exact shapeCast_flat_stack_apply _ _ b q dd h
theorem h10_v93 (g : Fin 128) (p : Fin 288) (c : Fin 2048) (h : g.val * 288 + p.val < 36864) :
    Cert.Spec.arr S36864x2048 (after (hostOps10 (F := Ideal)) W (Proc.devRef .tc main_v93)) (ix2 ⟨g.val * 288 + p.val, h⟩ c) = Cert.Spec.arr S128x288x2048 (W (Proc.devRef .tc main_v88)) (ix3 g p c) + Cert.Spec.arr S128x1x2048 (W (Proc.devRef .tc main_v86)) (ix3 g (0 : Fin 1) c) := by
  after_results_simp
  refine (shapeCast_stack_flat_apply _ _ g p c h).trans ?_
  exact congrArg (Cert.Spec.arr S128x288x2048 (W (Proc.devRef .tc main_v88)) (ix3 g p c) + ·)
    (bcast_mid_apply (by decide) (by decide) _ _ g p c)
theorem h11_v95 (b : Fin 32) (n : Fin 1152) (dd : Fin 2048) (h : b.val * 1152 + n.val < 36864) :
    Cert.Spec.arr S32x1152x2048 (after (hostOps11 (F := Ideal)) W (Proc.devRef .tc main_v95)) (ix3 b n dd) = Cert.Spec.arr S36864x2048 (W (Proc.devRef .tc main_v94)) (ix2 ⟨b.val * 1152 + n.val, h⟩ dd) := by
  after_results_simp
  exact shapeCast_flat_stack_apply _ _ b n dd h

end Cert.KernelIdeal.Host
end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.LibFoldBounds.lean ====
/-
  Minimum and maximum reductions over the extended reals, read by their bounds.

  A fold of `min` from +∞ over a finite family is the family's infimum, and the infimum is the one value whose
  lower bounds are exactly the common lower bounds of the family: `c ≤ inf ↔ ∀ i, c ≤ xᵢ`. Dually for `max` from
  -∞. Stated this way a reduction never has to be computed or re-ordered: two reductions are equal as soon as
  they have the same lower (upper) bounds (`eq_of_forall_le_iff`, `eq_of_forall_ge_iff`), whatever the shapes
  and however many axes each reduces at once. The lemmas cover a host reduction (any set of axes, into any
  shape, rank zero included) and a vector reduction inside a kernel, generic in the shapes and the float format.
-/
import Idealize.ShloMosaic.PureOps.Ideal
import Idealize.ShloMosaic.PureOps.Ideal.Laws
import Idealize.ShloMosaic.PureOps.Reduce

noncomputable section

namespace Cert.FoldBounds

open Idealize.ShloMosaic

/-- The f32 word of +∞ is the top of the extended reals, -/
theorem posInf_f32 : Ideal.ofBits .f32 0x7F800000#32 = (⊤ : EReal) := by simp [Ideal.ofBits, Ideal.ieee]

/-- and the word of -∞ its bottom. -/
theorem negInf_f32 : Ideal.ofBits .f32 0xFF800000#32 = (⊥ : EReal) := by simp [Ideal.ofBits, Ideal.ieee]

variable {s t u : Shape} {axes : List (Fin s.rank)} {φ : FTy}

/-- A host minimum-reduction from +∞, at result index `j`: its lower bounds are the common lower bounds of the
    operand's entries that reduce to `j`. -/
theorem le_hostReduce_min (x : s.Idx → Ideal φ) (init : u.Idx → Ideal φ) (h : s.ReducesTo axes t) (hu : 0 < u.numel)
    (hinit : init (Shape.Idx.first hu) = (⊤ : EReal)) (j : t.Idx) (c : EReal) :
    c ≤ Host.reduce (FloatOps.minimumf (F := Ideal) (φ := φ)) x init h hu j ↔ ∀ i, h.drop i = j → c ≤ x i := by
  rw [Host.reduce_eq_fold, hinit]
  show c ≤ Finset.fold min (⊤ : EReal) x _ ↔ _
  rw [Finset.le_fold_min]
  simp only [le_top, true_and, Finset.mem_filter, Finset.mem_univ]

/-- A host maximum-reduction from -∞, at result index `j`: its upper bounds are the common upper bounds of the
    operand's entries that reduce to `j`. -/
theorem hostReduce_max_le (x : s.Idx → Ideal φ) (init : u.Idx → Ideal φ) (h : s.ReducesTo axes t) (hu : 0 < u.numel)
    (hinit : init (Shape.Idx.first hu) = (⊥ : EReal)) (j : t.Idx) (c : EReal) :
    Host.reduce (FloatOps.maximumf (F := Ideal) (φ := φ)) x init h hu j ≤ c ↔ ∀ i, h.drop i = j → x i ≤ c := by
  rw [Host.reduce_eq_fold, hinit]
  show Finset.fold max (⊥ : EReal) x _ ≤ c ↔ _
  rw [Finset.fold_max_le]
  simp only [bot_le, true_and, Finset.mem_filter, Finset.mem_univ]

/-- A kernel's vector minimum-reduction whose accumulator word reads +∞, at result index `j`. -/
theorem le_multiReduction_min (src : FVec Ideal s φ) (acc : BitVec φ.bits) (h : s.Reduces axes t)
    (hφ : FKind.Formats φ) (hacc : acc = FKind.minimumf.neutral φ hφ) (htop : Ideal.ofBits φ acc = (⊤ : EReal))
    (j : t.Idx) (c : EReal) :
    c ≤ multiReduction (F := Ideal) .minimumf axes t src acc h hφ hacc j ↔ ∀ i, h.drop i = j → c ≤ src i := by
  rw [multiReduction_minimumf_eq_fold, Ideal.ofBits_def, htop]
  show c ≤ Finset.fold min (⊤ : EReal) src _ ↔ _
  rw [Finset.le_fold_min]
  simp only [le_top, true_and, Finset.mem_filter, Finset.mem_univ]

/-- A kernel's vector maximum-reduction whose accumulator word reads -∞, at result index `j`. -/
theorem multiReduction_max_le (src : FVec Ideal s φ) (acc : BitVec φ.bits) (h : s.Reduces axes t)
    (hφ : FKind.Formats φ) (hacc : acc = FKind.maximumf.neutral φ hφ) (hbot : Ideal.ofBits φ acc = (⊥ : EReal))
    (j : t.Idx) (c : EReal) :
    multiReduction (F := Ideal) .maximumf axes t src acc h hφ hacc j ≤ c ↔ ∀ i, h.drop i = j → src i ≤ c := by
  rw [multiReduction_maximumf_eq_fold, Ideal.ofBits_def, hbot]
  show Finset.fold max (⊥ : EReal) src _ ≤ c ↔ _
  rw [Finset.fold_max_le]
  simp only [bot_le, true_and, Finset.mem_filter, Finset.mem_univ]

end Cert.FoldBounds

end
-- ==== Proof.PatchAttnBody.lean ====
/-
  The patch self-attention body read at an entry.

  On a block of 288 rows of length 2048 the body divides every row by its Euclidean length (bounded below by a small
  constant), forms all inner products of the normalised rows, turns each row of inner products into a softmax, and
  weights the block's own rows by it.  Each step is read at one index: a row reduction that keeps its axis reads its
  row, a product of matrices reads the sum over the contracted coordinate, a transpose swaps the two coordinates.
-/
import proofs.«101814_j47201690583535_1_alg».proof.Proof.Gen.KernelIdeal.Skeleton
import proofs.«101814_j47201690583535_1_alg».proof.Proof.Spec
import proofs.«101814_j47201690583535_1_alg».proof.Proof.LibKeepdims
import proofs.«101814_j47201690583535_1_alg».proof.Proof.LibPlainMatmul
import proofs.«101814_j47201690583535_1_alg».proof.Proof.LibFoldBounds

noncomputable section

open scoped BigOperators

namespace Cert.KernelIdeal.PatchAttn

open Cert.KernelIdeal Cert.KernelIdeal.Gen Idealize.ShloMosaic Idealize.ShloMosaic.ValueIdx

/-- The bounded length of row `p`: the sum of squares along the row, its square root, bounded below. -/
theorem rowLen_step (x : FVec Ideal S288x2048 .f32) (p : Fin 288) :
    maximumf (sqrt (shapeCast S288x1
        (multiReduction (F := Ideal) .add [1] S288 (mulf x x) 0x00000000#32 reduces_S288x2048_S288 (.inl rfl) rfl)
        shapeCasts_S288_S288x1)) (broadcast S288x1 (Scalar.ofBits .f32 0x2B8CBCCC#32)) (ix2 p (0 : Fin 1))
      = max (Ideal.sqrt (∑ k : Fin 2048, x (ix2 p k) * x (ix2 p k))) Cert.Spec.epsNorm := by
  show max (Ideal.sqrt (shapeCast S288x1 _ _ (ix2 p 0))) _ = _
  refine congrArg₂ max (congrArg Ideal.sqrt ?_) rfl
  refine (shapeCast_a_a1_apply _ _ p 0).trans ?_
  exact multiReduction_add_row (mulf x x) _ _ _ _ p

/-- A row divided by its bounded length. -/
theorem l2n_step (x : FVec Ideal S288x2048 .f32) (p : Fin 288) (k : Fin 2048) :
    divf x (broadcastTo S288x2048 (maximumf (sqrt (shapeCast S288x1
        (multiReduction (F := Ideal) .add [1] S288 (mulf x x) 0x00000000#32 reduces_S288x2048_S288 (.inl rfl) rfl)
        shapeCasts_S288_S288x1)) (broadcast S288x1 (Scalar.ofBits .f32 0x2B8CBCCC#32)))
        broadcasts_S288x1_S288x2048) (ix2 p k)
      = Cert.Spec.l2n (fun p' k' => x (ix2 p' k')) p k := by
  show Ideal.div (x (ix2 p k)) _ = _
  refine congrArg (Ideal.div (x (ix2 p k))) ?_
  refine (broadcastTo_a1_ab_apply _ _ p k).trans ?_
  exact rowLen_step x p

/-- The shifted exponentials of a block of scores: each entry less its row's maximum, exponentiated. -/
abbrev expShift (s : FVec Ideal S288x288 .f32) : FVec Ideal S288x288 .f32 :=
  exp (subf s (broadcastTo S288x288 (shapeCast S288x1
    (multiReduction (F := Ideal) .maximumf [1] S288 s 0xFF800000#32 reduces_S288x288_S288 (.inl rfl) rfl)
    shapeCasts_S288_S288x1) broadcasts_S288x1_S288x288))

/-- The row maximum kept as a column and broadcast back reads the maximum of the row. -/
theorem rowMax_step (s : FVec Ideal S288x288 .f32) (p q : Fin 288) :
    broadcastTo S288x288 (shapeCast S288x1
      (multiReduction (F := Ideal) .maximumf [1] S288 s 0xFF800000#32 reduces_S288x288_S288 (.inl rfl) rfl)
      shapeCasts_S288_S288x1) broadcasts_S288x1_S288x288 (ix2 p q)
      = Cert.Spec.rowMax (fun q' => s (ix2 p q')) := by
  refine (broadcastTo_a1_ab_apply _ _ p q).trans ?_
  refine (shapeCast_a_a1_apply _ _ p 0).trans ?_
  refine (multiReduction_maximumf_row s _ _ _ _ p).trans ?_
  unfold Cert.Spec.rowMax
  rw [Cert.FoldBounds.negInf_f32]

theorem expShift_apply (s : FVec Ideal S288x288 .f32) (p q : Fin 288) :
    expShift s (ix2 p q) = Ideal.exp (s (ix2 p q) - Cert.Spec.rowMax (fun q' => s (ix2 p q'))) := by
  show Ideal.exp (s (ix2 p q) - _) = _
  exact congrArg (fun z => Ideal.exp (s (ix2 p q) - z)) (rowMax_step s p q)

/-- The softmax of a block of scores, row by row. -/
theorem softmax_step (s : FVec Ideal S288x288 .f32) (p q : Fin 288) :
    divf (expShift s) (broadcastTo S288x288 (shapeCast S288x1
      (multiReduction (F := Ideal) .add [1] S288 (expShift s) 0x00000000#32 reduces_S288x288_S288 (.inl rfl) rfl)
      shapeCasts_S288_S288x1) broadcasts_S288x1_S288x288) (ix2 p q)
      = Cert.Spec.softmax (fun q' => s (ix2 p q')) q := by
  show Ideal.div (expShift s (ix2 p q)) _ = _
  unfold Cert.Spec.softmax
  refine congrArg₂ Ideal.div (expShift_apply s p q) ?_
  refine (broadcastTo_a1_ab_apply _ _ p q).trans ?_
  refine (shapeCast_a_a1_apply _ _ p 0).trans ?_
  refine (multiReduction_add_row (expShift s) _ _ _ _ p).trans ?_
  exact Finset.sum_congr rfl fun k _ => expShift_apply s p k

/-- The normalised rows of a block. -/
abbrev normed (x : FVec Ideal S288x2048 .f32) : FVec Ideal S288x2048 .bf16 :=
  truncf .bf16 (divf x (broadcastTo S288x2048 (maximumf (sqrt (shapeCast S288x1
        (multiReduction (F := Ideal) .add [1] S288 (mulf x x) 0x00000000#32 reduces_S288x2048_S288 (.inl rfl) rfl)
        shapeCasts_S288_S288x1)) (broadcast S288x1 (Scalar.ofBits .f32 0x2B8CBCCC#32)))
        broadcasts_S288x1_S288x2048)) bitsLt_bf16_f32

theorem normed_apply (x : FVec Ideal S288x2048 .f32) (p : Fin 288) (k : Fin 2048) :
    normed x (ix2 p k) = Cert.Spec.l2n (fun p' k' => x (ix2 p' k')) p k := l2n_step x p k

/-- The inner products of the normalised rows: the normalised block times its transpose. -/
abbrev scores (x : FVec Ideal S288x2048 .f32) : FVec Ideal S288x288 .f32 :=
  matmul (F := Ideal) dot_S288x2048_S2048x288_S288x288_1_0_0_1_n_n none (normed x)
    (transpose S2048x288 [1, 0] (normed x) transposes_S288x2048_p1_0_S2048x288)
    (constant (F := Ideal) S288x288 .f32 0x00000000#32)

theorem scores_apply (x : FVec Ideal S288x2048 .f32) (p q : Fin 288) :
    scores x (ix2 p q) = ∑ k : Fin 2048, Cert.Spec.l2n (fun p' k' => x (ix2 p' k')) p k
      * Cert.Spec.l2n (fun p' k' => x (ix2 p' k')) q k := by
  refine (Cert.LibPlainMatmul.matmul_plain_zero_apply none _ _ p q).trans ?_
  refine Finset.sum_congr rfl fun k _ => ?_
  refine congrArg₂ (· * ·) (normed_apply x p k) ?_
  refine (transpose_ix2_apply _ _ k q).trans ?_
  exact normed_apply x q k

/-- The softmaxed scores weighting the block's own rows. -/
abbrev attnOut (x : FVec Ideal S288x2048 .f32) : FVec Ideal S288x2048 .f32 :=
  matmul (F := Ideal) dot_S288x288_S288x2048_S288x2048_1_0_0_1_n_n none
    (truncf .bf16 (divf (expShift (scores x)) (broadcastTo S288x288 (shapeCast S288x1
      (multiReduction (F := Ideal) .add [1] S288 (expShift (scores x)) 0x00000000#32 reduces_S288x288_S288 (.inl rfl) rfl)
      shapeCasts_S288_S288x1) broadcasts_S288x1_S288x288)) bitsLt_bf16_f32)
    (truncf .bf16 x bitsLt_bf16_f32)
    (constant (F := Ideal) S288x2048 .f32 0x00000000#32)

theorem attnOut_apply (x : FVec Ideal S288x2048 .f32) (p : Fin 288) (c : Fin 2048) :
    attnOut x (ix2 p c) = Cert.Spec.patchAttn (fun p' k' => x (ix2 p' k')) p c := by
  refine (Cert.LibPlainMatmul.matmul_plain_zero_apply none _ _ p c).trans ?_
  unfold Cert.Spec.patchAttn
  refine Finset.sum_congr rfl fun q _ => ?_
  refine congrArg₂ (· * ·) ?_ rfl
  refine (softmax_step (scores x) p q).trans ?_
  exact congrArg (fun f => Cert.Spec.softmax f q) (funext fun q' => scores_apply x p q')

/-- The body's payload is the attention of the block cast to a matrix, cast back. -/
theorem pay0_eq (v0 : Vec Ideal S1x288x2048 .f32) :
    k0_pay1 (F := Ideal) v0 = shapeCast S1x288x2048
      (truncf .bf16 (attnOut (shapeCast S288x2048 v0 shapeCasts_S1x288x2048_S288x2048)) bitsLt_bf16_f32)
      shapeCasts_S288x2048_S1x288x2048 := rfl

theorem pay0_apply (v0 : Vec Ideal S1x288x2048 .f32) (p : Fin 288) (c : Fin 2048) :
    k0_pay1 (F := Ideal) v0 (ix3 (0 : Fin 1) p c)
      = Cert.Spec.patchAttn (fun p' k => v0 (ix3 (0 : Fin 1) p' k)) p c := by
  rw [pay0_eq]
  refine (shapeCast_ab_1ab_apply _ _ 0 p c).trans ?_
  refine (attnOut_apply _ p c).trans ?_
  exact congrArg (fun g => Cert.Spec.patchAttn g p c)
    (funext fun p' => funext fun k => shapeCast_1ab_ab_apply v0 _ p' k)

theorem pay9_eq (v0 : Vec Ideal S1x288x2048 .f32) : k9_pay1 (F := Ideal) v0 = k0_pay1 (F := Ideal) v0 := rfl

theorem pay9_apply (v0 : Vec Ideal S1x288x2048 .f32) (p : Fin 288) (c : Fin 2048) :
    k9_pay1 (F := Ideal) v0 (ix3 (0 : Fin 1) p c)
      = Cert.Spec.patchAttn (fun p' k => v0 (ix3 (0 : Fin 1) p' k)) p c := by
  rw [pay9_eq]; exact pay0_apply v0 p c

end Cert.KernelIdeal.PatchAttn

end
-- ==== Proof.PatchAttnRegions.lean ====
/-
  The two patch self-attention regions as whole arrays.

  Each grid point of a region reads one patch (a 288 by 2048 block of the input array, the block of the point's own
  number) and writes the self-attention of that patch to the block of the same number of the output array.  The
  blocks of the points tile the output array, so the array after the region is, patch by patch, the self-attention
  of the input array's patch.
-/
import proofs.«101814_j47201690583535_1_alg».proof.Proof.Gen.KernelIdeal.Frame
import proofs.«101814_j47201690583535_1_alg».proof.Proof.PatchAttnBody
import Idealize.ShloMosaic.Lib.Pipeline.Value

set_option maxRecDepth 16384

noncomputable section

open scoped BigOperators

namespace Cert.KernelIdeal.PatchAttn

open Cert.KernelIdeal Cert.KernelIdeal.Gen Idealize.ShloMosaic Idealize.ShloMosaic.ValueIdx
open Idealize.ShloMosaic.TcCoe Idealize.SL.Sem
open Idealize.ShloMosaic.Pipeline (Dat)

theorem zero3 : (![0, 0, 0] : Fin 3 → Nat) = fun _ => 0 := funext fun a => by fin_cases a <;> rfl

/-- The body's payload at any index of its block, by coordinates. -/
theorem pay0_at (x0 : Vec Ideal S1x288x2048 .f32) (y : S1x288x2048.Idx) :
    k0_pay1 (F := Ideal) x0 y = Cert.Spec.patchAttn (fun p' k => x0 (ix3 (0 : Fin 1) p' k)) (y 1) (y 2) := by
  have hy : y = ix3 (0 : Fin 1) (y 1) (y 2) := by
    refine (eq_ix3 y).trans ?_
    exact congrArg (fun u : Fin 1 => ix3 u (y 1) (y 2)) (Subsingleton.elim (α := Fin 1) _ _)
  rw [hy]
  exact pay0_apply x0 (y 1) (y 2)

theorem pay9_at (x0 : Vec Ideal S1x288x2048 .f32) (y : S1x288x2048.Idx) :
    k9_pay1 (F := Ideal) x0 y = Cert.Spec.patchAttn (fun p' k => x0 (ix3 (0 : Fin 1) p' k)) (y 1) (y 2) :=
  (congrFun (pay9_eq x0) y).trans (pay0_at x0 y)

/-! ## Region 0: 32 patches -/

/-- The output array of region 0 as one function of its input array: patch by patch the self-attention. -/
def G0 (A : S32x288x2048.Idx → EReal) : S32x288x2048.Idx → EReal :=
  fun i => Cert.Spec.patchAttn (fun p' k => A (ix3 (i 0) p' k)) (i 1) (i 2)

/-- The payload of a block that is patch `i 0` of the array `A`, at the index inside the block that `i` has inside its patch. -/
theorem G0_block (A : S32x288x2048.Idx → EReal) (x0 : Vec Ideal S1x288x2048 .f32) (y : S1x288x2048.Idx) (i : S32x288x2048.Idx)
    (hx : ∀ (p' : Fin 288) (k : Fin 2048), x0 (ix3 (0 : Fin 1) p' k) = A (ix3 (i 0) p' k))
    (h1 : i 1 = y 1) (h2 : i 2 = y 2) :
    k0_pay1 (F := Ideal) x0 y = G0 A i := by
  refine (pay0_at x0 y).trans ?_
  unfold G0
  rw [h1, h2]
  exact congrArg (fun f => Cert.Spec.patchAttn f (y 1) (y 2)) (funext fun p' => funext fun k => hx p' k)

/-- The printed index maps over the grid: point `t` reads and writes the block of its own number. -/
theorem idx_facts0 : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

variable (V : (c : Dev nD) → (b : Ref sig .tc) → Buf (Elt Ideal) ((c : Thread nD τ).loc b))

/-- What point `t` writes back is block `t` of `G0` of the input array as the region finds it. -/
theorem flushed0_eq (c : Dev nD) (t : Fin cfg0.N) :
    (dat0 (F := Ideal) V c).flushed 1 t
      = ((cfg0.win 1).blk t).view.read (Elt Ideal) (G0 (V c (Pipeline.arrRef spec0 0))) := by
  show (cfg0.win 1).cut (grid0.coords t) ((dat0 V c).after 1 t) = _
  rw [after0_1]
  unfold out0_1
  rw [View.canon_unit_zero zero3]
  simp only [View.ld_unit_zero (S := S1x288x2048) zero3]
  obtain ⟨e0, e1, e2, e3, e4, e5⟩ := idx_facts0 t
  funext j
  show k0_pay1 (F := Ideal) (iblk0 V c 0 t) j = G0 (V c (Pipeline.arrRef spec0 0)) (((cfg0.win 1).blk t).view.emb j)
  refine G0_block (V c (Pipeline.arrRef spec0 0)) (iblk0 V c 0 t) j (((cfg0.win 1).blk t).view.emb j) ?_ ?_ ?_
  · intro p' k
    show V c (Pipeline.arrRef spec0 0) (((cfg0.win 0).blk t).view.emb (ix3 (0 : Fin 1) p' k)) = _
    refine congrArg (V c (Pipeline.arrRef spec0 0)) ?_
    funext a; apply Fin.ext
    match a with
    | ⟨0, _⟩ =>
      show win0_0.index t (0 : Fin 3) * 1 + 1 * (0 : ℕ) = win0_1.index t (0 : Fin 3) * 1 + 1 * (j 0).val
      have hj : (j 0).val < 1 := (j 0).isLt
      omega
    | ⟨1, _⟩ =>
      show win0_0.index t (1 : Fin 3) * 288 + 1 * p'.val = p'.val
      omega
    | ⟨2, _⟩ =>
      show win0_0.index t (2 : Fin 3) * 2048 + 1 * k.val = k.val
      omega
  · apply Fin.ext
    show win0_1.index t (1 : Fin 3) * 288 + 1 * (j 1).val = (j 1).val
    omega
  · apply Fin.ext
    show win0_1.index t (2 : Fin 3) * 2048 + 1 * (j 2).val = (j 2).val
    omega

/-- An index of the array is in point `t`'s block iff each coordinate is in the block's range on its axis. -/
theorem mem_blk0 (t : Fin cfg0.N) (i : S32x288x2048.Idx) :
    i ∈ ((cfg0.win 1).blk t).view.set ↔ ∀ a : Fin 3, win0_1.index t a * S1x288x2048.size a ≤ (i a).val
      ∧ (i a).val < win0_1.index t a * S1x288x2048.size a + S1x288x2048.size a := by
  show i ∈ ((View.whole main_v21).slice (win0_1.rect t)).set ↔ _
  rw [View.set_slice_whole, Rect.mem_set_unit]
  exact Iff.rfl

/-- Every index of the output array is in the block of the point numbered by its patch. -/
theorem cover0 (i : S32x288x2048.Idx) :
    ∃ t : Fin cfg0.N, (cfg0.win 1).flush t = true ∧ i ∈ ((cfg0.win 1).blk t).view.set := by
  have hi0 : (i 0).val < 32 := (i 0).isLt
  have hi1 : (i 1).val < 288 := (i 1).isLt
  have hi2 : (i 2).val < 2048 := (i 2).isLt
  obtain ⟨t, ht⟩ : ∃ t : Fin cfg0.N, t.val = (i 0).val := ⟨⟨(i 0).val, hi0⟩, rfl⟩
  refine ⟨t, flush0_1 t, ?_⟩
  rw [mem_blk0]
  obtain ⟨e0, e1, e2, e3, e4, e5⟩ := idx_facts0 t
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 288 ≤ (i 1).val ∧ (i 1).val < win0_1.index t (1 : Fin 3) * 288 + 288
    omega
  | ⟨2, _⟩ =>
    show win0_1.index t (2 : Fin 3) * 2048 ≤ (i 2).val ∧ (i 2).val < win0_1.index t (2 : Fin 3) * 2048 + 2048
    omega

/-- The output array after region 0 is `G0` of the input array as the region finds it. -/
theorem region0_array (c : Dev nD) :
    (dat0 (F := Ideal) V c).arrAt 1 cfg0.N = G0 (V c (Pipeline.arrRef spec0 0)) :=
  (dat0 (F := Ideal) V c).arrAt_eq_of_cover 1 (G0 (V c (Pipeline.arrRef spec0 0))) (fun t _ => flushed0_eq V c t) cover0

theorem region0_value (c : Dev nD) (g : Fin 32) (p : Fin 288) (c' : Fin 2048) :
    (dat0 (F := Ideal) V c).arrAt 1 cfg0.N (ix3 g p c')
      = Cert.Spec.patchAttn (fun p' k => V c (Pipeline.arrRef spec0 0) (ix3 g p' k)) p c' :=
  congrFun (region0_array V c) (ix3 g p c')

/-! ## Region 9: 128 patches -/

/-- The output array of region 9 as one function of its input array: patch by patch the self-attention. -/
def G9 (A : S128x288x2048.Idx → EReal) : S128x288x2048.Idx → EReal :=
  fun i => Cert.Spec.patchAttn (fun p' k => A (ix3 (i 0) p' k)) (i 1) (i 2)

/-- The payload of a block that is patch `i 0` of the array `A`, at the index inside the block that `i` has inside its patch. -/
theorem G9_block (A : S128x288x2048.Idx → EReal) (x0 : Vec Ideal S1x288x2048 .f32) (y : S1x288x2048.Idx) (i : S128x288x2048.Idx)
    (hx : ∀ (p' : Fin 288) (k : Fin 2048), x0 (ix3 (0 : Fin 1) p' k) = A (ix3 (i 0) p' k))
    (h1 : i 1 = y 1) (h2 : i 2 = y 2) :
    k9_pay1 (F := Ideal) x0 y = G9 A i := by
  refine (pay9_at x0 y).trans ?_
  unfold G9
  rw [h1, h2]
  exact congrArg (fun f => Cert.Spec.patchAttn f (y 1) (y 2)) (funext fun p' => funext fun k => hx p' k)

/-- The printed index maps over the grid: point `t` reads and writes the block of its own number. -/
theorem idx_facts9 : ∀ t : Fin cfg9.N, win9_0.index t (0 : Fin 3) = t.val ∧ win9_0.index t (1 : Fin 3) = 0
    ∧ win9_0.index t (2 : Fin 3) = 0 ∧ win9_1.index t (0 : Fin 3) = t.val ∧ win9_1.index t (1 : Fin 3) = 0
    ∧ win9_1.index t (2 : Fin 3) = 0 :=
  (by decide +kernel : ∀ t : Fin grid9.N, _)

/-- What point `t` writes back is block `t` of `G9` of the input array as the region finds it. -/
theorem flushed9_eq (c : Dev nD) (t : Fin cfg9.N) :
    (dat9 (F := Ideal) V c).flushed 1 t
      = ((cfg9.win 1).blk t).view.read (Elt Ideal) (G9 (V c (Pipeline.arrRef spec9 0))) := by
  show (cfg9.win 1).cut (grid9.coords t) ((dat9 V c).after 1 t) = _
  rw [after9_1]
  unfold out9_1
  rw [View.canon_unit_zero zero3]
  simp only [View.ld_unit_zero (S := S1x288x2048) zero3]
  obtain ⟨e0, e1, e2, e3, e4, e5⟩ := idx_facts9 t
  funext j
  show k9_pay1 (F := Ideal) (iblk9 V c 0 t) j = G9 (V c (Pipeline.arrRef spec9 0)) (((cfg9.win 1).blk t).view.emb j)
  refine G9_block (V c (Pipeline.arrRef spec9 0)) (iblk9 V c 0 t) j (((cfg9.win 1).blk t).view.emb j) ?_ ?_ ?_
  · intro p' k
    show V c (Pipeline.arrRef spec9 0) (((cfg9.win 0).blk t).view.emb (ix3 (0 : Fin 1) p' k)) = _
    refine congrArg (V c (Pipeline.arrRef spec9 0)) ?_
    funext a; apply Fin.ext
    match a with
    | ⟨0, _⟩ =>
      show win9_0.index t (0 : Fin 3) * 1 + 1 * (0 : ℕ) = win9_1.index t (0 : Fin 3) * 1 + 1 * (j 0).val
      have hj : (j 0).val < 1 := (j 0).isLt
      omega
    | ⟨1, _⟩ =>
      show win9_0.index t (1 : Fin 3) * 288 + 1 * p'.val = p'.val
      omega
    | ⟨2, _⟩ =>
      show win9_0.index t (2 : Fin 3) * 2048 + 1 * k.val = k.val
      omega
  · apply Fin.ext
    show win9_1.index t (1 : Fin 3) * 288 + 1 * (j 1).val = (j 1).val
    omega
  · apply Fin.ext
    show win9_1.index t (2 : Fin 3) * 2048 + 1 * (j 2).val = (j 2).val
    omega

/-- An index of the array is in point `t`'s block iff each coordinate is in the block's range on its axis. -/
theorem mem_blk9 (t : Fin cfg9.N) (i : S128x288x2048.Idx) :
    i ∈ ((cfg9.win 1).blk t).view.set ↔ ∀ a : Fin 3, win9_1.index t a * S1x288x2048.size a ≤ (i a).val
      ∧ (i a).val < win9_1.index t a * S1x288x2048.size a + S1x288x2048.size a := by
  show i ∈ ((View.whole main_v88).slice (win9_1.rect t)).set ↔ _
  rw [View.set_slice_whole, Rect.mem_set_unit]
  exact Iff.rfl

/-- Every index of the output array is in the block of the point numbered by its patch. -/
theorem cover9 (i : S128x288x2048.Idx) :
    ∃ t : Fin cfg9.N, (cfg9.win 1).flush t = true ∧ i ∈ ((cfg9.win 1).blk t).view.set := by
  have hi0 : (i 0).val < 128 := (i 0).isLt
  have hi1 : (i 1).val < 288 := (i 1).isLt
  have hi2 : (i 2).val < 2048 := (i 2).isLt
  obtain ⟨t, ht⟩ : ∃ t : Fin cfg9.N, t.val = (i 0).val := ⟨⟨(i 0).val, hi0⟩, rfl⟩
  refine ⟨t, flush9_1 t, ?_⟩
  rw [mem_blk9]
  obtain ⟨e0, e1, e2, e3, e4, e5⟩ := idx_facts9 t
  intro a
  match a with
  | ⟨0, _⟩ =>
    show win9_1.index t (0 : Fin 3) * 1 ≤ (i 0).val ∧ (i 0).val < win9_1.index t (0 : Fin 3) * 1 + 1
    omega
  | ⟨1, _⟩ =>
    show win9_1.index t (1 : Fin 3) * 288 ≤ (i 1).val ∧ (i 1).val < win9_1.index t (1 : Fin 3) * 288 + 288
    omega
  | ⟨2, _⟩ =>
    show win9_1.index t (2 : Fin 3) * 2048 ≤ (i 2).val ∧ (i 2).val < win9_1.index t (2 : Fin 3) * 2048 + 2048
    omega

/-- The output array after region 9 is `G9` of the input array as the region finds it. -/
theorem region9_array (c : Dev nD) :
    (dat9 (F := Ideal) V c).arrAt 1 cfg9.N = G9 (V c (Pipeline.arrRef spec9 0)) :=
  (dat9 (F := Ideal) V c).arrAt_eq_of_cover 1 (G9 (V c (Pipeline.arrRef spec9 0))) (fun t _ => flushed9_eq V c t) cover9

theorem region9_value (c : Dev nD) (g : Fin 128) (p : Fin 288) (c' : Fin 2048) :
    (dat9 (F := Ideal) V c).arrAt 1 cfg9.N (ix3 g p c')
      = Cert.Spec.patchAttn (fun p' k => V c (Pipeline.arrRef spec9 0) (ix3 g p' k)) p c' :=
  congrFun (region9_array V c) (ix3 g p c')

end Cert.KernelIdeal.PatchAttn

end
-- ==== Proof.AttnBody.lean ====
/-
  The batched attention body read at an entry.

  One grid point of the attention kernels holds one query block of 16 rows, and T key rows and T value rows of length
  2048.  The body forms the 16 x T scores (inner products of query rows with key rows, times the attention scale),
  takes each row's softmax (exponentials of the scores less the row's maximum, over their sum) and weights the value
  rows by it.  Read at an entry (i, c) this is the scaled attention of query row i over the key and value rows, at any T.
-/
import proofs.«101814_j47201690583535_1_alg».proof.Proof.Gen.KernelIdeal.Skeleton
import proofs.«101814_j47201690583535_1_alg».proof.Proof.Spec
import proofs.«101814_j47201690583535_1_alg».proof.Proof.LibKeepdims
import proofs.«101814_j47201690583535_1_alg».proof.Proof.LibPlainMatmul
import proofs.«101814_j47201690583535_1_alg».proof.Proof.LibFoldBounds

noncomputable section

open scoped BigOperators

namespace Cert.KernelIdeal.Attn

open Cert.KernelIdeal Cert.KernelIdeal.Gen Idealize.ShloMosaic Idealize.ShloMosaic.ValueIdx

variable {T : ℕ}

/-- The scores: query rows against key rows, scaled. -/
def scores (q : (⟨3, ![1, 16, 2048]⟩ : Shape).Idx → EReal) (k : (⟨3, ![1, T, 2048]⟩ : Shape).Idx → EReal)
    (i : Fin 16) (n : Fin T) : EReal :=
  (∑ j : Fin 2048, q (ix3 (0 : Fin 1) i j) * k (ix3 (0 : Fin 1) n j)) * Cert.Spec.scale

/-- The scaled product of the query block with the transposed key block, at (i, n). -/
theorem scores_apply
    (hq : (⟨3, ![1, 16, 2048]⟩ : Shape).ShapeCasts ⟨2, ![16, 2048]⟩)
    (hk : (⟨3, ![1, T, 2048]⟩ : Shape).ShapeCasts ⟨2, ![T, 2048]⟩)
    (ht : (⟨2, ![T, 2048]⟩ : Shape).Transposes [1, 0] ⟨2, ![2048, T]⟩)
    (q : Vec Ideal ⟨3, ![1, 16, 2048]⟩ .bf16) (k : Vec Ideal ⟨3, ![1, T, 2048]⟩ .bf16) (i : Fin 16) (n : Fin T) :
    mulf (matmul (F := Ideal) (DotDims.plain 16 2048 T) none
            (shapeCast ⟨2, ![16, 2048]⟩ q hq : FVec Ideal ⟨2, ![16, 2048]⟩ .bf16)
            (transpose ⟨2, ![2048, T]⟩ [1, 0] (shapeCast ⟨2, ![T, 2048]⟩ k hk : FVec Ideal ⟨2, ![T, 2048]⟩ .bf16) ht)
            (constant (F := Ideal) ⟨2, ![16, T]⟩ .f32 0x00000000#32))
        (broadcast ⟨2, ![16, T]⟩ (Scalar.ofBits (F := Ideal) .f32 0x3CB504F3#32)) (ix2 i n)
      = scores q k i n := by
  refine (mulf_apply _ _ _).trans ?_
  refine congrArg₂ (· * ·) ?_ rfl
  refine (Cert.LibPlainMatmul.matmul_plain_zero_apply none _ _ i n).trans ?_
  refine Finset.sum_congr rfl fun j _ => ?_
  refine congrArg₂ (· * ·) (shapeCast_1ab_ab_apply q hq i j) ?_
  exact (transpose_ix2_apply _ ht j n).trans (shapeCast_1ab_ab_apply k hk n j)

/-- The exponential of the scores less their row's maximum, at (i, n): the maximum is the fold of max from -∞ over
    the row, kept as a column and spread back over the row. -/
theorem expSub_apply (s : FVec Ideal ⟨2, ![16, T]⟩ .f32)
    (hr : (⟨2, ![16, T]⟩ : Shape).Reduces [(1 : Fin 2)] ⟨1, ![16]⟩) (hφ : FKind.Formats .f32)
    (hacc : (0xFF800000#32 : BitVec FTy.f32.bits) = FKind.maximumf.neutral .f32 hφ)
    (hc : (⟨1, ![16]⟩ : Shape).ShapeCasts ⟨2, ![16, 1]⟩)
    (hb : (⟨2, ![16, 1]⟩ : Shape).Broadcasts ⟨2, ![16, T]⟩) (i : Fin 16) (n : Fin T) :
    exp (subf s (broadcastTo ⟨2, ![16, T]⟩ (shapeCast ⟨2, ![16, 1]⟩
        (multiReduction (F := Ideal) .maximumf [(1 : Fin 2)] ⟨1, ![16]⟩ s 0xFF800000#32 hr hφ hacc) hc) hb)) (ix2 i n)
      = Ideal.exp (s (ix2 i n) - Cert.Spec.rowMax (fun n' => s (ix2 i n'))) := by
  show Ideal.exp (s (ix2 i n) - broadcastTo ⟨2, ![16, T]⟩ (shapeCast ⟨2, ![16, 1]⟩
        (multiReduction (F := Ideal) .maximumf [(1 : Fin 2)] ⟨1, ![16]⟩ s 0xFF800000#32 hr hφ hacc) hc) hb (ix2 i n)) = _
  refine congrArg (fun m => Ideal.exp (s (ix2 i n) - m)) ?_
  refine (broadcastTo_a1_ab_apply _ hb i n).trans ?_
  refine (shapeCast_a_a1_apply _ hc i 0).trans ?_
  refine (multiReduction_maximumf_row s _ hr hφ hacc i).trans ?_
  unfold Cert.Spec.rowMax
  rw [Cert.FoldBounds.negInf_f32]

/-- A row of values over the row's sum, the sum kept as a column and spread back over the row, at (i, n). -/
theorem overSum_apply (e : FVec Ideal ⟨2, ![16, T]⟩ .f32)
    (hr : (⟨2, ![16, T]⟩ : Shape).Reduces [(1 : Fin 2)] ⟨1, ![16]⟩) (hφ : FKind.Formats .f32)
    (hacc : (0x00000000#32 : BitVec FTy.f32.bits) = FKind.add.neutral .f32 hφ)
    (hc : (⟨1, ![16]⟩ : Shape).ShapeCasts ⟨2, ![16, 1]⟩)
    (hb : (⟨2, ![16, 1]⟩ : Shape).Broadcasts ⟨2, ![16, T]⟩) (i : Fin 16) (n : Fin T) :
    divf e (broadcastTo ⟨2, ![16, T]⟩ (shapeCast ⟨2, ![16, 1]⟩
        (multiReduction (F := Ideal) .add [(1 : Fin 2)] ⟨1, ![16]⟩ e 0x00000000#32 hr hφ hacc) hc) hb) (ix2 i n)
      = Ideal.div (e (ix2 i n)) (∑ n' : Fin T, e (ix2 i n')) := by
  refine (divf_apply _ _ _).trans ?_
  refine congrArg (Ideal.div (e (ix2 i n))) ?_
  refine (broadcastTo_a1_ab_apply _ hb i n).trans ?_
  refine (shapeCast_a_a1_apply _ hc i 0).trans ?_
  exact multiReduction_add_row e _ hr hφ hacc i

/-- The softmax of a block of scores along its rows, as the kernel spells it, at (i, n). -/
theorem probs_apply (s : FVec Ideal ⟨2, ![16, T]⟩ .f32)
    (hr : (⟨2, ![16, T]⟩ : Shape).Reduces [(1 : Fin 2)] ⟨1, ![16]⟩) (hφm hφa : FKind.Formats .f32)
    (haccm : (0xFF800000#32 : BitVec FTy.f32.bits) = FKind.maximumf.neutral .f32 hφm)
    (hacca : (0x00000000#32 : BitVec FTy.f32.bits) = FKind.add.neutral .f32 hφa)
    (hc : (⟨1, ![16]⟩ : Shape).ShapeCasts ⟨2, ![16, 1]⟩)
    (hb : (⟨2, ![16, 1]⟩ : Shape).Broadcasts ⟨2, ![16, T]⟩) (i : Fin 16) (n : Fin T) :
    divf (exp (subf s (broadcastTo ⟨2, ![16, T]⟩ (shapeCast ⟨2, ![16, 1]⟩
          (multiReduction (F := Ideal) .maximumf [(1 : Fin 2)] ⟨1, ![16]⟩ s 0xFF800000#32 hr hφm haccm) hc) hb)))
        (broadcastTo ⟨2, ![16, T]⟩ (shapeCast ⟨2, ![16, 1]⟩
          (multiReduction (F := Ideal) .add [(1 : Fin 2)] ⟨1, ![16]⟩
            (exp (subf s (broadcastTo ⟨2, ![16, T]⟩ (shapeCast ⟨2, ![16, 1]⟩
              (multiReduction (F := Ideal) .maximumf [(1 : Fin 2)] ⟨1, ![16]⟩ s 0xFF800000#32 hr hφm haccm) hc) hb)))
            0x00000000#32 hr hφa hacca) hc) hb) (ix2 i n)
      = Cert.Spec.softmax (fun n' => s (ix2 i n')) n := by
  refine (overSum_apply _ hr hφa hacca hc hb i n).trans ?_
  unfold Cert.Spec.softmax
  exact congrArg₂ Ideal.div (expSub_apply s hr hφm haccm hc hb i n)
    (Finset.sum_congr rfl fun n' _ => expSub_apply s hr hφm haccm hc hb i n')

/-- The weights times the value block, cast back to a one-entry batch, at (u, i, c). -/
theorem weighted_apply (p : FVec Ideal ⟨2, ![16, T]⟩ .f32) (v : Vec Ideal ⟨3, ![1, T, 2048]⟩ .bf16)
    (hv : (⟨3, ![1, T, 2048]⟩ : Shape).ShapeCasts ⟨2, ![T, 2048]⟩)
    (ho : (⟨2, ![16, 2048]⟩ : Shape).ShapeCasts ⟨3, ![1, 16, 2048]⟩)
    (hlt : FTy.bf16.bits < FTy.f32.bits) (u : Fin 1) (i : Fin 16) (c : Fin 2048) :
    shapeCast ⟨3, ![1, 16, 2048]⟩ (matmul (F := Ideal) (DotDims.plain 16 T 2048) none
        (truncf .bf16 p hlt : FVec Ideal ⟨2, ![16, T]⟩ .bf16)
        (shapeCast ⟨2, ![T, 2048]⟩ v hv : FVec Ideal ⟨2, ![T, 2048]⟩ .bf16)
        (constant (F := Ideal) ⟨2, ![16, 2048]⟩ .f32 0x00000000#32)) ho (ix3 u i c)
      = ∑ n : Fin T, p (ix2 i n) * v (ix3 (0 : Fin 1) n c) := by
  refine (shapeCast_ab_1ab_apply _ ho u i c).trans ?_
  refine (Cert.LibPlainMatmul.matmul_plain_zero_apply none _ _ i c).trans ?_
  exact Finset.sum_congr rfl fun n _ => congrArg₂ (· * ·) rfl (shapeCast_1ab_ab_apply v hv n c)

/-- The attention body of region 3 at an entry: the scaled attention of query row i over the 288 key and value rows. -/
theorem pay3_apply (q : Vec Ideal S1x16x2048 .bf16) (k v : Vec Ideal S1x288x2048 .bf16) (i : Fin 16) (c : Fin 2048) :
    k3_pay1 (F := Ideal) q k v (ix3 (0 : Fin 1) i c)
      = Cert.Spec.attn (fun j => q (ix3 (0 : Fin 1) i j)) (fun n j => k (ix3 (0 : Fin 1) n j)) (fun n j => v (ix3 (0 : Fin 1) n j)) c := by
  unfold k3_pay1
  refine (weighted_apply (T := 288) _ v _ _ _ 0 i c).trans ?_
  unfold Cert.Spec.attn
  refine Finset.sum_congr rfl fun n _ => congrArg (· * v (ix3 (0 : Fin 1) n c)) ?_
  refine (probs_apply (T := 288) _ _ _ _ _ _ _ _ i n).trans ?_
  exact congrArg (fun s => Cert.Spec.softmax s n) (funext fun n' => scores_apply (T := 288) _ _ _ q k i n')

/-- The attention body of region 8 at an entry: the scaled attention of query row i over the 288 key and value rows. -/
theorem pay8_apply (q : Vec Ideal S1x16x2048 .bf16) (k v : Vec Ideal S1x288x2048 .bf16) (i : Fin 16) (c : Fin 2048) :
    k8_pay1 (F := Ideal) q k v (ix3 (0 : Fin 1) i c)
      = Cert.Spec.attn (fun j => q (ix3 (0 : Fin 1) i j)) (fun n j => k (ix3 (0 : Fin 1) n j)) (fun n j => v (ix3 (0 : Fin 1) n j)) c := by
  unfold k8_pay1
  refine (weighted_apply (T := 288) _ v _ _ _ 0 i c).trans ?_
  unfold Cert.Spec.attn
  refine Finset.sum_congr rfl fun n _ => congrArg (· * v (ix3 (0 : Fin 1) n c)) ?_
  refine (probs_apply (T := 288) _ _ _ _ _ _ _ _ i n).trans ?_
  exact congrArg (fun s => Cert.Spec.softmax s n) (funext fun n' => scores_apply (T := 288) _ _ _ q k i n')

/-- The attention body of region 6 at an entry: the scaled attention of query row i over the 2048 key and value rows. -/
theorem pay6_apply (q : Vec Ideal S1x16x2048 .bf16) (k v : Vec Ideal S1x2048x2048 .bf16) (i : Fin 16) (c : Fin 2048) :
    k6_pay1 (F := Ideal) q k v (ix3 (0 : Fin 1) i c)
      = Cert.Spec.attn (fun j => q (ix3 (0 : Fin 1) i j)) (fun n j => k (ix3 (0 : Fin 1) n j)) (fun n j => v (ix3 (0 : Fin 1) n j)) c := by
  unfold k6_pay1
  refine (weighted_apply (T := 2048) _ v _ _ _ 0 i c).trans ?_
  unfold Cert.Spec.attn
  refine Finset.sum_congr rfl fun n _ => congrArg (· * v (ix3 (0 : Fin 1) n c)) ?_
  refine (probs_apply (T := 2048) _ _ _ _ _ _ _ _ i n).trans ?_
  exact congrArg (fun s => Cert.Spec.softmax s n) (funext fun n' => scores_apply (T := 2048) _ _ _ q k i n')

/-- The attention body of region 11 at an entry: the scaled attention of query row i over the 1152 key and value rows. -/
theorem pay11_apply (q : Vec Ideal S1x16x2048 .bf16) (k v : Vec Ideal S1x1152x2048 .bf16) (i : Fin 16) (c : Fin 2048) :
    k11_pay1 (F := Ideal) q k v (ix3 (0 : Fin 1) i c)
      = Cert.Spec.attn (fun j => q (ix3 (0 : Fin 1) i j)) (fun n j => k (ix3 (0 : Fin 1) n j)) (fun n j => v (ix3 (0 : Fin 1) n j)) c := by
  unfold k11_pay1
  refine (weighted_apply (T := 1152) _ v _ _ _ 0 i c).trans ?_
  unfold Cert.Spec.attn
  refine Finset.sum_congr rfl fun n _ => congrArg (· * v (ix3 (0 : Fin 1) n c)) ?_
  refine (probs_apply (T := 1152) _ _ _ _ _ _ _ _ i n).trans ?_
  exact congrArg (fun s => Cert.Spec.softmax s n) (funext fun n' => scores_apply (T := 1152) _ _ _ q k i n')

end Cert.KernelIdeal.Attn

end
-- ==== Proof.AttnRegion3.lean ====
/-
  Batched attention region 3, from blocks to the array.

  The region runs the attention body once per batch entry: grid point t stages batch entry t of the query array
  [32, 16, 2048], of the key and value arrays [32, 288, 2048], and writes batch entry t of the output array [32, 16, 2048].
  The blocks of the 32 points tile the output, so after the region the output array holds, at (b, i, c), the scaled
  attention of query row (b, i) over the key and value rows of batch entry b, read off the arrays as the region finds them.
-/
import proofs.«101814_j47201690583535_1_alg».proof.Proof.Gen.KernelIdeal.Frame
import proofs.«101814_j47201690583535_1_alg».proof.Proof.AttnBody
import Idealize.ShloMosaic.Lib.Pipeline.Value

set_option maxRecDepth 16384

noncomputable section

open scoped BigOperators

namespace Cert.KernelIdeal.Attn

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- A whole block starts at the zero offset. -/
theorem zeroOffset3 : (![0, 0, 0] : Fin 3 → Nat) = fun _ => 0 := funext fun a => by fin_cases a <;> rfl

/-! ## Region 3: 288 key and value rows per batch entry -/

/-- The body at any index of its block: the leading coordinate of a one-entry batch is zero. -/
theorem pay3_at (q : Vec Ideal S1x16x2048 .bf16) (k v : Vec Ideal S1x288x2048 .bf16) (y : S1x16x2048.Idx) :
    k3_pay1 (F := Ideal) q k v y
      = Cert.Spec.attn (fun j => q (ix3 (0 : Fin 1) (y 1) j)) (fun n j => k (ix3 (0 : Fin 1) n j)) (fun n j => v (ix3 (0 : Fin 1) n j)) (y 2) := by
  have hy : y = ix3 (0 : Fin 1) (y 1) (y 2) := by
    funext a
    match a with
    | ⟨0, _⟩ => exact Fin.ext (by have h0 : (y 0).val < 1 := (y 0).isLt; show (y 0).val = 0; omega)
    | ⟨1, _⟩ => rfl
    | ⟨2, _⟩ => rfl
  exact (congrArg (k3_pay1 (F := Ideal) q k v) hy).trans (pay3_apply q k v (y 1) (y 2))

/-- The output array of region 3 as one function of the query, key and value arrays: at (b, i, c) the scaled attention
    of query row (b, i) over the key and value rows of batch entry b. -/
def attnArray3 (c : Dev nD) : S32x16x2048.Idx → EReal := fun y =>
  Cert.Spec.attn (fun j => V c (Pipeline.arrRef spec3 0) (ix3 (y 0) (y 1) j)) (fun n j => V c (Pipeline.arrRef spec3 1) (ix3 (y 0) n j))
    (fun n j => V c (Pipeline.arrRef spec3 2) (ix3 (y 0) n j)) (y 2)

/-- The index maps of the four windows, decided over the grid: point t is at block (t, 0, 0) of each array. -/
theorem blockIndex3 : ∀ t : Fin cfg3.N,
    win3_0.index t (0 : Fin 3) = t.val ∧ win3_0.index t (1 : Fin 3) = 0 ∧ win3_0.index t (2 : Fin 3) = 0
    ∧ win3_1.index t (0 : Fin 3) = t.val ∧ win3_1.index t (1 : Fin 3) = 0 ∧ win3_1.index t (2 : Fin 3) = 0
    ∧ win3_2.index t (0 : Fin 3) = t.val ∧ win3_2.index t (1 : Fin 3) = 0 ∧ win3_2.index t (2 : Fin 3) = 0
    ∧ win3_3.index t (0 : Fin 3) = t.val ∧ win3_3.index t (1 : Fin 3) = 0 ∧ win3_3.index t (2 : Fin 3) = 0 :=
  (by decide +kernel : ∀ t : Fin grid3.N, _)

/-- What point t writes back is block t of the attention array. -/
theorem written3_eq (c : Dev nD) (t : Fin cfg3.N) :
    (dat3 (F := Ideal) V c).flushed 3 t = ((cfg3.win 3).blk t).view.read (Elt Ideal) (attnArray3 V c) := by
  show (cfg3.win 3).cut (grid3.coords t) ((dat3 V c).after 3 t) = _
  rw [after3_3]
  unfold out3_3
  rw [View.canon_unit_zero zeroOffset3]
  simp only [View.ld_unit_zero (S := S1x16x2048) zeroOffset3, View.ld_unit_zero (S := S1x288x2048) zeroOffset3]
  obtain ⟨a0, a1, a2, b0, b1, b2, c0, c1, c2, d0, d1, d2⟩ := blockIndex3 t
  funext y
  refine (pay3_at (iblk3 V c 0 t) (iblk3 V c 1 t) (iblk3 V c 2 t) y).trans ?_
  show _ = attnArray3 V c (((cfg3.win 3).blk t).view.emb y)
  unfold attnArray3
  have hy0 : (y 0).val < 1 := (y 0).isLt
  refine congr (congr (congr (congrArg Cert.Spec.attn (funext fun j => ?_)) (funext fun n => funext fun j => ?_)) (funext fun n => funext fun j => ?_)) ?_
  · show V c (Pipeline.arrRef spec3 0) (((cfg3.win 0).blk t).view.emb (ix3 (0 : Fin 1) (y 1) j)) = _
    refine congrArg (V c (Pipeline.arrRef spec3 0)) ?_
    funext a; apply Fin.ext
    match a with
    | ⟨0, _⟩ => show win3_0.index t (0 : Fin 3) * 1 + 1 * (0 : ℕ) = win3_3.index t (0 : Fin 3) * 1 + 1 * (y 0).val; omega
    | ⟨1, _⟩ => show win3_0.index t (1 : Fin 3) * 16 + 1 * (y 1).val = win3_3.index t (1 : Fin 3) * 16 + 1 * (y 1).val; omega
    | ⟨2, _⟩ => show win3_0.index t (2 : Fin 3) * 2048 + 1 * j.val = j.val; omega
  · show V c (Pipeline.arrRef spec3 1) (((cfg3.win 1).blk t).view.emb (ix3 (0 : Fin 1) n j)) = _
    refine congrArg (V c (Pipeline.arrRef spec3 1)) ?_
    funext a; apply Fin.ext
    match a with
    | ⟨0, _⟩ => show win3_1.index t (0 : Fin 3) * 1 + 1 * (0 : ℕ) = win3_3.index t (0 : Fin 3) * 1 + 1 * (y 0).val; omega
    | ⟨1, _⟩ => show win3_1.index t (1 : Fin 3) * 288 + 1 * n.val = n.val; omega
    | ⟨2, _⟩ => show win3_1.index t (2 : Fin 3) * 2048 + 1 * j.val = j.val; omega
  · show V c (Pipeline.arrRef spec3 2) (((cfg3.win 2).blk t).view.emb (ix3 (0 : Fin 1) n j)) = _
    refine congrArg (V c (Pipeline.arrRef spec3 2)) ?_
    funext a; apply Fin.ext
    match a with
    | ⟨0, _⟩ => show win3_2.index t (0 : Fin 3) * 1 + 1 * (0 : ℕ) = win3_3.index t (0 : Fin 3) * 1 + 1 * (y 0).val; omega
    | ⟨1, _⟩ => show win3_2.index t (1 : Fin 3) * 288 + 1 * n.val = n.val; omega
    | ⟨2, _⟩ => show win3_2.index t (2 : Fin 3) * 2048 + 1 * j.val = j.val; omega
  · apply Fin.ext
    show (y 2).val = win3_3.index t (2 : Fin 3) * 2048 + 1 * (y 2).val
    omega

/-- An index of the output array is in point t's block iff each coordinate is in the block's range on its axis. -/
theorem mem_block3 (t : Fin cfg3.N) (i : S32x16x2048.Idx) :
    i ∈ ((cfg3.win 3).blk t).view.set ↔ ∀ a : Fin 3, win3_3.index t a * S1x16x2048.size a ≤ (i a).val ∧ (i a).val < win3_3.index t a * S1x16x2048.size a + S1x16x2048.size a := by
  show i ∈ ((View.whole main_v31).slice (win3_3.rect t)).set ↔ _
  rw [View.set_slice_whole, Rect.mem_set_unit]
  exact Iff.rfl

/-- Batch entry b of the output is covered by grid point b. -/
theorem covered3 (i : S32x16x2048.Idx) : ∃ t : Fin cfg3.N, (cfg3.win 3).flush t = true ∧ i ∈ ((cfg3.win 3).blk t).view.set := by
  have hi0 : (i 0).val < 32 := (i 0).isLt
  have hi1 : (i 1).val < 16 := (i 1).isLt
  have hi2 : (i 2).val < 2048 := (i 2).isLt
  obtain ⟨t, ht⟩ : ∃ t : Fin cfg3.N, t.val = (i 0).val := ⟨⟨(i 0).val, hi0⟩, rfl⟩
  refine ⟨t, flush3_3 t, ?_⟩
  rw [mem_block3]
  obtain ⟨a0, a1, a2, b0, b1, b2, c0, c1, c2, d0, d1, d2⟩ := blockIndex3 t
  intro a
  match a with
  | ⟨0, _⟩ => show win3_3.index t (0 : Fin 3) * 1 ≤ (i 0).val ∧ (i 0).val < win3_3.index t (0 : Fin 3) * 1 + 1; omega
  | ⟨1, _⟩ => show win3_3.index t (1 : Fin 3) * 16 ≤ (i 1).val ∧ (i 1).val < win3_3.index t (1 : Fin 3) * 16 + 16; omega
  | ⟨2, _⟩ => show win3_3.index t (2 : Fin 3) * 2048 ≤ (i 2).val ∧ (i 2).val < win3_3.index t (2 : Fin 3) * 2048 + 2048; omega

/-- The output array after region 3 is the attention array. -/
theorem array3_eq (c : Dev nD) : (dat3 (F := Ideal) V c).arrAt 3 cfg3.N = attnArray3 V c :=
  (dat3 (F := Ideal) V c).arrAt_eq_of_cover 3 (attnArray3 V c) (fun t _ => written3_eq V c t) covered3

/-- The output array after region 3, at (b, i, c'): the scaled attention of query row (b, i) over the 288 key and value
    rows of batch entry b. -/
theorem region3_value (c : Dev nD) (b : Fin 32) (i : Fin 16) (c' : Fin 2048) :
    (dat3 (F := Ideal) V c).arrAt 3 cfg3.N (ix3 b i c')
      = Cert.Spec.attn (fun j => V c (Pipeline.arrRef spec3 0) (ix3 b i j)) (fun n j => V c (Pipeline.arrRef spec3 1) (ix3 b n j))
          (fun n j => V c (Pipeline.arrRef spec3 2) (ix3 b n j)) c' := by
  rw [array3_eq]
  rfl

end Cert.KernelIdeal.Attn

end
-- ==== Proof.ProjBody.lean ====
/-
  The projection body: a block of 512 rows times the whole 2048×2048 table, read at an entry.

  On the extended reals the two roundings of the body are the identity and the accumulator is the zero block, so the
  entry (a, d) of the result is the inner product of row a of the block with column d of the table.
-/
import proofs.«101814_j47201690583535_1_alg».proof.Proof.Gen.KernelIdeal.Skeleton
import proofs.«101814_j47201690583535_1_alg».proof.Proof.LibPlainMatmul
import Idealize.ShloMosaic.Lib.ValueIdx
import Idealize.ShloMosaic.Lib.Pipeline.Value

noncomputable section

open scoped BigOperators

namespace Cert.KernelIdeal.Proj

open Cert.KernelIdeal Cert.KernelIdeal.Gen Idealize.ShloMosaic Idealize.ShloMosaic.ValueIdx

/-- Entry (a, d) of the projection body: the inner product of row a of the left block with column d of the table. -/
theorem pay1_apply (x : Vec Ideal S512x2048 .f32) (w : Vec Ideal S2048x2048 .bf16) (a : Fin 512) (d : Fin 2048) :
    k1_pay1 (F := Ideal) x w (ix2 a d) = ∑ k : Fin 2048, x (ix2 a k) * w (ix2 k d) := by
  unfold k1_pay1
  simp only [shapeCast_self]
  exact Cert.LibPlainMatmul.matmul_plain_zero_apply (m := 512) (k := 2048) (n := 2048) (φ₁ := .bf16) (φ₂ := .bf16) none
    (truncf .bf16 x bitsLt_bf16_f32) w a d

theorem pay2_eq : @k2_pay1 = @k1_pay1 := rfl
theorem pay4_eq : @k4_pay1 = @k1_pay1 := rfl
theorem pay7_eq : @k7_pay1 = @k1_pay1 := rfl
theorem pay10_eq : @k10_pay1 = @k1_pay1 := rfl

theorem pay2_apply (x : Vec Ideal S512x2048 .f32) (w : Vec Ideal S2048x2048 .bf16) (a : Fin 512) (d : Fin 2048) :
    k2_pay1 (F := Ideal) x w (ix2 a d) = ∑ k : Fin 2048, x (ix2 a k) * w (ix2 k d) := pay1_apply x w a d

theorem pay4_apply (x : Vec Ideal S512x2048 .f32) (w : Vec Ideal S2048x2048 .bf16) (a : Fin 512) (d : Fin 2048) :
    k4_pay1 (F := Ideal) x w (ix2 a d) = ∑ k : Fin 2048, x (ix2 a k) * w (ix2 k d) := pay1_apply x w a d

theorem pay7_apply (x : Vec Ideal S512x2048 .f32) (w : Vec Ideal S2048x2048 .bf16) (a : Fin 512) (d : Fin 2048) :
    k7_pay1 (F := Ideal) x w (ix2 a d) = ∑ k : Fin 2048, x (ix2 a k) * w (ix2 k d) := pay1_apply x w a d

theorem pay10_apply (x : Vec Ideal S512x2048 .f32) (w : Vec Ideal S2048x2048 .bf16) (a : Fin 512) (d : Fin 2048) :
    k10_pay1 (F := Ideal) x w (ix2 a d) = ∑ k : Fin 2048, x (ix2 a k) * w (ix2 k d) := pay1_apply x w a d

end Cert.KernelIdeal.Proj

end
-- ==== Proof.ProjRegion1.lean ====
/-
  Region 1 (a projection): the output array after the region, entry by entry.

  The region runs the projection body on a grid of 18 points; each grid point writes back one block of 512 rows, the blocks tile
  the output array, and the entry (r, d) of the array ends as the inner product of row r of the left array with column d
  of the table, both as the region finds them.
-/
import proofs.«101814_j47201690583535_1_alg».proof.Proof.Gen.KernelIdeal.Frame
import proofs.«101814_j47201690583535_1_alg».proof.Proof.ProjBody
import proofs.«101814_j47201690583535_1_alg».proof.Proof.Spec
import Idealize.ShloMosaic.Lib.Pipeline.Value

noncomputable section

open scoped BigOperators

namespace Cert.KernelIdeal.Proj

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz_r1 : (![0, 0] : Fin 2 → Nat) = fun _ => 0 := funext fun a => by fin_cases a <;> rfl

/-- What the output array ends holding: at (r, d) the inner product of row r of the left array with column d of the table. -/
def G1 (c : Dev nD) : S9216x2048.Idx → EReal := fun i =>
  ∑ k : Fin 2048, Cert.Spec.arr S9216x2048 (V c (Pipeline.arrRef spec1 0)) (ix2 (i 0) k)
    * Cert.Spec.arr S2048x2048 (V c (Pipeline.arrRef spec1 1)) (ix2 k (i 1))

/-- The index maps, decided over the grid: the left and output windows sit at block row t, the table window at its only block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of `G1`. -/
theorem flushed1_eq (c : Dev nD) (t : Fin cfg1.N) :
    (dat1 (F := Ideal) V c).flushed 2 t = ((cfg1.win 2).blk t).view.read (Elt Ideal) (G1 V c) := by
  show (cfg1.win 2).cut (grid1.coords t) ((dat1 V c).after 2 t) = _
  rw [after1_2]
  unfold out1_2
  rw [View.canon_unit_zero hz_r1]
  simp only [View.ld_unit_zero (S := S512x2048) hz_r1, View.ld_unit_zero (S := S2048x2048) hz_r1]
  obtain ⟨e0, e1, e2, e3, e4, e5⟩ := idx_facts1 t
  funext j
  have hj : j = ix2 (n0 := 512) (n1 := 2048) (j 0) (j 1) := eq_ix2 (n0 := 512) (n1 := 2048) j
  show k1_pay1 (F := Ideal) (iblk1 V c 0 t) (iblk1 V c 1 t) j = G1 V c (((cfg1.win 2).blk t).view.emb j)
  rw [hj]
  refine (pay1_apply _ _ _ _).trans ?_
  unfold G1
  refine Finset.sum_congr rfl fun k _ => ?_
  have h0 : ((cfg1.win 0).blk t).view.emb (ix2 (n0 := 512) (n1 := 2048) (j 0) k)
      = ix2 ((((cfg1.win 2).blk t).view.emb (ix2 (n0 := 512) (n1 := 2048) (j 0) (j 1))) 0) k := by
    funext a; apply Fin.ext
    match a with
    | ⟨0, _⟩ => show win1_0.index t (0 : Fin 2) * 512 + 1 * (j 0).val = win1_2.index t (0 : Fin 2) * 512 + 1 * (j 0).val; omega
    | ⟨1, _⟩ => show win1_0.index t (1 : Fin 2) * 2048 + 1 * k.val = k.val; omega
  have h1 : ((cfg1.win 1).blk t).view.emb (ix2 (n0 := 2048) (n1 := 2048) k (j 1))
      = ix2 k ((((cfg1.win 2).blk t).view.emb (ix2 (n0 := 512) (n1 := 2048) (j 0) (j 1))) 1) := by
    funext a; apply Fin.ext
    match a with
    | ⟨0, _⟩ => show win1_1.index t (0 : Fin 2) * 2048 + 1 * k.val = k.val; omega
    | ⟨1, _⟩ => show win1_1.index t (1 : Fin 2) * 2048 + 1 * (j 1).val = win1_2.index t (1 : Fin 2) * 2048 + 1 * (j 1).val; omega
  show Cert.Spec.arr S9216x2048 (V c (Pipeline.arrRef spec1 0)) (((cfg1.win 0).blk t).view.emb (ix2 (n0 := 512) (n1 := 2048) (j 0) k))
      * Cert.Spec.arr S2048x2048 (V c (Pipeline.arrRef spec1 1)) (((cfg1.win 1).blk t).view.emb (ix2 (n0 := 2048) (n1 := 2048) k (j 1))) = _
  rw [h0, h1]
  rfl

/-- An index of the output array is in point t's block iff each coordinate is in the block's range on its axis. -/
theorem mem_blk1 (t : Fin cfg1.N) (i : S9216x2048.Idx) :
    i ∈ ((cfg1.win 2).blk t).view.set ↔ ∀ a : Fin 2, win1_2.index t a * S512x2048.size a ≤ (i a).val
      ∧ (i a).val < win1_2.index t a * S512x2048.size a + S512x2048.size a := by
  show i ∈ ((View.whole main_v26).slice (win1_2.rect t)).set ↔ _
  rw [View.set_slice_whole, Rect.mem_set_unit]
  exact Iff.rfl

/-- Every index of the output array is in the block of the point that owns its row: row r belongs to point r / 512. -/
theorem cover1 (i : S9216x2048.Idx) :
    ∃ t : Fin cfg1.N, (cfg1.win 2).flush t = true ∧ i ∈ ((cfg1.win 2).blk t).view.set := by
  have hi0 : (i 0).val < 9216 := (i 0).isLt
  have hi1 : (i 1).val < 2048 := (i 1).isLt
  obtain ⟨t, ht⟩ : ∃ t : Fin cfg1.N, t.val = (i 0).val / 512 :=
    ⟨⟨(i 0).val / 512, by show (i 0).val / 512 < 18; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 2048 ≤ (i 1).val ∧ (i 1).val < win1_2.index t (1 : Fin 2) * 2048 + 2048; omega

/-- The output array after the region is `G1`. -/
theorem region1_arr (c : Dev nD) : (dat1 (F := Ideal) V c).arrAt 2 cfg1.N = G1 V c :=
  (dat1 (F := Ideal) V c).arrAt_eq_of_cover 2 (G1 V c) (fun t _ => flushed1_eq V c t) (cover1)

/-- Entry (r, d) of the output array after the region: the inner product of row r of the left array with column d of the table. -/
theorem region1_value (c : Dev nD) (r : Fin 9216) (d : Fin 2048) :
    Cert.Spec.arr S9216x2048 ((dat1 (F := Ideal) V c).arrAt 2 cfg1.N) (ix2 r d)
      = ∑ k : Fin 2048, Cert.Spec.arr S9216x2048 (V c (Pipeline.arrRef spec1 0)) (ix2 r k)
          * Cert.Spec.arr S2048x2048 (V c (Pipeline.arrRef spec1 1)) (ix2 k d) :=
  congrFun (region1_arr V c) (ix2 r d)

end Cert.KernelIdeal.Proj

end
-- ==== Proof.ProjRegion2.lean ====
/-
  Region 2 (a projection): the output array after the region, entry by entry.

  The region runs the projection body on a grid of one point; each grid point writes back one block of 512 rows, the blocks tile
  the output array, and the entry (r, d) of the array ends as the inner product of row r of the left array with column d
  of the table, both as the region finds them.
-/
import proofs.«101814_j47201690583535_1_alg».proof.Proof.Gen.KernelIdeal.Frame
import proofs.«101814_j47201690583535_1_alg».proof.Proof.ProjBody
import proofs.«101814_j47201690583535_1_alg».proof.Proof.Spec
import Idealize.ShloMosaic.Lib.Pipeline.Value

noncomputable section

open scoped BigOperators

namespace Cert.KernelIdeal.Proj

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz_r2 : (![0, 0] : Fin 2 → Nat) = fun _ => 0 := funext fun a => by fin_cases a <;> rfl

/-- What the output array ends holding: at (r, d) the inner product of row r of the left array with column d of the table. -/
def G2 (c : Dev nD) : S512x2048.Idx → EReal := fun i =>
  ∑ k : Fin 2048, Cert.Spec.arr S512x2048 (V c (Pipeline.arrRef spec2 0)) (ix2 (i 0) k)
    * Cert.Spec.arr S2048x2048 (V c (Pipeline.arrRef spec2 1)) (ix2 k (i 1))

/-- The index maps, decided over the grid: the left and output windows sit at block row t, the table window at its only block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of `G2`. -/
theorem flushed2_eq (c : Dev nD) (t : Fin cfg2.N) :
    (dat2 (F := Ideal) V c).flushed 2 t = ((cfg2.win 2).blk t).view.read (Elt Ideal) (G2 V c) := by
  show (cfg2.win 2).cut (grid2.coords t) ((dat2 V c).after 2 t) = _
  rw [after2_2]
  unfold out2_2
  rw [View.canon_unit_zero hz_r2]
  simp only [View.ld_unit_zero (S := S512x2048) hz_r2, View.ld_unit_zero (S := S2048x2048) hz_r2]
  obtain ⟨e0, e1, e2, e3, e4, e5⟩ := idx_facts2 t
  funext j
  have hj : j = ix2 (n0 := 512) (n1 := 2048) (j 0) (j 1) := eq_ix2 (n0 := 512) (n1 := 2048) j
  show k2_pay1 (F := Ideal) (iblk2 V c 0 t) (iblk2 V c 1 t) j = G2 V c (((cfg2.win 2).blk t).view.emb j)
  rw [hj]
  refine (pay2_apply _ _ _ _).trans ?_
  unfold G2
  refine Finset.sum_congr rfl fun k _ => ?_
  have h0 : ((cfg2.win 0).blk t).view.emb (ix2 (n0 := 512) (n1 := 2048) (j 0) k)
      = ix2 ((((cfg2.win 2).blk t).view.emb (ix2 (n0 := 512) (n1 := 2048) (j 0) (j 1))) 0) k := by
    funext a; apply Fin.ext
    match a with
    | ⟨0, _⟩ => show win2_0.index t (0 : Fin 2) * 512 + 1 * (j 0).val = win2_2.index t (0 : Fin 2) * 512 + 1 * (j 0).val; omega
    | ⟨1, _⟩ => show win2_0.index t (1 : Fin 2) * 2048 + 1 * k.val = k.val; omega
  have h1 : ((cfg2.win 1).blk t).view.emb (ix2 (n0 := 2048) (n1 := 2048) k (j 1))
      = ix2 k ((((cfg2.win 2).blk t).view.emb (ix2 (n0 := 512) (n1 := 2048) (j 0) (j 1))) 1) := by
    funext a; apply Fin.ext
    match a with
    | ⟨0, _⟩ => show win2_1.index t (0 : Fin 2) * 2048 + 1 * k.val = k.val; omega
    | ⟨1, _⟩ => show win2_1.index t (1 : Fin 2) * 2048 + 1 * (j 1).val = win2_2.index t (1 : Fin 2) * 2048 + 1 * (j 1).val; omega
  show Cert.Spec.arr S512x2048 (V c (Pipeline.arrRef spec2 0)) (((cfg2.win 0).blk t).view.emb (ix2 (n0 := 512) (n1 := 2048) (j 0) k))
      * Cert.Spec.arr S2048x2048 (V c (Pipeline.arrRef spec2 1)) (((cfg2.win 1).blk t).view.emb (ix2 (n0 := 2048) (n1 := 2048) k (j 1))) = _
  rw [h0, h1]
  rfl

/-- An index of the output array is in point t's block iff each coordinate is in the block's range on its axis. -/
theorem mem_blk2 (t : Fin cfg2.N) (i : S512x2048.Idx) :
    i ∈ ((cfg2.win 2).blk t).view.set ↔ ∀ a : Fin 2, win2_2.index t a * S512x2048.size a ≤ (i a).val
      ∧ (i a).val < win2_2.index t a * S512x2048.size a + S512x2048.size a := by
  show i ∈ ((View.whole main_v29).slice (win2_2.rect t)).set ↔ _
  rw [View.set_slice_whole, Rect.mem_set_unit]
  exact Iff.rfl

/-- Every index of the output array is in the block of the point that owns its row: row r belongs to point r / 512. -/
theorem cover2 (i : S512x2048.Idx) :
    ∃ t : Fin cfg2.N, (cfg2.win 2).flush t = true ∧ i ∈ ((cfg2.win 2).blk t).view.set := by
  have hi0 : (i 0).val < 512 := (i 0).isLt
  have hi1 : (i 1).val < 2048 := (i 1).isLt
  obtain ⟨t, ht⟩ : ∃ t : Fin cfg2.N, t.val = (i 0).val / 512 :=
    ⟨⟨(i 0).val / 512, by show (i 0).val / 512 < 1; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 2048 ≤ (i 1).val ∧ (i 1).val < win2_2.index t (1 : Fin 2) * 2048 + 2048; omega

/-- The output array after the region is `G2`. -/
theorem region2_arr (c : Dev nD) : (dat2 (F := Ideal) V c).arrAt 2 cfg2.N = G2 V c :=
  (dat2 (F := Ideal) V c).arrAt_eq_of_cover 2 (G2 V c) (fun t _ => flushed2_eq V c t) (cover2)

/-- Entry (r, d) of the output array after the region: the inner product of row r of the left array with column d of the table. -/
theorem region2_value (c : Dev nD) (r : Fin 512) (d : Fin 2048) :
    Cert.Spec.arr S512x2048 ((dat2 (F := Ideal) V c).arrAt 2 cfg2.N) (ix2 r d)
      = ∑ k : Fin 2048, Cert.Spec.arr S512x2048 (V c (Pipeline.arrRef spec2 0)) (ix2 r k)
          * Cert.Spec.arr S2048x2048 (V c (Pipeline.arrRef spec2 1)) (ix2 k d) :=
  congrFun (region2_arr V c) (ix2 r d)

end Cert.KernelIdeal.Proj

end
-- ==== Proof.ProjRegion4.lean ====
/-
  Region 4 (a projection): the output array after the region, entry by entry.

  The region runs the projection body on a grid of one point; each grid point writes back one block of 512 rows, the blocks tile
  the output array, and the entry (r, d) of the array ends as the inner product of row r of the left array with column d
  of the table, both as the region finds them.
-/
import proofs.«101814_j47201690583535_1_alg».proof.Proof.Gen.KernelIdeal.Frame
import proofs.«101814_j47201690583535_1_alg».proof.Proof.ProjBody
import proofs.«101814_j47201690583535_1_alg».proof.Proof.Spec
import Idealize.ShloMosaic.Lib.Pipeline.Value

noncomputable section

open scoped BigOperators

namespace Cert.KernelIdeal.Proj

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz_r4 : (![0, 0] : Fin 2 → Nat) = fun _ => 0 := funext fun a => by fin_cases a <;> rfl

/-- What the output array ends holding: at (r, d) the inner product of row r of the left array with column d of the table. -/
def G4 (c : Dev nD) : S512x2048.Idx → EReal := fun i =>
  ∑ k : Fin 2048, Cert.Spec.arr S512x2048 (V c (Pipeline.arrRef spec4 0)) (ix2 (i 0) k)
    * Cert.Spec.arr S2048x2048 (V c (Pipeline.arrRef spec4 1)) (ix2 k (i 1))

/-- The index maps, decided over the grid: the left and output windows sit at block row t, the table window at its only block. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of `G4`. -/
theorem flushed4_eq (c : Dev nD) (t : Fin cfg4.N) :
    (dat4 (F := Ideal) V c).flushed 2 t = ((cfg4.win 2).blk t).view.read (Elt Ideal) (G4 V c) := by
  show (cfg4.win 2).cut (grid4.coords t) ((dat4 V c).after 2 t) = _
  rw [after4_2]
  unfold out4_2
  rw [View.canon_unit_zero hz_r4]
  simp only [View.ld_unit_zero (S := S512x2048) hz_r4, View.ld_unit_zero (S := S2048x2048) hz_r4]
  obtain ⟨e0, e1, e2, e3, e4, e5⟩ := idx_facts4 t
  funext j
  have hj : j = ix2 (n0 := 512) (n1 := 2048) (j 0) (j 1) := eq_ix2 (n0 := 512) (n1 := 2048) j
  show k4_pay1 (F := Ideal) (iblk4 V c 0 t) (iblk4 V c 1 t) j = G4 V c (((cfg4.win 2).blk t).view.emb j)
  rw [hj]
  refine (pay4_apply _ _ _ _).trans ?_
  unfold G4
  refine Finset.sum_congr rfl fun k _ => ?_
  have h0 : ((cfg4.win 0).blk t).view.emb (ix2 (n0 := 512) (n1 := 2048) (j 0) k)
      = ix2 ((((cfg4.win 2).blk t).view.emb (ix2 (n0 := 512) (n1 := 2048) (j 0) (j 1))) 0) k := by
    funext a; apply Fin.ext
    match a with
    | ⟨0, _⟩ => show win4_0.index t (0 : Fin 2) * 512 + 1 * (j 0).val = win4_2.index t (0 : Fin 2) * 512 + 1 * (j 0).val; omega
    | ⟨1, _⟩ => show win4_0.index t (1 : Fin 2) * 2048 + 1 * k.val = k.val; omega
  have h1 : ((cfg4.win 1).blk t).view.emb (ix2 (n0 := 2048) (n1 := 2048) k (j 1))
      = ix2 k ((((cfg4.win 2).blk t).view.emb (ix2 (n0 := 512) (n1 := 2048) (j 0) (j 1))) 1) := by
    funext a; apply Fin.ext
    match a with
    | ⟨0, _⟩ => show win4_1.index t (0 : Fin 2) * 2048 + 1 * k.val = k.val; omega
    | ⟨1, _⟩ => show win4_1.index t (1 : Fin 2) * 2048 + 1 * (j 1).val = win4_2.index t (1 : Fin 2) * 2048 + 1 * (j 1).val; omega
  show Cert.Spec.arr S512x2048 (V c (Pipeline.arrRef spec4 0)) (((cfg4.win 0).blk t).view.emb (ix2 (n0 := 512) (n1 := 2048) (j 0) k))
      * Cert.Spec.arr S2048x2048 (V c (Pipeline.arrRef spec4 1)) (((cfg4.win 1).blk t).view.emb (ix2 (n0 := 2048) (n1 := 2048) k (j 1))) = _
  rw [h0, h1]
  rfl

/-- An index of the output array is in point t's block iff each coordinate is in the block's range on its axis. -/
theorem mem_blk4 (t : Fin cfg4.N) (i : S512x2048.Idx) :
    i ∈ ((cfg4.win 2).blk t).view.set ↔ ∀ a : Fin 2, win4_2.index t a * S512x2048.size a ≤ (i a).val
      ∧ (i a).val < win4_2.index t a * S512x2048.size a + S512x2048.size a := by
  show i ∈ ((View.whole main_v55).slice (win4_2.rect t)).set ↔ _
  rw [View.set_slice_whole, Rect.mem_set_unit]
  exact Iff.rfl

/-- Every index of the output array is in the block of the point that owns its row: row r belongs to point r / 512. -/
theorem cover4 (i : S512x2048.Idx) :
    ∃ t : Fin cfg4.N, (cfg4.win 2).flush t = true ∧ i ∈ ((cfg4.win 2).blk t).view.set := by
  have hi0 : (i 0).val < 512 := (i 0).isLt
  have hi1 : (i 1).val < 2048 := (i 1).isLt
  obtain ⟨t, ht⟩ : ∃ t : Fin cfg4.N, t.val = (i 0).val / 512 :=
    ⟨⟨(i 0).val / 512, by show (i 0).val / 512 < 1; omega⟩, rfl⟩
  obtain ⟨e0, e1, e2, e3, e4, e5⟩ := idx_facts4 t
  refine ⟨t, flush4_2 t, ?_⟩
  rw [mem_blk4]
  intro a
  match a with
  | ⟨0, _⟩ => show win4_2.index t (0 : Fin 2) * 512 ≤ (i 0).val ∧ (i 0).val < win4_2.index t (0 : Fin 2) * 512 + 512; omega
  | ⟨1, _⟩ => show win4_2.index t (1 : Fin 2) * 2048 ≤ (i 1).val ∧ (i 1).val < win4_2.index t (1 : Fin 2) * 2048 + 2048; omega

/-- The output array after the region is `G4`. -/
theorem region4_arr (c : Dev nD) : (dat4 (F := Ideal) V c).arrAt 2 cfg4.N = G4 V c :=
  (dat4 (F := Ideal) V c).arrAt_eq_of_cover 2 (G4 V c) (fun t _ => flushed4_eq V c t) (cover4)

/-- Entry (r, d) of the output array after the region: the inner product of row r of the left array with column d of the table. -/
theorem region4_value (c : Dev nD) (r : Fin 512) (d : Fin 2048) :
    Cert.Spec.arr S512x2048 ((dat4 (F := Ideal) V c).arrAt 2 cfg4.N) (ix2 r d)
      = ∑ k : Fin 2048, Cert.Spec.arr S512x2048 (V c (Pipeline.arrRef spec4 0)) (ix2 r k)
          * Cert.Spec.arr S2048x2048 (V c (Pipeline.arrRef spec4 1)) (ix2 k d) :=
  congrFun (region4_arr V c) (ix2 r d)

end Cert.KernelIdeal.Proj

end
-- ==== Proof.ProjRegion7.lean ====
/-
  Region 7 (a projection): the output array after the region, entry by entry.

  The region runs the projection body on a grid of one point; each grid point writes back one block of 512 rows, the blocks tile
  the output array, and the entry (r, d) of the array ends as the inner product of row r of the left array with column d
  of the table, both as the region finds them.
-/
import proofs.«101814_j47201690583535_1_alg».proof.Proof.Gen.KernelIdeal.Frame
import proofs.«101814_j47201690583535_1_alg».proof.Proof.ProjBody
import proofs.«101814_j47201690583535_1_alg».proof.Proof.Spec
import Idealize.ShloMosaic.Lib.Pipeline.Value

noncomputable section

open scoped BigOperators

namespace Cert.KernelIdeal.Proj

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz_r7 : (![0, 0] : Fin 2 → Nat) = fun _ => 0 := funext fun a => by fin_cases a <;> rfl

/-- What the output array ends holding: at (r, d) the inner product of row r of the left array with column d of the table. -/
def G7 (c : Dev nD) : S512x2048.Idx → EReal := fun i =>
  ∑ k : Fin 2048, Cert.Spec.arr S512x2048 (V c (Pipeline.arrRef spec7 0)) (ix2 (i 0) k)
    * Cert.Spec.arr S2048x2048 (V c (Pipeline.arrRef spec7 1)) (ix2 k (i 1))

/-- The index maps, decided over the grid: the left and output windows sit at block row t, the table window at its only block. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What point t writes back is block t of `G7`. -/
theorem flushed7_eq (c : Dev nD) (t : Fin cfg7.N) :
    (dat7 (F := Ideal) V c).flushed 2 t = ((cfg7.win 2).blk t).view.read (Elt Ideal) (G7 V c) := by
  show (cfg7.win 2).cut (grid7.coords t) ((dat7 V c).after 2 t) = _
  rw [after7_2]
  unfold out7_2
  rw [View.canon_unit_zero hz_r7]
  simp only [View.ld_unit_zero (S := S512x2048) hz_r7, View.ld_unit_zero (S := S2048x2048) hz_r7]
  obtain ⟨e0, e1, e2, e3, e4, e5⟩ := idx_facts7 t
  funext j
  have hj : j = ix2 (n0 := 512) (n1 := 2048) (j 0) (j 1) := eq_ix2 (n0 := 512) (n1 := 2048) j
  show k7_pay1 (F := Ideal) (iblk7 V c 0 t) (iblk7 V c 1 t) j = G7 V c (((cfg7.win 2).blk t).view.emb j)
  rw [hj]
  refine (pay7_apply _ _ _ _).trans ?_
  unfold G7
  refine Finset.sum_congr rfl fun k _ => ?_
  have h0 : ((cfg7.win 0).blk t).view.emb (ix2 (n0 := 512) (n1 := 2048) (j 0) k)
      = ix2 ((((cfg7.win 2).blk t).view.emb (ix2 (n0 := 512) (n1 := 2048) (j 0) (j 1))) 0) k := by
    funext a; apply Fin.ext
    match a with
    | ⟨0, _⟩ => show win7_0.index t (0 : Fin 2) * 512 + 1 * (j 0).val = win7_2.index t (0 : Fin 2) * 512 + 1 * (j 0).val; omega
    | ⟨1, _⟩ => show win7_0.index t (1 : Fin 2) * 2048 + 1 * k.val = k.val; omega
  have h1 : ((cfg7.win 1).blk t).view.emb (ix2 (n0 := 2048) (n1 := 2048) k (j 1))
      = ix2 k ((((cfg7.win 2).blk t).view.emb (ix2 (n0 := 512) (n1 := 2048) (j 0) (j 1))) 1) := by
    funext a; apply Fin.ext
    match a with
    | ⟨0, _⟩ => show win7_1.index t (0 : Fin 2) * 2048 + 1 * k.val = k.val; omega
    | ⟨1, _⟩ => show win7_1.index t (1 : Fin 2) * 2048 + 1 * (j 1).val = win7_2.index t (1 : Fin 2) * 2048 + 1 * (j 1).val; omega
  show Cert.Spec.arr S512x2048 (V c (Pipeline.arrRef spec7 0)) (((cfg7.win 0).blk t).view.emb (ix2 (n0 := 512) (n1 := 2048) (j 0) k))
      * Cert.Spec.arr S2048x2048 (V c (Pipeline.arrRef spec7 1)) (((cfg7.win 1).blk t).view.emb (ix2 (n0 := 2048) (n1 := 2048) k (j 1))) = _
  rw [h0, h1]
  rfl

/-- An index of the output array is in point t's block iff each coordinate is in the block's range on its axis. -/
theorem mem_blk7 (t : Fin cfg7.N) (i : S512x2048.Idx) :
    i ∈ ((cfg7.win 2).blk t).view.set ↔ ∀ a : Fin 2, win7_2.index t a * S512x2048.size a ≤ (i a).val
      ∧ (i a).val < win7_2.index t a * S512x2048.size a + S512x2048.size a := by
  show i ∈ ((View.whole main_v61).slice (win7_2.rect t)).set ↔ _
  rw [View.set_slice_whole, Rect.mem_set_unit]
  exact Iff.rfl

/-- Every index of the output array is in the block of the point that owns its row: row r belongs to point r / 512. -/
theorem cover7 (i : S512x2048.Idx) :
    ∃ t : Fin cfg7.N, (cfg7.win 2).flush t = true ∧ i ∈ ((cfg7.win 2).blk t).view.set := by
  have hi0 : (i 0).val < 512 := (i 0).isLt
  have hi1 : (i 1).val < 2048 := (i 1).isLt
  obtain ⟨t, ht⟩ : ∃ t : Fin cfg7.N, t.val = (i 0).val / 512 :=
    ⟨⟨(i 0).val / 512, by show (i 0).val / 512 < 1; omega⟩, rfl⟩
  obtain ⟨e0, e1, e2, e3, e4, e5⟩ := idx_facts7 t
  refine ⟨t, flush7_2 t, ?_⟩
  rw [mem_blk7]
  intro a
  match a with
  | ⟨0, _⟩ => show win7_2.index t (0 : Fin 2) * 512 ≤ (i 0).val ∧ (i 0).val < win7_2.index t (0 : Fin 2) * 512 + 512; omega
  | ⟨1, _⟩ => show win7_2.index t (1 : Fin 2) * 2048 ≤ (i 1).val ∧ (i 1).val < win7_2.index t (1 : Fin 2) * 2048 + 2048; omega

/-- The output array after the region is `G7`. -/
theorem region7_arr (c : Dev nD) : (dat7 (F := Ideal) V c).arrAt 2 cfg7.N = G7 V c :=
  (dat7 (F := Ideal) V c).arrAt_eq_of_cover 2 (G7 V c) (fun t _ => flushed7_eq V c t) (cover7)

/-- Entry (r, d) of the output array after the region: the inner product of row r of the left array with column d of the table. -/
theorem region7_value (c : Dev nD) (r : Fin 512) (d : Fin 2048) :
    Cert.Spec.arr S512x2048 ((dat7 (F := Ideal) V c).arrAt 2 cfg7.N) (ix2 r d)
      = ∑ k : Fin 2048, Cert.Spec.arr S512x2048 (V c (Pipeline.arrRef spec7 0)) (ix2 r k)
          * Cert.Spec.arr S2048x2048 (V c (Pipeline.arrRef spec7 1)) (ix2 k d) :=
  congrFun (region7_arr V c) (ix2 r d)

end Cert.KernelIdeal.Proj

end
-- ==== Proof.ProjRegion10.lean ====
/-
  Region 10 (a projection): the output array after the region, entry by entry.

  The region runs the projection body on a grid of 72 points; each grid point writes back one block of 512 rows, the blocks tile
  the output array, and the entry (r, d) of the array ends as the inner product of row r of the left array with column d
  of the table, both as the region finds them.
-/
import proofs.«101814_j47201690583535_1_alg».proof.Proof.Gen.KernelIdeal.Frame
import proofs.«101814_j47201690583535_1_alg».proof.Proof.ProjBody
import proofs.«101814_j47201690583535_1_alg».proof.Proof.Spec
import Idealize.ShloMosaic.Lib.Pipeline.Value

noncomputable section

open scoped BigOperators

namespace Cert.KernelIdeal.Proj

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz_r10 : (![0, 0] : Fin 2 → Nat) = fun _ => 0 := funext fun a => by fin_cases a <;> rfl

/-- What the output array ends holding: at (r, d) the inner product of row r of the left array with column d of the table. -/
def G10 (c : Dev nD) : S36864x2048.Idx → EReal := fun i =>
  ∑ k : Fin 2048, Cert.Spec.arr S36864x2048 (V c (Pipeline.arrRef spec10 0)) (ix2 (i 0) k)
    * Cert.Spec.arr S2048x2048 (V c (Pipeline.arrRef spec10 1)) (ix2 k (i 1))

/-- The index maps, decided over the grid: the left and output windows sit at block row t, the table window at its only block. -/
theorem idx_facts10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

set_option maxHeartbeats 1000000 in
/-- What point t writes back is block t of `G10`. -/
theorem flushed10_eq (c : Dev nD) (t : Fin cfg10.N) :
    (dat10 (F := Ideal) V c).flushed 2 t = ((cfg10.win 2).blk t).view.read (Elt Ideal) (G10 V c) := by
  show (cfg10.win 2).cut (grid10.coords t) ((dat10 V c).after 2 t) = _
  rw [after10_2]
  unfold out10_2
  rw [View.canon_unit_zero hz_r10]
  simp only [View.ld_unit_zero (S := S512x2048) hz_r10, View.ld_unit_zero (S := S2048x2048) hz_r10]
  obtain ⟨e0, e1, e2, e3, e4, e5⟩ := idx_facts10 t
  funext j
  have hj : j = ix2 (n0 := 512) (n1 := 2048) (j 0) (j 1) := eq_ix2 (n0 := 512) (n1 := 2048) j
  show k10_pay1 (F := Ideal) (iblk10 V c 0 t) (iblk10 V c 1 t) j = G10 V c (((cfg10.win 2).blk t).view.emb j)
  rw [hj]
  refine (pay10_apply _ _ _ _).trans ?_
  unfold G10
  refine Finset.sum_congr rfl fun k _ => ?_
  have h0 : ((cfg10.win 0).blk t).view.emb (ix2 (n0 := 512) (n1 := 2048) (j 0) k)
      = ix2 ((((cfg10.win 2).blk t).view.emb (ix2 (n0 := 512) (n1 := 2048) (j 0) (j 1))) 0) k := by
    funext a; apply Fin.ext
    match a with
    | ⟨0, _⟩ => show win10_0.index t (0 : Fin 2) * 512 + 1 * (j 0).val = win10_2.index t (0 : Fin 2) * 512 + 1 * (j 0).val; omega
    | ⟨1, _⟩ => show win10_0.index t (1 : Fin 2) * 2048 + 1 * k.val = k.val; omega
  have h1 : ((cfg10.win 1).blk t).view.emb (ix2 (n0 := 2048) (n1 := 2048) k (j 1))
      = ix2 k ((((cfg10.win 2).blk t).view.emb (ix2 (n0 := 512) (n1 := 2048) (j 0) (j 1))) 1) := by
    funext a; apply Fin.ext
    match a with
    | ⟨0, _⟩ => show win10_1.index t (0 : Fin 2) * 2048 + 1 * k.val = k.val; omega
    | ⟨1, _⟩ => show win10_1.index t (1 : Fin 2) * 2048 + 1 * (j 1).val = win10_2.index t (1 : Fin 2) * 2048 + 1 * (j 1).val; omega
  show Cert.Spec.arr S36864x2048 (V c (Pipeline.arrRef spec10 0)) (((cfg10.win 0).blk t).view.emb (ix2 (n0 := 512) (n1 := 2048) (j 0) k))
      * Cert.Spec.arr S2048x2048 (V c (Pipeline.arrRef spec10 1)) (((cfg10.win 1).blk t).view.emb (ix2 (n0 := 2048) (n1 := 2048) k (j 1))) = _
  rw [h0, h1]
  rfl

/-- An index of the output array is in point t's block iff each coordinate is in the block's range on its axis. -/
theorem mem_blk10 (t : Fin cfg10.N) (i : S36864x2048.Idx) :
    i ∈ ((cfg10.win 2).blk t).view.set ↔ ∀ a : Fin 2, win10_2.index t a * S512x2048.size a ≤ (i a).val
      ∧ (i a).val < win10_2.index t a * S512x2048.size a + S512x2048.size a := by
  show i ∈ ((View.whole main_v94).slice (win10_2.rect t)).set ↔ _
  rw [View.set_slice_whole, Rect.mem_set_unit]
  exact Iff.rfl

/-- Every index of the output array is in the block of the point that owns its row: row r belongs to point r / 512. -/
theorem cover10 (i : S36864x2048.Idx) :
    ∃ t : Fin cfg10.N, (cfg10.win 2).flush t = true ∧ i ∈ ((cfg10.win 2).blk t).view.set := by
  have hi0 : (i 0).val < 36864 := (i 0).isLt
  have hi1 : (i 1).val < 2048 := (i 1).isLt
  obtain ⟨t, ht⟩ : ∃ t : Fin cfg10.N, t.val = (i 0).val / 512 :=
    ⟨⟨(i 0).val / 512, by show (i 0).val / 512 < 72; omega⟩, rfl⟩
  obtain ⟨e0, e1, e2, e3, e4, e5⟩ := idx_facts10 t
  refine ⟨t, flush10_2 t, ?_⟩
  rw [mem_blk10]
  intro a
  match a with
  | ⟨0, _⟩ => show win10_2.index t (0 : Fin 2) * 512 ≤ (i 0).val ∧ (i 0).val < win10_2.index t (0 : Fin 2) * 512 + 512; omega
  | ⟨1, _⟩ => show win10_2.index t (1 : Fin 2) * 2048 ≤ (i 1).val ∧ (i 1).val < win10_2.index t (1 : Fin 2) * 2048 + 2048; omega

/-- The output array after the region is `G10`. -/
theorem region10_arr (c : Dev nD) : (dat10 (F := Ideal) V c).arrAt 2 cfg10.N = G10 V c :=
  (dat10 (F := Ideal) V c).arrAt_eq_of_cover 2 (G10 V c) (fun t _ => flushed10_eq V c t) (cover10)

/-- Entry (r, d) of the output array after the region: the inner product of row r of the left array with column d of the table. -/
theorem region10_value (c : Dev nD) (r : Fin 36864) (d : Fin 2048) :
    Cert.Spec.arr S36864x2048 ((dat10 (F := Ideal) V c).arrAt 2 cfg10.N) (ix2 r d)
      = ∑ k : Fin 2048, Cert.Spec.arr S36864x2048 (V c (Pipeline.arrRef spec10 0)) (ix2 r k)
          * Cert.Spec.arr S2048x2048 (V c (Pipeline.arrRef spec10 1)) (ix2 k d) :=
  congrFun (region10_arr V c) (ix2 r d)

end Cert.KernelIdeal.Proj

end
-- ==== Proof.ProjRegions.lean ====
/-
  The five projection regions together: each output array after its region, entry by entry, as inner products of the rows of
  the left array with the columns of the table.
-/
import proofs.«101814_j47201690583535_1_alg».proof.Proof.ProjRegion1
import proofs.«101814_j47201690583535_1_alg».proof.Proof.ProjRegion2
import proofs.«101814_j47201690583535_1_alg».proof.Proof.ProjRegion4
import proofs.«101814_j47201690583535_1_alg».proof.Proof.ProjRegion7
import proofs.«101814_j47201690583535_1_alg».proof.Proof.ProjRegion10
-- ==== Proof.CenterBody.lean ====
/-
  The fused centring, normalisation and projection body, read at an entry.

  The body subtracts the batch row from each of the block's 256 rows, normalises each centred row to zero mean and unit
  variance, and multiplies the normalised block by the 2048×2048 table.  On the extended reals the roundings are the
  identity, so the first result at (p, c) is the layer normalisation of the centred row p at c, and the second at (p, d)
  is the inner product of that normalised row with column d of the table.
-/
import proofs.«101814_j47201690583535_1_alg».proof.Proof.Gen.KernelIdeal.Skeleton
import proofs.«101814_j47201690583535_1_alg».proof.Proof.LibPlainMatmul
import proofs.«101814_j47201690583535_1_alg».proof.Proof.LibKeepdims
import proofs.«101814_j47201690583535_1_alg».proof.Proof.Spec
import Idealize.ShloMosaic.Lib.ValueIdx
import Idealize.ShloMosaic.Lib.ValueLayout
import Idealize.ShloMosaic.Lib.Pipeline.Value

noncomputable section

open scoped BigOperators

namespace Cert.KernelIdeal.Proj

open Cert.KernelIdeal Cert.KernelIdeal.Gen Idealize.ShloMosaic Idealize.ShloMosaic.ValueIdx

/-- A square root of a vector reads, at an index, the square root of the element. -/
theorem sqrt_vec_apply {s : Shape} {φ : FTy} (a : FVec Ideal s φ) (i : s.Idx) : sqrt a i = Ideal.sqrt (a i) := rfl

/-- Entry (p, c) of the normalised block: the layer normalisation of row p less the batch row, at c. -/
theorem pay5_1_apply (x0 : Vec Ideal S256x2048 .f32) (x1 : Vec Ideal S1x1x2048 .f32) (p : Fin 256) (c' : Fin 2048) :
    k5_pay1 (F := Ideal) x0 x1 (ix2 p c')
      = Cert.Spec.layernorm (fun k => x0 (ix2 p k) - x1 (ix3 (0 : Fin 1) (0 : Fin 1) k)) c' := by
  have hsum : ∀ (src : FVec Ideal S256x2048 .f32) (q : Fin 256),
      multiReduction .add [1] S256 src 0x00000000#32 reduces_S256x2048_S256 (.inl rfl) rfl (ix1 q)
        = ∑ k : Fin 2048, src (ix2 q k) :=
    fun src q => multiReduction_add_row (a := 256) (b := 2048) src _ _ _ _ q
  unfold k5_pay1 Cert.Spec.layernorm Cert.Spec.meanBy
  simp only [hsum, shapeCast_self, truncf_apply, divf_apply, subf_apply, mulf_apply, addf_apply, sqrt_vec_apply, broadcast_apply,
    broadcastTo_a1_ab_apply, broadcastTo_1b_ab_apply, shapeCast_a_a1_apply, shapeCast_1ab_ab_apply, multiReduction_add_row]
  rfl

/-- The normalised block with a leading unit axis, at (u, p, c): the same entry. -/
theorem pay5_2_apply (x0 : Vec Ideal S256x2048 .f32) (x1 : Vec Ideal S1x1x2048 .f32) (u : Fin 1) (p : Fin 256) (c' : Fin 2048) :
    k5_pay2 (F := Ideal) x0 x1 (ix3 u p c')
      = Cert.Spec.layernorm (fun k => x0 (ix2 p k) - x1 (ix3 (0 : Fin 1) (0 : Fin 1) k)) c' := by
  unfold k5_pay2
  exact (shapeCast_ab_1ab_apply (a := 256) (b := 2048) _ _ u p c').trans (pay5_1_apply x0 x1 p c')

/-- The projected normalised block at (u, p, d): the inner product of the normalised row p with column d of the table. -/
theorem pay5_3_apply (x0 : Vec Ideal S256x2048 .f32) (x1 : Vec Ideal S1x1x2048 .f32) (w : Vec Ideal S2048x2048 .bf16)
    (u : Fin 1) (p : Fin 256) (d : Fin 2048) :
    k5_pay3 (F := Ideal) x0 x1 w (ix3 u p d)
      = ∑ k : Fin 2048, Cert.Spec.layernorm (fun k' => x0 (ix2 p k') - x1 (ix3 (0 : Fin 1) (0 : Fin 1) k')) k * w (ix2 k d) := by
  unfold k5_pay3
  simp only [shapeCast_self]
  refine (shapeCast_ab_1ab_apply (a := 256) (b := 2048) _ _ u p d).trans ?_
  refine (Cert.LibPlainMatmul.matmul_plain_zero_apply (m := 256) (k := 2048) (n := 2048) (φ₁ := .bf16) (φ₂ := .bf16) none
    (k5_pay1 x0 x1) w p d).trans ?_
  exact Finset.sum_congr rfl fun k _ => congrArg (· * w (ix2 k d)) (pay5_1_apply x0 x1 p k)

end Cert.KernelIdeal.Proj

end
-- ==== Proof.CenterRegion.lean ====
/-
  Region 5 (centre, normalise, project): the two output arrays after the region, entry by entry.

  The grid has 8 row tiles by 32 batch entries.  The point of tile s and batch b reads rows 256 s … 256 s + 255 of the
  table P, the batch row b of M and the whole weight table, and writes back block (b, s) of each output.  The blocks tile
  both outputs, so at (b, n, c) the first output ends as the layer normalisation of row n of P less the batch row b, at c,
  and the second at (b, n, d) as the inner product of that normalised row with column d of the weight table.
-/
import proofs.«101814_j47201690583535_1_alg».proof.Proof.Gen.KernelIdeal.Frame
import proofs.«101814_j47201690583535_1_alg».proof.Proof.CenterBody
import proofs.«101814_j47201690583535_1_alg».proof.Proof.Spec
import Idealize.ShloMosaic.Lib.Pipeline.Value

noncomputable section

open scoped BigOperators

namespace Cert.KernelIdeal.Proj

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz2_r5 : (![0, 0] : Fin 2 → Nat) = fun _ => 0 := funext fun a => by fin_cases a <;> rfl
theorem hz3_r5 : (![0, 0, 0] : Fin 3 → Nat) = fun _ => 0 := funext fun a => by fin_cases a <;> rfl

/-- What the first output ends holding: at (b, n, c) the layer normalisation of row n of P less the batch row b, at c. -/
def G5_3 (c : Dev nD) : S32x2048x2048.Idx → EReal := fun i =>
  Cert.Spec.layernorm (fun k' => Cert.Spec.arr S2048x2048 (V c (Pipeline.arrRef spec5 0)) (ix2 (i 1) k') - Cert.Spec.arr S32x1x2048 (V c (Pipeline.arrRef spec5 1)) (ix3 (i 0) (0 : Fin 1) k')) (i 2)

/-- What the second output ends holding: at (b, n, d) the inner product of that normalised row with column d of the weight table. -/
def G5_4 (c : Dev nD) : S32x2048x2048.Idx → EReal := fun i =>
  ∑ k : Fin 2048, Cert.Spec.layernorm (fun k' => Cert.Spec.arr S2048x2048 (V c (Pipeline.arrRef spec5 0)) (ix2 (i 1) k') - Cert.Spec.arr S32x1x2048 (V c (Pipeline.arrRef spec5 1)) (ix3 (i 0) (0 : Fin 1) k')) k
    * Cert.Spec.arr S2048x2048 (V c (Pipeline.arrRef spec5 2)) (ix2 k (i 2))

/-- The index maps, decided over the grid: point t is tile t / 32 and batch t % 32. -/
theorem idx_facts5 : ∀ t : Fin cfg5.N, win5_0.index t (0 : Fin 2) = t.val / 32 ∧ win5_0.index t (1 : Fin 2) = 0
    ∧ win5_1.index t (0 : Fin 3) = t.val % 32 ∧ win5_1.index t (1 : Fin 3) = 0 ∧ win5_1.index t (2 : Fin 3) = 0
    ∧ win5_2.index t (0 : Fin 2) = 0 ∧ win5_2.index t (1 : Fin 2) = 0
    ∧ win5_3.index t (0 : Fin 3) = t.val % 32 ∧ win5_3.index t (1 : Fin 3) = t.val / 32 ∧ win5_3.index t (2 : Fin 3) = 0
    ∧ win5_4.index t (0 : Fin 3) = t.val % 32 ∧ win5_4.index t (1 : Fin 3) = t.val / 32 ∧ win5_4.index t (2 : Fin 3) = 0 :=
  (by decide +kernel : ∀ t : Fin grid5.N, _)

set_option maxHeartbeats 1000000 in
/-- What point t writes back to the first output is block t of `G5_3`. -/
theorem flushed5_3_eq (c : Dev nD) (t : Fin cfg5.N) :
    (dat5 (F := Ideal) V c).flushed 3 t = ((cfg5.win 3).blk t).view.read (Elt Ideal) (G5_3 V c) := by
  show (cfg5.win 3).cut (grid5.coords t) ((dat5 V c).after 3 t) = _
  rw [after5_3]
  unfold out5_3
  rw [View.canon_unit_zero hz3_r5]
  simp only [View.ld_unit_zero (S := S256x2048) hz2_r5, View.ld_unit_zero (S := S1x1x2048) hz3_r5, View.ld_unit_zero (S := S2048x2048) hz2_r5]
  obtain ⟨e00, e01, e10, e11, e12, e20, e21, e30, e31, e32, e40, e41, e42⟩ := idx_facts5 t
  funext j
  have hj : j = (ix3 (n0 := 1) (n1 := 256) (n2 := 2048) (j 0) (j 1) (j 2)) := eq_ix3 (n0 := 1) (n1 := 256) (n2 := 2048) j
  have hj0 : (j 0).val = 0 := by have h : (j 0).val < 1 := (j 0).isLt; omega
  have h0 : ∀ k : Fin 2048, ((cfg5.win 0).blk t).view.emb (ix2 (n0 := 256) (n1 := 2048) (j 1) k)
      = ix2 ((((cfg5.win 3).blk t).view.emb (ix3 (n0 := 1) (n1 := 256) (n2 := 2048) (j 0) (j 1) (j 2))) 1) k := fun k => by
    funext a; apply Fin.ext
    match a with
    | ⟨0, _⟩ => show win5_0.index t (0 : Fin 2) * 256 + 1 * (j 1).val = win5_3.index t (1 : Fin 3) * 256 + 1 * (j 1).val; omega
    | ⟨1, _⟩ => show win5_0.index t (1 : Fin 2) * 2048 + 1 * k.val = k.val; omega
  have h1 : ∀ k : Fin 2048, ((cfg5.win 1).blk t).view.emb (ix3 (n0 := 1) (n1 := 1) (n2 := 2048) (0 : Fin 1) (0 : Fin 1) k)
      = ix3 ((((cfg5.win 3).blk t).view.emb (ix3 (n0 := 1) (n1 := 256) (n2 := 2048) (j 0) (j 1) (j 2))) 0) (0 : Fin 1) k := fun k => by
    funext a; apply Fin.ext
    match a with
    | ⟨0, _⟩ => show win5_1.index t (0 : Fin 3) * 1 + 1 * 0 = win5_3.index t (0 : Fin 3) * 1 + 1 * (j 0).val; omega
    | ⟨1, _⟩ => show win5_1.index t (1 : Fin 3) * 1 + 1 * 0 = 0; omega
    | ⟨2, _⟩ => show win5_1.index t (2 : Fin 3) * 2048 + 1 * k.val = k.val; omega
  have hrow : (fun k' : Fin 2048 => Cert.Spec.arr S256x2048 (iblk5 V c 0 t) (ix2 (n0 := 256) (n1 := 2048) (j 1) k')
        - Cert.Spec.arr S1x1x2048 (iblk5 V c 1 t) (ix3 (n0 := 1) (n1 := 1) (n2 := 2048) (0 : Fin 1) (0 : Fin 1) k'))
      = (fun k' => Cert.Spec.arr S2048x2048 (V c (Pipeline.arrRef spec5 0)) (ix2 ((((cfg5.win 3).blk t).view.emb (ix3 (n0 := 1) (n1 := 256) (n2 := 2048) (j 0) (j 1) (j 2))) 1) k') - Cert.Spec.arr S32x1x2048 (V c (Pipeline.arrRef spec5 1)) (ix3 ((((cfg5.win 3).blk t).view.emb (ix3 (n0 := 1) (n1 := 256) (n2 := 2048) (j 0) (j 1) (j 2))) 0) (0 : Fin 1) k')) := funext fun k' => by
    show Cert.Spec.arr S2048x2048 (V c (Pipeline.arrRef spec5 0)) (((cfg5.win 0).blk t).view.emb (ix2 (n0 := 256) (n1 := 2048) (j 1) k'))
      - Cert.Spec.arr S32x1x2048 (V c (Pipeline.arrRef spec5 1)) (((cfg5.win 1).blk t).view.emb (ix3 (n0 := 1) (n1 := 1) (n2 := 2048) (0 : Fin 1) (0 : Fin 1) k')) = _
    exact congrArg₂ (fun (a b : EReal) => a - b)
      (congrArg (Cert.Spec.arr S2048x2048 (V c (Pipeline.arrRef spec5 0))) (h0 k'))
      (congrArg (Cert.Spec.arr S32x1x2048 (V c (Pipeline.arrRef spec5 1))) (h1 k'))
  have h2 : (j 2) = ((((cfg5.win 3).blk t).view.emb (ix3 (n0 := 1) (n1 := 256) (n2 := 2048) (j 0) (j 1) (j 2))) 2) :=
    Fin.ext (by show (j 2).val = win5_3.index t (2 : Fin 3) * 2048 + 1 * (j 2).val; omega)
  show k5_pay2 (F := Ideal) (iblk5 V c 0 t) (iblk5 V c 1 t) j = G5_3 V c (((cfg5.win 3).blk t).view.emb j)
  rw [hj]
  refine (pay5_2_apply _ _ _ _ _).trans ?_
  unfold G5_3
  exact congrArg₂ (Cert.Spec.layernorm (C := 2048)) hrow h2

set_option maxHeartbeats 1000000 in
/-- What point t writes back to the second output is block t of `G5_4`. -/
theorem flushed5_4_eq (c : Dev nD) (t : Fin cfg5.N) :
    (dat5 (F := Ideal) V c).flushed 4 t = ((cfg5.win 4).blk t).view.read (Elt Ideal) (G5_4 V c) := by
  show (cfg5.win 4).cut (grid5.coords t) ((dat5 V c).after 4 t) = _
  rw [after5_4]
  unfold out5_4
  rw [View.canon_unit_zero hz3_r5]
  simp only [View.ld_unit_zero (S := S256x2048) hz2_r5, View.ld_unit_zero (S := S1x1x2048) hz3_r5, View.ld_unit_zero (S := S2048x2048) hz2_r5]
  obtain ⟨e00, e01, e10, e11, e12, e20, e21, e30, e31, e32, e40, e41, e42⟩ := idx_facts5 t
  funext j
  have hj : j = (ix3 (n0 := 1) (n1 := 256) (n2 := 2048) (j 0) (j 1) (j 2)) := eq_ix3 (n0 := 1) (n1 := 256) (n2 := 2048) j
  have hj0 : (j 0).val = 0 := by have h : (j 0).val < 1 := (j 0).isLt; omega
  have h0 : ∀ k : Fin 2048, ((cfg5.win 0).blk t).view.emb (ix2 (n0 := 256) (n1 := 2048) (j 1) k)
      = ix2 ((((cfg5.win 4).blk t).view.emb (ix3 (n0 := 1) (n1 := 256) (n2 := 2048) (j 0) (j 1) (j 2))) 1) k := fun k => by
    funext a; apply Fin.ext
    match a with
    | ⟨0, _⟩ => show win5_0.index t (0 : Fin 2) * 256 + 1 * (j 1).val = win5_4.index t (1 : Fin 3) * 256 + 1 * (j 1).val; omega
    | ⟨1, _⟩ => show win5_0.index t (1 : Fin 2) * 2048 + 1 * k.val = k.val; omega
  have h1 : ∀ k : Fin 2048, ((cfg5.win 1).blk t).view.emb (ix3 (n0 := 1) (n1 := 1) (n2 := 2048) (0 : Fin 1) (0 : Fin 1) k)
      = ix3 ((((cfg5.win 4).blk t).view.emb (ix3 (n0 := 1) (n1 := 256) (n2 := 2048) (j 0) (j 1) (j 2))) 0) (0 : Fin 1) k := fun k => by
    funext a; apply Fin.ext
    match a with
    | ⟨0, _⟩ => show win5_1.index t (0 : Fin 3) * 1 + 1 * 0 = win5_4.index t (0 : Fin 3) * 1 + 1 * (j 0).val; omega
    | ⟨1, _⟩ => show win5_1.index t (1 : Fin 3) * 1 + 1 * 0 = 0; omega
    | ⟨2, _⟩ => show win5_1.index t (2 : Fin 3) * 2048 + 1 * k.val = k.val; omega
  have hrow : (fun k' : Fin 2048 => Cert.Spec.arr S256x2048 (iblk5 V c 0 t) (ix2 (n0 := 256) (n1 := 2048) (j 1) k')
        - Cert.Spec.arr S1x1x2048 (iblk5 V c 1 t) (ix3 (n0 := 1) (n1 := 1) (n2 := 2048) (0 : Fin 1) (0 : Fin 1) k'))
      = (fun k' => Cert.Spec.arr S2048x2048 (V c (Pipeline.arrRef spec5 0)) (ix2 ((((cfg5.win 4).blk t).view.emb (ix3 (n0 := 1) (n1 := 256) (n2 := 2048) (j 0) (j 1) (j 2))) 1) k') - Cert.Spec.arr S32x1x2048 (V c (Pipeline.arrRef spec5 1)) (ix3 ((((cfg5.win 4).blk t).view.emb (ix3 (n0 := 1) (n1 := 256) (n2 := 2048) (j 0) (j 1) (j 2))) 0) (0 : Fin 1) k')) := funext fun k' => by
    show Cert.Spec.arr S2048x2048 (V c (Pipeline.arrRef spec5 0)) (((cfg5.win 0).blk t).view.emb (ix2 (n0 := 256) (n1 := 2048) (j 1) k'))
      - Cert.Spec.arr S32x1x2048 (V c (Pipeline.arrRef spec5 1)) (((cfg5.win 1).blk t).view.emb (ix3 (n0 := 1) (n1 := 1) (n2 := 2048) (0 : Fin 1) (0 : Fin 1) k')) = _
    exact congrArg₂ (fun (a b : EReal) => a - b)
      (congrArg (Cert.Spec.arr S2048x2048 (V c (Pipeline.arrRef spec5 0))) (h0 k'))
      (congrArg (Cert.Spec.arr S32x1x2048 (V c (Pipeline.arrRef spec5 1))) (h1 k'))
  have h2 : ∀ k : Fin 2048, ((cfg5.win 2).blk t).view.emb (ix2 (n0 := 2048) (n1 := 2048) k (j 2))
      = ix2 k ((((cfg5.win 4).blk t).view.emb (ix3 (n0 := 1) (n1 := 256) (n2 := 2048) (j 0) (j 1) (j 2))) 2) := fun k => by
    funext a; apply Fin.ext
    match a with
    | ⟨0, _⟩ => show win5_2.index t (0 : Fin 2) * 2048 + 1 * k.val = k.val; omega
    | ⟨1, _⟩ => show win5_2.index t (1 : Fin 2) * 2048 + 1 * (j 2).val = win5_4.index t (2 : Fin 3) * 2048 + 1 * (j 2).val; omega
  show k5_pay3 (F := Ideal) (iblk5 V c 0 t) (iblk5 V c 1 t) (iblk5 V c 2 t) j = G5_4 V c (((cfg5.win 4).blk t).view.emb j)
  rw [hj]
  refine (pay5_3_apply _ _ _ _ _ _).trans ?_
  unfold G5_4
  refine Finset.sum_congr rfl fun k _ => ?_
  refine congrArg₂ (fun (a b : EReal) => a * b) (congrArg (fun f => Cert.Spec.layernorm (C := 2048) f k) hrow) ?_
  exact congrArg (Cert.Spec.arr S2048x2048 (V c (Pipeline.arrRef spec5 2))) (h2 k)

/-- An index of the first output is in point t's block iff each coordinate is in the block's range on its axis. -/
theorem mem_blk5_3 (t : Fin cfg5.N) (i : S32x2048x2048.Idx) :
    i ∈ ((cfg5.win 3).blk t).view.set ↔ ∀ a : Fin 3, win5_3.index t a * S1x256x2048.size a ≤ (i a).val
      ∧ (i a).val < win5_3.index t a * S1x256x2048.size a + S1x256x2048.size a := by
  show i ∈ ((View.whole main_v57_0).slice (win5_3.rect t)).set ↔ _
  rw [View.set_slice_whole, Rect.mem_set_unit]
  exact Iff.rfl

/-- The same for the second output. -/
theorem mem_blk5_4 (t : Fin cfg5.N) (i : S32x2048x2048.Idx) :
    i ∈ ((cfg5.win 4).blk t).view.set ↔ ∀ a : Fin 3, win5_4.index t a * S1x256x2048.size a ≤ (i a).val
      ∧ (i a).val < win5_4.index t a * S1x256x2048.size a + S1x256x2048.size a := by
  show i ∈ ((View.whole main_v57_1).slice (win5_4.rect t)).set ↔ _
  rw [View.set_slice_whole, Rect.mem_set_unit]
  exact Iff.rfl

/-- The point that owns (b, n, ·): tile n / 256 and batch b, that is point 32 (n / 256) + b. -/
theorem owner5 (i : S32x2048x2048.Idx) : ∃ t : Fin cfg5.N, t.val = (i 1).val / 256 * 32 + (i 0).val := by
  have hi0 : (i 0).val < 32 := (i 0).isLt
  have hi1 : (i 1).val < 2048 := (i 1).isLt
  exact ⟨⟨(i 1).val / 256 * 32 + (i 0).val, by show (i 1).val / 256 * 32 + (i 0).val < 256; omega⟩, rfl⟩

/-- Every index of the first output is in its owner's block. -/
theorem cover5_3' (i : S32x2048x2048.Idx) :
    ∃ t : Fin cfg5.N, (cfg5.win 3).flush t = true ∧ i ∈ ((cfg5.win 3).blk t).view.set := by
  have hi0 : (i 0).val < 32 := (i 0).isLt
  have hi1 : (i 1).val < 2048 := (i 1).isLt
  have hi2 : (i 2).val < 2048 := (i 2).isLt
  obtain ⟨t, ht⟩ := owner5 i
  obtain ⟨e00, e01, e10, e11, e12, e20, e21, e30, e31, e32, e40, e41, e42⟩ := idx_facts5 t
  refine ⟨t, flush5_3 t, ?_⟩
  rw [mem_blk5_3]
  intro a
  match a with
  | ⟨0, _⟩ => show win5_3.index t (0 : Fin 3) * 1 ≤ (i 0).val ∧ (i 0).val < win5_3.index t (0 : Fin 3) * 1 + 1; omega
  | ⟨1, _⟩ => show win5_3.index t (1 : Fin 3) * 256 ≤ (i 1).val ∧ (i 1).val < win5_3.index t (1 : Fin 3) * 256 + 256; omega
  | ⟨2, _⟩ => show win5_3.index t (2 : Fin 3) * 2048 ≤ (i 2).val ∧ (i 2).val < win5_3.index t (2 : Fin 3) * 2048 + 2048; omega

/-- Every index of the second output is in its owner's block. -/
theorem cover5_4' (i : S32x2048x2048.Idx) :
    ∃ t : Fin cfg5.N, (cfg5.win 4).flush t = true ∧ i ∈ ((cfg5.win 4).blk t).view.set := by
  have hi0 : (i 0).val < 32 := (i 0).isLt
  have hi1 : (i 1).val < 2048 := (i 1).isLt
  have hi2 : (i 2).val < 2048 := (i 2).isLt
  obtain ⟨t, ht⟩ := owner5 i
  obtain ⟨e00, e01, e10, e11, e12, e20, e21, e30, e31, e32, e40, e41, e42⟩ := idx_facts5 t
  refine ⟨t, flush5_4 t, ?_⟩
  rw [mem_blk5_4]
  intro a
  match a with
  | ⟨0, _⟩ => show win5_4.index t (0 : Fin 3) * 1 ≤ (i 0).val ∧ (i 0).val < win5_4.index t (0 : Fin 3) * 1 + 1; omega
  | ⟨1, _⟩ => show win5_4.index t (1 : Fin 3) * 256 ≤ (i 1).val ∧ (i 1).val < win5_4.index t (1 : Fin 3) * 256 + 256; omega
  | ⟨2, _⟩ => show win5_4.index t (2 : Fin 3) * 2048 ≤ (i 2).val ∧ (i 2).val < win5_4.index t (2 : Fin 3) * 2048 + 2048; omega

/-- The first output after the region is `G5_3`. -/
theorem region5_arr_g (c : Dev nD) : (dat5 (F := Ideal) V c).arrAt 3 cfg5.N = G5_3 V c :=
  (dat5 (F := Ideal) V c).arrAt_eq_of_cover 3 (G5_3 V c) (fun t _ => flushed5_3_eq V c t) (cover5_3')

/-- The second output after the region is `G5_4`. -/
theorem region5_arr_relg (c : Dev nD) : (dat5 (F := Ideal) V c).arrAt 4 cfg5.N = G5_4 V c :=
  (dat5 (F := Ideal) V c).arrAt_eq_of_cover 4 (G5_4 V c) (fun t _ => flushed5_4_eq V c t) (cover5_4')

/-- Entry (b, n, c) of the first output after the region. -/
theorem region5_value_g (c : Dev nD) (b : Fin 32) (n : Fin 2048) (c' : Fin 2048) :
    Cert.Spec.arr S32x2048x2048 ((dat5 (F := Ideal) V c).arrAt 3 cfg5.N) (ix3 b n c')
      = Cert.Spec.layernorm (fun k' => Cert.Spec.arr S2048x2048 (V c (Pipeline.arrRef spec5 0)) (ix2 n k') - Cert.Spec.arr S32x1x2048 (V c (Pipeline.arrRef spec5 1)) (ix3 b (0 : Fin 1) k')) c' :=
  congrFun (region5_arr_g V c) (ix3 b n c')

/-- Entry (b, n, d) of the second output after the region. -/
theorem region5_value_relg (c : Dev nD) (b : Fin 32) (n : Fin 2048) (d : Fin 2048) :
    Cert.Spec.arr S32x2048x2048 ((dat5 (F := Ideal) V c).arrAt 4 cfg5.N) (ix3 b n d)
      = ∑ k : Fin 2048, Cert.Spec.layernorm (fun k' => Cert.Spec.arr S2048x2048 (V c (Pipeline.arrRef spec5 0)) (ix2 n k') - Cert.Spec.arr S32x1x2048 (V c (Pipeline.arrRef spec5 1)) (ix3 b (0 : Fin 1) k')) k
          * Cert.Spec.arr S2048x2048 (V c (Pipeline.arrRef spec5 2)) (ix2 k d) :=
  congrFun (region5_arr_relg V c) (ix3 b n d)

end Cert.KernelIdeal.Proj

end
-- ==== Proof.IfaceProj.lean ====
/-
  The projection regions and the centre-normalise-project region, with every array written by its buffer's name: each
  output array after its region, entry by entry.
-/
import proofs.«101814_j47201690583535_1_alg».proof.Proof.ProjRegions
import proofs.«101814_j47201690583535_1_alg».proof.Proof.CenterRegion

noncomputable section
open scoped BigOperators

namespace Cert.KernelIdeal.Iface
open Cert.KernelIdeal Cert.KernelIdeal.Gen Idealize.ShloMosaic Idealize.ShloMosaic.ValueIdx Idealize.ShloMosaic.TcCoe Idealize.SL.Sem

theorem region1_value (V : (c : Dev nD) → (b : Ref sig .tc) → Buf (Elt Ideal) ((c : Thread nD τ).loc b)) (c : Dev nD) (r : Fin 9216) (d : Fin 2048) :
    Cert.Spec.arr S9216x2048 ((dat1 (F := Ideal) V c).arrAt 2 cfg1.N) (ix2 r d) = ∑ k : Fin 2048, Cert.Spec.arr S9216x2048 (V c main_v25) (ix2 r k) * Cert.Spec.arr S2048x2048 (V c main_v16) (ix2 k d) :=
  Cert.KernelIdeal.Proj.region1_value V c r d

theorem region2_value (V : (c : Dev nD) → (b : Ref sig .tc) → Buf (Elt Ideal) ((c : Thread nD τ).loc b)) (c : Dev nD) (r : Fin 512) (d : Fin 2048) :
    Cert.Spec.arr S512x2048 ((dat2 (F := Ideal) V c).arrAt 2 cfg2.N) (ix2 r d) = ∑ k : Fin 2048, Cert.Spec.arr S512x2048 (V c main_v28) (ix2 r k) * Cert.Spec.arr S2048x2048 (V c main_v14) (ix2 k d) :=
  Cert.KernelIdeal.Proj.region2_value V c r d

theorem region4_value (V : (c : Dev nD) → (b : Ref sig .tc) → Buf (Elt Ideal) ((c : Thread nD τ).loc b)) (c : Dev nD) (r : Fin 512) (d : Fin 2048) :
    Cert.Spec.arr S512x2048 ((dat4 (F := Ideal) V c).arrAt 2 cfg4.N) (ix2 r d) = ∑ k : Fin 2048, Cert.Spec.arr S512x2048 (V c main_v54) (ix2 r k) * Cert.Spec.arr S2048x2048 (V c main_v18) (ix2 k d) :=
  Cert.KernelIdeal.Proj.region4_value V c r d

theorem region7_value (V : (c : Dev nD) → (b : Ref sig .tc) → Buf (Elt Ideal) ((c : Thread nD τ).loc b)) (c : Dev nD) (r : Fin 512) (d : Fin 2048) :
    Cert.Spec.arr S512x2048 ((dat7 (F := Ideal) V c).arrAt 2 cfg7.N) (ix2 r d) = ∑ k : Fin 2048, Cert.Spec.arr S512x2048 (V c main_v60) (ix2 r k) * Cert.Spec.arr S2048x2048 (V c main_v14) (ix2 k d) :=
  Cert.KernelIdeal.Proj.region7_value V c r d

theorem region10_value (V : (c : Dev nD) → (b : Ref sig .tc) → Buf (Elt Ideal) ((c : Thread nD τ).loc b)) (c : Dev nD) (r : Fin 36864) (d : Fin 2048) :
    Cert.Spec.arr S36864x2048 ((dat10 (F := Ideal) V c).arrAt 2 cfg10.N) (ix2 r d) = ∑ k : Fin 2048, Cert.Spec.arr S36864x2048 (V c main_v93) (ix2 r k) * Cert.Spec.arr S2048x2048 (V c main_v16) (ix2 k d) :=
  Cert.KernelIdeal.Proj.region10_value V c r d

theorem region5_value_g (V : (c : Dev nD) → (b : Ref sig .tc) → Buf (Elt Ideal) ((c : Thread nD τ).loc b)) (c : Dev nD) (b : Fin 32) (n : Fin 2048) (c' : Fin 2048) :
    Cert.Spec.arr S32x2048x2048 ((dat5 (F := Ideal) V c).arrAt 3 cfg5.N) (ix3 b n c')
      = Cert.Spec.layernorm (fun k => Cert.Spec.arr S2048x2048 (V c main_v3) (ix2 n k) - Cert.Spec.arr S32x1x2048 (V c main_v35) (ix3 b (0 : Fin 1) k)) c' :=
  Cert.KernelIdeal.Proj.region5_value_g V c b n c'

theorem region5_value_relg (V : (c : Dev nD) → (b : Ref sig .tc) → Buf (Elt Ideal) ((c : Thread nD τ).loc b)) (c : Dev nD) (b : Fin 32) (n : Fin 2048) (d : Fin 2048) :
    Cert.Spec.arr S32x2048x2048 ((dat5 (F := Ideal) V c).arrAt 4 cfg5.N) (ix3 b n d)
      = ∑ k : Fin 2048, Cert.Spec.layernorm (fun k' => Cert.Spec.arr S2048x2048 (V c main_v3) (ix2 n k') - Cert.Spec.arr S32x1x2048 (V c main_v35) (ix3 b (0 : Fin 1) k')) k * Cert.Spec.arr S2048x2048 (V c main_v20) (ix2 k d) :=
  Cert.KernelIdeal.Proj.region5_value_relg V c b n d

end Cert.KernelIdeal.Iface
end
-- ==== Proof.RefSpecProj.lean ====
/-
  The reference's six projections read against the specification: each `dot_general` of a stage with a square table,
  contracting the stage's last axis with the table's second, is at (b, r, d) the inner product of row (b, r) of the
  stage with row d of the table.
-/
import proofs.«101814_j47201690583535_1_alg».proof.Proof.RefRead
import proofs.«101814_j47201690583535_1_alg».proof.Proof.Spec

noncomputable section

open scoped BigOperators

namespace Cert.ReferenceIdeal.RefSpec

open Cert.ReferenceIdeal Cert.ReferenceIdeal.Gen Cert.ReferenceIdeal.ReadP Idealize.ShloMosaic Idealize.ShloMosaic.ValueIdx

/-- Stage 13 is the projection of stage 2's rows by the table `x8`. -/
theorem v13_spec (x3 : (⟨S1x16x2048, .f32⟩ : BufTy).Contents (Elt Ideal)) (x8 : (⟨S2048x2048, .f32⟩ : BufTy).Contents (Elt Ideal))
    (b : Fin 32) (q : Fin 16) (d : Fin 2048) :
    val_main_v13 (F := Ideal) x3 x8 (ix3 b q d)
      = Cert.Spec.proj (fun k => val_main_v2 (F := Ideal) x3 (ix3 b q k)) (fun d' k => x8 (ix2 d' k)) d := by
  rw [val_main_v13_apply]
  unfold Cert.Spec.proj
  refine Finset.sum_congr rfl fun k _ => ?_
  have el : lidx_main_v13 (ix3 b q d) k = ix3 b q k := funext fun a => by
    match a with | ⟨0, _⟩ => rfl | ⟨1, _⟩ => rfl | ⟨2, _⟩ => rfl
  have er : ridx_main_v13 (ix3 b q d) k = ix2 d k := funext fun a => by
    match a with | ⟨0, _⟩ => rfl | ⟨1, _⟩ => rfl
  rw [el, er]

/-- Stage 37 is the projection of stage 36's rows by the table `x9`. -/
theorem v37_spec (x0 : (⟨S32x2048x24x12, .f32⟩ : BufTy).Contents (Elt Ideal)) (x1 : (⟨S32, .i32⟩ : BufTy).Contents (Elt Ideal)) (x6 : (⟨S6x1x2048, .f32⟩ : BufTy).Contents (Elt Ideal)) (x9 : (⟨S2048x2048, .f32⟩ : BufTy).Contents (Elt Ideal))
    (b : Fin 32) (p : Fin 288) (d : Fin 2048) :
    val_main_v37 (F := Ideal) x0 x1 x6 x9 (ix3 b p d)
      = Cert.Spec.proj (fun k => val_main_v36 (F := Ideal) x0 x1 x6 (ix3 b p k)) (fun d' k => x9 (ix2 d' k)) d := by
  rw [val_main_v37_apply]
  unfold Cert.Spec.proj
  refine Finset.sum_congr rfl fun k _ => ?_
  have el : lidx_main_v37 (ix3 b p d) k = ix3 b p k := funext fun a => by
    match a with | ⟨0, _⟩ => rfl | ⟨1, _⟩ => rfl | ⟨2, _⟩ => rfl
  have er : ridx_main_v37 (ix3 b p d) k = ix2 d k := funext fun a => by
    match a with | ⟨0, _⟩ => rfl | ⟨1, _⟩ => rfl
  rw [el, er]

/-- Stage 71 is the projection of stage 70's rows by the table `x10`. -/
theorem v71_spec (x0 : (⟨S32x2048x24x12, .f32⟩ : BufTy).Contents (Elt Ideal)) (x1 : (⟨S32, .i32⟩ : BufTy).Contents (Elt Ideal)) (x3 : (⟨S1x16x2048, .f32⟩ : BufTy).Contents (Elt Ideal)) (x6 : (⟨S6x1x2048, .f32⟩ : BufTy).Contents (Elt Ideal)) (x8 x9 x10 : (⟨S2048x2048, .f32⟩ : BufTy).Contents (Elt Ideal))
    (b : Fin 32) (q : Fin 16) (d : Fin 2048) :
    val_main_v71 (F := Ideal) x0 x1 x3 x6 x8 x9 x10 (ix3 b q d)
      = Cert.Spec.proj (fun k => val_main_v70 (F := Ideal) x0 x1 x3 x6 x8 x9 (ix3 b q k)) (fun d' k => x10 (ix2 d' k)) d := by
  rw [val_main_v71_apply]
  unfold Cert.Spec.proj
  refine Finset.sum_congr rfl fun k _ => ?_
  have el : lidx_main_v71 (ix3 b q d) k = ix3 b q k := funext fun a => by
    match a with | ⟨0, _⟩ => rfl | ⟨1, _⟩ => rfl | ⟨2, _⟩ => rfl
  have er : ridx_main_v71 (ix3 b q d) k = ix2 d k := funext fun a => by
    match a with | ⟨0, _⟩ => rfl | ⟨1, _⟩ => rfl
  rw [el, er]

/-- Stage 96 is the projection of stage 95's rows by the table `x11`. -/
theorem v96_spec (x0 : (⟨S32x2048x24x12, .f32⟩ : BufTy).Contents (Elt Ideal)) (x1 : (⟨S32, .i32⟩ : BufTy).Contents (Elt Ideal)) (x3 : (⟨S1x16x2048, .f32⟩ : BufTy).Contents (Elt Ideal)) (x4 : (⟨S1x2048x2048, .f32⟩ : BufTy).Contents (Elt Ideal)) (x6 : (⟨S6x1x2048, .f32⟩ : BufTy).Contents (Elt Ideal)) (x8 x9 x11 : (⟨S2048x2048, .f32⟩ : BufTy).Contents (Elt Ideal))
    (b : Fin 32) (n : Fin 2048) (d : Fin 2048) :
    val_main_v96 (F := Ideal) x0 x1 x3 x4 x6 x8 x9 x11 (ix3 b n d)
      = Cert.Spec.proj (fun k => val_main_v95 (F := Ideal) x0 x1 x3 x4 x6 x8 x9 (ix3 b n k)) (fun d' k => x11 (ix2 d' k)) d := by
  rw [val_main_v96_apply]
  unfold Cert.Spec.proj
  refine Finset.sum_congr rfl fun k _ => ?_
  have el : lidx_main_v96 (ix3 b n d) k = ix3 b n k := funext fun a => by
    match a with | ⟨0, _⟩ => rfl | ⟨1, _⟩ => rfl | ⟨2, _⟩ => rfl
  have er : ridx_main_v96 (ix3 b n d) k = ix2 d k := funext fun a => by
    match a with | ⟨0, _⟩ => rfl | ⟨1, _⟩ => rfl
  rw [el, er]

/-- Stage 113 is the projection of stage 112's rows by the table `x8`. -/
theorem v113_spec (x0 : (⟨S32x2048x24x12, .f32⟩ : BufTy).Contents (Elt Ideal)) (x1 : (⟨S32, .i32⟩ : BufTy).Contents (Elt Ideal)) (x3 : (⟨S1x16x2048, .f32⟩ : BufTy).Contents (Elt Ideal)) (x4 : (⟨S1x2048x2048, .f32⟩ : BufTy).Contents (Elt Ideal)) (x6 : (⟨S6x1x2048, .f32⟩ : BufTy).Contents (Elt Ideal)) (x8 x9 x10 x11 : (⟨S2048x2048, .f32⟩ : BufTy).Contents (Elt Ideal))
    (b : Fin 32) (q : Fin 16) (d : Fin 2048) :
    val_main_v113 (F := Ideal) x0 x1 x3 x4 x6 x8 x9 x10 x11 (ix3 b q d)
      = Cert.Spec.proj (fun k => val_main_v112 (F := Ideal) x0 x1 x3 x4 x6 x8 x9 x10 x11 (ix3 b q k)) (fun d' k => x8 (ix2 d' k)) d := by
  rw [val_main_v113_apply]
  unfold Cert.Spec.proj
  refine Finset.sum_congr rfl fun k _ => ?_
  have el : lidx_main_v113 (ix3 b q d) k = ix3 b q k := funext fun a => by
    match a with | ⟨0, _⟩ => rfl | ⟨1, _⟩ => rfl | ⟨2, _⟩ => rfl
  have er : ridx_main_v113 (ix3 b q d) k = ix2 d k := funext fun a => by
    match a with | ⟨0, _⟩ => rfl | ⟨1, _⟩ => rfl
  rw [el, er]

/-- Stage 203 is the projection of stage 202's rows by the table `x9`. -/
theorem v203_spec (x0 : (⟨S32x2048x24x12, .f32⟩ : BufTy).Contents (Elt Ideal)) (x1 : (⟨S32, .i32⟩ : BufTy).Contents (Elt Ideal)) (x2 : (⟨S32, .i1⟩ : BufTy).Contents (Elt Ideal)) (x6 : (⟨S6x1x2048, .f32⟩ : BufTy).Contents (Elt Ideal)) (x9 : (⟨S2048x2048, .f32⟩ : BufTy).Contents (Elt Ideal))
    (b : Fin 32) (n : Fin 1152) (d : Fin 2048) :
    val_main_v203 (F := Ideal) x0 x1 x2 x6 x9 (ix3 b n d)
      = Cert.Spec.proj (fun k => val_main_v202 (F := Ideal) x0 x1 x2 x6 (ix3 b n k)) (fun d' k => x9 (ix2 d' k)) d := by
  rw [val_main_v203_apply]
  unfold Cert.Spec.proj
  refine Finset.sum_congr rfl fun k _ => ?_
  have el : lidx_main_v203 (ix3 b n d) k = ix3 b n k := funext fun a => by
    match a with | ⟨0, _⟩ => rfl | ⟨1, _⟩ => rfl | ⟨2, _⟩ => rfl
  have er : ridx_main_v203 (ix3 b n d) k = ix2 d k := funext fun a => by
    match a with | ⟨0, _⟩ => rfl | ⟨1, _⟩ => rfl
  rw [el, er]

end Cert.ReferenceIdeal.RefSpec

end
-- ==== Proof.RefSpecPatch.lean ====
/-
  The reference's patch self-attention read against the specification: the rows of a patch are divided by their
  Euclidean lengths, their pairwise inner products are softmaxed row by row (the exponentials of the scores less
  the row's maximum, over their sum), and the softmax weights combine the rows themselves.  Read at an index
  built from its coordinates, every broadcast returns the reduced value of the same row; the host's maximum along
  the last axis from -∞ is the fold of `max` from ⊥, and the extra maximum with -∞ that follows it changes nothing.
-/
import proofs.«101814_j47201690583535_1_alg».proof.Proof.RefRead
import proofs.«101814_j47201690583535_1_alg».proof.Proof.Spec
import proofs.«101814_j47201690583535_1_alg».proof.Proof.LibFoldBounds

noncomputable section

open scoped BigOperators

namespace Cert.ReferenceIdeal.RefSpec

open Cert.ReferenceIdeal Cert.ReferenceIdeal.Gen Cert.ReferenceIdeal.ReadP Idealize.ShloMosaic Idealize.ShloMosaic.ValueIdx

/-- Two indices built coordinate by coordinate are equal when each coordinate is. -/
local macro "idx_tac" : tactic =>
  `(tactic| (funext a; first
      | (match a with | ⟨0, _⟩ => rfl | ⟨1, _⟩ => rfl | ⟨2, _⟩ => rfl)
      | (match a with | ⟨0, _⟩ => rfl | ⟨1, _⟩ => rfl)
      | (match a with | ⟨0, _⟩ => rfl)))

section PA34
variable (x0 : (⟨S32x2048x24x12, .f32⟩ : BufTy).Contents (Elt Ideal))
variable (b : Fin 32) (p : Fin 288)

/-- The squared length of a row. -/
theorem v15_at : val_main_v15 (F := Ideal) x0 (ix2 b p) = ∑ k : Fin 2048, val_main_v1 (F := Ideal) x0 (ix3 b p k) * val_main_v1 (F := Ideal) x0 (ix3 b p k) := by
  rw [val_main_v15_apply]
  have hz : val_main_cst (F := Ideal) (Shape.Idx.first h_S_) = 0 := Ideal.ofBits_zero_f32
  rw [hz, zero_add]
  refine Finset.sum_congr rfl fun k _ => ?_
  rw [(by idx_tac : idx_main_v15 (ix2 b p) k = ix3 b p k), val_main_v14_apply]
  rfl

/-- The length of a row, bounded below. -/
theorem v19_at : val_main_v19 (F := Ideal) x0 (ix3 b p (0 : Fin 1))
    = max (Ideal.sqrt (∑ k : Fin 2048, val_main_v1 (F := Ideal) x0 (ix3 b p k) * val_main_v1 (F := Ideal) x0 (ix3 b p k))) Cert.Spec.epsNorm := by
  rw [val_main_v19_apply, val_main_v17_apply, val_main_v16_apply, val_main_v18_apply,
    (by idx_tac : idx_main_v16 (ix3 b p (0 : Fin 1)) = ix2 b p), v15_at]
  rfl

/-- A row divided by its length. -/
theorem v21_at (c : Fin 2048) : val_main_v21 (F := Ideal) x0 (ix3 b p c) = Cert.Spec.l2n (fun p' k => val_main_v1 (F := Ideal) x0 (ix3 b p' k)) p c := by
  unfold Cert.Spec.l2n
  rw [val_main_v21_apply, val_main_v20_apply,
    (by idx_tac : idx_main_v20 (ix3 b p c) = ix3 b p (0 : Fin 1)), v19_at]
  rfl

/-- The inner product of two normalised rows. -/
theorem v22_at (q' : Fin 288) : val_main_v22 (F := Ideal) x0 (ix3 b p q')
    = ∑ k : Fin 2048, Cert.Spec.l2n (fun p' k => val_main_v1 (F := Ideal) x0 (ix3 b p' k)) p k * Cert.Spec.l2n (fun p' k => val_main_v1 (F := Ideal) x0 (ix3 b p' k)) q' k := by
  rw [val_main_v22_apply]
  refine Finset.sum_congr rfl fun k _ => ?_
  rw [(by idx_tac : lidx_main_v22 (ix3 b p q') k = ix3 b p k),
    (by idx_tac : ridx_main_v22 (ix3 b p q') k = ix3 b q' k), v21_at, v21_at]

/-- The maximum of a row of scores: the host's maximum along the last axis from -∞ is the fold of `max` from ⊥. -/
theorem v23_at : val_main_v23 (F := Ideal) x0 (ix2 b p) = Cert.Spec.rowMax (fun q' => val_main_v22 (F := Ideal) x0 (ix3 b p q')) := by
  unfold val_main_v23 Cert.Spec.rowMax
  generalize val_main_v22 (F := Ideal) x0 = y
  have h : S32x288x288.Reduces [2] S32x288 := by decide
  rw [Host.reduce_eq_fold_single FloatOps.maximumf _ _ reducesTo_S32x288x288_S32x288_d2 h h_S_]
  have hi : val_main_cst_3 (F := Ideal) (Shape.Idx.first h_S_) = (⊥ : EReal) := Cert.FoldBounds.negInf_f32
  rw [hi]
  refine Finset.fold_congr (fun k _ => ?_)
  refine congrArg y ?_
  funext c; apply Fin.ext
  match c with | ⟨0, _⟩ => rfl | ⟨1, _⟩ => rfl | ⟨2, _⟩ => rfl

/-- The same maximum after the extra maximum with -∞ and the broadcast back. -/
theorem v26_at : val_main_v26 (F := Ideal) x0 (ix3 b p (0 : Fin 1)) = Cert.Spec.rowMax (fun q' => val_main_v22 (F := Ideal) x0 (ix3 b p q')) := by
  rw [val_main_v26_apply, (by idx_tac : idx_main_v26 (ix3 b p (0 : Fin 1)) = ix2 b p),
    val_main_v25_apply, val_main_v24_apply, v23_at]
  have hi : val_main_cst_4 (F := Ideal) (idx_main_v24 (ix2 b p)) = (⊥ : EReal) := Cert.FoldBounds.negInf_f32
  rw [hi]
  exact max_eq_right bot_le

/-- The exponential of a score less its row's maximum. -/
theorem v29_at (q' : Fin 288) : val_main_v29 (F := Ideal) x0 (ix3 b p q')
    = Ideal.exp ((fun q' => val_main_v22 (F := Ideal) x0 (ix3 b p q')) q' - Cert.Spec.rowMax (fun q' => val_main_v22 (F := Ideal) x0 (ix3 b p q'))) := by
  rw [val_main_v29_apply, val_main_v28_apply, val_main_v27_apply,
    (by idx_tac : idx_main_v27 (ix3 b p q') = ix3 b p (0 : Fin 1)), v26_at]
  rfl

/-- The sum of a row's exponentials. -/
theorem v30_at : val_main_v30 (F := Ideal) x0 (ix2 b p)
    = ∑ k : Fin 288, Ideal.exp ((fun q' => val_main_v22 (F := Ideal) x0 (ix3 b p q')) k - Cert.Spec.rowMax (fun q' => val_main_v22 (F := Ideal) x0 (ix3 b p q'))) := by
  rw [val_main_v30_apply]
  have hz : val_main_cst_5 (F := Ideal) (Shape.Idx.first h_S_) = 0 := Ideal.ofBits_zero_f32
  rw [hz, zero_add]
  refine Finset.sum_congr rfl fun k _ => ?_
  rw [(by idx_tac : idx_main_v30 (ix2 b p) k = ix3 b p k), v29_at]

/-- The softmax of a row of scores. -/
theorem v33_at (q : Fin 288) : val_main_v33 (F := Ideal) x0 (ix3 b p q) = Cert.Spec.softmax (fun q' => val_main_v22 (F := Ideal) x0 (ix3 b p q')) q := by
  unfold Cert.Spec.softmax
  rw [val_main_v33_apply, v29_at, val_main_v32_apply, val_main_v31_apply,
    (by idx_tac : idx_main_v31 (idx_main_v32 (ix3 b p q)) = ix2 b p), v30_at]
  rfl

/-- Stage 34 is the self-attention of the patch of rows of stage 1. -/
theorem v34_spec (c : Fin 2048) : val_main_v34 (F := Ideal) x0 (ix3 b p c) = Cert.Spec.patchAttn (fun p' k => val_main_v1 (F := Ideal) x0 (ix3 b p' k)) p c := by
  unfold Cert.Spec.patchAttn
  rw [val_main_v34_apply]
  have hS : (fun q' => val_main_v22 (F := Ideal) x0 (ix3 b p q')) = fun q' => ∑ k : Fin 2048, Cert.Spec.l2n (fun p' k => val_main_v1 (F := Ideal) x0 (ix3 b p' k)) p k * Cert.Spec.l2n (fun p' k => val_main_v1 (F := Ideal) x0 (ix3 b p' k)) q' k :=
    funext fun q' => v22_at x0 b p q'
  rw [← hS]
  refine Finset.sum_congr rfl fun q _ => ?_
  rw [(by idx_tac : lidx_main_v34 (ix3 b p c) q = ix3 b p q),
    (by idx_tac : ridx_main_v34 (ix3 b p c) q = ix3 b q c), v33_at]

end PA34

section PA197
variable (x0 : (⟨S32x2048x24x12, .f32⟩ : BufTy).Contents (Elt Ideal)) (x2 : (⟨S32, .i1⟩ : BufTy).Contents (Elt Ideal))
variable (b : Fin 128) (p : Fin 288)

/-- The squared length of a row. -/
theorem v178_at : val_main_v178 (F := Ideal) x0 x2 (ix2 b p) = ∑ k : Fin 2048, val_main_v176 (F := Ideal) x0 x2 (ix3 b p k) * val_main_v176 (F := Ideal) x0 x2 (ix3 b p k) := by
  rw [val_main_v178_apply]
  have hz : val_main_cst_39 (F := Ideal) (Shape.Idx.first h_S_) = 0 := Ideal.ofBits_zero_f32
  rw [hz, zero_add]
  refine Finset.sum_congr rfl fun k _ => ?_
  rw [(by idx_tac : idx_main_v178 (ix2 b p) k = ix3 b p k), val_main_v177_apply]
  rfl

/-- The length of a row, bounded below. -/
theorem v182_at : val_main_v182 (F := Ideal) x0 x2 (ix3 b p (0 : Fin 1))
    = max (Ideal.sqrt (∑ k : Fin 2048, val_main_v176 (F := Ideal) x0 x2 (ix3 b p k) * val_main_v176 (F := Ideal) x0 x2 (ix3 b p k))) Cert.Spec.epsNorm := by
  rw [val_main_v182_apply, val_main_v180_apply, val_main_v179_apply, val_main_v181_apply,
    (by idx_tac : idx_main_v179 (ix3 b p (0 : Fin 1)) = ix2 b p), v178_at]
  rfl

/-- A row divided by its length. -/
theorem v184_at (c : Fin 2048) : val_main_v184 (F := Ideal) x0 x2 (ix3 b p c) = Cert.Spec.l2n (fun p' k => val_main_v176 (F := Ideal) x0 x2 (ix3 b p' k)) p c := by
  unfold Cert.Spec.l2n
  rw [val_main_v184_apply, val_main_v183_apply,
    (by idx_tac : idx_main_v183 (ix3 b p c) = ix3 b p (0 : Fin 1)), v182_at]
  rfl

/-- The inner product of two normalised rows. -/
theorem v185_at (q' : Fin 288) : val_main_v185 (F := Ideal) x0 x2 (ix3 b p q')
    = ∑ k : Fin 2048, Cert.Spec.l2n (fun p' k => val_main_v176 (F := Ideal) x0 x2 (ix3 b p' k)) p k * Cert.Spec.l2n (fun p' k => val_main_v176 (F := Ideal) x0 x2 (ix3 b p' k)) q' k := by
  rw [val_main_v185_apply]
  refine Finset.sum_congr rfl fun k _ => ?_
  rw [(by idx_tac : lidx_main_v185 (ix3 b p q') k = ix3 b p k),
    (by idx_tac : ridx_main_v185 (ix3 b p q') k = ix3 b q' k), v184_at, v184_at]

/-- The maximum of a row of scores: the host's maximum along the last axis from -∞ is the fold of `max` from ⊥. -/
theorem v186_at : val_main_v186 (F := Ideal) x0 x2 (ix2 b p) = Cert.Spec.rowMax (fun q' => val_main_v185 (F := Ideal) x0 x2 (ix3 b p q')) := by
  unfold val_main_v186 Cert.Spec.rowMax
  generalize val_main_v185 (F := Ideal) x0 x2 = y
  have h : S128x288x288.Reduces [2] S128x288 := by decide
  rw [Host.reduce_eq_fold_single FloatOps.maximumf _ _ reducesTo_S128x288x288_S128x288_d2 h h_S_]
  have hi : val_main_cst_41 (F := Ideal) (Shape.Idx.first h_S_) = (⊥ : EReal) := Cert.FoldBounds.negInf_f32
  rw [hi]
  refine Finset.fold_congr (fun k _ => ?_)
  refine congrArg y ?_
  funext c; apply Fin.ext
  match c with | ⟨0, _⟩ => rfl | ⟨1, _⟩ => rfl | ⟨2, _⟩ => rfl

/-- The same maximum after the extra maximum with -∞ and the broadcast back. -/
theorem v189_at : val_main_v189 (F := Ideal) x0 x2 (ix3 b p (0 : Fin 1)) = Cert.Spec.rowMax (fun q' => val_main_v185 (F := Ideal) x0 x2 (ix3 b p q')) := by
  rw [val_main_v189_apply, (by idx_tac : idx_main_v189 (ix3 b p (0 : Fin 1)) = ix2 b p),
    val_main_v188_apply, val_main_v187_apply, v186_at]
  have hi : val_main_cst_42 (F := Ideal) (idx_main_v187 (ix2 b p)) = (⊥ : EReal) := Cert.FoldBounds.negInf_f32
  rw [hi]
  exact max_eq_right bot_le

/-- The exponential of a score less its row's maximum. -/
theorem v192_at (q' : Fin 288) : val_main_v192 (F := Ideal) x0 x2 (ix3 b p q')
    = Ideal.exp ((fun q' => val_main_v185 (F := Ideal) x0 x2 (ix3 b p q')) q' - Cert.Spec.rowMax (fun q' => val_main_v185 (F := Ideal) x0 x2 (ix3 b p q'))) := by
  rw [val_main_v192_apply, val_main_v191_apply, val_main_v190_apply,
    (by idx_tac : idx_main_v190 (ix3 b p q') = ix3 b p (0 : Fin 1)), v189_at]
  rfl

/-- The sum of a row's exponentials. -/
theorem v193_at : val_main_v193 (F := Ideal) x0 x2 (ix2 b p)
    = ∑ k : Fin 288, Ideal.exp ((fun q' => val_main_v185 (F := Ideal) x0 x2 (ix3 b p q')) k - Cert.Spec.rowMax (fun q' => val_main_v185 (F := Ideal) x0 x2 (ix3 b p q'))) := by
  rw [val_main_v193_apply]
  have hz : val_main_cst_43 (F := Ideal) (Shape.Idx.first h_S_) = 0 := Ideal.ofBits_zero_f32
  rw [hz, zero_add]
  refine Finset.sum_congr rfl fun k _ => ?_
  rw [(by idx_tac : idx_main_v193 (ix2 b p) k = ix3 b p k), v192_at]

/-- The softmax of a row of scores. -/
theorem v196_at (q : Fin 288) : val_main_v196 (F := Ideal) x0 x2 (ix3 b p q) = Cert.Spec.softmax (fun q' => val_main_v185 (F := Ideal) x0 x2 (ix3 b p q')) q := by
  unfold Cert.Spec.softmax
  rw [val_main_v196_apply, v192_at, val_main_v195_apply, val_main_v194_apply,
    (by idx_tac : idx_main_v194 (idx_main_v195 (ix3 b p q)) = ix2 b p), v193_at]
  rfl

/-- Stage 197 is the self-attention of the patch of rows of stage 176. -/
theorem v197_spec (c : Fin 2048) : val_main_v197 (F := Ideal) x0 x2 (ix3 b p c) = Cert.Spec.patchAttn (fun p' k => val_main_v176 (F := Ideal) x0 x2 (ix3 b p' k)) p c := by
  unfold Cert.Spec.patchAttn
  rw [val_main_v197_apply]
  have hS : (fun q' => val_main_v185 (F := Ideal) x0 x2 (ix3 b p q')) = fun q' => ∑ k : Fin 2048, Cert.Spec.l2n (fun p' k => val_main_v176 (F := Ideal) x0 x2 (ix3 b p' k)) p k * Cert.Spec.l2n (fun p' k => val_main_v176 (F := Ideal) x0 x2 (ix3 b p' k)) q' k :=
    funext fun q' => v185_at x0 x2 b p q'
  rw [← hS]
  refine Finset.sum_congr rfl fun q _ => ?_
  rw [(by idx_tac : lidx_main_v197 (ix3 b p c) q = ix3 b p q),
    (by idx_tac : ridx_main_v197 (ix3 b p c) q = ix3 b q c), v196_at]

end PA197

section Again
variable (x0 : (⟨S32x2048x24x12, .f32⟩ : BufTy).Contents (Elt Ideal)) (x1 : (⟨S32, .i32⟩ : BufTy).Contents (Elt Ideal)) (x3 : (⟨S1x16x2048, .f32⟩ : BufTy).Contents (Elt Ideal)) (x4 : (⟨S1x2048x2048, .f32⟩ : BufTy).Contents (Elt Ideal)) (x6 : (⟨S6x1x2048, .f32⟩ : BufTy).Contents (Elt Ideal)) (x8 x9 x10 x11 : (⟨S2048x2048, .f32⟩ : BufTy).Contents (Elt Ideal))

/-- Stages 114 to 134 repeat the operations of stages 14 to 34 on the same operand. -/
theorem v134_eq : val_main_v134 (F := Ideal) x0 = val_main_v34 (F := Ideal) x0 := rfl

/-- Stages 135 to 137 repeat stages 35 to 37. -/
theorem v137_eq : val_main_v137 (F := Ideal) x0 x1 x6 x9 = val_main_v37 (F := Ideal) x0 x1 x6 x9 := by
  unfold val_main_v137 val_main_v37 val_main_v136 val_main_v36 val_main_v135 val_main_v35
  rw [v134_eq]

/-- Stage 175 repeats stage 113. -/
theorem v175_eq : val_main_v175 (F := Ideal) x0 x1 x3 x4 x6 x8 x9 x10 x11 = val_main_v113 (F := Ideal) x0 x1 x3 x4 x6 x8 x9 x10 x11 := rfl

end Again

section Rows
variable (x0 : (⟨S32x2048x24x12, .f32⟩ : BufTy).Contents (Elt Ideal)) (x1 : (⟨S32, .i32⟩ : BufTy).Contents (Elt Ideal)) (x2 : (⟨S32, .i1⟩ : BufTy).Contents (Elt Ideal)) (x6 : (⟨S6x1x2048, .f32⟩ : BufTy).Contents (Elt Ideal))

/-- Stage 36 adds the batch's camera row to every row of the patch. -/
theorem v36_apply' (b : Fin 32) (p : Fin 288) (c : Fin 2048) : val_main_v36 (F := Ideal) x0 x1 x6 (ix3 b p c)
    = val_main_v34 (F := Ideal) x0 (ix3 b p c) + val_main_v12 (F := Ideal) x1 x6 (ix3 b (0 : Fin 1) c) := by
  rw [val_main_v36_apply, val_main_v35_apply, (by idx_tac : idx_main_v35 (ix3 b p c) = ix3 b (0 : Fin 1) c)]
  rfl

/-- Stage 200 adds the group's camera row to every row of the patch. -/
theorem v200_apply' (g : Fin 128) (p : Fin 288) (c : Fin 2048) : val_main_v200 (F := Ideal) x0 x1 x2 x6 (ix3 g p c)
    = val_main_v197 (F := Ideal) x0 x2 (ix3 g p c) + val_main_v198 (F := Ideal) x1 x2 x6 (ix3 g (0 : Fin 1) c) := by
  rw [val_main_v200_apply, val_main_v199_apply, (by idx_tac : idx_main_v199 (ix3 g p c) = ix3 g (0 : Fin 1) c)]
  rfl

end Rows

end Cert.ReferenceIdeal.RefSpec

end
-- ==== Proof.RefSpecAttn.lean ====
/-
  The reference's four attention stages, read against the specification.

  Each stage is the same chain of host operations: the inner products of a query row with every key row, times the
  scale; the row's maximum (a maximum along the last axis started from -∞, then one more maximum with -∞, which
  changes nothing); the exponentials of the scores less that maximum; their sum; the quotient; and the weighted sum
  of the value rows. Read one operation at a time at an index built from its coordinates, the chain is the
  specification's scaled attention of that query row over the key and value rows of the same batch entry.
-/
import proofs.«101814_j47201690583535_1_alg».proof.Proof.RefRead
import proofs.«101814_j47201690583535_1_alg».proof.Proof.Spec
import proofs.«101814_j47201690583535_1_alg».proof.Proof.LibFoldBounds
import Idealize.ShloMosaic.PureOps.Reduce

noncomputable section

open scoped BigOperators

namespace Cert.ReferenceIdeal.RefSpec

open Cert.ReferenceIdeal Cert.ReferenceIdeal.Gen Cert.ReferenceIdeal.ReadP Idealize.ShloMosaic Idealize.ShloMosaic.ValueIdx

/-- A host maximum along the last of three axes, started from -∞, is the row's maximum. -/
theorem hostMax_last3 {n0 n1 n2 : Nat} {u : Shape}
    (x : (⟨3, ![n0, n1, n2]⟩ : Shape).Idx → EReal) (init : u.Idx → EReal)
    (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel)
    (hinit : init (Shape.Idx.first hu) = (⊥ : EReal)) (a : Fin n0) (b : Fin n1) :
    Host.reduce (FloatOps.maximumf (F := Ideal) (φ := .f32)) x init h' hu (ix2 a b)
      = Cert.Spec.rowMax (fun k : Fin n2 => x (ix3 a b k)) := by
  rw [Host.reduce_eq_fold_single _ x init h' h hu, hinit]
  unfold Cert.Spec.rowMax
  show Finset.fold max (⊥ : EReal) (fun k : Fin n2 => x (h.lift (ix2 a b) k)) Finset.univ = _
  refine congrArg (fun f => Finset.fold max (⊥ : EReal) f Finset.univ) (funext fun k => congrArg x ?_)
  funext c
  apply Fin.ext
  show Shape.Reduces.liftVal h (ix2 a b) k.val c = (ix3 a b k c).val
  match c with
  | ⟨0, _⟩ => rfl
  | ⟨1, _⟩ => rfl
  | ⟨2, _⟩ => rfl

section Stage1
variable (x0 : (⟨S32x2048x24x12, .f32⟩ : BufTy).Contents (Elt Ideal)) (x1 : (⟨S32, .i32⟩ : BufTy).Contents (Elt Ideal)) (x3 : (⟨S1x16x2048, .f32⟩ : BufTy).Contents (Elt Ideal)) (x6 : (⟨S6x1x2048, .f32⟩ : BufTy).Contents (Elt Ideal)) (x8 x9 : (⟨S2048x2048, .f32⟩ : BufTy).Contents (Elt Ideal))

/-- The scaled scores of query row `i` against key row `n`. -/
theorem s1_scores (b : Fin 32) (i : Fin 16) (n : Fin 288) :
    val_main_v40 (F := Ideal) x0 x1 x3 x6 x8 x9 (ix3 b i n)
      = (∑ j : Fin 2048, val_main_v13 (F := Ideal) x3 x8 (ix3 b i j) * val_main_v37 (F := Ideal) x0 x1 x6 x9 (ix3 b n j)) * Cert.Spec.scale := by
  rw [val_main_v40_apply, Ideal.mulf_def, val_main_v38_apply, val_main_v39_apply, val_main_cst_6_apply, Ideal.ofBits_def]
  have el : ∀ j, lidx_main_v38 (ix3 b i n) j = ix3 b i j := fun j => funext fun a => Fin.ext (by match a with | ⟨0, _⟩ => rfl | ⟨1, _⟩ => rfl | ⟨2, _⟩ => rfl)
  have er : ∀ j, ridx_main_v38 (ix3 b i n) j = ix3 b n j := fun j => funext fun a => Fin.ext (by match a with | ⟨0, _⟩ => rfl | ⟨1, _⟩ => rfl | ⟨2, _⟩ => rfl)
  refine congrArg (· * _) (Finset.sum_congr rfl fun j _ => ?_)
  rw [el j, er j]

/-- The value the softmax subtracts is the maximum of the row of scores. -/
theorem s1_max (b : Fin 32) (i : Fin 16) (n : Fin 288) :
    val_main_v45 (F := Ideal) x0 x1 x3 x6 x8 x9 (ix3 b i n)
      = Cert.Spec.rowMax (fun n' : Fin 288 => val_main_v40 (F := Ideal) x0 x1 x3 x6 x8 x9 (ix3 b i n')) := by
  have e : idx_main_v44 (idx_main_v45 (ix3 b i n)) = ix2 b i := funext fun a => Fin.ext (by match a with | ⟨0, _⟩ => rfl | ⟨1, _⟩ => rfl)
  rw [val_main_v45_apply, val_main_v44_apply, e, val_main_v43_apply, val_main_v42_apply, val_main_cst_8_apply, Ideal.ofBits_def,
    Cert.FoldBounds.negInf_f32, Ideal.maximumf_def, max_eq_right bot_le]
  unfold val_main_v41
  exact hostMax_last3 _ _ reducesTo_S32x16x288_S32x16_d2 (by decide) h_S_ Cert.FoldBounds.negInf_f32 b i

/-- The exponential of a score less the row's maximum. -/
theorem s1_exp (b : Fin 32) (i : Fin 16) (n : Fin 288) :
    val_main_v47 (F := Ideal) x0 x1 x3 x6 x8 x9 (ix3 b i n)
      = Ideal.exp (val_main_v40 (F := Ideal) x0 x1 x3 x6 x8 x9 (ix3 b i n) - Cert.Spec.rowMax (fun n' : Fin 288 => val_main_v40 (F := Ideal) x0 x1 x3 x6 x8 x9 (ix3 b i n'))) := by
  rw [val_main_v47_apply, Ideal.hostUnary_exp_def, val_main_v46_apply, Ideal.subf_def, s1_max]

/-- The softmax's denominator is the sum of the row's exponentials. -/
theorem s1_den (b : Fin 32) (i : Fin 16) (n : Fin 288) :
    val_main_v50 (F := Ideal) x0 x1 x3 x6 x8 x9 (ix3 b i n) = ∑ m : Fin 288, val_main_v47 (F := Ideal) x0 x1 x3 x6 x8 x9 (ix3 b i m) := by
  have e : idx_main_v49 (idx_main_v50 (ix3 b i n)) = ix2 b i := funext fun a => Fin.ext (by match a with | ⟨0, _⟩ => rfl | ⟨1, _⟩ => rfl)
  rw [val_main_v50_apply, val_main_v49_apply, e, val_main_v48_apply, val_main_cst_9_apply, Ideal.ofBits_def, Ideal.ofBits_zero_f32, zero_add]
  refine Finset.sum_congr rfl fun m _ => congrArg _ ?_
  exact funext fun a => Fin.ext (by match a with | ⟨0, _⟩ => rfl | ⟨1, _⟩ => rfl | ⟨2, _⟩ => rfl)

/-- The attention weights are the softmax of the row of scores. -/
theorem s1_soft (b : Fin 32) (i : Fin 16) (n : Fin 288) :
    val_main_v51 (F := Ideal) x0 x1 x3 x6 x8 x9 (ix3 b i n)
      = Cert.Spec.softmax (fun n' : Fin 288 => val_main_v40 (F := Ideal) x0 x1 x3 x6 x8 x9 (ix3 b i n')) n := by
  rw [val_main_v51_apply, Ideal.hostDivf_def, s1_den, s1_exp]
  unfold Cert.Spec.softmax
  refine congrArg (Ideal.div _) (Finset.sum_congr rfl fun m _ => ?_)
  rw [s1_exp]

/-- The stage is the scaled attention of query row `i` over the key and value rows of batch `b`. -/
theorem v52_spec (b : Fin 32) (i : Fin 16) (c : Fin 2048) :
    val_main_v52 (F := Ideal) x0 x1 x3 x6 x8 x9 (ix3 b i c)
      = Cert.Spec.attn (fun j => val_main_v13 (F := Ideal) x3 x8 (ix3 b i j)) (fun n j => val_main_v37 (F := Ideal) x0 x1 x6 x9 (ix3 b n j))
          (fun n j => val_main_v34 (F := Ideal) x0 (ix3 b n j)) c := by
  rw [val_main_v52_apply]
  unfold Cert.Spec.attn
  refine Finset.sum_congr rfl fun n _ => ?_
  have el : lidx_main_v52 (ix3 b i c) n = ix3 b i n := funext fun a => Fin.ext (by match a with | ⟨0, _⟩ => rfl | ⟨1, _⟩ => rfl | ⟨2, _⟩ => rfl)
  have er : ridx_main_v52 (ix3 b i c) n = ix3 b n c := funext fun a => Fin.ext (by match a with | ⟨0, _⟩ => rfl | ⟨1, _⟩ => rfl | ⟨2, _⟩ => rfl)
  rw [el, er, s1_soft]
  refine congrArg (fun s => Cert.Spec.softmax s n * _) (funext fun n' => ?_)
  rw [s1_scores]

end Stage1

section Stage2
variable (x0 : (⟨S32x2048x24x12, .f32⟩ : BufTy).Contents (Elt Ideal)) (x1 : (⟨S32, .i32⟩ : BufTy).Contents (Elt Ideal)) (x3 : (⟨S1x16x2048, .f32⟩ : BufTy).Contents (Elt Ideal)) (x4 : (⟨S1x2048x2048, .f32⟩ : BufTy).Contents (Elt Ideal)) (x6 : (⟨S6x1x2048, .f32⟩ : BufTy).Contents (Elt Ideal)) (x8 x9 x10 x11 : (⟨S2048x2048, .f32⟩ : BufTy).Contents (Elt Ideal))

/-- The scaled scores of query row `i` against key row `n`. -/
theorem s2_scores (b : Fin 32) (i : Fin 16) (n : Fin 2048) :
    val_main_v99 (F := Ideal) x0 x1 x3 x4 x6 x8 x9 x10 x11 (ix3 b i n)
      = (∑ j : Fin 2048, val_main_v71 (F := Ideal) x0 x1 x3 x6 x8 x9 x10 (ix3 b i j) * val_main_v96 (F := Ideal) x0 x1 x3 x4 x6 x8 x9 x11 (ix3 b n j)) * Cert.Spec.scale := by
  rw [val_main_v99_apply, Ideal.mulf_def, val_main_v97_apply, val_main_v98_apply, val_main_cst_22_apply, Ideal.ofBits_def]
  have el : ∀ j, lidx_main_v97 (ix3 b i n) j = ix3 b i j := fun j => funext fun a => Fin.ext (by match a with | ⟨0, _⟩ => rfl | ⟨1, _⟩ => rfl | ⟨2, _⟩ => rfl)
  have er : ∀ j, ridx_main_v97 (ix3 b i n) j = ix3 b n j := fun j => funext fun a => Fin.ext (by match a with | ⟨0, _⟩ => rfl | ⟨1, _⟩ => rfl | ⟨2, _⟩ => rfl)
  refine congrArg (· * _) (Finset.sum_congr rfl fun j _ => ?_)
  rw [el j, er j]

/-- The value the softmax subtracts is the maximum of the row of scores. -/
theorem s2_max (b : Fin 32) (i : Fin 16) (n : Fin 2048) :
    val_main_v104 (F := Ideal) x0 x1 x3 x4 x6 x8 x9 x10 x11 (ix3 b i n)
      = Cert.Spec.rowMax (fun n' : Fin 2048 => val_main_v99 (F := Ideal) x0 x1 x3 x4 x6 x8 x9 x10 x11 (ix3 b i n')) := by
  have e : idx_main_v103 (idx_main_v104 (ix3 b i n)) = ix2 b i := funext fun a => Fin.ext (by match a with | ⟨0, _⟩ => rfl | ⟨1, _⟩ => rfl)
  rw [val_main_v104_apply, val_main_v103_apply, e, val_main_v102_apply, val_main_v101_apply, val_main_cst_24_apply, Ideal.ofBits_def,
    Cert.FoldBounds.negInf_f32, Ideal.maximumf_def, max_eq_right bot_le]
  unfold val_main_v100
  exact hostMax_last3 _ _ reducesTo_S32x16x2048_S32x16_d2 (by decide) h_S_ Cert.FoldBounds.negInf_f32 b i

/-- The exponential of a score less the row's maximum. -/
theorem s2_exp (b : Fin 32) (i : Fin 16) (n : Fin 2048) :
    val_main_v106 (F := Ideal) x0 x1 x3 x4 x6 x8 x9 x10 x11 (ix3 b i n)
      = Ideal.exp (val_main_v99 (F := Ideal) x0 x1 x3 x4 x6 x8 x9 x10 x11 (ix3 b i n) - Cert.Spec.rowMax (fun n' : Fin 2048 => val_main_v99 (F := Ideal) x0 x1 x3 x4 x6 x8 x9 x10 x11 (ix3 b i n'))) := by
  rw [val_main_v106_apply, Ideal.hostUnary_exp_def, val_main_v105_apply, Ideal.subf_def, s2_max]

/-- The softmax's denominator is the sum of the row's exponentials. -/
theorem s2_den (b : Fin 32) (i : Fin 16) (n : Fin 2048) :
    val_main_v109 (F := Ideal) x0 x1 x3 x4 x6 x8 x9 x10 x11 (ix3 b i n) = ∑ m : Fin 2048, val_main_v106 (F := Ideal) x0 x1 x3 x4 x6 x8 x9 x10 x11 (ix3 b i m) := by
  have e : idx_main_v108 (idx_main_v109 (ix3 b i n)) = ix2 b i := funext fun a => Fin.ext (by match a with | ⟨0, _⟩ => rfl | ⟨1, _⟩ => rfl)
  rw [val_main_v109_apply, val_main_v108_apply, e, val_main_v107_apply, val_main_cst_25_apply, Ideal.ofBits_def, Ideal.ofBits_zero_f32, zero_add]
  refine Finset.sum_congr rfl fun m _ => congrArg _ ?_
  exact funext fun a => Fin.ext (by match a with | ⟨0, _⟩ => rfl | ⟨1, _⟩ => rfl | ⟨2, _⟩ => rfl)

/-- The attention weights are the softmax of the row of scores. -/
theorem s2_soft (b : Fin 32) (i : Fin 16) (n : Fin 2048) :
    val_main_v110 (F := Ideal) x0 x1 x3 x4 x6 x8 x9 x10 x11 (ix3 b i n)
      = Cert.Spec.softmax (fun n' : Fin 2048 => val_main_v99 (F := Ideal) x0 x1 x3 x4 x6 x8 x9 x10 x11 (ix3 b i n')) n := by
  rw [val_main_v110_apply, Ideal.hostDivf_def, s2_den, s2_exp]
  unfold Cert.Spec.softmax
  refine congrArg (Ideal.div _) (Finset.sum_congr rfl fun m _ => ?_)
  rw [s2_exp]

/-- The stage is the scaled attention of query row `i` over the key and value rows of batch `b`. -/
theorem v111_spec (b : Fin 32) (i : Fin 16) (c : Fin 2048) :
    val_main_v111 (F := Ideal) x0 x1 x3 x4 x6 x8 x9 x10 x11 (ix3 b i c)
      = Cert.Spec.attn (fun j => val_main_v71 (F := Ideal) x0 x1 x3 x6 x8 x9 x10 (ix3 b i j)) (fun n j => val_main_v96 (F := Ideal) x0 x1 x3 x4 x6 x8 x9 x11 (ix3 b n j))
          (fun n j => val_main_v95 (F := Ideal) x0 x1 x3 x4 x6 x8 x9 (ix3 b n j)) c := by
  rw [val_main_v111_apply]
  unfold Cert.Spec.attn
  refine Finset.sum_congr rfl fun n _ => ?_
  have el : lidx_main_v111 (ix3 b i c) n = ix3 b i n := funext fun a => Fin.ext (by match a with | ⟨0, _⟩ => rfl | ⟨1, _⟩ => rfl | ⟨2, _⟩ => rfl)
  have er : ridx_main_v111 (ix3 b i c) n = ix3 b n c := funext fun a => Fin.ext (by match a with | ⟨0, _⟩ => rfl | ⟨1, _⟩ => rfl | ⟨2, _⟩ => rfl)
  rw [el, er, s2_soft]
  refine congrArg (fun s => Cert.Spec.softmax s n * _) (funext fun n' => ?_)
  rw [s2_scores]

end Stage2

section Stage3
variable (x0 : (⟨S32x2048x24x12, .f32⟩ : BufTy).Contents (Elt Ideal)) (x1 : (⟨S32, .i32⟩ : BufTy).Contents (Elt Ideal)) (x3 : (⟨S1x16x2048, .f32⟩ : BufTy).Contents (Elt Ideal)) (x4 : (⟨S1x2048x2048, .f32⟩ : BufTy).Contents (Elt Ideal)) (x6 : (⟨S6x1x2048, .f32⟩ : BufTy).Contents (Elt Ideal)) (x8 x9 x10 x11 : (⟨S2048x2048, .f32⟩ : BufTy).Contents (Elt Ideal))

/-- The scaled scores of query row `i` against key row `n`. -/
theorem s3_scores (b : Fin 32) (i : Fin 16) (n : Fin 288) :
    val_main_v140 (F := Ideal) x0 x1 x3 x4 x6 x8 x9 x10 x11 (ix3 b i n)
      = (∑ j : Fin 2048, val_main_v113 (F := Ideal) x0 x1 x3 x4 x6 x8 x9 x10 x11 (ix3 b i j) * val_main_v137 (F := Ideal) x0 x1 x6 x9 (ix3 b n j)) * Cert.Spec.scale := by
  rw [val_main_v140_apply, Ideal.mulf_def, val_main_v138_apply, val_main_v139_apply, val_main_cst_31_apply, Ideal.ofBits_def]
  have el : ∀ j, lidx_main_v138 (ix3 b i n) j = ix3 b i j := fun j => funext fun a => Fin.ext (by match a with | ⟨0, _⟩ => rfl | ⟨1, _⟩ => rfl | ⟨2, _⟩ => rfl)
  have er : ∀ j, ridx_main_v138 (ix3 b i n) j = ix3 b n j := fun j => funext fun a => Fin.ext (by match a with | ⟨0, _⟩ => rfl | ⟨1, _⟩ => rfl | ⟨2, _⟩ => rfl)
  refine congrArg (· * _) (Finset.sum_congr rfl fun j _ => ?_)
  rw [el j, er j]

/-- The value the softmax subtracts is the maximum of the row of scores. -/
theorem s3_max (b : Fin 32) (i : Fin 16) (n : Fin 288) :
    val_main_v145 (F := Ideal) x0 x1 x3 x4 x6 x8 x9 x10 x11 (ix3 b i n)
      = Cert.Spec.rowMax (fun n' : Fin 288 => val_main_v140 (F := Ideal) x0 x1 x3 x4 x6 x8 x9 x10 x11 (ix3 b i n')) := by
  have e : idx_main_v144 (idx_main_v145 (ix3 b i n)) = ix2 b i := funext fun a => Fin.ext (by match a with | ⟨0, _⟩ => rfl | ⟨1, _⟩ => rfl)
  rw [val_main_v145_apply, val_main_v144_apply, e, val_main_v143_apply, val_main_v142_apply, val_main_cst_33_apply, Ideal.ofBits_def,
    Cert.FoldBounds.negInf_f32, Ideal.maximumf_def, max_eq_right bot_le]
  unfold val_main_v141
  exact hostMax_last3 _ _ reducesTo_S32x16x288_S32x16_d2 (by decide) h_S_ Cert.FoldBounds.negInf_f32 b i

/-- The exponential of a score less the row's maximum. -/
theorem s3_exp (b : Fin 32) (i : Fin 16) (n : Fin 288) :
    val_main_v147 (F := Ideal) x0 x1 x3 x4 x6 x8 x9 x10 x11 (ix3 b i n)
      = Ideal.exp (val_main_v140 (F := Ideal) x0 x1 x3 x4 x6 x8 x9 x10 x11 (ix3 b i n) - Cert.Spec.rowMax (fun n' : Fin 288 => val_main_v140 (F := Ideal) x0 x1 x3 x4 x6 x8 x9 x10 x11 (ix3 b i n'))) := by
  rw [val_main_v147_apply, Ideal.hostUnary_exp_def, val_main_v146_apply, Ideal.subf_def, s3_max]

/-- The softmax's denominator is the sum of the row's exponentials. -/
theorem s3_den (b : Fin 32) (i : Fin 16) (n : Fin 288) :
    val_main_v150 (F := Ideal) x0 x1 x3 x4 x6 x8 x9 x10 x11 (ix3 b i n) = ∑ m : Fin 288, val_main_v147 (F := Ideal) x0 x1 x3 x4 x6 x8 x9 x10 x11 (ix3 b i m) := by
  have e : idx_main_v149 (idx_main_v150 (ix3 b i n)) = ix2 b i := funext fun a => Fin.ext (by match a with | ⟨0, _⟩ => rfl | ⟨1, _⟩ => rfl)
  rw [val_main_v150_apply, val_main_v149_apply, e, val_main_v148_apply, val_main_cst_34_apply, Ideal.ofBits_def, Ideal.ofBits_zero_f32, zero_add]
  refine Finset.sum_congr rfl fun m _ => congrArg _ ?_
  exact funext fun a => Fin.ext (by match a with | ⟨0, _⟩ => rfl | ⟨1, _⟩ => rfl | ⟨2, _⟩ => rfl)

/-- The attention weights are the softmax of the row of scores. -/
theorem s3_soft (b : Fin 32) (i : Fin 16) (n : Fin 288) :
    val_main_v151 (F := Ideal) x0 x1 x3 x4 x6 x8 x9 x10 x11 (ix3 b i n)
      = Cert.Spec.softmax (fun n' : Fin 288 => val_main_v140 (F := Ideal) x0 x1 x3 x4 x6 x8 x9 x10 x11 (ix3 b i n')) n := by
  rw [val_main_v151_apply, Ideal.hostDivf_def, s3_den, s3_exp]
  unfold Cert.Spec.softmax
  refine congrArg (Ideal.div _) (Finset.sum_congr rfl fun m _ => ?_)
  rw [s3_exp]

/-- The stage is the scaled attention of query row `i` over the key and value rows of batch `b`. -/
theorem v152_spec (b : Fin 32) (i : Fin 16) (c : Fin 2048) :
    val_main_v152 (F := Ideal) x0 x1 x3 x4 x6 x8 x9 x10 x11 (ix3 b i c)
      = Cert.Spec.attn (fun j => val_main_v113 (F := Ideal) x0 x1 x3 x4 x6 x8 x9 x10 x11 (ix3 b i j)) (fun n j => val_main_v137 (F := Ideal) x0 x1 x6 x9 (ix3 b n j))
          (fun n j => val_main_v134 (F := Ideal) x0 (ix3 b n j)) c := by
  rw [val_main_v152_apply]
  unfold Cert.Spec.attn
  refine Finset.sum_congr rfl fun n _ => ?_
  have el : lidx_main_v152 (ix3 b i c) n = ix3 b i n := funext fun a => Fin.ext (by match a with | ⟨0, _⟩ => rfl | ⟨1, _⟩ => rfl | ⟨2, _⟩ => rfl)
  have er : ridx_main_v152 (ix3 b i c) n = ix3 b n c := funext fun a => Fin.ext (by match a with | ⟨0, _⟩ => rfl | ⟨1, _⟩ => rfl | ⟨2, _⟩ => rfl)
  rw [el, er, s3_soft]
  refine congrArg (fun s => Cert.Spec.softmax s n * _) (funext fun n' => ?_)
  rw [s3_scores]

end Stage3

section Stage4
variable (x0 : (⟨S32x2048x24x12, .f32⟩ : BufTy).Contents (Elt Ideal)) (x1 : (⟨S32, .i32⟩ : BufTy).Contents (Elt Ideal)) (x2 : (⟨S32, .i1⟩ : BufTy).Contents (Elt Ideal)) (x3 : (⟨S1x16x2048, .f32⟩ : BufTy).Contents (Elt Ideal)) (x4 : (⟨S1x2048x2048, .f32⟩ : BufTy).Contents (Elt Ideal)) (x6 : (⟨S6x1x2048, .f32⟩ : BufTy).Contents (Elt Ideal)) (x8 x9 x10 x11 : (⟨S2048x2048, .f32⟩ : BufTy).Contents (Elt Ideal))

/-- The scaled scores of query row `i` against key row `n`. -/
theorem s4_scores (b : Fin 32) (i : Fin 16) (n : Fin 1152) :
    val_main_v206 (F := Ideal) x0 x1 x2 x3 x4 x6 x8 x9 x10 x11 (ix3 b i n)
      = (∑ j : Fin 2048, val_main_v175 (F := Ideal) x0 x1 x3 x4 x6 x8 x9 x10 x11 (ix3 b i j) * val_main_v203 (F := Ideal) x0 x1 x2 x6 x9 (ix3 b n j)) * Cert.Spec.scale := by
  rw [val_main_v206_apply, Ideal.mulf_def, val_main_v204_apply, val_main_v205_apply, val_main_cst_44_apply, Ideal.ofBits_def]
  have el : ∀ j, lidx_main_v204 (ix3 b i n) j = ix3 b i j := fun j => funext fun a => Fin.ext (by match a with | ⟨0, _⟩ => rfl | ⟨1, _⟩ => rfl | ⟨2, _⟩ => rfl)
  have er : ∀ j, ridx_main_v204 (ix3 b i n) j = ix3 b n j := fun j => funext fun a => Fin.ext (by match a with | ⟨0, _⟩ => rfl | ⟨1, _⟩ => rfl | ⟨2, _⟩ => rfl)
  refine congrArg (· * _) (Finset.sum_congr rfl fun j _ => ?_)
  rw [el j, er j]

/-- The value the softmax subtracts is the maximum of the row of scores. -/
theorem s4_max (b : Fin 32) (i : Fin 16) (n : Fin 1152) :
    val_main_v211 (F := Ideal) x0 x1 x2 x3 x4 x6 x8 x9 x10 x11 (ix3 b i n)
      = Cert.Spec.rowMax (fun n' : Fin 1152 => val_main_v206 (F := Ideal) x0 x1 x2 x3 x4 x6 x8 x9 x10 x11 (ix3 b i n')) := by
  have e : idx_main_v210 (idx_main_v211 (ix3 b i n)) = ix2 b i := funext fun a => Fin.ext (by match a with | ⟨0, _⟩ => rfl | ⟨1, _⟩ => rfl)
  rw [val_main_v211_apply, val_main_v210_apply, e, val_main_v209_apply, val_main_v208_apply, val_main_cst_46_apply, Ideal.ofBits_def,
    Cert.FoldBounds.negInf_f32, Ideal.maximumf_def, max_eq_right bot_le]
  unfold val_main_v207
  exact hostMax_last3 _ _ reducesTo_S32x16x1152_S32x16_d2 (by decide) h_S_ Cert.FoldBounds.negInf_f32 b i

/-- The exponential of a score less the row's maximum. -/
theorem s4_exp (b : Fin 32) (i : Fin 16) (n : Fin 1152) :
    val_main_v213 (F := Ideal) x0 x1 x2 x3 x4 x6 x8 x9 x10 x11 (ix3 b i n)
      = Ideal.exp (val_main_v206 (F := Ideal) x0 x1 x2 x3 x4 x6 x8 x9 x10 x11 (ix3 b i n) - Cert.Spec.rowMax (fun n' : Fin 1152 => val_main_v206 (F := Ideal) x0 x1 x2 x3 x4 x6 x8 x9 x10 x11 (ix3 b i n'))) := by
  rw [val_main_v213_apply, Ideal.hostUnary_exp_def, val_main_v212_apply, Ideal.subf_def, s4_max]

/-- The softmax's denominator is the sum of the row's exponentials. -/
theorem s4_den (b : Fin 32) (i : Fin 16) (n : Fin 1152) :
    val_main_v216 (F := Ideal) x0 x1 x2 x3 x4 x6 x8 x9 x10 x11 (ix3 b i n) = ∑ m : Fin 1152, val_main_v213 (F := Ideal) x0 x1 x2 x3 x4 x6 x8 x9 x10 x11 (ix3 b i m) := by
  have e : idx_main_v215 (idx_main_v216 (ix3 b i n)) = ix2 b i := funext fun a => Fin.ext (by match a with | ⟨0, _⟩ => rfl | ⟨1, _⟩ => rfl)
  rw [val_main_v216_apply, val_main_v215_apply, e, val_main_v214_apply, val_main_cst_47_apply, Ideal.ofBits_def, Ideal.ofBits_zero_f32, zero_add]
  refine Finset.sum_congr rfl fun m _ => congrArg _ ?_
  exact funext fun a => Fin.ext (by match a with | ⟨0, _⟩ => rfl | ⟨1, _⟩ => rfl | ⟨2, _⟩ => rfl)

/-- The attention weights are the softmax of the row of scores. -/
theorem s4_soft (b : Fin 32) (i : Fin 16) (n : Fin 1152) :
    val_main_v217 (F := Ideal) x0 x1 x2 x3 x4 x6 x8 x9 x10 x11 (ix3 b i n)
      = Cert.Spec.softmax (fun n' : Fin 1152 => val_main_v206 (F := Ideal) x0 x1 x2 x3 x4 x6 x8 x9 x10 x11 (ix3 b i n')) n := by
  rw [val_main_v217_apply, Ideal.hostDivf_def, s4_den, s4_exp]
  unfold Cert.Spec.softmax
  refine congrArg (Ideal.div _) (Finset.sum_congr rfl fun m _ => ?_)
  rw [s4_exp]

/-- The stage is the scaled attention of query row `i` over the key and value rows of batch `b`. -/
theorem v218_spec (b : Fin 32) (i : Fin 16) (c : Fin 2048) :
    val_main_v218 (F := Ideal) x0 x1 x2 x3 x4 x6 x8 x9 x10 x11 (ix3 b i c)
      = Cert.Spec.attn (fun j => val_main_v175 (F := Ideal) x0 x1 x3 x4 x6 x8 x9 x10 x11 (ix3 b i j)) (fun n j => val_main_v203 (F := Ideal) x0 x1 x2 x6 x9 (ix3 b n j))
          (fun n j => val_main_v201 (F := Ideal) x0 x2 (ix3 b n j)) c := by
  rw [val_main_v218_apply]
  unfold Cert.Spec.attn
  refine Finset.sum_congr rfl fun n _ => ?_
  have el : lidx_main_v218 (ix3 b i c) n = ix3 b i n := funext fun a => Fin.ext (by match a with | ⟨0, _⟩ => rfl | ⟨1, _⟩ => rfl | ⟨2, _⟩ => rfl)
  have er : ridx_main_v218 (ix3 b i c) n = ix3 b n c := funext fun a => Fin.ext (by match a with | ⟨0, _⟩ => rfl | ⟨1, _⟩ => rfl | ⟨2, _⟩ => rfl)
  rw [el, er, s4_soft]
  refine congrArg (fun s => Cert.Spec.softmax s n * _) (funext fun n' => ?_)
  rw [s4_scores]

end Stage4

end Cert.ReferenceIdeal.RefSpec

end
-- ==== Proof.ChainA.lean ====
/-
  The kernel program's buffers, boundary by boundary: from the launch to the first attention's output.

  Each lemma names what one buffer holds at one boundary of the run, as a stage of the reference program applied to
  the launch arguments (or, for a regrouped table, entry by entry). A host stretch is read operation by operation; a
  region's output is its whole-array function of the arrays the region found, which are earlier lemmas carried over
  the segments that do not write them; and the two sides meet at the specification: the patch self-attention, the
  projection by a table's rows, the scaled attention.
-/
import proofs.«101814_j47201690583535_1_alg».proof.Proof.KernelKeeps
import proofs.«101814_j47201690583535_1_alg».proof.Proof.KernelHostReads
import proofs.«101814_j47201690583535_1_alg».proof.Proof.PatchAttnRegions
import proofs.«101814_j47201690583535_1_alg».proof.Proof.AttnRegion3
import proofs.«101814_j47201690583535_1_alg».proof.Proof.IfaceProj
import proofs.«101814_j47201690583535_1_alg».proof.Proof.RefSpecProj
import proofs.«101814_j47201690583535_1_alg».proof.Proof.RefSpecPatch
import proofs.«101814_j47201690583535_1_alg».proof.Proof.RefSpecAttn

noncomputable section

open scoped BigOperators

namespace Cert.KernelIdeal.Chain

open Cert.KernelIdeal Cert.KernelIdeal.Gen Idealize.ShloMosaic Idealize.ShloMosaic.ValueIdx Idealize.ShloMosaic.StableHlo Idealize.ShloMosaic.TcCoe Idealize.SL.Sem
open Cert.ReferenceIdeal.ReadP Cert.ReferenceIdeal.RefSpec
open Cert.KernelIdeal.Host Cert.KernelIdeal.Keeps Cert.Spec
open Cert.KernelIdeal.Iface (region1_value region2_value)
variable (m : (ℓ : Loc nD τ sig) → Buf (Elt Ideal) ℓ) (ρ : Dev nD → PrngReg) (c : Dev nD)

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "dv" b => Proc.devRef (τ := τ) (sig := sig) Proc.tc b

/-! ## After the first host stretch: the arguments re-laid -/

theorem v1_1 : W1 m ρ c (dv main_v1) = val_main_v1 (F := Ideal) a0 := h0_v1 (W0 m ρ c)
theorem v2_1 : W1 m ρ c (dv main_v2) = val_main_v2 (F := Ideal) a3 := h0_v2 (W0 m ρ c)
theorem v12_1 : W1 m ρ c (dv main_v12) = val_main_v12 (F := Ideal) a1 a6 := h0_v12 (W0 m ρ c)
theorem v3_1 (n k : Fin 2048) : arr S2048x2048 (W1 m ρ c (dv main_v3)) (ix2 n k) = arr S1x2048x2048 a4 (ix3 (0 : Fin 1) n k) := h0_v3 (W0 m ρ c) n k
theorem v14_1 (k d : Fin 2048) : arr S2048x2048 (W1 m ρ c (dv main_v14)) (ix2 k d) = arr S2048x2048 a8 (ix2 d k) := h0_v14 (W0 m ρ c) k d
theorem v16_1 (k d : Fin 2048) : arr S2048x2048 (W1 m ρ c (dv main_v16)) (ix2 k d) = arr S2048x2048 a9 (ix2 d k) := h0_v16 (W0 m ρ c) k d
theorem v18_1 (k d : Fin 2048) : arr S2048x2048 (W1 m ρ c (dv main_v18)) (ix2 k d) = arr S2048x2048 a10 (ix2 d k) := h0_v18 (W0 m ρ c) k d
theorem v20_1 (k d : Fin 2048) : arr S2048x2048 (W1 m ρ c (dv main_v20)) (ix2 k d) = arr S2048x2048 a11 (ix2 d k) := h0_v20 (W0 m ρ c) k d

/-! ## Region 0: the patch self-attention of the tokens -/

theorem v21_2 : arr S32x288x2048 (W2 m ρ c (dv main_v21)) = val_main_v34 (F := Ideal) a0 := by
  funext i
  obtain ⟨b, p, k, rfl⟩ : ∃ (b : Fin 32) (p : Fin 288) (k : Fin 2048), i = ix3 b p k := ⟨i 0, i 1, i 2, eq_ix3 i⟩
  rw [v34_spec, ← v1_1 m ρ c]
  exact (congrFun (W2_arr m ρ c 1) (ix3 b p k)).trans (Cert.KernelIdeal.PatchAttn.region0_value (V1 m ρ) c b p k)

theorem v12_2 : W2 m ρ c (dv main_v12) = val_main_v12 (F := Ideal) a1 a6 :=
  (range m ρ c main_v12 1 1 (by decide) (by decide)).trans (v12_1 m ρ c)

/-! ## The camera row added, the table flattened, projected, regrouped -/

theorem v25_3 (b : Fin 32) (p : Fin 288) (k : Fin 2048) (h : b.val * 288 + p.val < 9216) :
    arr S9216x2048 (W3 m ρ c (dv main_v25)) (ix2 ⟨b.val * 288 + p.val, h⟩ k) = val_main_v36 (F := Ideal) a0 a1 a6 (ix3 b p k) := by
  rw [v36_apply']
  refine (h1_v25 (W2 m ρ c) b p k h).trans ?_
  rw [v21_2 m ρ c, v12_2 m ρ c]

theorem v16_3 (k d : Fin 2048) : arr S2048x2048 (W3 m ρ c (dv main_v16)) (ix2 k d) = arr S2048x2048 a9 (ix2 d k) := by
  rw [show W3 m ρ c (dv main_v16) = W1 m ρ c (dv main_v16) from range m ρ c main_v16 2 1 (by decide) (by decide)]
  exact v16_1 m ρ c k d

theorem v26_4 (b : Fin 32) (p : Fin 288) (d : Fin 2048) (h : b.val * 288 + p.val < 9216) :
    arr S9216x2048 (W4 m ρ c (dv main_v26)) (ix2 ⟨b.val * 288 + p.val, h⟩ d)
      = ∑ k : Fin 2048, val_main_v36 (F := Ideal) a0 a1 a6 (ix3 b p k) * arr S2048x2048 a9 (ix2 d k) := by
  refine Eq.trans (α := EReal) ?_ (Finset.sum_congr rfl fun k _ => congrArg₂ (· * ·) (v25_3 m ρ c b p k h) (v16_3 m ρ c k d))
  exact (congrFun (W4_arr m ρ c 2) _).trans (region1_value (V3 m ρ) c ⟨_, h⟩ d)

theorem v27_5 : arr S32x288x2048 (W5 m ρ c (dv main_v27)) = val_main_v37 (F := Ideal) a0 a1 a6 a9 := by
  funext i
  obtain ⟨b, p, d, rfl⟩ : ∃ (b : Fin 32) (p : Fin 288) (d : Fin 2048), i = ix3 b p d := ⟨i 0, i 1, i 2, eq_ix3 i⟩
  have h : b.val * 288 + p.val < 9216 := by have := b.isLt; have := p.isLt; omega
  rw [v37_spec]
  exact (h2_v27 (W4 m ρ c) b p d h).trans (v26_4 m ρ c b p d h)

/-! ## The query rows flattened, projected, regrouped -/

theorem v28_5 (b : Fin 32) (q : Fin 16) (k : Fin 2048) (h : b.val * 16 + q.val < 512) :
    arr S512x2048 (W5 m ρ c (dv main_v28)) (ix2 ⟨b.val * 16 + q.val, h⟩ k) = val_main_v2 (F := Ideal) a3 (ix3 b q k) := by
  refine (h2_v28 (W4 m ρ c) b q k h).trans ?_
  rw [show W4 m ρ c (dv main_v2) = val_main_v2 (F := Ideal) a3 from
    (range m ρ c main_v2 3 1 (by decide) (by decide)).trans (v2_1 m ρ c)]

theorem v14_5 (k d : Fin 2048) : arr S2048x2048 (W5 m ρ c (dv main_v14)) (ix2 k d) = arr S2048x2048 a8 (ix2 d k) := by
  rw [show W5 m ρ c (dv main_v14) = W1 m ρ c (dv main_v14) from range m ρ c main_v14 4 1 (by decide) (by decide)]
  exact v14_1 m ρ c k d

theorem v29_6 (b : Fin 32) (q : Fin 16) (d : Fin 2048) (h : b.val * 16 + q.val < 512) :
    arr S512x2048 (W6 m ρ c (dv main_v29)) (ix2 ⟨b.val * 16 + q.val, h⟩ d)
      = ∑ k : Fin 2048, val_main_v2 (F := Ideal) a3 (ix3 b q k) * arr S2048x2048 a8 (ix2 d k) := by
  refine Eq.trans (α := EReal) ?_ (Finset.sum_congr rfl fun k _ => congrArg₂ (· * ·) (v28_5 m ρ c b q k h) (v14_5 m ρ c k d))
  exact (congrFun (W6_arr m ρ c 2) _).trans (region2_value (V5 m ρ) c ⟨_, h⟩ d)

theorem v30_7 : arr S32x16x2048 (W7 m ρ c (dv main_v30)) = val_main_v13 (F := Ideal) a3 a8 := by
  funext i
  obtain ⟨b, q, d, rfl⟩ : ∃ (b : Fin 32) (q : Fin 16) (d : Fin 2048), i = ix3 b q d := ⟨i 0, i 1, i 2, eq_ix3 i⟩
  have h : b.val * 16 + q.val < 512 := by have := b.isLt; have := q.isLt; omega
  rw [v13_spec]
  exact (h3_v30 (W6 m ρ c) b q d h).trans (v29_6 m ρ c b q d h)

/-! ## Region 3: the first attention -/

theorem v27_7 : arr S32x288x2048 (W7 m ρ c (dv main_v27)) = val_main_v37 (F := Ideal) a0 a1 a6 a9 := by
  rw [show W7 m ρ c (dv main_v27) = W5 m ρ c (dv main_v27) from range m ρ c main_v27 2 5 (by decide) (by decide)]
  exact v27_5 m ρ c

theorem v21_7 : arr S32x288x2048 (W7 m ρ c (dv main_v21)) = val_main_v34 (F := Ideal) a0 := by
  rw [show W7 m ρ c (dv main_v21) = W2 m ρ c (dv main_v21) from range m ρ c main_v21 5 2 (by decide) (by decide)]
  exact v21_2 m ρ c

theorem v31_8 : arr S32x16x2048 (W8 m ρ c (dv main_v31)) = val_main_v52 (F := Ideal) a0 a1 a3 a6 a8 a9 := by
  funext i
  obtain ⟨b, q, k, rfl⟩ : ∃ (b : Fin 32) (q : Fin 16) (k : Fin 2048), i = ix3 b q k := ⟨i 0, i 1, i 2, eq_ix3 i⟩
  rw [v52_spec, ← v30_7 m ρ c, ← v27_7 m ρ c, ← v21_7 m ρ c]
  exact (congrFun (W8_arr m ρ c 3) (ix3 b q k)).trans (Cert.KernelIdeal.Attn.region3_value (V7 m ρ) c b q k)

end Cert.KernelIdeal.Chain

end
-- ==== Proof.KernelHostStages.lean ====
/-
  The host stretches of the kernel program whose operations are the reference's own.

  Where a stretch of the kernel program applies, to a buffer holding a stage of the reference, the very operations the
  reference applies to that stage, the buffers it writes hold the reference's later stages: the two terms are the same
  operations over the same entries, stage name by stage name.
-/
import proofs.«101814_j47201690583535_1_alg».proof.Proof.Gen.KernelIdeal.Launch
import proofs.«101814_j47201690583535_1_alg».proof.Proof.RefRead
import proofs.«101814_j47201690583535_1_alg».proof.Proof.Spec
import Idealize.ShloMosaic.Lib.StableHlo.Run
import proofs.«101814_j47201690583535_1_alg».proof.Proof.KernelHostReads
import proofs.«101814_j47201690583535_1_alg».proof.Proof.KernelHostKeeps
noncomputable section
open scoped BigOperators

namespace Cert.KernelIdeal.Host
open Cert.KernelIdeal Cert.KernelIdeal.Gen Idealize.ShloMosaic Idealize.ShloMosaic.ValueIdx Idealize.ShloMosaic.StableHlo Idealize.ShloMosaic.TcCoe
open Cert.ReferenceIdeal.ReadP

variable (W : Valuation τ sig (Elt Ideal))

/-! Stretches whose operations are the reference's own, on an entry that is a reference stage. -/
theorem h4_v35 (x0 : (⟨S32x2048x24x12, .f32⟩ : BufTy).Contents (Elt Ideal)) (x1 : (⟨S32, .i32⟩ : BufTy).Contents (Elt Ideal)) (x3 : (⟨S1x16x2048, .f32⟩ : BufTy).Contents (Elt Ideal)) (x6 : (⟨S6x1x2048, .f32⟩ : BufTy).Contents (Elt Ideal)) (x8 : (⟨S2048x2048, .f32⟩ : BufTy).Contents (Elt Ideal)) (x9 : (⟨S2048x2048, .f32⟩ : BufTy).Contents (Elt Ideal)) (hy : W (Proc.devRef .tc main_v31) = val_main_v52 (F := Ideal) x0 x1 x3 x6 x8 x9) : after (hostOps4 (F := Ideal)) W (Proc.devRef .tc main_v35) = val_main_v75 (F := Ideal) x0 x1 x3 x6 x8 x9 := by
  after_results_simp
  rw [hy]
  unfold val_main_v75 val_main_v74 val_main_v73 val_main_v72 val_main_cst_15 val_main_cst_16
  rfl
theorem h4_v54 (x0 : (⟨S32x2048x24x12, .f32⟩ : BufTy).Contents (Elt Ideal)) (x1 : (⟨S32, .i32⟩ : BufTy).Contents (Elt Ideal)) (x3 : (⟨S1x16x2048, .f32⟩ : BufTy).Contents (Elt Ideal)) (x6 : (⟨S6x1x2048, .f32⟩ : BufTy).Contents (Elt Ideal)) (x8 : (⟨S2048x2048, .f32⟩ : BufTy).Contents (Elt Ideal)) (x9 : (⟨S2048x2048, .f32⟩ : BufTy).Contents (Elt Ideal)) (hy : W (Proc.devRef .tc main_v31) = val_main_v52 (F := Ideal) x0 x1 x3 x6 x8 x9) (b : Fin 32) (q : Fin 16) (k : Fin 2048) (h : b.val * 16 + q.val < 512) :
    Cert.Spec.arr S512x2048 (after (hostOps4 (F := Ideal)) W (Proc.devRef .tc main_v54)) (ix2 ⟨b.val * 16 + q.val, h⟩ k) = Cert.Spec.arr S32x16x2048 (val_main_v70 (F := Ideal) x0 x1 x3 x6 x8 x9) (ix3 b q k) := by
  after_results_simp
  rw [hy]
  refine (shapeCast_stack_flat_apply _ _ b q k h).trans ?_
  unfold val_main_v70 val_main_v69 val_main_v68 val_main_v67 val_main_v66 val_main_v65 val_main_v64 val_main_v63 val_main_v62
    val_main_v61 val_main_v60 val_main_v59 val_main_v58 val_main_v57 val_main_v56 val_main_v55 val_main_v54 val_main_v53
    val_main_cst_10 val_main_cst_11 val_main_cst_12 val_main_cst_13 val_main_cst_14
  rfl

theorem h10_v92 (x0 : (⟨S32x2048x24x12, .f32⟩ : BufTy).Contents (Elt Ideal)) (x2 : (⟨S32, .i1⟩ : BufTy).Contents (Elt Ideal)) (hy : Cert.Spec.arr S128x288x2048 (W (Proc.devRef .tc main_v88)) = val_main_v197 (F := Ideal) x0 x2) : Cert.Spec.arr S32x1152x2048 (after (hostOps10 (F := Ideal)) W (Proc.devRef .tc main_v92)) = val_main_v201 (F := Ideal) x0 x2 := by
  after_results_simp
  unfold val_main_v201
  rw [← hy]
  rfl
theorem glue_v87 (x0 : (⟨S32x2048x24x12, .f32⟩ : BufTy).Contents (Elt Ideal)) (x2 : (⟨S32, .i1⟩ : BufTy).Contents (Elt Ideal)) (h1 : W (Proc.devRef .tc main_v1) = val_main_v1 (F := Ideal) x0) (h2 : W (Proc.devRef .tc main_arg2) = x2) : glue W (Proc.devRef .tc main_v87) = val_main_v176 (F := Ideal) x0 x2 := by
  show after (hostOps9_2 (F := Ideal)) (after (hostOps9_1 (F := Ideal)) (after (hostOps9 (F := Ideal)) W)) (Proc.devRef .tc main_v87) = _
  after_results_simp
  rw [h1, h2]
  unfold val_main_v176 val_main_v174 val_main_v158 val_main_v157 val_main_v156 val_main_v173 val_main_v172 val_main_v169
    val_main_v168 val_main_v171 val_main_v170 val_main_v160 val_main_v159 val_main_call0_v0 val_main_c_37 val_main_c_38
  rfl
theorem glue_v86 (x1 : (⟨S32, .i32⟩ : BufTy).Contents (Elt Ideal)) (x2 : (⟨S32, .i1⟩ : BufTy).Contents (Elt Ideal)) (x6 : (⟨S6x1x2048, .f32⟩ : BufTy).Contents (Elt Ideal)) (h12 : W (Proc.devRef .tc main_v12) = val_main_v12 (F := Ideal) x1 x6) (h2 : W (Proc.devRef .tc main_arg2) = x2) : glue W (Proc.devRef .tc main_v86) = val_main_v198 (F := Ideal) x1 x2 x6 := by
  show after (hostOps9_2 (F := Ideal)) (after (hostOps9_1 (F := Ideal)) (after (hostOps9 (F := Ideal)) W)) (Proc.devRef .tc main_v86) = _
  after_results_simp
  rw [h12, h2]
  unfold val_main_v198 val_main_v167 val_main_v155 val_main_v154 val_main_v153 val_main_v166 val_main_v165 val_main_v162
    val_main_v161 val_main_v164 val_main_v163 val_main_v160 val_main_v159 val_main_call0_v0 val_main_c_35 val_main_c_36
  rfl

end Cert.KernelIdeal.Host
end
-- ==== Proof.AttnRegion6.lean ====
/-
  Batched attention region 6, from blocks to the array.

  The region runs the attention body once per batch entry: grid point t stages batch entry t of the query array
  [32, 16, 2048], of the key and value arrays [32, 2048, 2048], and writes batch entry t of the output array [32, 16, 2048].
  The blocks of the 32 points tile the output, so after the region the output array holds, at (b, i, c), the scaled
  attention of query row (b, i) over the key and value rows of batch entry b, read off the arrays as the region finds them.
-/
import proofs.«101814_j47201690583535_1_alg».proof.Proof.Gen.KernelIdeal.Frame
import proofs.«101814_j47201690583535_1_alg».proof.Proof.AttnBody
import Idealize.ShloMosaic.Lib.Pipeline.Value

set_option maxRecDepth 16384

noncomputable section

open scoped BigOperators

namespace Cert.KernelIdeal.Attn

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- A whole block starts at the zero offset. -/
theorem zeroOffset6 : (![0, 0, 0] : Fin 3 → Nat) = fun _ => 0 := funext fun a => by fin_cases a <;> rfl

/-! ## Region 6: 2048 key and value rows per batch entry -/

/-- The body at any index of its block: the leading coordinate of a one-entry batch is zero. -/
theorem pay6_at (q : Vec Ideal S1x16x2048 .bf16) (k v : Vec Ideal S1x2048x2048 .bf16) (y : S1x16x2048.Idx) :
    k6_pay1 (F := Ideal) q k v y
      = Cert.Spec.attn (fun j => q (ix3 (0 : Fin 1) (y 1) j)) (fun n j => k (ix3 (0 : Fin 1) n j)) (fun n j => v (ix3 (0 : Fin 1) n j)) (y 2) := by
  have hy : y = ix3 (0 : Fin 1) (y 1) (y 2) := by
    funext a
    match a with
    | ⟨0, _⟩ => exact Fin.ext (by have h0 : (y 0).val < 1 := (y 0).isLt; show (y 0).val = 0; omega)
    | ⟨1, _⟩ => rfl
    | ⟨2, _⟩ => rfl
  exact (congrArg (k6_pay1 (F := Ideal) q k v) hy).trans (pay6_apply q k v (y 1) (y 2))

/-- The output array of region 6 as one function of the query, key and value arrays: at (b, i, c) the scaled attention
    of query row (b, i) over the key and value rows of batch entry b. -/
def attnArray6 (c : Dev nD) : S32x16x2048.Idx → EReal := fun y =>
  Cert.Spec.attn (fun j => V c (Pipeline.arrRef spec6 0) (ix3 (y 0) (y 1) j)) (fun n j => V c (Pipeline.arrRef spec6 1) (ix3 (y 0) n j))
    (fun n j => V c (Pipeline.arrRef spec6 2) (ix3 (y 0) n j)) (y 2)

/-- The index maps of the four windows, decided over the grid: point t is at block (t, 0, 0) of each array. -/
theorem blockIndex6 : ∀ t : Fin cfg6.N,
    win6_0.index t (0 : Fin 3) = t.val ∧ win6_0.index t (1 : Fin 3) = 0 ∧ win6_0.index t (2 : Fin 3) = 0
    ∧ win6_1.index t (0 : Fin 3) = t.val ∧ win6_1.index t (1 : Fin 3) = 0 ∧ win6_1.index t (2 : Fin 3) = 0
    ∧ win6_2.index t (0 : Fin 3) = t.val ∧ win6_2.index t (1 : Fin 3) = 0 ∧ win6_2.index t (2 : Fin 3) = 0
    ∧ win6_3.index t (0 : Fin 3) = t.val ∧ win6_3.index t (1 : Fin 3) = 0 ∧ win6_3.index t (2 : Fin 3) = 0 :=
  (by decide +kernel : ∀ t : Fin grid6.N, _)

/-- What point t writes back is block t of the attention array. -/
theorem written6_eq (c : Dev nD) (t : Fin cfg6.N) :
    (dat6 (F := Ideal) V c).flushed 3 t = ((cfg6.win 3).blk t).view.read (Elt Ideal) (attnArray6 V c) := by
  show (cfg6.win 3).cut (grid6.coords t) ((dat6 V c).after 3 t) = _
  rw [after6_3]
  unfold out6_3
  rw [View.canon_unit_zero zeroOffset6]
  simp only [View.ld_unit_zero (S := S1x16x2048) zeroOffset6, View.ld_unit_zero (S := S1x2048x2048) zeroOffset6]
  obtain ⟨a0, a1, a2, b0, b1, b2, c0, c1, c2, d0, d1, d2⟩ := blockIndex6 t
  funext y
  refine (pay6_at (iblk6 V c 0 t) (iblk6 V c 1 t) (iblk6 V c 2 t) y).trans ?_
  show _ = attnArray6 V c (((cfg6.win 3).blk t).view.emb y)
  unfold attnArray6
  have hy0 : (y 0).val < 1 := (y 0).isLt
  refine congr (congr (congr (congrArg Cert.Spec.attn (funext fun j => ?_)) (funext fun n => funext fun j => ?_)) (funext fun n => funext fun j => ?_)) ?_
  · show V c (Pipeline.arrRef spec6 0) (((cfg6.win 0).blk t).view.emb (ix3 (0 : Fin 1) (y 1) j)) = _
    refine congrArg (V c (Pipeline.arrRef spec6 0)) ?_
    funext a; apply Fin.ext
    match a with
    | ⟨0, _⟩ => show win6_0.index t (0 : Fin 3) * 1 + 1 * (0 : ℕ) = win6_3.index t (0 : Fin 3) * 1 + 1 * (y 0).val; omega
    | ⟨1, _⟩ => show win6_0.index t (1 : Fin 3) * 16 + 1 * (y 1).val = win6_3.index t (1 : Fin 3) * 16 + 1 * (y 1).val; omega
    | ⟨2, _⟩ => show win6_0.index t (2 : Fin 3) * 2048 + 1 * j.val = j.val; omega
  · show V c (Pipeline.arrRef spec6 1) (((cfg6.win 1).blk t).view.emb (ix3 (0 : Fin 1) n j)) = _
    refine congrArg (V c (Pipeline.arrRef spec6 1)) ?_
    funext a; apply Fin.ext
    match a with
    | ⟨0, _⟩ => show win6_1.index t (0 : Fin 3) * 1 + 1 * (0 : ℕ) = win6_3.index t (0 : Fin 3) * 1 + 1 * (y 0).val; omega
    | ⟨1, _⟩ => show win6_1.index t (1 : Fin 3) * 2048 + 1 * n.val = n.val; omega
    | ⟨2, _⟩ => show win6_1.index t (2 : Fin 3) * 2048 + 1 * j.val = j.val; omega
  · show V c (Pipeline.arrRef spec6 2) (((cfg6.win 2).blk t).view.emb (ix3 (0 : Fin 1) n j)) = _
    refine congrArg (V c (Pipeline.arrRef spec6 2)) ?_
    funext a; apply Fin.ext
    match a with
    | ⟨0, _⟩ => show win6_2.index t (0 : Fin 3) * 1 + 1 * (0 : ℕ) = win6_3.index t (0 : Fin 3) * 1 + 1 * (y 0).val; omega
    | ⟨1, _⟩ => show win6_2.index t (1 : Fin 3) * 2048 + 1 * n.val = n.val; omega
    | ⟨2, _⟩ => show win6_2.index t (2 : Fin 3) * 2048 + 1 * j.val = j.val; omega
  · apply Fin.ext
    show (y 2).val = win6_3.index t (2 : Fin 3) * 2048 + 1 * (y 2).val
    omega

/-- An index of the output array is in point t's block iff each coordinate is in the block's range on its axis. -/
theorem mem_block6 (t : Fin cfg6.N) (i : S32x16x2048.Idx) :
    i ∈ ((cfg6.win 3).blk t).view.set ↔ ∀ a : Fin 3, win6_3.index t a * S1x16x2048.size a ≤ (i a).val ∧ (i a).val < win6_3.index t a * S1x16x2048.size a + S1x16x2048.size a := by
  show i ∈ ((View.whole main_v58).slice (win6_3.rect t)).set ↔ _
  rw [View.set_slice_whole, Rect.mem_set_unit]
  exact Iff.rfl

/-- Batch entry b of the output is covered by grid point b. -/
theorem covered6 (i : S32x16x2048.Idx) : ∃ t : Fin cfg6.N, (cfg6.win 3).flush t = true ∧ i ∈ ((cfg6.win 3).blk t).view.set := by
  have hi0 : (i 0).val < 32 := (i 0).isLt
  have hi1 : (i 1).val < 16 := (i 1).isLt
  have hi2 : (i 2).val < 2048 := (i 2).isLt
  obtain ⟨t, ht⟩ : ∃ t : Fin cfg6.N, t.val = (i 0).val := ⟨⟨(i 0).val, hi0⟩, rfl⟩
  refine ⟨t, flush6_3 t, ?_⟩
  rw [mem_block6]
  obtain ⟨a0, a1, a2, b0, b1, b2, c0, c1, c2, d0, d1, d2⟩ := blockIndex6 t
  intro a
  match a with
  | ⟨0, _⟩ => show win6_3.index t (0 : Fin 3) * 1 ≤ (i 0).val ∧ (i 0).val < win6_3.index t (0 : Fin 3) * 1 + 1; omega
  | ⟨1, _⟩ => show win6_3.index t (1 : Fin 3) * 16 ≤ (i 1).val ∧ (i 1).val < win6_3.index t (1 : Fin 3) * 16 + 16; omega
  | ⟨2, _⟩ => show win6_3.index t (2 : Fin 3) * 2048 ≤ (i 2).val ∧ (i 2).val < win6_3.index t (2 : Fin 3) * 2048 + 2048; omega

/-- The output array after region 6 is the attention array. -/
theorem array6_eq (c : Dev nD) : (dat6 (F := Ideal) V c).arrAt 3 cfg6.N = attnArray6 V c :=
  (dat6 (F := Ideal) V c).arrAt_eq_of_cover 3 (attnArray6 V c) (fun t _ => written6_eq V c t) covered6

/-- The output array after region 6, at (b, i, c'): the scaled attention of query row (b, i) over the 2048 key and value
    rows of batch entry b. -/
theorem region6_value (c : Dev nD) (b : Fin 32) (i : Fin 16) (c' : Fin 2048) :
    (dat6 (F := Ideal) V c).arrAt 3 cfg6.N (ix3 b i c')
      = Cert.Spec.attn (fun j => V c (Pipeline.arrRef spec6 0) (ix3 b i j)) (fun n j => V c (Pipeline.arrRef spec6 1) (ix3 b n j))
          (fun n j => V c (Pipeline.arrRef spec6 2) (ix3 b n j)) c' := by
  rw [array6_eq]
  rfl

end Cert.KernelIdeal.Attn

end
-- ==== Proof.AttnRegion8.lean ====
/-
  Batched attention region 8, from blocks to the array.

  The region runs the attention body once per batch entry: grid point t stages batch entry t of the query array
  [32, 16, 2048], of the key and value arrays [32, 288, 2048], and writes batch entry t of the output array [32, 16, 2048].
  The blocks of the 32 points tile the output, so after the region the output array holds, at (b, i, c), the scaled
  attention of query row (b, i) over the key and value rows of batch entry b, read off the arrays as the region finds them.
-/
import proofs.«101814_j47201690583535_1_alg».proof.Proof.Gen.KernelIdeal.Frame
import proofs.«101814_j47201690583535_1_alg».proof.Proof.AttnBody
import Idealize.ShloMosaic.Lib.Pipeline.Value

set_option maxRecDepth 16384

noncomputable section

open scoped BigOperators

namespace Cert.KernelIdeal.Attn

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- A whole block starts at the zero offset. -/
theorem zeroOffset8 : (![0, 0, 0] : Fin 3 → Nat) = fun _ => 0 := funext fun a => by fin_cases a <;> rfl

/-! ## Region 8: 288 key and value rows per batch entry -/

/-- The body at any index of its block: the leading coordinate of a one-entry batch is zero. -/
theorem pay8_at (q : Vec Ideal S1x16x2048 .bf16) (k v : Vec Ideal S1x288x2048 .bf16) (y : S1x16x2048.Idx) :
    k8_pay1 (F := Ideal) q k v y
      = Cert.Spec.attn (fun j => q (ix3 (0 : Fin 1) (y 1) j)) (fun n j => k (ix3 (0 : Fin 1) n j)) (fun n j => v (ix3 (0 : Fin 1) n j)) (y 2) := by
  have hy : y = ix3 (0 : Fin 1) (y 1) (y 2) := by
    funext a
    match a with
    | ⟨0, _⟩ => exact Fin.ext (by have h0 : (y 0).val < 1 := (y 0).isLt; show (y 0).val = 0; omega)
    | ⟨1, _⟩ => rfl
    | ⟨2, _⟩ => rfl
  exact (congrArg (k8_pay1 (F := Ideal) q k v) hy).trans (pay8_apply q k v (y 1) (y 2))

/-- The output array of region 8 as one function of the query, key and value arrays: at (b, i, c) the scaled attention
    of query row (b, i) over the key and value rows of batch entry b. -/
def attnArray8 (c : Dev nD) : S32x16x2048.Idx → EReal := fun y =>
  Cert.Spec.attn (fun j => V c (Pipeline.arrRef spec8 0) (ix3 (y 0) (y 1) j)) (fun n j => V c (Pipeline.arrRef spec8 1) (ix3 (y 0) n j))
    (fun n j => V c (Pipeline.arrRef spec8 2) (ix3 (y 0) n j)) (y 2)

/-- The index maps of the four windows, decided over the grid: point t is at block (t, 0, 0) of each array. -/
theorem blockIndex8 : ∀ t : Fin cfg8.N,
    win8_0.index t (0 : Fin 3) = t.val ∧ win8_0.index t (1 : Fin 3) = 0 ∧ win8_0.index t (2 : Fin 3) = 0
    ∧ win8_1.index t (0 : Fin 3) = t.val ∧ win8_1.index t (1 : Fin 3) = 0 ∧ win8_1.index t (2 : Fin 3) = 0
    ∧ win8_2.index t (0 : Fin 3) = t.val ∧ win8_2.index t (1 : Fin 3) = 0 ∧ win8_2.index t (2 : Fin 3) = 0
    ∧ win8_3.index t (0 : Fin 3) = t.val ∧ win8_3.index t (1 : Fin 3) = 0 ∧ win8_3.index t (2 : Fin 3) = 0 :=
  (by decide +kernel : ∀ t : Fin grid8.N, _)

/-- What point t writes back is block t of the attention array. -/
theorem written8_eq (c : Dev nD) (t : Fin cfg8.N) :
    (dat8 (F := Ideal) V c).flushed 3 t = ((cfg8.win 3).blk t).view.read (Elt Ideal) (attnArray8 V c) := by
  show (cfg8.win 3).cut (grid8.coords t) ((dat8 V c).after 3 t) = _
  rw [after8_3]
  unfold out8_3
  rw [View.canon_unit_zero zeroOffset8]
  simp only [View.ld_unit_zero (S := S1x16x2048) zeroOffset8, View.ld_unit_zero (S := S1x288x2048) zeroOffset8]
  obtain ⟨a0, a1, a2, b0, b1, b2, c0, c1, c2, d0, d1, d2⟩ := blockIndex8 t
  funext y
  refine (pay8_at (iblk8 V c 0 t) (iblk8 V c 1 t) (iblk8 V c 2 t) y).trans ?_
  show _ = attnArray8 V c (((cfg8.win 3).blk t).view.emb y)
  unfold attnArray8
  have hy0 : (y 0).val < 1 := (y 0).isLt
  refine congr (congr (congr (congrArg Cert.Spec.attn (funext fun j => ?_)) (funext fun n => funext fun j => ?_)) (funext fun n => funext fun j => ?_)) ?_
  · show V c (Pipeline.arrRef spec8 0) (((cfg8.win 0).blk t).view.emb (ix3 (0 : Fin 1) (y 1) j)) = _
    refine congrArg (V c (Pipeline.arrRef spec8 0)) ?_
    funext a; apply Fin.ext
    match a with
    | ⟨0, _⟩ => show win8_0.index t (0 : Fin 3) * 1 + 1 * (0 : ℕ) = win8_3.index t (0 : Fin 3) * 1 + 1 * (y 0).val; omega
    | ⟨1, _⟩ => show win8_0.index t (1 : Fin 3) * 16 + 1 * (y 1).val = win8_3.index t (1 : Fin 3) * 16 + 1 * (y 1).val; omega
    | ⟨2, _⟩ => show win8_0.index t (2 : Fin 3) * 2048 + 1 * j.val = j.val; omega
  · show V c (Pipeline.arrRef spec8 1) (((cfg8.win 1).blk t).view.emb (ix3 (0 : Fin 1) n j)) = _
    refine congrArg (V c (Pipeline.arrRef spec8 1)) ?_
    funext a; apply Fin.ext
    match a with
    | ⟨0, _⟩ => show win8_1.index t (0 : Fin 3) * 1 + 1 * (0 : ℕ) = win8_3.index t (0 : Fin 3) * 1 + 1 * (y 0).val; omega
    | ⟨1, _⟩ => show win8_1.index t (1 : Fin 3) * 288 + 1 * n.val = n.val; omega
    | ⟨2, _⟩ => show win8_1.index t (2 : Fin 3) * 2048 + 1 * j.val = j.val; omega
  · show V c (Pipeline.arrRef spec8 2) (((cfg8.win 2).blk t).view.emb (ix3 (0 : Fin 1) n j)) = _
    refine congrArg (V c (Pipeline.arrRef spec8 2)) ?_
    funext a; apply Fin.ext
    match a with
    | ⟨0, _⟩ => show win8_2.index t (0 : Fin 3) * 1 + 1 * (0 : ℕ) = win8_3.index t (0 : Fin 3) * 1 + 1 * (y 0).val; omega
    | ⟨1, _⟩ => show win8_2.index t (1 : Fin 3) * 288 + 1 * n.val = n.val; omega
    | ⟨2, _⟩ => show win8_2.index t (2 : Fin 3) * 2048 + 1 * j.val = j.val; omega
  · apply Fin.ext
    show (y 2).val = win8_3.index t (2 : Fin 3) * 2048 + 1 * (y 2).val
    omega

/-- An index of the output array is in point t's block iff each coordinate is in the block's range on its axis. -/
theorem mem_block8 (t : Fin cfg8.N) (i : S32x16x2048.Idx) :
    i ∈ ((cfg8.win 3).blk t).view.set ↔ ∀ a : Fin 3, win8_3.index t a * S1x16x2048.size a ≤ (i a).val ∧ (i a).val < win8_3.index t a * S1x16x2048.size a + S1x16x2048.size a := by
  show i ∈ ((View.whole main_v63).slice (win8_3.rect t)).set ↔ _
  rw [View.set_slice_whole, Rect.mem_set_unit]
  exact Iff.rfl

/-- Batch entry b of the output is covered by grid point b. -/
theorem covered8 (i : S32x16x2048.Idx) : ∃ t : Fin cfg8.N, (cfg8.win 3).flush t = true ∧ i ∈ ((cfg8.win 3).blk t).view.set := by
  have hi0 : (i 0).val < 32 := (i 0).isLt
  have hi1 : (i 1).val < 16 := (i 1).isLt
  have hi2 : (i 2).val < 2048 := (i 2).isLt
  obtain ⟨t, ht⟩ : ∃ t : Fin cfg8.N, t.val = (i 0).val := ⟨⟨(i 0).val, hi0⟩, rfl⟩
  refine ⟨t, flush8_3 t, ?_⟩
  rw [mem_block8]
  obtain ⟨a0, a1, a2, b0, b1, b2, c0, c1, c2, d0, d1, d2⟩ := blockIndex8 t
  intro a
  match a with
  | ⟨0, _⟩ => show win8_3.index t (0 : Fin 3) * 1 ≤ (i 0).val ∧ (i 0).val < win8_3.index t (0 : Fin 3) * 1 + 1; omega
  | ⟨1, _⟩ => show win8_3.index t (1 : Fin 3) * 16 ≤ (i 1).val ∧ (i 1).val < win8_3.index t (1 : Fin 3) * 16 + 16; omega
  | ⟨2, _⟩ => show win8_3.index t (2 : Fin 3) * 2048 ≤ (i 2).val ∧ (i 2).val < win8_3.index t (2 : Fin 3) * 2048 + 2048; omega

/-- The output array after region 8 is the attention array. -/
theorem array8_eq (c : Dev nD) : (dat8 (F := Ideal) V c).arrAt 3 cfg8.N = attnArray8 V c :=
  (dat8 (F := Ideal) V c).arrAt_eq_of_cover 3 (attnArray8 V c) (fun t _ => written8_eq V c t) covered8

/-- The output array after region 8, at (b, i, c'): the scaled attention of query row (b, i) over the 288 key and value
    rows of batch entry b. -/
theorem region8_value (c : Dev nD) (b : Fin 32) (i : Fin 16) (c' : Fin 2048) :
    (dat8 (F := Ideal) V c).arrAt 3 cfg8.N (ix3 b i c')
      = Cert.Spec.attn (fun j => V c (Pipeline.arrRef spec8 0) (ix3 b i j)) (fun n j => V c (Pipeline.arrRef spec8 1) (ix3 b n j))
          (fun n j => V c (Pipeline.arrRef spec8 2) (ix3 b n j)) c' := by
  rw [array8_eq]
  rfl

end Cert.KernelIdeal.Attn

end
-- ==== Proof.RefSpecNorm.lean ====
/-
  The reference's two layer normalisations and its mean over the query rows read against the specification.
  Each is a chain of row sums, broadcasts back along the reduced axis and elementwise operations; read at an index
  built from its coordinates, every broadcast returns the reduced value of the same row, and the chain is the
  specification's `layernorm` (resp. `meanBy`) of that row.
-/
import proofs.«101814_j47201690583535_1_alg».proof.Proof.RefRead
import proofs.«101814_j47201690583535_1_alg».proof.Proof.Spec

noncomputable section

open scoped BigOperators

namespace Cert.ReferenceIdeal.RefSpec

open Cert.ReferenceIdeal Cert.ReferenceIdeal.Gen Cert.ReferenceIdeal.ReadP Idealize.ShloMosaic Idealize.ShloMosaic.ValueIdx

/-- Two indices built coordinate by coordinate are equal when each coordinate is. -/
local macro "idx_tac" : tactic =>
  `(tactic| (funext a; first
      | (match a with | ⟨0, _⟩ => rfl | ⟨1, _⟩ => rfl | ⟨2, _⟩ => rfl)
      | (match a with | ⟨0, _⟩ => rfl | ⟨1, _⟩ => rfl)
      | (match a with | ⟨0, _⟩ => rfl)))

section LN70
variable (x0 : (⟨S32x2048x24x12, .f32⟩ : BufTy).Contents (Elt Ideal)) (x1 : (⟨S32, .i32⟩ : BufTy).Contents (Elt Ideal)) (x3 : (⟨S1x16x2048, .f32⟩ : BufTy).Contents (Elt Ideal)) (x6 : (⟨S6x1x2048, .f32⟩ : BufTy).Contents (Elt Ideal)) (x8 x9 : (⟨S2048x2048, .f32⟩ : BufTy).Contents (Elt Ideal))
variable (b : Fin 32) (q : Fin 16)

/-- The sum of a row of stage 52. -/
theorem v53_at : val_main_v53 (F := Ideal) x0 x1 x3 x6 x8 x9 (ix2 b q) = ∑ k : Fin 2048, val_main_v52 (F := Ideal) x0 x1 x3 x6 x8 x9 (ix3 b q k) := by
  rw [val_main_v53_apply]
  have hz : val_main_cst_10 (F := Ideal) (Shape.Idx.first h_S_) = 0 := Ideal.ofBits_zero_f32
  rw [hz, zero_add]
  refine Finset.sum_congr rfl fun k _ => ?_
  exact congrArg _ (by idx_tac : idx_main_v53 (ix2 b q) k = ix3 b q k)

/-- The mean of a row of stage 52. -/
theorem v56_at : val_main_v56 (F := Ideal) x0 x1 x3 x6 x8 x9 (ix3 b q (0 : Fin 1)) = Cert.Spec.meanBy Cert.Spec.c2048 (fun k => val_main_v52 (F := Ideal) x0 x1 x3 x6 x8 x9 (ix3 b q k)) := by
  unfold Cert.Spec.meanBy
  rw [val_main_v56_apply, val_main_v54_apply, val_main_v55_apply,
    (by idx_tac : idx_main_v54 (ix3 b q (0 : Fin 1)) = ix2 b q), v53_at]
  rfl

/-- A row of stage 52 less its mean. -/
theorem v58_at (c : Fin 2048) : val_main_v58 (F := Ideal) x0 x1 x3 x6 x8 x9 (ix3 b q c) = val_main_v52 (F := Ideal) x0 x1 x3 x6 x8 x9 (ix3 b q c) - Cert.Spec.meanBy Cert.Spec.c2048 (fun k => val_main_v52 (F := Ideal) x0 x1 x3 x6 x8 x9 (ix3 b q k)) := by
  rw [val_main_v58_apply, val_main_v57_apply,
    (by idx_tac : idx_main_v57 (ix3 b q c) = ix3 b q (0 : Fin 1)), v56_at]
  rfl

/-- The sum of the squared deviations of a row. -/
theorem v60_at : val_main_v60 (F := Ideal) x0 x1 x3 x6 x8 x9 (ix2 b q) = ∑ k : Fin 2048, (fun k => (val_main_v52 (F := Ideal) x0 x1 x3 x6 x8 x9 (ix3 b q k) - Cert.Spec.meanBy Cert.Spec.c2048 (fun k => val_main_v52 (F := Ideal) x0 x1 x3 x6 x8 x9 (ix3 b q k))) * (val_main_v52 (F := Ideal) x0 x1 x3 x6 x8 x9 (ix3 b q k) - Cert.Spec.meanBy Cert.Spec.c2048 (fun k => val_main_v52 (F := Ideal) x0 x1 x3 x6 x8 x9 (ix3 b q k)))) k := by
  rw [val_main_v60_apply]
  have hz : val_main_cst_12 (F := Ideal) (Shape.Idx.first h_S_) = 0 := Ideal.ofBits_zero_f32
  rw [hz, zero_add]
  refine Finset.sum_congr rfl fun k _ => ?_
  rw [(by idx_tac : idx_main_v60 (ix2 b q) k = ix3 b q k), val_main_v59_apply, v58_at]
  rfl

/-- The variance of a row. -/
theorem v63_at : val_main_v63 (F := Ideal) x0 x1 x3 x6 x8 x9 (ix3 b q (0 : Fin 1)) = Cert.Spec.meanBy Cert.Spec.c2048 (fun k => (val_main_v52 (F := Ideal) x0 x1 x3 x6 x8 x9 (ix3 b q k) - Cert.Spec.meanBy Cert.Spec.c2048 (fun k => val_main_v52 (F := Ideal) x0 x1 x3 x6 x8 x9 (ix3 b q k))) * (val_main_v52 (F := Ideal) x0 x1 x3 x6 x8 x9 (ix3 b q k) - Cert.Spec.meanBy Cert.Spec.c2048 (fun k => val_main_v52 (F := Ideal) x0 x1 x3 x6 x8 x9 (ix3 b q k)))) := by
  unfold Cert.Spec.meanBy
  rw [val_main_v63_apply, val_main_v61_apply, val_main_v62_apply,
    (by idx_tac : idx_main_v61 (ix3 b q (0 : Fin 1)) = ix2 b q), v60_at]
  rfl

/-- The standard deviation of a row, the variance offset included. -/
theorem v68_at : val_main_v68 (F := Ideal) x0 x1 x3 x6 x8 x9 (ix3 b q (0 : Fin 1))
    = Ideal.sqrt (Cert.Spec.meanBy Cert.Spec.c2048 (fun k => (val_main_v52 (F := Ideal) x0 x1 x3 x6 x8 x9 (ix3 b q k) - Cert.Spec.meanBy Cert.Spec.c2048 (fun k => val_main_v52 (F := Ideal) x0 x1 x3 x6 x8 x9 (ix3 b q k))) * (val_main_v52 (F := Ideal) x0 x1 x3 x6 x8 x9 (ix3 b q k) - Cert.Spec.meanBy Cert.Spec.c2048 (fun k => val_main_v52 (F := Ideal) x0 x1 x3 x6 x8 x9 (ix3 b q k)))) + Cert.Spec.epsVar) := by
  rw [val_main_v68_apply, val_main_v67_apply, v63_at, val_main_v66_apply]
  rfl

/-- Stage 70 is the layer normalisation of the rows of stage 52. -/
theorem v70_spec (c : Fin 2048) : val_main_v70 (F := Ideal) x0 x1 x3 x6 x8 x9 (ix3 b q c) = Cert.Spec.layernorm (fun k => val_main_v52 (F := Ideal) x0 x1 x3 x6 x8 x9 (ix3 b q k)) c := by
  unfold Cert.Spec.layernorm
  rw [val_main_v70_apply, val_main_v65_apply, val_main_v64_apply,
    (by idx_tac : idx_main_v64 (ix3 b q c) = ix3 b q (0 : Fin 1)), v56_at,
    val_main_v69_apply, (by idx_tac : idx_main_v69 (ix3 b q c) = ix3 b q (0 : Fin 1)), v68_at]
  rfl

end LN70

section Mean75
variable (x0 : (⟨S32x2048x24x12, .f32⟩ : BufTy).Contents (Elt Ideal)) (x1 : (⟨S32, .i32⟩ : BufTy).Contents (Elt Ideal)) (x3 : (⟨S1x16x2048, .f32⟩ : BufTy).Contents (Elt Ideal)) (x6 : (⟨S6x1x2048, .f32⟩ : BufTy).Contents (Elt Ideal)) (x8 x9 : (⟨S2048x2048, .f32⟩ : BufTy).Contents (Elt Ideal))
variable (b : Fin 32)

/-- The sum over the sixteen query rows of stage 52, at column `c`. -/
theorem v72_at (c : Fin 2048) : val_main_v72 (F := Ideal) x0 x1 x3 x6 x8 x9 (ix2 b c) = ∑ q : Fin 16, val_main_v52 (F := Ideal) x0 x1 x3 x6 x8 x9 (ix3 b q c) := by
  rw [val_main_v72_apply]
  have hz : val_main_cst_15 (F := Ideal) (Shape.Idx.first h_S_) = 0 := Ideal.ofBits_zero_f32
  rw [hz, zero_add]
  refine Finset.sum_congr rfl fun k _ => ?_
  exact congrArg _ (by idx_tac : idx_main_v72 (ix2 b c) k = ix3 b k c)

/-- Stage 75 is the mean of stage 52 over its sixteen query rows. -/
theorem v75_spec (c : Fin 2048) : val_main_v75 (F := Ideal) x0 x1 x3 x6 x8 x9 (ix3 b (0 : Fin 1) c)
    = Cert.Spec.meanBy Cert.Spec.c16 (fun q : Fin 16 => val_main_v52 (F := Ideal) x0 x1 x3 x6 x8 x9 (ix3 b q c)) := by
  unfold Cert.Spec.meanBy
  rw [val_main_v75_apply, val_main_v73_apply, val_main_v74_apply,
    (by idx_tac : idx_main_v73 (ix3 b (0 : Fin 1) c) = ix2 b c), v72_at]
  rfl

end Mean75

section LN95
variable (x0 : (⟨S32x2048x24x12, .f32⟩ : BufTy).Contents (Elt Ideal)) (x1 : (⟨S32, .i32⟩ : BufTy).Contents (Elt Ideal)) (x3 : (⟨S1x16x2048, .f32⟩ : BufTy).Contents (Elt Ideal)) (x4 : (⟨S1x2048x2048, .f32⟩ : BufTy).Contents (Elt Ideal)) (x6 : (⟨S6x1x2048, .f32⟩ : BufTy).Contents (Elt Ideal)) (x8 x9 : (⟨S2048x2048, .f32⟩ : BufTy).Contents (Elt Ideal))
variable (b : Fin 32) (n : Fin 2048)

/-- The sum of a row of stage 77. -/
theorem v78_at : val_main_v78 (F := Ideal) x0 x1 x3 x4 x6 x8 x9 (ix2 b n) = ∑ k : Fin 2048, val_main_v77 (F := Ideal) x0 x1 x3 x4 x6 x8 x9 (ix3 b n k) := by
  rw [val_main_v78_apply]
  have hz : val_main_cst_17 (F := Ideal) (Shape.Idx.first h_S_) = 0 := Ideal.ofBits_zero_f32
  rw [hz, zero_add]
  refine Finset.sum_congr rfl fun k _ => ?_
  exact congrArg _ (by idx_tac : idx_main_v78 (ix2 b n) k = ix3 b n k)

/-- The mean of a row of stage 77. -/
theorem v81_at : val_main_v81 (F := Ideal) x0 x1 x3 x4 x6 x8 x9 (ix3 b n (0 : Fin 1)) = Cert.Spec.meanBy Cert.Spec.c2048 (fun k => val_main_v77 (F := Ideal) x0 x1 x3 x4 x6 x8 x9 (ix3 b n k)) := by
  unfold Cert.Spec.meanBy
  rw [val_main_v81_apply, val_main_v79_apply, val_main_v80_apply,
    (by idx_tac : idx_main_v79 (ix3 b n (0 : Fin 1)) = ix2 b n), v78_at]
  rfl

/-- A row of stage 77 less its mean. -/
theorem v83_at (c : Fin 2048) : val_main_v83 (F := Ideal) x0 x1 x3 x4 x6 x8 x9 (ix3 b n c) = val_main_v77 (F := Ideal) x0 x1 x3 x4 x6 x8 x9 (ix3 b n c) - Cert.Spec.meanBy Cert.Spec.c2048 (fun k => val_main_v77 (F := Ideal) x0 x1 x3 x4 x6 x8 x9 (ix3 b n k)) := by
  rw [val_main_v83_apply, val_main_v82_apply,
    (by idx_tac : idx_main_v82 (ix3 b n c) = ix3 b n (0 : Fin 1)), v81_at]
  rfl

/-- The sum of the squared deviations of a row. -/
theorem v85_at : val_main_v85 (F := Ideal) x0 x1 x3 x4 x6 x8 x9 (ix2 b n) = ∑ k : Fin 2048, (fun k => (val_main_v77 (F := Ideal) x0 x1 x3 x4 x6 x8 x9 (ix3 b n k) - Cert.Spec.meanBy Cert.Spec.c2048 (fun k => val_main_v77 (F := Ideal) x0 x1 x3 x4 x6 x8 x9 (ix3 b n k))) * (val_main_v77 (F := Ideal) x0 x1 x3 x4 x6 x8 x9 (ix3 b n k) - Cert.Spec.meanBy Cert.Spec.c2048 (fun k => val_main_v77 (F := Ideal) x0 x1 x3 x4 x6 x8 x9 (ix3 b n k)))) k := by
  rw [val_main_v85_apply]
  have hz : val_main_cst_19 (F := Ideal) (Shape.Idx.first h_S_) = 0 := Ideal.ofBits_zero_f32
  rw [hz, zero_add]
  refine Finset.sum_congr rfl fun k _ => ?_
  rw [(by idx_tac : idx_main_v85 (ix2 b n) k = ix3 b n k), val_main_v84_apply, v83_at]
  rfl

/-- The variance of a row. -/
theorem v88_at : val_main_v88 (F := Ideal) x0 x1 x3 x4 x6 x8 x9 (ix3 b n (0 : Fin 1)) = Cert.Spec.meanBy Cert.Spec.c2048 (fun k => (val_main_v77 (F := Ideal) x0 x1 x3 x4 x6 x8 x9 (ix3 b n k) - Cert.Spec.meanBy Cert.Spec.c2048 (fun k => val_main_v77 (F := Ideal) x0 x1 x3 x4 x6 x8 x9 (ix3 b n k))) * (val_main_v77 (F := Ideal) x0 x1 x3 x4 x6 x8 x9 (ix3 b n k) - Cert.Spec.meanBy Cert.Spec.c2048 (fun k => val_main_v77 (F := Ideal) x0 x1 x3 x4 x6 x8 x9 (ix3 b n k)))) := by
  unfold Cert.Spec.meanBy
  rw [val_main_v88_apply, val_main_v86_apply, val_main_v87_apply,
    (by idx_tac : idx_main_v86 (ix3 b n (0 : Fin 1)) = ix2 b n), v85_at]
  rfl

/-- The standard deviation of a row, the variance offset included. -/
theorem v93_at : val_main_v93 (F := Ideal) x0 x1 x3 x4 x6 x8 x9 (ix3 b n (0 : Fin 1))
    = Ideal.sqrt (Cert.Spec.meanBy Cert.Spec.c2048 (fun k => (val_main_v77 (F := Ideal) x0 x1 x3 x4 x6 x8 x9 (ix3 b n k) - Cert.Spec.meanBy Cert.Spec.c2048 (fun k => val_main_v77 (F := Ideal) x0 x1 x3 x4 x6 x8 x9 (ix3 b n k))) * (val_main_v77 (F := Ideal) x0 x1 x3 x4 x6 x8 x9 (ix3 b n k) - Cert.Spec.meanBy Cert.Spec.c2048 (fun k => val_main_v77 (F := Ideal) x0 x1 x3 x4 x6 x8 x9 (ix3 b n k)))) + Cert.Spec.epsVar) := by
  rw [val_main_v93_apply, val_main_v92_apply, v88_at, val_main_v91_apply]
  rfl

/-- Stage 95 is the layer normalisation of the rows of stage 77. -/
theorem v95_ln (c : Fin 2048) : val_main_v95 (F := Ideal) x0 x1 x3 x4 x6 x8 x9 (ix3 b n c) = Cert.Spec.layernorm (fun k => val_main_v77 (F := Ideal) x0 x1 x3 x4 x6 x8 x9 (ix3 b n k)) c := by
  unfold Cert.Spec.layernorm
  rw [val_main_v95_apply, val_main_v90_apply, val_main_v89_apply,
    (by idx_tac : idx_main_v89 (ix3 b n c) = ix3 b n (0 : Fin 1)), v81_at,
    val_main_v94_apply, (by idx_tac : idx_main_v94 (ix3 b n c) = ix3 b n (0 : Fin 1)), v93_at]
  rfl

end LN95

section LN95spec
variable (x0 : (⟨S32x2048x24x12, .f32⟩ : BufTy).Contents (Elt Ideal)) (x1 : (⟨S32, .i32⟩ : BufTy).Contents (Elt Ideal)) (x3 : (⟨S1x16x2048, .f32⟩ : BufTy).Contents (Elt Ideal)) (x4 : (⟨S1x2048x2048, .f32⟩ : BufTy).Contents (Elt Ideal)) (x6 : (⟨S6x1x2048, .f32⟩ : BufTy).Contents (Elt Ideal)) (x8 x9 : (⟨S2048x2048, .f32⟩ : BufTy).Contents (Elt Ideal))
variable (b : Fin 32) (n : Fin 2048)

/-- Stage 77 is the prototype row less the batch's mean row. -/
theorem v77_at (k : Fin 2048) : val_main_v77 (F := Ideal) x0 x1 x3 x4 x6 x8 x9 (ix3 b n k)
    = x4 (ix3 (0 : Fin 1) n k) - val_main_v75 (F := Ideal) x0 x1 x3 x6 x8 x9 (ix3 b (0 : Fin 1) k) := by
  rw [val_main_v77_apply, val_main_v3_apply, val_main_v76_apply,
    (by idx_tac : idx_main_v3 (ix3 b n k) = ix3 (0 : Fin 1) n k),
    (by idx_tac : idx_main_v76 (ix3 b n k) = ix3 b (0 : Fin 1) k)]
  rfl

/-- Stage 95 is the layer normalisation of the prototype rows less the batch's mean row. -/
theorem v95_spec (c : Fin 2048) : val_main_v95 (F := Ideal) x0 x1 x3 x4 x6 x8 x9 (ix3 b n c)
    = Cert.Spec.layernorm (fun k => x4 (ix3 (0 : Fin 1) n k) - val_main_v75 (F := Ideal) x0 x1 x3 x6 x8 x9 (ix3 b (0 : Fin 1) k)) c := by
  rw [v95_ln]
  exact congrArg (fun f => Cert.Spec.layernorm f c) (funext fun k => v77_at x0 x1 x3 x4 x6 x8 x9 b n k)

end LN95spec

end Cert.ReferenceIdeal.RefSpec

end
-- ==== Proof.ChainB.lean ====
/-
  The kernel program's buffers, boundary by boundary: from the first attention's output to the third attention's.

  The first attention's output is averaged over the query rows and normalised row by row on the host; the normalised
  rows are projected by the third table; the prototype rows less the batch's mean row are normalised and projected by
  the fourth table inside one region; the second attention weighs them; its output is added to the first's, projected
  by the first table, and the third attention runs over the patch rows again. Each lemma names what one buffer holds
  at one boundary as a stage of the reference program applied to the launch arguments; a buffer that no segment in
  between writes is carried over unchanged.
-/
import proofs.«101814_j47201690583535_1_alg».proof.Proof.ChainA
import proofs.«101814_j47201690583535_1_alg».proof.Proof.KernelHostStages
import proofs.«101814_j47201690583535_1_alg».proof.Proof.AttnRegion6
import proofs.«101814_j47201690583535_1_alg».proof.Proof.AttnRegion8
import proofs.«101814_j47201690583535_1_alg».proof.Proof.IfaceProj
import proofs.«101814_j47201690583535_1_alg».proof.Proof.RefSpecProj
import proofs.«101814_j47201690583535_1_alg».proof.Proof.RefSpecNorm
import proofs.«101814_j47201690583535_1_alg».proof.Proof.RefSpecPatch
import proofs.«101814_j47201690583535_1_alg».proof.Proof.RefSpecAttn

noncomputable section

open scoped BigOperators

namespace Cert.KernelIdeal.Chain

open Cert.KernelIdeal Cert.KernelIdeal.Gen Idealize.ShloMosaic Idealize.ShloMosaic.ValueIdx Idealize.ShloMosaic.StableHlo Idealize.ShloMosaic.TcCoe Idealize.SL.Sem
open Cert.ReferenceIdeal.ReadP Cert.ReferenceIdeal.RefSpec
open Cert.KernelIdeal.Host Cert.KernelIdeal.Keeps Cert.Spec
open Cert.KernelIdeal.Iface (region4_value region7_value region5_value_g region5_value_relg)
variable (m : (ℓ : Loc nD τ sig) → Buf (Elt Ideal) ℓ) (ρ : Dev nD → PrngReg) (c : Dev nD)

set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "dv" b => Proc.devRef (τ := τ) (sig := sig) Proc.tc b

/-! ## The host stretch after the first attention: the mean over the query rows and the layer normalisation -/

theorem v35_9 : W9 m ρ c (dv main_v35) = val_main_v75 (F := Ideal) a0 a1 a3 a6 a8 a9 :=
  h4_v35 (W8 m ρ c) a0 a1 a3 a6 a8 a9 (v31_8 m ρ c)

theorem v54_9 (b : Fin 32) (q : Fin 16) (k : Fin 2048) (h : b.val * 16 + q.val < 512) :
    arr S512x2048 (W9 m ρ c (dv main_v54)) (ix2 ⟨b.val * 16 + q.val, h⟩ k) = val_main_v70 (F := Ideal) a0 a1 a3 a6 a8 a9 (ix3 b q k) :=
  h4_v54 (W8 m ρ c) a0 a1 a3 a6 a8 a9 (v31_8 m ρ c) b q k h

theorem v18_9 (k d : Fin 2048) : arr S2048x2048 (W9 m ρ c (dv main_v18)) (ix2 k d) = arr S2048x2048 a10 (ix2 d k) := by
  rw [show W9 m ρ c (dv main_v18) = W1 m ρ c (dv main_v18) from range m ρ c main_v18 8 1 (by decide) (by decide)]
  exact v18_1 m ρ c k d

/-! ## Region 4: the normalised rows projected by the third table, and regrouped -/

theorem v55_10 (b : Fin 32) (q : Fin 16) (d : Fin 2048) (h : b.val * 16 + q.val < 512) :
    arr S512x2048 (W10 m ρ c (dv main_v55)) (ix2 ⟨b.val * 16 + q.val, h⟩ d)
      = ∑ k : Fin 2048, val_main_v70 (F := Ideal) a0 a1 a3 a6 a8 a9 (ix3 b q k) * arr S2048x2048 a10 (ix2 d k) := by
  refine Eq.trans (α := EReal) ?_
    (Finset.sum_congr rfl fun k _ => congrArg₂ (· * ·) (v54_9 m ρ c b q k h) (v18_9 m ρ c k d))
  exact (congrFun (W10_arr m ρ c 2) _).trans (region4_value (V9 m ρ) c ⟨_, h⟩ d)

theorem v56_11 : arr S32x16x2048 (W11 m ρ c (dv main_v56)) = val_main_v71 (F := Ideal) a0 a1 a3 a6 a8 a9 a10 := by
  funext i
  obtain ⟨b, q, d, rfl⟩ : ∃ (b : Fin 32) (q : Fin 16) (d : Fin 2048), i = ix3 b q d := ⟨i 0, i 1, i 2, eq_ix3 i⟩
  have h : b.val * 16 + q.val < 512 := by have := b.isLt; have := q.isLt; omega
  rw [v71_spec]
  exact (h5_v56 (W10 m ρ c) b q d h).trans (v55_10 m ρ c b q d h)

/-! ## Region 5: the prototype rows less the batch's mean row, normalised, and projected by the fourth table -/

theorem v3_11 (n k : Fin 2048) : arr S2048x2048 (W11 m ρ c (dv main_v3)) (ix2 n k) = arr S1x2048x2048 a4 (ix3 (0 : Fin 1) n k) := by
  rw [show W11 m ρ c (dv main_v3) = W1 m ρ c (dv main_v3) from range m ρ c main_v3 10 1 (by decide) (by decide)]
  exact v3_1 m ρ c n k

theorem v35_11 : W11 m ρ c (dv main_v35) = val_main_v75 (F := Ideal) a0 a1 a3 a6 a8 a9 :=
  (range m ρ c main_v35 2 9 (by decide) (by decide)).trans (v35_9 m ρ c)

theorem v20_11 (k d : Fin 2048) : arr S2048x2048 (W11 m ρ c (dv main_v20)) (ix2 k d) = arr S2048x2048 a11 (ix2 d k) := by
  rw [show W11 m ρ c (dv main_v20) = W1 m ρ c (dv main_v20) from range m ρ c main_v20 10 1 (by decide) (by decide)]
  exact v20_1 m ρ c k d

/-- The layer normalisation of a prototype row less the batch's mean row, as region 5 finds its operands, is the
    reference's stage 95. -/
theorem ln_11 (b : Fin 32) (n k : Fin 2048) :
    Cert.Spec.layernorm (fun k' => arr S2048x2048 (V11 m ρ c main_v3) (ix2 n k') - arr S32x1x2048 (V11 m ρ c main_v35) (ix3 b (0 : Fin 1) k')) k
      = val_main_v95 (F := Ideal) a0 a1 a3 a4 a6 a8 a9 (ix3 b n k) := by
  rw [v95_spec]
  exact congrArg (fun f => Cert.Spec.layernorm f k)
    (funext fun k' => congrArg₂ (· - ·) (v3_11 m ρ c n k') (congrFun (v35_11 m ρ c) _))

theorem v57_0_12 : arr S32x2048x2048 (W12 m ρ c (dv main_v57_0)) = val_main_v95 (F := Ideal) a0 a1 a3 a4 a6 a8 a9 := by
  funext i
  obtain ⟨b, n, k, rfl⟩ : ∃ (b : Fin 32) (n : Fin 2048) (k : Fin 2048), i = ix3 b n k := ⟨i 0, i 1, i 2, eq_ix3 i⟩
  exact ((congrFun (W12_arr m ρ c 3) (ix3 b n k)).trans (region5_value_g (V11 m ρ) c b n k)).trans (ln_11 m ρ c b n k)

theorem v57_1_12 : arr S32x2048x2048 (W12 m ρ c (dv main_v57_1)) = val_main_v96 (F := Ideal) a0 a1 a3 a4 a6 a8 a9 a11 := by
  funext i
  obtain ⟨b, n, d, rfl⟩ : ∃ (b : Fin 32) (n : Fin 2048) (d : Fin 2048), i = ix3 b n d := ⟨i 0, i 1, i 2, eq_ix3 i⟩
  rw [v96_spec]
  refine Eq.trans (α := EReal) ?_
    (Finset.sum_congr rfl fun k _ => congrArg₂ (· * ·) (ln_11 m ρ c b n k) (v20_11 m ρ c k d))
  exact (congrFun (W12_arr m ρ c 4) (ix3 b n d)).trans (region5_value_relg (V11 m ρ) c b n d)

/-! ## Region 6: the second attention -/

theorem v56_12 : arr S32x16x2048 (W12 m ρ c (dv main_v56)) = val_main_v71 (F := Ideal) a0 a1 a3 a6 a8 a9 a10 := by
  rw [show W12 m ρ c (dv main_v56) = W11 m ρ c (dv main_v56) from range m ρ c main_v56 1 11 (by decide) (by decide)]
  exact v56_11 m ρ c

theorem v58_13 : arr S32x16x2048 (W13 m ρ c (dv main_v58)) = val_main_v111 (F := Ideal) a0 a1 a3 a4 a6 a8 a9 a10 a11 := by
  funext i
  obtain ⟨b, q, k, rfl⟩ : ∃ (b : Fin 32) (q : Fin 16) (k : Fin 2048), i = ix3 b q k := ⟨i 0, i 1, i 2, eq_ix3 i⟩
  rw [v111_spec, ← v56_12 m ρ c, ← v57_1_12 m ρ c, ← v57_0_12 m ρ c]
  exact (congrFun (W13_arr m ρ c 3) (ix3 b q k)).trans (Cert.KernelIdeal.Attn.region6_value (V12 m ρ) c b q k)

/-! ## The two attentions' outputs added, flattened, projected by the first table, regrouped -/

theorem v31_13 : arr S32x16x2048 (W13 m ρ c (dv main_v31)) = val_main_v52 (F := Ideal) a0 a1 a3 a6 a8 a9 := by
  rw [show W13 m ρ c (dv main_v31) = W8 m ρ c (dv main_v31) from range m ρ c main_v31 5 8 (by decide) (by decide)]
  exact v31_8 m ρ c

theorem v59_14 : arr S32x16x2048 (W14 m ρ c (dv main_v59)) = val_main_v112 (F := Ideal) a0 a1 a3 a4 a6 a8 a9 a10 a11 := by
  funext i
  refine (h7_v59 (W13 m ρ c) i).trans ?_
  rw [v31_13 m ρ c, v58_13 m ρ c]
  rfl

theorem v60_14 (b : Fin 32) (q : Fin 16) (k : Fin 2048) (h : b.val * 16 + q.val < 512) :
    arr S512x2048 (W14 m ρ c (dv main_v60)) (ix2 ⟨b.val * 16 + q.val, h⟩ k) = val_main_v112 (F := Ideal) a0 a1 a3 a4 a6 a8 a9 a10 a11 (ix3 b q k) := by
  refine (h7_v60 (W13 m ρ c) b q k h).trans ?_
  rw [v31_13 m ρ c, v58_13 m ρ c]
  rfl

theorem v14_14 (k d : Fin 2048) : arr S2048x2048 (W14 m ρ c (dv main_v14)) (ix2 k d) = arr S2048x2048 a8 (ix2 d k) := by
  rw [show W14 m ρ c (dv main_v14) = W1 m ρ c (dv main_v14) from range m ρ c main_v14 13 1 (by decide) (by decide)]
  exact v14_1 m ρ c k d

theorem v61_15 (b : Fin 32) (q : Fin 16) (d : Fin 2048) (h : b.val * 16 + q.val < 512) :
    arr S512x2048 (W15 m ρ c (dv main_v61)) (ix2 ⟨b.val * 16 + q.val, h⟩ d)
      = ∑ k : Fin 2048, val_main_v112 (F := Ideal) a0 a1 a3 a4 a6 a8 a9 a10 a11 (ix3 b q k) * arr S2048x2048 a8 (ix2 d k) := by
  refine Eq.trans (α := EReal) ?_
    (Finset.sum_congr rfl fun k _ => congrArg₂ (· * ·) (v60_14 m ρ c b q k h) (v14_14 m ρ c k d))
  exact (congrFun (W15_arr m ρ c 2) _).trans (region7_value (V14 m ρ) c ⟨_, h⟩ d)

theorem v62_16 : arr S32x16x2048 (W16 m ρ c (dv main_v62)) = val_main_v113 (F := Ideal) a0 a1 a3 a4 a6 a8 a9 a10 a11 := by
  funext i
  obtain ⟨b, q, d, rfl⟩ : ∃ (b : Fin 32) (q : Fin 16) (d : Fin 2048), i = ix3 b q d := ⟨i 0, i 1, i 2, eq_ix3 i⟩
  have h : b.val * 16 + q.val < 512 := by have := b.isLt; have := q.isLt; omega
  rw [v113_spec]
  exact (h8_v62 (W15 m ρ c) b q d h).trans (v61_15 m ρ c b q d h)

/-! ## Region 8: the third attention, over the patch rows again -/

theorem v27_16 : arr S32x288x2048 (W16 m ρ c (dv main_v27)) = val_main_v37 (F := Ideal) a0 a1 a6 a9 := by
  rw [show W16 m ρ c (dv main_v27) = W5 m ρ c (dv main_v27) from range m ρ c main_v27 11 5 (by decide) (by decide)]
  exact v27_5 m ρ c

theorem v21_16 : arr S32x288x2048 (W16 m ρ c (dv main_v21)) = val_main_v34 (F := Ideal) a0 := by
  rw [show W16 m ρ c (dv main_v21) = W2 m ρ c (dv main_v21) from range m ρ c main_v21 14 2 (by decide) (by decide)]
  exact v21_2 m ρ c

theorem v63_17 : arr S32x16x2048 (W17 m ρ c (dv main_v63)) = val_main_v152 (F := Ideal) a0 a1 a3 a4 a6 a8 a9 a10 a11 := by
  funext i
  obtain ⟨b, q, k, rfl⟩ : ∃ (b : Fin 32) (q : Fin 16) (k : Fin 2048), i = ix3 b q k := ⟨i 0, i 1, i 2, eq_ix3 i⟩
  rw [v152_spec, v137_eq, v134_eq, ← v62_16 m ρ c, ← v27_16 m ρ c, ← v21_16 m ρ c]
  exact (congrFun (W17_arr m ρ c 3) (ix3 b q k)).trans (Cert.KernelIdeal.Attn.region8_value (V16 m ρ) c b q k)

end Cert.KernelIdeal.Chain

end
-- ==== Proof.AttnRegion11.lean ====
/-
  Batched attention region 11, from blocks to the array.

  The region runs the attention body once per batch entry: grid point t stages batch entry t of the query array
  [32, 16, 2048], of the key and value arrays [32, 1152, 2048], and writes batch entry t of the output array [32, 16, 2048].
  The blocks of the 32 points tile the output, so after the region the output array holds, at (b, i, c), the scaled
  attention of query row (b, i) over the key and value rows of batch entry b, read off the arrays as the region finds them.
-/
import proofs.«101814_j47201690583535_1_alg».proof.Proof.Gen.KernelIdeal.Frame
import proofs.«101814_j47201690583535_1_alg».proof.Proof.AttnBody
import Idealize.ShloMosaic.Lib.Pipeline.Value

set_option maxRecDepth 16384

noncomputable section

open scoped BigOperators

namespace Cert.KernelIdeal.Attn

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- A whole block starts at the zero offset. -/
theorem zeroOffset11 : (![0, 0, 0] : Fin 3 → Nat) = fun _ => 0 := funext fun a => by fin_cases a <;> rfl

/-! ## Region 11: 1152 key and value rows per batch entry -/

/-- The body at any index of its block: the leading coordinate of a one-entry batch is zero. -/
theorem pay11_at (q : Vec Ideal S1x16x2048 .bf16) (k v : Vec Ideal S1x1152x2048 .bf16) (y : S1x16x2048.Idx) :
    k11_pay1 (F := Ideal) q k v y
      = Cert.Spec.attn (fun j => q (ix3 (0 : Fin 1) (y 1) j)) (fun n j => k (ix3 (0 : Fin 1) n j)) (fun n j => v (ix3 (0 : Fin 1) n j)) (y 2) := by
  have hy : y = ix3 (0 : Fin 1) (y 1) (y 2) := by
    funext a
    match a with
    | ⟨0, _⟩ => exact Fin.ext (by have h0 : (y 0).val < 1 := (y 0).isLt; show (y 0).val = 0; omega)
    | ⟨1, _⟩ => rfl
    | ⟨2, _⟩ => rfl
  exact (congrArg (k11_pay1 (F := Ideal) q k v) hy).trans (pay11_apply q k v (y 1) (y 2))

/-- The output array of region 11 as one function of the query, key and value arrays: at (b, i, c) the scaled attention
    of query row (b, i) over the key and value rows of batch entry b. -/
def attnArray11 (c : Dev nD) : S32x16x2048.Idx → EReal := fun y =>
  Cert.Spec.attn (fun j => V c (Pipeline.arrRef spec11 0) (ix3 (y 0) (y 1) j)) (fun n j => V c (Pipeline.arrRef spec11 1) (ix3 (y 0) n j))
    (fun n j => V c (Pipeline.arrRef spec11 2) (ix3 (y 0) n j)) (y 2)

/-- The index maps of the four windows, decided over the grid: point t is at block (t, 0, 0) of each array. -/
theorem blockIndex11 : ∀ t : Fin cfg11.N,
    win11_0.index t (0 : Fin 3) = t.val ∧ win11_0.index t (1 : Fin 3) = 0 ∧ win11_0.index t (2 : Fin 3) = 0
    ∧ win11_1.index t (0 : Fin 3) = t.val ∧ win11_1.index t (1 : Fin 3) = 0 ∧ win11_1.index t (2 : Fin 3) = 0
    ∧ win11_2.index t (0 : Fin 3) = t.val ∧ win11_2.index t (1 : Fin 3) = 0 ∧ win11_2.index t (2 : Fin 3) = 0
    ∧ win11_3.index t (0 : Fin 3) = t.val ∧ win11_3.index t (1 : Fin 3) = 0 ∧ win11_3.index t (2 : Fin 3) = 0 :=
  (by decide +kernel : ∀ t : Fin grid11.N, _)

set_option maxHeartbeats 1000000 in
/-- What point t writes back is block t of the attention array. -/
theorem written11_eq (c : Dev nD) (t : Fin cfg11.N) :
    (dat11 (F := Ideal) V c).flushed 3 t = ((cfg11.win 3).blk t).view.read (Elt Ideal) (attnArray11 V c) := by
  show (cfg11.win 3).cut (grid11.coords t) ((dat11 V c).after 3 t) = _
  rw [after11_3]
  unfold out11_3
  rw [View.canon_unit_zero zeroOffset11]
  simp only [View.ld_unit_zero (S := S1x16x2048) zeroOffset11, View.ld_unit_zero (S := S1x1152x2048) zeroOffset11]
  obtain ⟨a0, a1, a2, b0, b1, b2, c0, c1, c2, d0, d1, d2⟩ := blockIndex11 t
  funext y
  refine (pay11_at (iblk11 V c 0 t) (iblk11 V c 1 t) (iblk11 V c 2 t) y).trans ?_
  show _ = attnArray11 V c (((cfg11.win 3).blk t).view.emb y)
  unfold attnArray11
  have hy0 : (y 0).val < 1 := (y 0).isLt
  refine congr (congr (congr (congrArg Cert.Spec.attn (funext fun j => ?_)) (funext fun n => funext fun j => ?_)) (funext fun n => funext fun j => ?_)) ?_
  · show V c (Pipeline.arrRef spec11 0) (((cfg11.win 0).blk t).view.emb (ix3 (0 : Fin 1) (y 1) j)) = _
    refine congrArg (V c (Pipeline.arrRef spec11 0)) ?_
    funext a; apply Fin.ext
    match a with
    | ⟨0, _⟩ => show win11_0.index t (0 : Fin 3) * 1 + 1 * (0 : ℕ) = win11_3.index t (0 : Fin 3) * 1 + 1 * (y 0).val; omega
    | ⟨1, _⟩ => show win11_0.index t (1 : Fin 3) * 16 + 1 * (y 1).val = win11_3.index t (1 : Fin 3) * 16 + 1 * (y 1).val; omega
    | ⟨2, _⟩ => show win11_0.index t (2 : Fin 3) * 2048 + 1 * j.val = j.val; omega
  · show V c (Pipeline.arrRef spec11 1) (((cfg11.win 1).blk t).view.emb (ix3 (0 : Fin 1) n j)) = _
    refine congrArg (V c (Pipeline.arrRef spec11 1)) ?_
    funext a; apply Fin.ext
    match a with
    | ⟨0, _⟩ => show win11_1.index t (0 : Fin 3) * 1 + 1 * (0 : ℕ) = win11_3.index t (0 : Fin 3) * 1 + 1 * (y 0).val; omega
    | ⟨1, _⟩ => show win11_1.index t (1 : Fin 3) * 1152 + 1 * n.val = n.val; omega
    | ⟨2, _⟩ => show win11_1.index t (2 : Fin 3) * 2048 + 1 * j.val = j.val; omega
  · show V c (Pipeline.arrRef spec11 2) (((cfg11.win 2).blk t).view.emb (ix3 (0 : Fin 1) n j)) = _
    refine congrArg (V c (Pipeline.arrRef spec11 2)) ?_
    funext a; apply Fin.ext
    match a with
    | ⟨0, _⟩ => show win11_2.index t (0 : Fin 3) * 1 + 1 * (0 : ℕ) = win11_3.index t (0 : Fin 3) * 1 + 1 * (y 0).val; omega
    | ⟨1, _⟩ => show win11_2.index t (1 : Fin 3) * 1152 + 1 * n.val = n.val; omega
    | ⟨2, _⟩ => show win11_2.index t (2 : Fin 3) * 2048 + 1 * j.val = j.val; omega
  · apply Fin.ext
    show (y 2).val = win11_3.index t (2 : Fin 3) * 2048 + 1 * (y 2).val
    omega

/-- An index of the output array is in point t's block iff each coordinate is in the block's range on its axis. -/
theorem mem_block11 (t : Fin cfg11.N) (i : S32x16x2048.Idx) :
    i ∈ ((cfg11.win 3).blk t).view.set ↔ ∀ a : Fin 3, win11_3.index t a * S1x16x2048.size a ≤ (i a).val ∧ (i a).val < win11_3.index t a * S1x16x2048.size a + S1x16x2048.size a := by
  show i ∈ ((View.whole main_v96).slice (win11_3.rect t)).set ↔ _
  rw [View.set_slice_whole, Rect.mem_set_unit]
  exact Iff.rfl

/-- Batch entry b of the output is covered by grid point b. -/
theorem covered11 (i : S32x16x2048.Idx) : ∃ t : Fin cfg11.N, (cfg11.win 3).flush t = true ∧ i ∈ ((cfg11.win 3).blk t).view.set := by
  have hi0 : (i 0).val < 32 := (i 0).isLt
  have hi1 : (i 1).val < 16 := (i 1).isLt
  have hi2 : (i 2).val < 2048 := (i 2).isLt
  obtain ⟨t, ht⟩ : ∃ t : Fin cfg11.N, t.val = (i 0).val := ⟨⟨(i 0).val, hi0⟩, rfl⟩
  refine ⟨t, flush11_3 t, ?_⟩
  rw [mem_block11]
  obtain ⟨a0, a1, a2, b0, b1, b2, c0, c1, c2, d0, d1, d2⟩ := blockIndex11 t
  intro a
  match a with
  | ⟨0, _⟩ => show win11_3.index t (0 : Fin 3) * 1 ≤ (i 0).val ∧ (i 0).val < win11_3.index t (0 : Fin 3) * 1 + 1; omega
  | ⟨1, _⟩ => show win11_3.index t (1 : Fin 3) * 16 ≤ (i 1).val ∧ (i 1).val < win11_3.index t (1 : Fin 3) * 16 + 16; omega
  | ⟨2, _⟩ => show win11_3.index t (2 : Fin 3) * 2048 ≤ (i 2).val ∧ (i 2).val < win11_3.index t (2 : Fin 3) * 2048 + 2048; omega

/-- The output array after region 11 is the attention array. -/
theorem array11_eq (c : Dev nD) : (dat11 (F := Ideal) V c).arrAt 3 cfg11.N = attnArray11 V c :=
  (dat11 (F := Ideal) V c).arrAt_eq_of_cover 3 (attnArray11 V c) (fun t _ => written11_eq V c t) covered11

/-- The output array after region 11, at (b, i, c'): the scaled attention of query row (b, i) over the 1152 key and value
    rows of batch entry b. -/
theorem region11_value (c : Dev nD) (b : Fin 32) (i : Fin 16) (c' : Fin 2048) :
    (dat11 (F := Ideal) V c).arrAt 3 cfg11.N (ix3 b i c')
      = Cert.Spec.attn (fun j => V c (Pipeline.arrRef spec11 0) (ix3 b i j)) (fun n j => V c (Pipeline.arrRef spec11 1) (ix3 b n j))
          (fun n j => V c (Pipeline.arrRef spec11 2) (ix3 b n j)) c' := by
  rw [array11_eq]
  rfl

end Cert.KernelIdeal.Attn

end
-- ==== Proof.RefSpecFinal.lean ====
/-
  The reference's last stage, read against the specification.

  The sixteen weights are softmaxed along their own axis (a maximum along that axis started from -∞, one more maximum
  with -∞ that changes nothing, the exponentials of the weights less the maximum, their sum, the quotient), the
  result is repeated over the batch and the row length, and multiplies the summed attention outputs entry by entry.
-/
import proofs.«101814_j47201690583535_1_alg».proof.Proof.RefRead
import proofs.«101814_j47201690583535_1_alg».proof.Proof.Spec
import proofs.«101814_j47201690583535_1_alg».proof.Proof.LibFoldBounds
import Idealize.ShloMosaic.PureOps.Reduce

noncomputable section

open scoped BigOperators

namespace Cert.ReferenceIdeal.RefSpec

open Cert.ReferenceIdeal Cert.ReferenceIdeal.Gen Cert.ReferenceIdeal.ReadP Idealize.ShloMosaic Idealize.ShloMosaic.ValueIdx

/-- A host maximum along the middle of three axes, started from -∞, is the maximum over that axis. -/
theorem hostMax_mid3 {n0 n1 n2 : Nat} {u : Shape}
    (x : (⟨3, ![n0, n1, n2]⟩ : Shape).Idx → EReal) (init : u.Idx → EReal)
    (h' : (⟨3, ![n0, n1, n2]⟩ : Shape).ReducesTo [1] ⟨2, ![n0, n2]⟩)
    (h : (⟨3, ![n0, n1, n2]⟩ : Shape).Reduces [1] ⟨2, ![n0, n2]⟩) (hu : 0 < u.numel)
    (hinit : init (Shape.Idx.first hu) = (⊥ : EReal)) (a : Fin n0) (c : Fin n2) :
    Host.reduce (FloatOps.maximumf (F := Ideal) (φ := .f32)) x init h' hu (ix2 a c)
      = Cert.Spec.rowMax (fun k : Fin n1 => x (ix3 a k c)) := by
  rw [Host.reduce_eq_fold_single _ x init h' h hu, hinit]
  unfold Cert.Spec.rowMax
  show Finset.fold max (⊥ : EReal) (fun k : Fin n1 => x (h.lift (ix2 a c) k)) Finset.univ = _
  refine congrArg (fun f => Finset.fold max (⊥ : EReal) f Finset.univ) (funext fun k => congrArg x ?_)
  funext d
  apply Fin.ext
  show Shape.Reduces.liftVal h (ix2 a c) k.val d = (ix3 a k c d).val
  match d with
  | ⟨0, _⟩ => rfl
  | ⟨1, _⟩ => rfl
  | ⟨2, _⟩ => rfl

section Final
variable (x0 : (⟨S32x2048x24x12, .f32⟩ : BufTy).Contents (Elt Ideal)) (x1 : (⟨S32, .i32⟩ : BufTy).Contents (Elt Ideal)) (x3 : (⟨S1x16x2048, .f32⟩ : BufTy).Contents (Elt Ideal)) (x4 : (⟨S1x2048x2048, .f32⟩ : BufTy).Contents (Elt Ideal)) (x5 : (⟨S1x16x1, .f32⟩ : BufTy).Contents (Elt Ideal)) (x6 : (⟨S6x1x2048, .f32⟩ : BufTy).Contents (Elt Ideal)) (x8 x9 x10 x11 : (⟨S2048x2048, .f32⟩ : BufTy).Contents (Elt Ideal))

/-- The value the softmax of the weights subtracts is the maximum of the sixteen weights. -/
theorem f_max (k : Fin 16) :
    val_main_v223 (F := Ideal) x5 (ix3 (0 : Fin 1) k (0 : Fin 1)) = Cert.Spec.rowMax (fun q' : Fin 16 => x5 (ix3 (0 : Fin 1) q' (0 : Fin 1))) := by
  have e : idx_main_v222 (idx_main_v223 (ix3 (0 : Fin 1) k (0 : Fin 1))) = ix2 (0 : Fin 1) (0 : Fin 1) := funext fun a => Fin.ext (by match a with | ⟨0, _⟩ => rfl | ⟨1, _⟩ => rfl)
  rw [val_main_v223_apply, val_main_v222_apply, e, val_main_v221_apply, val_main_v220_apply, val_main_cst_49_apply, Ideal.ofBits_def,
    Cert.FoldBounds.negInf_f32, Ideal.maximumf_def, max_eq_right bot_le]
  unfold val_main_v219
  exact hostMax_mid3 _ _ reducesTo_S1x16x1_S1x1_d1 (by decide) h_S_ Cert.FoldBounds.negInf_f32 (0 : Fin 1) (0 : Fin 1)

/-- The exponential of a weight less the maximum. -/
theorem f_exp (k : Fin 16) :
    val_main_v225 (F := Ideal) x5 (ix3 (0 : Fin 1) k (0 : Fin 1))
      = Ideal.exp (x5 (ix3 (0 : Fin 1) k (0 : Fin 1)) - Cert.Spec.rowMax (fun q' : Fin 16 => x5 (ix3 (0 : Fin 1) q' (0 : Fin 1)))) := by
  rw [val_main_v225_apply, Ideal.hostUnary_exp_def, val_main_v224_apply, Ideal.subf_def, f_max]

/-- The denominator is the sum of the sixteen exponentials. -/
theorem f_den (k : Fin 16) :
    val_main_v228 (F := Ideal) x5 (ix3 (0 : Fin 1) k (0 : Fin 1)) = ∑ m : Fin 16, val_main_v225 (F := Ideal) x5 (ix3 (0 : Fin 1) m (0 : Fin 1)) := by
  have e : idx_main_v227 (idx_main_v228 (ix3 (0 : Fin 1) k (0 : Fin 1))) = ix2 (0 : Fin 1) (0 : Fin 1) := funext fun a => Fin.ext (by match a with | ⟨0, _⟩ => rfl | ⟨1, _⟩ => rfl)
  rw [val_main_v228_apply, val_main_v227_apply, e, val_main_v226_apply, val_main_cst_50_apply, Ideal.ofBits_def, Ideal.ofBits_zero_f32, zero_add]
  refine Finset.sum_congr rfl fun m _ => congrArg _ ?_
  exact funext fun a => Fin.ext (by match a with | ⟨0, _⟩ => rfl | ⟨1, _⟩ => rfl | ⟨2, _⟩ => rfl)

/-- The normalised weights are the softmax of the sixteen weights. -/
theorem f_soft (k : Fin 16) :
    val_main_v229 (F := Ideal) x5 (ix3 (0 : Fin 1) k (0 : Fin 1)) = Cert.Spec.softmax (fun q' : Fin 16 => x5 (ix3 (0 : Fin 1) q' (0 : Fin 1))) k := by
  rw [val_main_v229_apply, Ideal.hostDivf_def, f_den, f_exp]
  unfold Cert.Spec.softmax
  refine congrArg (Ideal.div _) (Finset.sum_congr rfl fun m _ => ?_)
  rw [f_exp]

/-- The result: each query row of the summed attention outputs, weighted by the softmax of the sixteen weights. -/
theorem v231_spec (b : Fin 32) (i : Fin 16) (c : Fin 2048) :
    val_main_v231 (F := Ideal) x0 x1 x3 x4 x5 x6 x8 x9 x10 x11 (ix3 b i c)
      = Cert.Spec.softmax (fun q' : Fin 16 => x5 (ix3 (0 : Fin 1) q' (0 : Fin 1))) i * val_main_v112 (F := Ideal) x0 x1 x3 x4 x6 x8 x9 x10 x11 (ix3 b i c) := by
  have e : idx_main_v230 (ix3 b i c) = ix3 (0 : Fin 1) i (0 : Fin 1) := funext fun a => Fin.ext (by match a with | ⟨0, _⟩ => rfl | ⟨1, _⟩ => rfl | ⟨2, _⟩ => rfl)
  rw [val_main_v231_apply, Ideal.mulf_def, val_main_v230_apply, e, f_soft]

end Final

end Cert.ReferenceIdeal.RefSpec

end
-- ==== Proof.KernelTail.lean ====
/-
  The kernel's last host stretch, read against the specification.

  The stretch softmaxes the sixteen weights along their own axis in the kernel's spelling — a maximum along that axis
  started from -∞, the difference, the exponential, the sum started from zero, the quotient —, repeats the result over
  the batch and the row length, and multiplies the array it is given entry by entry. It writes no other result.
-/
import proofs.«101814_j47201690583535_1_alg».proof.Proof.Gen.KernelIdeal.Launch
import proofs.«101814_j47201690583535_1_alg».proof.Proof.Spec
import proofs.«101814_j47201690583535_1_alg».proof.Proof.LibFoldBounds
import Idealize.ShloMosaic.Lib.StableHlo.Run
import Idealize.ShloMosaic.Lib.Pipeline.Value
import Idealize.ShloMosaic.Lib.ValueIdx
import Idealize.ShloMosaic.PureOps.Reduce
import Idealize.ShloMosaic.PureOps.Ideal.Laws

set_option maxRecDepth 1340

noncomputable section

open scoped BigOperators

namespace Cert.KernelIdeal.Tail

open Cert.KernelIdeal Cert.KernelIdeal.Gen Idealize.ShloMosaic Idealize.ShloMosaic.ValueIdx Idealize.ShloMosaic.StableHlo

/-- A host maximum along the middle of three axes, started from -∞, is the maximum over that axis. -/
theorem hostMax_mid3 {n0 n1 n2 : Nat} {u : Shape}
    (x : (⟨3, ![n0, n1, n2]⟩ : Shape).Idx → EReal) (init : u.Idx → EReal)
    (h' : (⟨3, ![n0, n1, n2]⟩ : Shape).ReducesTo [1] ⟨2, ![n0, n2]⟩)
    (h : (⟨3, ![n0, n1, n2]⟩ : Shape).Reduces [1] ⟨2, ![n0, n2]⟩) (hu : 0 < u.numel)
    (hinit : init (Shape.Idx.first hu) = (⊥ : EReal)) (a : Fin n0) (c : Fin n2) :
    Host.reduce (FloatOps.maximumf (F := Ideal) (φ := .f32)) x init h' hu (ix2 a c)
      = Cert.Spec.rowMax (fun k : Fin n1 => x (ix3 a k c)) := by
  rw [Host.reduce_eq_fold_single _ x init h' h hu, hinit]
  unfold Cert.Spec.rowMax
  show Finset.fold max (⊥ : EReal) (fun k : Fin n1 => x (h.lift (ix2 a c) k)) Finset.univ = _
  refine congrArg (fun f => Finset.fold max (⊥ : EReal) f Finset.univ) (funext fun k => congrArg x ?_)
  funext d
  apply Fin.ext
  show Shape.Reduces.liftVal h (ix2 a c) k.val d = (ix3 a k c d).val
  match d with
  | ⟨0, _⟩ => rfl
  | ⟨1, _⟩ => rfl
  | ⟨2, _⟩ => rfl

/-- A host sum along the middle of three axes, started from zero, is the sum over that axis. -/
theorem hostSum_mid3 {n0 n1 n2 : Nat} {u : Shape}
    (x : (⟨3, ![n0, n1, n2]⟩ : Shape).Idx → EReal) (init : u.Idx → EReal)
    (h' : (⟨3, ![n0, n1, n2]⟩ : Shape).ReducesTo [1] ⟨2, ![n0, n2]⟩)
    (h : (⟨3, ![n0, n1, n2]⟩ : Shape).Reduces [1] ⟨2, ![n0, n2]⟩) (hu : 0 < u.numel)
    (hinit : init (Shape.Idx.first hu) = (0 : EReal)) (a : Fin n0) (c : Fin n2) :
    Host.reduceAdd (F := Ideal) (φ := .f32) x init h' hu (ix2 a c) = ∑ k : Fin n1, x (ix3 a k c) := by
  simp only [Host.reduceAdd, Ideal.hostReduceAdd_def]
  rw [Ideal.hostReduceAdd_single h' h, hinit, zero_add]
  show (∑ k : Fin n1, x (h.lift (ix2 a c) k)) = _
  refine Finset.sum_congr rfl fun k _ => congrArg x ?_
  funext d
  apply Fin.ext
  show Shape.Reduces.liftVal h (ix2 a c) k.val d = (ix3 a k c d).val
  match d with
  | ⟨0, _⟩ => rfl
  | ⟨1, _⟩ => rfl
  | ⟨2, _⟩ => rfl

section Row
variable (x : FVec Ideal S1x16x1 .f32)

/-- A one-entry array repeated along the middle axis reads that entry at every position. -/
theorem bcastMid_apply (y : FVec Ideal S1x1 .f32) (k : Fin 16) :
    broadcastInDim S1x16x1 ![0, 1, 2] bcast_S1x1x1_S1x16x1_0_1_2 (broadcastInDim S1x1x1 ![0, 2] bcast_S1x1_S1x1x1_0_2 y) (ix3 (0 : Fin 1) k (0 : Fin 1))
      = y (ix2 (0 : Fin 1) (0 : Fin 1)) := by
  rw [broadcastInDim_apply _ bcast_S1x1x1_S1x16x1_0_1_2 _ (ix3 (0 : Fin 1) k (0 : Fin 1)) (ix3 (0 : Fin 1) (0 : Fin 1) (0 : Fin 1)) (fun a => match a with
      | ⟨0, _⟩ => by show (0 : Nat) = if (1 : Nat) = 1 then 0 else (0 : Nat); rw [if_pos rfl]
      | ⟨1, _⟩ => by show (0 : Nat) = if (1 : Nat) = 1 then 0 else k.val; rw [if_pos rfl]
      | ⟨2, _⟩ => by show (0 : Nat) = if (1 : Nat) = 1 then 0 else (0 : Nat); rw [if_pos rfl]),
    broadcastInDim_apply _ bcast_S1x1_S1x1x1_0_2 y (ix3 (0 : Fin 1) (0 : Fin 1) (0 : Fin 1)) (ix2 (0 : Fin 1) (0 : Fin 1)) (fun a => match a with
      | ⟨0, _⟩ => by show (0 : Nat) = if (1 : Nat) = 1 then 0 else (0 : Nat); rw [if_pos rfl]
      | ⟨1, _⟩ => by show (0 : Nat) = if (1 : Nat) = 1 then 0 else (0 : Nat); rw [if_pos rfl])]

/-- The value subtracted from every weight is the maximum of the sixteen weights. -/
theorem row_max (k : Fin 16) :
    (broadcastInDim S1x16x1 ![0, 1, 2] bcast_S1x1x1_S1x16x1_0_1_2
      (broadcastInDim S1x1x1 ![0, 2] bcast_S1x1_S1x1x1_0_2
        (Host.reduce (FloatOps.maximumf (F := Ideal) (φ := .f32)) x (constant (F := Ideal) S_ .f32 0xFF800000#32) reducesTo_S1x16x1_S1x1_d1 h_S_))) (ix3 (0 : Fin 1) k (0 : Fin 1))
      = Cert.Spec.rowMax (fun q' : Fin 16 => x (ix3 (0 : Fin 1) q' (0 : Fin 1))) :=
  (bcastMid_apply _ k).trans
    (hostMax_mid3 _ _ reducesTo_S1x16x1_S1x1_d1 (by decide) h_S_ Cert.FoldBounds.negInf_f32 (0 : Fin 1) (0 : Fin 1))

/-- The exponential of a weight less the maximum. -/
theorem row_exp (k : Fin 16) :
    (Host.exp (F := Ideal) (subf (F := Ideal) x (broadcastInDim S1x16x1 ![0, 1, 2] bcast_S1x1x1_S1x16x1_0_1_2
      (broadcastInDim S1x1x1 ![0, 2] bcast_S1x1_S1x1x1_0_2
        (Host.reduce (FloatOps.maximumf (F := Ideal) (φ := .f32)) x (constant (F := Ideal) S_ .f32 0xFF800000#32) reducesTo_S1x16x1_S1x1_d1 h_S_))))) (ix3 (0 : Fin 1) k (0 : Fin 1))
      = Ideal.exp (x (ix3 (0 : Fin 1) k (0 : Fin 1)) - Cert.Spec.rowMax (fun q' : Fin 16 => x (ix3 (0 : Fin 1) q' (0 : Fin 1)))) := by
  show Ideal.exp (x (ix3 (0 : Fin 1) k (0 : Fin 1)) - (broadcastInDim S1x16x1 ![0, 1, 2] bcast_S1x1x1_S1x16x1_0_1_2
      (broadcastInDim S1x1x1 ![0, 2] bcast_S1x1_S1x1x1_0_2
        (Host.reduce (FloatOps.maximumf (F := Ideal) (φ := .f32)) x (constant (F := Ideal) S_ .f32 0xFF800000#32) reducesTo_S1x16x1_S1x1_d1 h_S_))) (ix3 (0 : Fin 1) k (0 : Fin 1))) = _
  rw [row_max]

/-- The kernel's spelling of the softmax of the sixteen weights: maximum, difference, exponential, sum, quotient. -/
theorem row_softmax (k : Fin 16) :
    Host.divf (F := Ideal) (Host.exp (F := Ideal) (subf (F := Ideal) x (broadcastInDim S1x16x1 ![0, 1, 2] bcast_S1x1x1_S1x16x1_0_1_2
      (broadcastInDim S1x1x1 ![0, 2] bcast_S1x1_S1x1x1_0_2
        (Host.reduce (FloatOps.maximumf (F := Ideal) (φ := .f32)) x (constant (F := Ideal) S_ .f32 0xFF800000#32) reducesTo_S1x16x1_S1x1_d1 h_S_)))))
      (broadcastInDim S1x16x1 ![0, 1, 2] bcast_S1x1x1_S1x16x1_0_1_2
        (broadcastInDim S1x1x1 ![0, 2] bcast_S1x1_S1x1x1_0_2
          (Host.reduceAdd (F := Ideal) (Host.exp (F := Ideal) (subf (F := Ideal) x (broadcastInDim S1x16x1 ![0, 1, 2] bcast_S1x1x1_S1x16x1_0_1_2
      (broadcastInDim S1x1x1 ![0, 2] bcast_S1x1_S1x1x1_0_2
        (Host.reduce (FloatOps.maximumf (F := Ideal) (φ := .f32)) x (constant (F := Ideal) S_ .f32 0xFF800000#32) reducesTo_S1x16x1_S1x1_d1 h_S_))))) (constant (F := Ideal) S_ .f32 0x00000000#32) reducesTo_S1x16x1_S1x1_d1 h_S_))) (ix3 (0 : Fin 1) k (0 : Fin 1))
      = Cert.Spec.softmax (fun q' : Fin 16 => x (ix3 (0 : Fin 1) q' (0 : Fin 1))) k := by
  show Ideal.div ((Host.exp (F := Ideal) (subf (F := Ideal) x (broadcastInDim S1x16x1 ![0, 1, 2] bcast_S1x1x1_S1x16x1_0_1_2
      (broadcastInDim S1x1x1 ![0, 2] bcast_S1x1_S1x1x1_0_2
        (Host.reduce (FloatOps.maximumf (F := Ideal) (φ := .f32)) x (constant (F := Ideal) S_ .f32 0xFF800000#32) reducesTo_S1x16x1_S1x1_d1 h_S_))))) (ix3 (0 : Fin 1) k (0 : Fin 1))) _ = _
  rw [bcastMid_apply, hostSum_mid3 _ _ reducesTo_S1x16x1_S1x1_d1 (by decide) h_S_ Ideal.ofBits_zero_f32 (0 : Fin 1) (0 : Fin 1), row_exp]
  unfold Cert.Spec.softmax
  exact congrArg (Ideal.div _) (Finset.sum_congr rfl fun m _ => row_exp x m)

end Row

/-- The kernel's last host stretch leaves, in its result, each query row of `main_v59` weighted by the softmax of the
    sixteen weights `main_arg5`. -/
theorem tail_v107 (W : Valuation τ sig (Elt Ideal)) (b : Fin 32) (i : Fin 16) (c : Fin 2048) :
    (StableHlo.after (hostOps12 (F := Ideal)) W (Proc.devRef .tc main_v107) : S32x16x2048.Idx → EReal) (ix3 b i c)
      = Cert.Spec.softmax (fun q' : Fin 16 => (W (Proc.devRef .tc main_arg5) : S1x16x1.Idx → EReal) (ix3 (0 : Fin 1) q' (0 : Fin 1))) i
        * (W (Proc.devRef .tc main_v59) : S32x16x2048.Idx → EReal) (ix3 b i c) := by
  after_results
  rw [mulf_apply, broadcastInDim_apply _ bcast_S1x16x1_S32x16x2048_0_1_2 _ (ix3 b i c) (ix3 (0 : Fin 1) i (0 : Fin 1)) (fun a => match a with
      | ⟨0, _⟩ => by show (0 : Nat) = if (1 : Nat) = 1 then 0 else b.val; rw [if_pos rfl]
      | ⟨1, _⟩ => by show i.val = if (16 : Nat) = 1 then 0 else i.val; rw [if_neg (by decide)]
      | ⟨2, _⟩ => by show (0 : Nat) = if (1 : Nat) = 1 then 0 else c.val; rw [if_pos rfl]),
    row_softmax]

/-- The stretch writes none of the other three results. -/
theorem tail_v31 (W : Valuation τ sig (Elt Ideal)) :
    StableHlo.after (hostOps12 (F := Ideal)) W (Proc.devRef .tc main_v31) = W (Proc.devRef .tc main_v31) := by
  after_results
theorem tail_v63 (W : Valuation τ sig (Elt Ideal)) :
    StableHlo.after (hostOps12 (F := Ideal)) W (Proc.devRef .tc main_v63) = W (Proc.devRef .tc main_v63) := by
  after_results
theorem tail_v96 (W : Valuation τ sig (Elt Ideal)) :
    StableHlo.after (hostOps12 (F := Ideal)) W (Proc.devRef .tc main_v96) = W (Proc.devRef .tc main_v96) := by
  after_results

end Cert.KernelIdeal.Tail

end
-- ==== Proof.ChainC.lean ====
/-
  The kernel program's buffers, boundary by boundary: from the second patch self-attention to the return.

  Each lemma names what one buffer holds at one boundary of the run, as a stage of the reference program applied to
  the launch arguments (or, for a regrouped table, entry by entry). A host stretch is read operation by operation; a
  region's output is its whole-array function of the arrays the region found, which are earlier lemmas carried over
  the segments that do not write them; and the two sides meet at the specification: the patch self-attention, the
  projection by a table's rows, the scaled attention, the softmax of the sixteen weights.
-/
import proofs.«101814_j47201690583535_1_alg».proof.Proof.ChainA
import proofs.«101814_j47201690583535_1_alg».proof.Proof.KernelKeeps
import proofs.«101814_j47201690583535_1_alg».proof.Proof.KernelHostReads
import proofs.«101814_j47201690583535_1_alg».proof.Proof.KernelHostStages
import proofs.«101814_j47201690583535_1_alg».proof.Proof.PatchAttnRegions
import proofs.«101814_j47201690583535_1_alg».proof.Proof.AttnRegion11
import proofs.«101814_j47201690583535_1_alg».proof.Proof.IfaceProj
import proofs.«101814_j47201690583535_1_alg».proof.Proof.RefSpecProj
import proofs.«101814_j47201690583535_1_alg».proof.Proof.RefSpecPatch
import proofs.«101814_j47201690583535_1_alg».proof.Proof.RefSpecAttn
import proofs.«101814_j47201690583535_1_alg».proof.Proof.RefSpecFinal
import proofs.«101814_j47201690583535_1_alg».proof.Proof.KernelTail

noncomputable section

open scoped BigOperators

namespace Cert.KernelIdeal.Chain

open Cert.KernelIdeal Cert.KernelIdeal.Gen Idealize.ShloMosaic Idealize.ShloMosaic.ValueIdx Idealize.ShloMosaic.StableHlo Idealize.ShloMosaic.TcCoe Idealize.SL.Sem
open Cert.ReferenceIdeal.ReadP Cert.ReferenceIdeal.RefSpec
open Cert.KernelIdeal.Host Cert.KernelIdeal.Keeps Cert.Spec
open Cert.KernelIdeal.Iface (region10_value)
variable (m : (ℓ : Loc nD τ sig) → Buf (Elt Ideal) ℓ) (ρ : Dev nD → PrngReg) (c : Dev nD)

set_option quotPrecheck false
local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "dv" b => Proc.devRef (τ := τ) (sig := sig) Proc.tc b

/-! ## Up to the second patch self-attention: the tokens, the camera rows, the mask -/

theorem v1_17 : W17 m ρ c (dv main_v1) = val_main_v1 (F := Ideal) a0 :=
  (range m ρ c main_v1 16 1 (by decide) (by decide)).trans (v1_1 m ρ c)

theorem v12_17 : W17 m ρ c (dv main_v12) = val_main_v12 (F := Ideal) a1 a6 :=
  (range m ρ c main_v12 16 1 (by decide) (by decide)).trans (v12_1 m ρ c)

theorem a2_17 : W17 m ρ c (dv main_arg2) = a2 :=
  range m ρ c main_arg2 17 0 (by decide) (by decide)

/-! ## The glue stretches: the masked tokens and camera rows, regrouped -/

theorem v87_18 : W20 m ρ c (dv main_v87) = val_main_v176 (F := Ideal) a0 a2 :=
  glue_v87 (W17 m ρ c) a0 a2 (v1_17 m ρ c) (a2_17 m ρ c)

theorem v86_18 : W20 m ρ c (dv main_v86) = val_main_v198 (F := Ideal) a1 a2 a6 :=
  glue_v86 (W17 m ρ c) a1 a2 a6 (v12_17 m ρ c) (a2_17 m ρ c)

/-! ## Region 9: the patch self-attention of the regrouped tokens -/

theorem v88_19 : arr S128x288x2048 (W21 m ρ c (dv main_v88)) = val_main_v197 (F := Ideal) a0 a2 := by
  funext i
  obtain ⟨g, p, k, rfl⟩ : ∃ (g : Fin 128) (p : Fin 288) (k : Fin 2048), i = ix3 g p k := ⟨i 0, i 1, i 2, eq_ix3 i⟩
  rw [v197_spec, ← v87_18 m ρ c]
  exact (congrFun (W21_arr m ρ c 1) (ix3 g p k)).trans (Cert.KernelIdeal.PatchAttn.region9_value (V20 m ρ) c g p k)

theorem v86_19 : W21 m ρ c (dv main_v86) = val_main_v198 (F := Ideal) a1 a2 a6 :=
  (range m ρ c main_v86 1 18 (by decide) (by decide)).trans (v86_18 m ρ c)

/-! ## The camera row added, the table flattened and regrouped -/

theorem v93_20 (g : Fin 128) (p : Fin 288) (k : Fin 2048) (h : g.val * 288 + p.val < 36864) :
    arr S36864x2048 (W22 m ρ c (dv main_v93)) (ix2 ⟨g.val * 288 + p.val, h⟩ k) = val_main_v200 (F := Ideal) a0 a1 a2 a6 (ix3 g p k) := by
  rw [v200_apply']
  exact (h10_v93 (W21 m ρ c) g p k h).trans
    (congrArg₂ (· + ·) (congrFun (v88_19 m ρ c) (ix3 g p k)) (congrFun (v86_19 m ρ c) (ix3 g (0 : Fin 1) k)))

theorem v92_20 : arr S32x1152x2048 (W22 m ρ c (dv main_v92)) = val_main_v201 (F := Ideal) a0 a2 :=
  h10_v92 (W21 m ρ c) a0 a2 (v88_19 m ρ c)

theorem v16_20 (k d : Fin 2048) : arr S2048x2048 (W22 m ρ c (dv main_v16)) (ix2 k d) = arr S2048x2048 a9 (ix2 d k) := by
  rw [show W22 m ρ c (dv main_v16) = W1 m ρ c (dv main_v16) from range m ρ c main_v16 19 1 (by decide) (by decide)]
  exact v16_1 m ρ c k d

/-! ## Region 10: the regrouped table projected -/

theorem v94_21 (g : Fin 128) (p : Fin 288) (d : Fin 2048) (h : g.val * 288 + p.val < 36864) :
    arr S36864x2048 (W23 m ρ c (dv main_v94)) (ix2 ⟨g.val * 288 + p.val, h⟩ d)
      = ∑ k : Fin 2048, val_main_v200 (F := Ideal) a0 a1 a2 a6 (ix3 g p k) * arr S2048x2048 a9 (ix2 d k) := by
  refine Eq.trans (α := EReal) ?_ (Finset.sum_congr rfl fun k _ => congrArg₂ (· * ·) (v93_20 m ρ c g p k h) (v16_20 m ρ c k d))
  exact (congrFun (W23_arr m ρ c 2) _).trans (region10_value (V22 m ρ) c ⟨_, h⟩ d)

/-- Row `n` of batch entry `b` of the regrouped table is row `n % 288` of group `4 b + n / 288`. -/
theorem v95_22 : arr S32x1152x2048 (W24 m ρ c (dv main_v95)) = val_main_v203 (F := Ideal) a0 a1 a2 a6 a9 := by
  funext i
  obtain ⟨b, n, d, rfl⟩ : ∃ (b : Fin 32) (n : Fin 1152) (d : Fin 2048), i = ix3 b n d := ⟨i 0, i 1, i 2, eq_ix3 i⟩
  have hb := b.isLt
  have hn := n.isLt
  have h : b.val * 1152 + n.val < 36864 := by omega
  have hg : b.val * 4 + n.val / 288 < 128 := by omega
  have hp : n.val % 288 < 288 := Nat.mod_lt _ (by decide)
  have hgp : (⟨b.val * 4 + n.val / 288, hg⟩ : Fin 128).val * 288 + (⟨n.val % 288, hp⟩ : Fin 288).val < 36864 := by
    show (b.val * 4 + n.val / 288) * 288 + n.val % 288 < 36864
    omega
  have hrow : (⟨b.val * 1152 + n.val, h⟩ : Fin 36864)
      = ⟨(⟨b.val * 4 + n.val / 288, hg⟩ : Fin 128).val * 288 + (⟨n.val % 288, hp⟩ : Fin 288).val, hgp⟩ :=
    Fin.ext (by show b.val * 1152 + n.val = (b.val * 4 + n.val / 288) * 288 + n.val % 288; omega)
  rw [v203_spec]
  unfold Cert.Spec.proj
  refine (h11_v95 (W23 m ρ c) b n d h).trans ?_
  rw [hrow]
  refine (v94_21 m ρ c ⟨b.val * 4 + n.val / 288, hg⟩ ⟨n.val % 288, hp⟩ d hgp).trans ?_
  refine Finset.sum_congr rfl fun k _ => ?_
  have hk := k.isLt
  have e : idx_main_v202 (ix3 b n k) = ix3 (⟨b.val * 4 + n.val / 288, hg⟩ : Fin 128) (⟨n.val % 288, hp⟩ : Fin 288) k :=
    funext fun a => Fin.ext (by
      match a with
      | ⟨0, _⟩ => show ((b.val * 1152 + n.val) * 2048 + k.val) / 589824 = b.val * 4 + n.val / 288; omega
      | ⟨1, _⟩ => show ((b.val * 1152 + n.val) * 2048 + k.val) / 2048 % 288 = n.val % 288; omega
      | ⟨2, _⟩ => show ((b.val * 1152 + n.val) * 2048 + k.val) % 2048 = k.val; omega)
  have e2 : val_main_v202 (F := Ideal) a0 a1 a2 a6 (ix3 b n k)
      = val_main_v200 (F := Ideal) a0 a1 a2 a6 (ix3 (⟨b.val * 4 + n.val / 288, hg⟩ : Fin 128) (⟨n.val % 288, hp⟩ : Fin 288) k) := by
    rw [val_main_v202_apply, e]
  exact congrArg (· * arr S2048x2048 a9 (ix2 d k)) e2.symm

/-! ## Region 11: the last attention -/

theorem v62_22 (h62 : arr S32x16x2048 (W16 m ρ c (dv main_v62)) = val_main_v113 (F := Ideal) a0 a1 a3 a4 a6 a8 a9 a10 a11) :
    arr S32x16x2048 (W24 m ρ c (dv main_v62)) = val_main_v113 (F := Ideal) a0 a1 a3 a4 a6 a8 a9 a10 a11 := by
  rw [show W24 m ρ c (dv main_v62) = W16 m ρ c (dv main_v62) from range m ρ c main_v62 6 16 (by decide) (by decide)]
  exact h62

theorem v92_22 : arr S32x1152x2048 (W24 m ρ c (dv main_v92)) = val_main_v201 (F := Ideal) a0 a2 := by
  rw [show W24 m ρ c (dv main_v92) = W22 m ρ c (dv main_v92) from range m ρ c main_v92 2 20 (by decide) (by decide)]
  exact v92_20 m ρ c

theorem v96_23 (h62 : arr S32x16x2048 (W16 m ρ c (dv main_v62)) = val_main_v113 (F := Ideal) a0 a1 a3 a4 a6 a8 a9 a10 a11) :
    arr S32x16x2048 (W25 m ρ c (dv main_v96)) = val_main_v218 (F := Ideal) a0 a1 a2 a3 a4 a6 a8 a9 a10 a11 := by
  funext i
  obtain ⟨b, q, k, rfl⟩ : ∃ (b : Fin 32) (q : Fin 16) (k : Fin 2048), i = ix3 b q k := ⟨i 0, i 1, i 2, eq_ix3 i⟩
  rw [v218_spec, v175_eq, ← v62_22 m ρ c h62, ← v95_22 m ρ c, ← v92_22 m ρ c]
  exact (congrFun (W25_arr m ρ c 3) (ix3 b q k)).trans (Cert.KernelIdeal.Attn.region11_value (V24 m ρ) c b q k)

/-! ## The last host stretch: the weighting by the softmax of the sixteen weights -/

theorem a5_23 : W25 m ρ c (dv main_arg5) = a5 :=
  range m ρ c main_arg5 23 0 (by decide) (by decide)

theorem v59_23 (h59 : arr S32x16x2048 (W14 m ρ c (dv main_v59)) = val_main_v112 (F := Ideal) a0 a1 a3 a4 a6 a8 a9 a10 a11) :
    arr S32x16x2048 (W25 m ρ c (dv main_v59)) = val_main_v112 (F := Ideal) a0 a1 a3 a4 a6 a8 a9 a10 a11 := by
  rw [show W25 m ρ c (dv main_v59) = W14 m ρ c (dv main_v59) from range m ρ c main_v59 9 14 (by decide) (by decide)]
  exact h59

theorem v107_24 (h59 : arr S32x16x2048 (W14 m ρ c (dv main_v59)) = val_main_v112 (F := Ideal) a0 a1 a3 a4 a6 a8 a9 a10 a11) :
    arr S32x16x2048 (W26 m ρ c (dv main_v107)) = val_main_v231 (F := Ideal) a0 a1 a3 a4 a5 a6 a8 a9 a10 a11 := by
  funext i
  obtain ⟨b, q, k, rfl⟩ : ∃ (b : Fin 32) (q : Fin 16) (k : Fin 2048), i = ix3 b q k := ⟨i 0, i 1, i 2, eq_ix3 i⟩
  rw [v231_spec, ← v59_23 m ρ c h59, ← a5_23 m ρ c]
  exact Cert.KernelIdeal.Tail.tail_v107 (W25 m ρ c) b q k

/-! ## The other three results at the return -/

theorem v31_24 (h31 : arr S32x16x2048 (W8 m ρ c (dv main_v31)) = val_main_v52 (F := Ideal) a0 a1 a3 a6 a8 a9) :
    arr S32x16x2048 (W26 m ρ c (dv main_v31)) = val_main_v52 (F := Ideal) a0 a1 a3 a6 a8 a9 := by
  rw [show W26 m ρ c (dv main_v31) = W8 m ρ c (dv main_v31) from range m ρ c main_v31 16 8 (by decide) (by decide)]
  exact h31

theorem v63_24 (h63 : arr S32x16x2048 (W17 m ρ c (dv main_v63)) = val_main_v152 (F := Ideal) a0 a1 a3 a4 a6 a8 a9 a10 a11) :
    arr S32x16x2048 (W26 m ρ c (dv main_v63)) = val_main_v152 (F := Ideal) a0 a1 a3 a4 a6 a8 a9 a10 a11 := by
  rw [show W26 m ρ c (dv main_v63) = W17 m ρ c (dv main_v63) from range m ρ c main_v63 7 17 (by decide) (by decide)]
  exact h63

theorem v96_24 (h62 : arr S32x16x2048 (W16 m ρ c (dv main_v62)) = val_main_v113 (F := Ideal) a0 a1 a3 a4 a6 a8 a9 a10 a11) :
    arr S32x16x2048 (W26 m ρ c (dv main_v96)) = val_main_v218 (F := Ideal) a0 a1 a2 a3 a4 a6 a8 a9 a10 a11 := by
  rw [show W26 m ρ c (dv main_v96) = W25 m ρ c (dv main_v96) from range m ρ c main_v96 1 23 (by decide) (by decide)]
  exact v96_23 m ρ c h62

end Cert.KernelIdeal.Chain

end
-- ==== Proof.ChainFinal.lean ====
/-
  The kernel program's four results at its last boundary.

  Each result buffer holds, when @main returns, the reference program's corresponding result stage of the launch
  arguments: the first attention's output, the prototype-corrected output weighted by the softmax of the weights, the
  third attention's output and the cross-instance attention's output. The earlier boundaries' lemmas are chained here.
-/
import proofs.«101814_j47201690583535_1_alg».proof.Proof.ChainA
import proofs.«101814_j47201690583535_1_alg».proof.Proof.ChainB
import proofs.«101814_j47201690583535_1_alg».proof.Proof.ChainC

noncomputable section

open scoped BigOperators

namespace Cert.KernelIdeal.Chain

open Cert.KernelIdeal Cert.KernelIdeal.Gen Idealize.ShloMosaic Idealize.ShloMosaic.ValueIdx Idealize.ShloMosaic.StableHlo Idealize.ShloMosaic.TcCoe Idealize.SL.Sem
open Cert.ReferenceIdeal.ReadP Cert.ReferenceIdeal.RefSpec
open Cert.KernelIdeal.Host Cert.KernelIdeal.Keeps Cert.Spec

variable (m : (ℓ : Loc nD τ sig) → Buf (Elt Ideal) ℓ) (ρ : Dev nD → PrngReg) (c : Dev nD)

set_option quotPrecheck false

local notation "a0" => m ((c.tc : Thread nD τ).loc main_arg0)
local notation "a1" => m ((c.tc : Thread nD τ).loc main_arg1)
local notation "a2" => m ((c.tc : Thread nD τ).loc main_arg2)
local notation "a3" => m ((c.tc : Thread nD τ).loc main_arg3)
local notation "a4" => m ((c.tc : Thread nD τ).loc main_arg4)
local notation "a5" => m ((c.tc : Thread nD τ).loc main_arg5)
local notation "a6" => m ((c.tc : Thread nD τ).loc main_arg6)
local notation "a8" => m ((c.tc : Thread nD τ).loc main_arg8)
local notation "a9" => m ((c.tc : Thread nD τ).loc main_arg9)
local notation "a10" => m ((c.tc : Thread nD τ).loc main_arg10)
local notation "a11" => m ((c.tc : Thread nD τ).loc main_arg11)
local notation "dv" b => Proc.devRef (τ := τ) (sig := sig) Proc.tc b

theorem kernel_v31 : W26 m ρ c (dv main_v31) = val_main_v52 (F := Ideal) a0 a1 a3 a6 a8 a9 :=
  v31_24 m ρ c (v31_8 m ρ c)

theorem kernel_v107 : W26 m ρ c (dv main_v107) = val_main_v231 (F := Ideal) a0 a1 a3 a4 a5 a6 a8 a9 a10 a11 :=
  v107_24 m ρ c (v59_14 m ρ c)

theorem kernel_v63 : W26 m ρ c (dv main_v63) = val_main_v152 (F := Ideal) a0 a1 a3 a4 a6 a8 a9 a10 a11 :=
  v63_24 m ρ c (v63_17 m ρ c)

theorem kernel_v96 : W26 m ρ c (dv main_v96) = val_main_v218 (F := Ideal) a0 a1 a2 a3 a4 a6 a8 a9 a10 a11 :=
  v96_24 m ρ c (v62_16 m ρ c)

end Cert.KernelIdeal.Chain

end
-- ==== Proof.RefStage01.lean ====
/-
  The reference program's operations at positions 0 to 16 of its list (the buffers main_v0 … main_v13).

  From any contents that hold the arguments and the earlier stages' values at their buffers, the contents after these
  operations hold the arguments and the values of the stages that are read later.
-/
import proofs.«101814_j47201690583535_1_alg».proof.Proof.RefRead

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The operations writing main_v0 … main_v13 (positions 0 to 16 of the reference's list). -/
def L01 : List (HloOp τ sig (Elt F)) :=
  [
    reshape main_arg0 main_v0 rfl shapeCasts_S32x2048x24x12_S32x2048x288,
    unary main_v0 main_v1 ((transpose S32x288x2048 [0, 2, 1] · transposes_S32x2048x288_S32x288x2048_0_2_1) : (⟨S32x2048x288, .f32⟩ : BufTy).Contents (Elt F) → (⟨S32x288x2048, .f32⟩ : BufTy).Contents (Elt F)),
    unary main_arg3 main_v2 (broadcastInDim S32x16x2048 ![0, 1, 2] bcast_S1x16x2048_S32x16x2048_0_1_2 : (⟨S1x16x2048, .f32⟩ : BufTy).Contents (Elt F) → (⟨S32x16x2048, .f32⟩ : BufTy).Contents (Elt F)),
    unary main_arg4 main_v3 (broadcastInDim S32x2048x2048 ![0, 1, 2] bcast_S1x2048x2048_S32x2048x2048_0_1_2 : (⟨S1x2048x2048, .f32⟩ : BufTy).Contents (Elt F) → (⟨S32x2048x2048, .f32⟩ : BufTy).Contents (Elt F)),
    nullary main_c (constantI S_ 32 1#32),
    unary main_c main_v4 (broadcastInDim S32 ![] bcast_S_S32 : (⟨S_, .i32⟩ : BufTy).Contents (Elt F) → (⟨S32, .i32⟩ : BufTy).Contents (Elt F)),
    binary main_arg1 main_v4 main_v5 (subi : (⟨S32, .i32⟩ : BufTy).Contents (Elt F) → (⟨S32, .i32⟩ : BufTy).Contents (Elt F) → (⟨S32, .i32⟩ : BufTy).Contents (Elt F)),
    nullary main_c_0 (constantI S_ 32 0#32),
    unary main_c_0 main_v6 (broadcastInDim S32 ![] bcast_S_S32 : (⟨S_, .i32⟩ : BufTy).Contents (Elt F) → (⟨S32, .i32⟩ : BufTy).Contents (Elt F)),
    binary main_v5 main_v6 main_v7 (cmpi .slt : (⟨S32, .i32⟩ : BufTy).Contents (Elt F) → (⟨S32, .i32⟩ : BufTy).Contents (Elt F) → (⟨S32, .i1⟩ : BufTy).Contents (Elt F)),
    nullary main_c_1 (constantI S_ 32 6#32),
    unary main_c_1 main_v8 (broadcastInDim S32 ![] bcast_S_S32 : (⟨S_, .i32⟩ : BufTy).Contents (Elt F) → (⟨S32, .i32⟩ : BufTy).Contents (Elt F)),
    binary main_v5 main_v8 main_v9 (addi : (⟨S32, .i32⟩ : BufTy).Contents (Elt F) → (⟨S32, .i32⟩ : BufTy).Contents (Elt F) → (⟨S32, .i32⟩ : BufTy).Contents (Elt F)),
    ternary main_v7 main_v9 main_v5 main_v10 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v10 main_v11 (broadcastInDim S32x1 ![0] bcast_S32_S32x1_0 : (⟨S32, .i32⟩ : BufTy).Contents (Elt F) → (⟨S32x1, .i32⟩ : BufTy).Contents (Elt F)),
    binary main_arg6 main_v11 main_v12 ((fun x i => Host.gather gather_S6x1x2048_S32x1_S32x1x2048_12_0_n_n_0_1_112048 x i) : (⟨S6x1x2048, .f32⟩ : BufTy).Contents (Elt F) → (⟨S32x1, .i32⟩ : BufTy).Contents (Elt F) → (⟨S32x1x2048, .f32⟩ : BufTy).Contents (Elt F)),
    binary main_v2 main_arg8 main_v13 ((fun l r => Host.dotGeneral dot_S32x16x2048_S2048x2048_S32x16x2048_2_1_01_0_n_n none l r) : (⟨S32x16x2048, .f32⟩ : BufTy).Contents (Elt F) → (⟨S2048x2048, .f32⟩ : BufTy).Contents (Elt F) → (⟨S32x16x2048, .f32⟩ : BufTy).Contents (Elt F)) ]

/-- From any contents that hold the arguments and the earlier stages' values at their buffers, the contents after
    these operations hold the arguments and the stages' values that are read later. -/
theorem stage01 (W : Valuation τ sig (Elt F))
    (x0 : (⟨S32x2048x24x12, .f32⟩ : BufTy).Contents (Elt F))
    (x1 : (⟨S32, .i32⟩ : BufTy).Contents (Elt F))
    (x2 : (⟨S32, .i1⟩ : BufTy).Contents (Elt F))
    (x3 : (⟨S1x16x2048, .f32⟩ : BufTy).Contents (Elt F))
    (x4 : (⟨S1x2048x2048, .f32⟩ : BufTy).Contents (Elt F))
    (x5 : (⟨S1x16x1, .f32⟩ : BufTy).Contents (Elt F))
    (x6 : (⟨S6x1x2048, .f32⟩ : BufTy).Contents (Elt F))
    (x7 : (⟨S1x288x2048, .f32⟩ : BufTy).Contents (Elt F))
    (x8 : (⟨S2048x2048, .f32⟩ : BufTy).Contents (Elt F))
    (x9 : (⟨S2048x2048, .f32⟩ : BufTy).Contents (Elt F))
    (x10 : (⟨S2048x2048, .f32⟩ : BufTy).Contents (Elt F))
    (x11 : (⟨S2048x2048, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (a6 : W (Proc.devRef .tc main_arg6) = x6)
    (a7 : W (Proc.devRef .tc main_arg7) = x7)
    (a8 : W (Proc.devRef .tc main_arg8) = x8)
    (a9 : W (Proc.devRef .tc main_arg9) = x9)
    (a10 : W (Proc.devRef .tc main_arg10) = x10)
    (a11 : W (Proc.devRef .tc main_arg11) = x11) :
    after (L01 (F := F)) W (Proc.devRef .tc main_arg0) = x0
      ∧ after (L01 (F := F)) W (Proc.devRef .tc main_arg1) = x1
      ∧ after (L01 (F := F)) W (Proc.devRef .tc main_arg2) = x2
      ∧ after (L01 (F := F)) W (Proc.devRef .tc main_arg3) = x3
      ∧ after (L01 (F := F)) W (Proc.devRef .tc main_arg4) = x4
      ∧ after (L01 (F := F)) W (Proc.devRef .tc main_arg5) = x5
      ∧ after (L01 (F := F)) W (Proc.devRef .tc main_arg6) = x6
      ∧ after (L01 (F := F)) W (Proc.devRef .tc main_arg7) = x7
      ∧ after (L01 (F := F)) W (Proc.devRef .tc main_arg8) = x8
      ∧ after (L01 (F := F)) W (Proc.devRef .tc main_arg9) = x9
      ∧ after (L01 (F := F)) W (Proc.devRef .tc main_arg10) = x10
      ∧ after (L01 (F := F)) W (Proc.devRef .tc main_arg11) = x11
      ∧ after (L01 (F := F)) W (Proc.devRef .tc main_v1) = val_main_v1 (F := F) x0
      ∧ after (L01 (F := F)) W (Proc.devRef .tc main_v3) = val_main_v3 (F := F) x4
      ∧ after (L01 (F := F)) W (Proc.devRef .tc main_v12) = val_main_v12 (F := F) x1 x6
      ∧ after (L01 (F := F)) W (Proc.devRef .tc main_v13) = val_main_v13 (F := F) x3 x8 := by
  unfold L01
  refine ⟨?_, ?_, ?_, ?_, ?_, ?_, ?_, ?_, ?_, ?_, ?_, ?_, ?_, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact a9
  · after_results_simp; exact a10
  · after_results_simp; exact a11
  · after_results_simp
    rw [a0]
    rfl
  · after_results_simp
    rw [a4]
    rfl
  · after_results_simp
    rw [a6, a1]
    rfl
  · after_results_simp
    rw [a3, a8]
    rfl

end Cert.ReferenceIdeal.RefValue

end
-- ==== Proof.RefStage02.lean ====
/-
  The reference program's operations at positions 17 to 42 of its list (the buffers main_v14 … main_v34).

  From any contents that hold the arguments and the earlier stages' values at their buffers, the contents after these
  operations hold the arguments and the values of the stages that are read later.
-/
import proofs.«101814_j47201690583535_1_alg».proof.Proof.RefRead

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The operations writing main_v14 … main_v34 (positions 17 to 42 of the reference's list). -/
def L02 : List (HloOp τ sig (Elt F)) :=
  [
    binary main_v1 main_v1 main_v14 (mulf : (⟨S32x288x2048, .f32⟩ : BufTy).Contents (Elt F) → (⟨S32x288x2048, .f32⟩ : BufTy).Contents (Elt F) → (⟨S32x288x2048, .f32⟩ : BufTy).Contents (Elt F)),
    nullary main_cst (constant S_ .f32 0x00000000#32),
    binary main_v14 main_cst main_v15 ((fun x v => Host.reduceAdd x v reducesTo_S32x288x2048_S32x288_d2 h_S_) : (⟨S32x288x2048, .f32⟩ : BufTy).Contents (Elt F) → (⟨S_, .f32⟩ : BufTy).Contents (Elt F) → (⟨S32x288, .f32⟩ : BufTy).Contents (Elt F)),
    unary main_v15 main_v16 (broadcastInDim S32x288x1 ![0, 1] bcast_S32x288_S32x288x1_0_1 : (⟨S32x288, .f32⟩ : BufTy).Contents (Elt F) → (⟨S32x288x1, .f32⟩ : BufTy).Contents (Elt F)),
    unary main_v16 main_v17 (Host.sqrt : (⟨S32x288x1, .f32⟩ : BufTy).Contents (Elt F) → (⟨S32x288x1, .f32⟩ : BufTy).Contents (Elt F)),
    nullary main_cst_2 (constant S_ .f32 0x2B8CBCCC#32),
    unary main_cst_2 main_v18 (broadcastInDim S32x288x1 ![] bcast_S_S32x288x1 : (⟨S_, .f32⟩ : BufTy).Contents (Elt F) → (⟨S32x288x1, .f32⟩ : BufTy).Contents (Elt F)),
    binary main_v17 main_v18 main_v19 (maximumf : (⟨S32x288x1, .f32⟩ : BufTy).Contents (Elt F) → (⟨S32x288x1, .f32⟩ : BufTy).Contents (Elt F) → (⟨S32x288x1, .f32⟩ : BufTy).Contents (Elt F)),
    unary main_v19 main_v20 (broadcastInDim S32x288x2048 ![0, 1, 2] bcast_S32x288x1_S32x288x2048_0_1_2 : (⟨S32x288x1, .f32⟩ : BufTy).Contents (Elt F) → (⟨S32x288x2048, .f32⟩ : BufTy).Contents (Elt F)),
    binary main_v1 main_v20 main_v21 (Host.divf : (⟨S32x288x2048, .f32⟩ : BufTy).Contents (Elt F) → (⟨S32x288x2048, .f32⟩ : BufTy).Contents (Elt F) → (⟨S32x288x2048, .f32⟩ : BufTy).Contents (Elt F)),
    binary main_v21 main_v21 main_v22 ((fun l r => Host.dotGeneral dot_S32x288x2048_S32x288x2048_S32x288x288_2_2_1_1_0_0 none l r) : (⟨S32x288x2048, .f32⟩ : BufTy).Contents (Elt F) → (⟨S32x288x2048, .f32⟩ : BufTy).Contents (Elt F) → (⟨S32x288x288, .f32⟩ : BufTy).Contents (Elt F)),
    nullary main_cst_3 (constant S_ .f32 0xFF800000#32),
    binary main_v22 main_cst_3 main_v23 ((fun x v => Host.reduce FloatOps.maximumf x v reducesTo_S32x288x288_S32x288_d2 h_S_) : (⟨S32x288x288, .f32⟩ : BufTy).Contents (Elt F) → (⟨S_, .f32⟩ : BufTy).Contents (Elt F) → (⟨S32x288, .f32⟩ : BufTy).Contents (Elt F)),
    nullary main_cst_4 (constant S_ .f32 0xFF800000#32),
    unary main_cst_4 main_v24 (broadcastInDim S32x288 ![] bcast_S_S32x288 : (⟨S_, .f32⟩ : BufTy).Contents (Elt F) → (⟨S32x288, .f32⟩ : BufTy).Contents (Elt F)),
    binary main_v24 main_v23 main_v25 (maximumf : (⟨S32x288, .f32⟩ : BufTy).Contents (Elt F) → (⟨S32x288, .f32⟩ : BufTy).Contents (Elt F) → (⟨S32x288, .f32⟩ : BufTy).Contents (Elt F)),
    unary main_v25 main_v26 (broadcastInDim S32x288x1 ![0, 1] bcast_S32x288_S32x288x1_0_1 : (⟨S32x288, .f32⟩ : BufTy).Contents (Elt F) → (⟨S32x288x1, .f32⟩ : BufTy).Contents (Elt F)),
    unary main_v26 main_v27 (broadcastInDim S32x288x288 ![0, 1, 2] bcast_S32x288x1_S32x288x288_0_1_2 : (⟨S32x288x1, .f32⟩ : BufTy).Contents (Elt F) → (⟨S32x288x288, .f32⟩ : BufTy).Contents (Elt F)),
    binary main_v22 main_v27 main_v28 (subf : (⟨S32x288x288, .f32⟩ : BufTy).Contents (Elt F) → (⟨S32x288x288, .f32⟩ : BufTy).Contents (Elt F) → (⟨S32x288x288, .f32⟩ : BufTy).Contents (Elt F)),
    unary main_v28 main_v29 (Host.exp : (⟨S32x288x288, .f32⟩ : BufTy).Contents (Elt F) → (⟨S32x288x288, .f32⟩ : BufTy).Contents (Elt F)),
    nullary main_cst_5 (constant S_ .f32 0x00000000#32),
    binary main_v29 main_cst_5 main_v30 ((fun x v => Host.reduceAdd x v reducesTo_S32x288x288_S32x288_d2 h_S_) : (⟨S32x288x288, .f32⟩ : BufTy).Contents (Elt F) → (⟨S_, .f32⟩ : BufTy).Contents (Elt F) → (⟨S32x288, .f32⟩ : BufTy).Contents (Elt F)),
    unary main_v30 main_v31 (broadcastInDim S32x288x1 ![0, 1] bcast_S32x288_S32x288x1_0_1 : (⟨S32x288, .f32⟩ : BufTy).Contents (Elt F) → (⟨S32x288x1, .f32⟩ : BufTy).Contents (Elt F)),
    unary main_v31 main_v32 (broadcastInDim S32x288x288 ![0, 1, 2] bcast_S32x288x1_S32x288x288_0_1_2 : (⟨S32x288x1, .f32⟩ : BufTy).Contents (Elt F) → (⟨S32x288x288, .f32⟩ : BufTy).Contents (Elt F)),
    binary main_v29 main_v32 main_v33 (Host.divf : (⟨S32x288x288, .f32⟩ : BufTy).Contents (Elt F) → (⟨S32x288x288, .f32⟩ : BufTy).Contents (Elt F) → (⟨S32x288x288, .f32⟩ : BufTy).Contents (Elt F)),
    binary main_v33 main_v1 main_v34 ((fun l r => Host.dotGeneral dot_S32x288x288_S32x288x2048_S32x288x2048_2_1_1_2_0_0 none l r) : (⟨S32x288x288, .f32⟩ : BufTy).Contents (Elt F) → (⟨S32x288x2048, .f32⟩ : BufTy).Contents (Elt F) → (⟨S32x288x2048, .f32⟩ : BufTy).Contents (Elt F)) ]

/-- From any contents that hold the arguments and the earlier stages' values at their buffers, the contents after
    these operations hold the arguments and the stages' values that are read later. -/
theorem stage02 (W : Valuation τ sig (Elt F))
    (x0 : (⟨S32x2048x24x12, .f32⟩ : BufTy).Contents (Elt F))
    (x1 : (⟨S32, .i32⟩ : BufTy).Contents (Elt F))
    (x2 : (⟨S32, .i1⟩ : BufTy).Contents (Elt F))
    (x3 : (⟨S1x16x2048, .f32⟩ : BufTy).Contents (Elt F))
    (x4 : (⟨S1x2048x2048, .f32⟩ : BufTy).Contents (Elt F))
    (x5 : (⟨S1x16x1, .f32⟩ : BufTy).Contents (Elt F))
    (x6 : (⟨S6x1x2048, .f32⟩ : BufTy).Contents (Elt F))
    (x7 : (⟨S1x288x2048, .f32⟩ : BufTy).Contents (Elt F))
    (x8 : (⟨S2048x2048, .f32⟩ : BufTy).Contents (Elt F))
    (x9 : (⟨S2048x2048, .f32⟩ : BufTy).Contents (Elt F))
    (x10 : (⟨S2048x2048, .f32⟩ : BufTy).Contents (Elt F))
    (x11 : (⟨S2048x2048, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (a6 : W (Proc.devRef .tc main_arg6) = x6)
    (a7 : W (Proc.devRef .tc main_arg7) = x7)
    (a8 : W (Proc.devRef .tc main_arg8) = x8)
    (a9 : W (Proc.devRef .tc main_arg9) = x9)
    (a10 : W (Proc.devRef .tc main_arg10) = x10)
    (a11 : W (Proc.devRef .tc main_arg11) = x11)
    (h_v1 : W (Proc.devRef .tc main_v1) = val_main_v1 (F := F) x0)
    (h_v3 : W (Proc.devRef .tc main_v3) = val_main_v3 (F := F) x4)
    (h_v12 : W (Proc.devRef .tc main_v12) = val_main_v12 (F := F) x1 x6)
    (h_v13 : W (Proc.devRef .tc main_v13) = val_main_v13 (F := F) x3 x8) :
    after (L02 (F := F)) W (Proc.devRef .tc main_arg0) = x0
      ∧ after (L02 (F := F)) W (Proc.devRef .tc main_arg1) = x1
      ∧ after (L02 (F := F)) W (Proc.devRef .tc main_arg2) = x2
      ∧ after (L02 (F := F)) W (Proc.devRef .tc main_arg3) = x3
      ∧ after (L02 (F := F)) W (Proc.devRef .tc main_arg4) = x4
      ∧ after (L02 (F := F)) W (Proc.devRef .tc main_arg5) = x5
      ∧ after (L02 (F := F)) W (Proc.devRef .tc main_arg6) = x6
      ∧ after (L02 (F := F)) W (Proc.devRef .tc main_arg7) = x7
      ∧ after (L02 (F := F)) W (Proc.devRef .tc main_arg8) = x8
      ∧ after (L02 (F := F)) W (Proc.devRef .tc main_arg9) = x9
      ∧ after (L02 (F := F)) W (Proc.devRef .tc main_arg10) = x10
      ∧ after (L02 (F := F)) W (Proc.devRef .tc main_arg11) = x11
      ∧ after (L02 (F := F)) W (Proc.devRef .tc main_v1) = val_main_v1 (F := F) x0
      ∧ after (L02 (F := F)) W (Proc.devRef .tc main_v3) = val_main_v3 (F := F) x4
      ∧ after (L02 (F := F)) W (Proc.devRef .tc main_v12) = val_main_v12 (F := F) x1 x6
      ∧ after (L02 (F := F)) W (Proc.devRef .tc main_v13) = val_main_v13 (F := F) x3 x8
      ∧ after (L02 (F := F)) W (Proc.devRef .tc main_v34) = val_main_v34 (F := F) x0 := by
  unfold L02
  refine ⟨?_, ?_, ?_, ?_, ?_, ?_, ?_, ?_, ?_, ?_, ?_, ?_, ?_, ?_, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact a9
  · after_results_simp; exact a10
  · after_results_simp; exact a11
  · after_results_simp; exact h_v1
  · after_results_simp; exact h_v3
  · after_results_simp; exact h_v12
  · after_results_simp; exact h_v13
  · after_results_simp
    rw [h_v1]
    rfl

end Cert.ReferenceIdeal.RefValue

end
-- ==== Proof.RefStage03.lean ====
/-
  The reference program's operations at positions 43 to 45 of its list (the buffers main_v35 … main_v37).

  From any contents that hold the arguments and the earlier stages' values at their buffers, the contents after these
  operations hold the arguments and the values of the stages that are read later.
-/
import proofs.«101814_j47201690583535_1_alg».proof.Proof.RefRead

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The operations writing main_v35 … main_v37 (positions 43 to 45 of the reference's list). -/
def L03 : List (HloOp τ sig (Elt F)) :=
  [
    unary main_v12 main_v35 (broadcastInDim S32x288x2048 ![0, 1, 2] bcast_S32x1x2048_S32x288x2048_0_1_2 : (⟨S32x1x2048, .f32⟩ : BufTy).Contents (Elt F) → (⟨S32x288x2048, .f32⟩ : BufTy).Contents (Elt F)),
    binary main_v34 main_v35 main_v36 (addf : (⟨S32x288x2048, .f32⟩ : BufTy).Contents (Elt F) → (⟨S32x288x2048, .f32⟩ : BufTy).Contents (Elt F) → (⟨S32x288x2048, .f32⟩ : BufTy).Contents (Elt F)),
    binary main_v36 main_arg9 main_v37 ((fun l r => Host.dotGeneral dot_S32x288x2048_S2048x2048_S32x288x2048_2_1_01_0_n_n none l r) : (⟨S32x288x2048, .f32⟩ : BufTy).Contents (Elt F) → (⟨S2048x2048, .f32⟩ : BufTy).Contents (Elt F) → (⟨S32x288x2048, .f32⟩ : BufTy).Contents (Elt F)) ]

/-- From any contents that hold the arguments and the earlier stages' values at their buffers, the contents after
    these operations hold the arguments and the stages' values that are read later. -/
theorem stage03 (W : Valuation τ sig (Elt F))
    (x0 : (⟨S32x2048x24x12, .f32⟩ : BufTy).Contents (Elt F))
    (x1 : (⟨S32, .i32⟩ : BufTy).Contents (Elt F))
    (x2 : (⟨S32, .i1⟩ : BufTy).Contents (Elt F))
    (x3 : (⟨S1x16x2048, .f32⟩ : BufTy).Contents (Elt F))
    (x4 : (⟨S1x2048x2048, .f32⟩ : BufTy).Contents (Elt F))
    (x5 : (⟨S1x16x1, .f32⟩ : BufTy).Contents (Elt F))
    (x6 : (⟨S6x1x2048, .f32⟩ : BufTy).Contents (Elt F))
    (x7 : (⟨S1x288x2048, .f32⟩ : BufTy).Contents (Elt F))
    (x8 : (⟨S2048x2048, .f32⟩ : BufTy).Contents (Elt F))
    (x9 : (⟨S2048x2048, .f32⟩ : BufTy).Contents (Elt F))
    (x10 : (⟨S2048x2048, .f32⟩ : BufTy).Contents (Elt F))
    (x11 : (⟨S2048x2048, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (a6 : W (Proc.devRef .tc main_arg6) = x6)
    (a7 : W (Proc.devRef .tc main_arg7) = x7)
    (a8 : W (Proc.devRef .tc main_arg8) = x8)
    (a9 : W (Proc.devRef .tc main_arg9) = x9)
    (a10 : W (Proc.devRef .tc main_arg10) = x10)
    (a11 : W (Proc.devRef .tc main_arg11) = x11)
    (h_v1 : W (Proc.devRef .tc main_v1) = val_main_v1 (F := F) x0)
    (h_v3 : W (Proc.devRef .tc main_v3) = val_main_v3 (F := F) x4)
    (h_v12 : W (Proc.devRef .tc main_v12) = val_main_v12 (F := F) x1 x6)
    (h_v13 : W (Proc.devRef .tc main_v13) = val_main_v13 (F := F) x3 x8)
    (h_v34 : W (Proc.devRef .tc main_v34) = val_main_v34 (F := F) x0) :
    after (L03 (F := F)) W (Proc.devRef .tc main_arg0) = x0
      ∧ after (L03 (F := F)) W (Proc.devRef .tc main_arg1) = x1
      ∧ after (L03 (F := F)) W (Proc.devRef .tc main_arg2) = x2
      ∧ after (L03 (F := F)) W (Proc.devRef .tc main_arg3) = x3
      ∧ after (L03 (F := F)) W (Proc.devRef .tc main_arg4) = x4
      ∧ after (L03 (F := F)) W (Proc.devRef .tc main_arg5) = x5
      ∧ after (L03 (F := F)) W (Proc.devRef .tc main_arg6) = x6
      ∧ after (L03 (F := F)) W (Proc.devRef .tc main_arg7) = x7
      ∧ after (L03 (F := F)) W (Proc.devRef .tc main_arg8) = x8
      ∧ after (L03 (F := F)) W (Proc.devRef .tc main_arg9) = x9
      ∧ after (L03 (F := F)) W (Proc.devRef .tc main_arg10) = x10
      ∧ after (L03 (F := F)) W (Proc.devRef .tc main_arg11) = x11
      ∧ after (L03 (F := F)) W (Proc.devRef .tc main_v1) = val_main_v1 (F := F) x0
      ∧ after (L03 (F := F)) W (Proc.devRef .tc main_v3) = val_main_v3 (F := F) x4
      ∧ after (L03 (F := F)) W (Proc.devRef .tc main_v12) = val_main_v12 (F := F) x1 x6
      ∧ after (L03 (F := F)) W (Proc.devRef .tc main_v13) = val_main_v13 (F := F) x3 x8
      ∧ after (L03 (F := F)) W (Proc.devRef .tc main_v34) = val_main_v34 (F := F) x0
      ∧ after (L03 (F := F)) W (Proc.devRef .tc main_v37) = val_main_v37 (F := F) x0 x1 x6 x9 := by
  unfold L03
  refine ⟨?_, ?_, ?_, ?_, ?_, ?_, ?_, ?_, ?_, ?_, ?_, ?_, ?_, ?_, ?_, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact a9
  · after_results_simp; exact a10
  · after_results_simp; exact a11
  · after_results_simp; exact h_v1
  · after_results_simp; exact h_v3
  · after_results_simp; exact h_v12
  · after_results_simp; exact h_v13
  · after_results_simp; exact h_v34
  · after_results_simp
    rw [h_v34, h_v12, a9]
    rfl

end Cert.ReferenceIdeal.RefValue

end
-- ==== Proof.RefStage04.lean ====
/-
  The reference program's operations at positions 46 to 64 of its list (the buffers main_v38 … main_v52).

  From any contents that hold the arguments and the earlier stages' values at their buffers, the contents after these
  operations hold the arguments and the values of the stages that are read later.
-/
import proofs.«101814_j47201690583535_1_alg».proof.Proof.RefRead

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The operations writing main_v38 … main_v52 (positions 46 to 64 of the reference's list). -/
def L04 : List (HloOp τ sig (Elt F)) :=
  [
    binary main_v13 main_v37 main_v38 ((fun l r => Host.dotGeneral dot_S32x16x2048_S32x288x2048_S32x16x288_2_2_1_1_0_0 none l r) : (⟨S32x16x2048, .f32⟩ : BufTy).Contents (Elt F) → (⟨S32x288x2048, .f32⟩ : BufTy).Contents (Elt F) → (⟨S32x16x288, .f32⟩ : BufTy).Contents (Elt F)),
    nullary main_cst_6 (constant S_ .f32 0x3CB504F3#32),
    unary main_cst_6 main_v39 (broadcastInDim S32x16x288 ![] bcast_S_S32x16x288 : (⟨S_, .f32⟩ : BufTy).Contents (Elt F) → (⟨S32x16x288, .f32⟩ : BufTy).Contents (Elt F)),
    binary main_v38 main_v39 main_v40 (mulf : (⟨S32x16x288, .f32⟩ : BufTy).Contents (Elt F) → (⟨S32x16x288, .f32⟩ : BufTy).Contents (Elt F) → (⟨S32x16x288, .f32⟩ : BufTy).Contents (Elt F)),
    nullary main_cst_7 (constant S_ .f32 0xFF800000#32),
    binary main_v40 main_cst_7 main_v41 ((fun x v => Host.reduce FloatOps.maximumf x v reducesTo_S32x16x288_S32x16_d2 h_S_) : (⟨S32x16x288, .f32⟩ : BufTy).Contents (Elt F) → (⟨S_, .f32⟩ : BufTy).Contents (Elt F) → (⟨S32x16, .f32⟩ : BufTy).Contents (Elt F)),
    nullary main_cst_8 (constant S_ .f32 0xFF800000#32),
    unary main_cst_8 main_v42 (broadcastInDim S32x16 ![] bcast_S_S32x16 : (⟨S_, .f32⟩ : BufTy).Contents (Elt F) → (⟨S32x16, .f32⟩ : BufTy).Contents (Elt F)),
    binary main_v42 main_v41 main_v43 (maximumf : (⟨S32x16, .f32⟩ : BufTy).Contents (Elt F) → (⟨S32x16, .f32⟩ : BufTy).Contents (Elt F) → (⟨S32x16, .f32⟩ : BufTy).Contents (Elt F)),
    unary main_v43 main_v44 (broadcastInDim S32x16x1 ![0, 1] bcast_S32x16_S32x16x1_0_1 : (⟨S32x16, .f32⟩ : BufTy).Contents (Elt F) → (⟨S32x16x1, .f32⟩ : BufTy).Contents (Elt F)),
    unary main_v44 main_v45 (broadcastInDim S32x16x288 ![0, 1, 2] bcast_S32x16x1_S32x16x288_0_1_2 : (⟨S32x16x1, .f32⟩ : BufTy).Contents (Elt F) → (⟨S32x16x288, .f32⟩ : BufTy).Contents (Elt F)),
    binary main_v40 main_v45 main_v46 (subf : (⟨S32x16x288, .f32⟩ : BufTy).Contents (Elt F) → (⟨S32x16x288, .f32⟩ : BufTy).Contents (Elt F) → (⟨S32x16x288, .f32⟩ : BufTy).Contents (Elt F)),
    unary main_v46 main_v47 (Host.exp : (⟨S32x16x288, .f32⟩ : BufTy).Contents (Elt F) → (⟨S32x16x288, .f32⟩ : BufTy).Contents (Elt F)),
    nullary main_cst_9 (constant S_ .f32 0x00000000#32),
    binary main_v47 main_cst_9 main_v48 ((fun x v => Host.reduceAdd x v reducesTo_S32x16x288_S32x16_d2 h_S_) : (⟨S32x16x288, .f32⟩ : BufTy).Contents (Elt F) → (⟨S_, .f32⟩ : BufTy).Contents (Elt F) → (⟨S32x16, .f32⟩ : BufTy).Contents (Elt F)),
    unary main_v48 main_v49 (broadcastInDim S32x16x1 ![0, 1] bcast_S32x16_S32x16x1_0_1 : (⟨S32x16, .f32⟩ : BufTy).Contents (Elt F) → (⟨S32x16x1, .f32⟩ : BufTy).Contents (Elt F)),
    unary main_v49 main_v50 (broadcastInDim S32x16x288 ![0, 1, 2] bcast_S32x16x1_S32x16x288_0_1_2 : (⟨S32x16x1, .f32⟩ : BufTy).Contents (Elt F) → (⟨S32x16x288, .f32⟩ : BufTy).Contents (Elt F)),
    binary main_v47 main_v50 main_v51 (Host.divf : (⟨S32x16x288, .f32⟩ : BufTy).Contents (Elt F) → (⟨S32x16x288, .f32⟩ : BufTy).Contents (Elt F) → (⟨S32x16x288, .f32⟩ : BufTy).Contents (Elt F)),
    binary main_v51 main_v34 main_v52 ((fun l r => Host.dotGeneral dot_S32x16x288_S32x288x2048_S32x16x2048_2_1_1_2_0_0 none l r) : (⟨S32x16x288, .f32⟩ : BufTy).Contents (Elt F) → (⟨S32x288x2048, .f32⟩ : BufTy).Contents (Elt F) → (⟨S32x16x2048, .f32⟩ : BufTy).Contents (Elt F)) ]

/-- From any contents that hold the arguments and the earlier stages' values at their buffers, the contents after
    these operations hold the arguments and the stages' values that are read later. -/
theorem stage04 (W : Valuation τ sig (Elt F))
    (x0 : (⟨S32x2048x24x12, .f32⟩ : BufTy).Contents (Elt F))
    (x1 : (⟨S32, .i32⟩ : BufTy).Contents (Elt F))
    (x2 : (⟨S32, .i1⟩ : BufTy).Contents (Elt F))
    (x3 : (⟨S1x16x2048, .f32⟩ : BufTy).Contents (Elt F))
    (x4 : (⟨S1x2048x2048, .f32⟩ : BufTy).Contents (Elt F))
    (x5 : (⟨S1x16x1, .f32⟩ : BufTy).Contents (Elt F))
    (x6 : (⟨S6x1x2048, .f32⟩ : BufTy).Contents (Elt F))
    (x7 : (⟨S1x288x2048, .f32⟩ : BufTy).Contents (Elt F))
    (x8 : (⟨S2048x2048, .f32⟩ : BufTy).Contents (Elt F))
    (x9 : (⟨S2048x2048, .f32⟩ : BufTy).Contents (Elt F))
    (x10 : (⟨S2048x2048, .f32⟩ : BufTy).Contents (Elt F))
    (x11 : (⟨S2048x2048, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (a6 : W (Proc.devRef .tc main_arg6) = x6)
    (a7 : W (Proc.devRef .tc main_arg7) = x7)
    (a8 : W (Proc.devRef .tc main_arg8) = x8)
    (a9 : W (Proc.devRef .tc main_arg9) = x9)
    (a10 : W (Proc.devRef .tc main_arg10) = x10)
    (a11 : W (Proc.devRef .tc main_arg11) = x11)
    (h_v1 : W (Proc.devRef .tc main_v1) = val_main_v1 (F := F) x0)
    (h_v3 : W (Proc.devRef .tc main_v3) = val_main_v3 (F := F) x4)
    (h_v12 : W (Proc.devRef .tc main_v12) = val_main_v12 (F := F) x1 x6)
    (h_v13 : W (Proc.devRef .tc main_v13) = val_main_v13 (F := F) x3 x8)
    (h_v34 : W (Proc.devRef .tc main_v34) = val_main_v34 (F := F) x0)
    (h_v37 : W (Proc.devRef .tc main_v37) = val_main_v37 (F := F) x0 x1 x6 x9) :
    after (L04 (F := F)) W (Proc.devRef .tc main_arg0) = x0
      ∧ after (L04 (F := F)) W (Proc.devRef .tc main_arg1) = x1
      ∧ after (L04 (F := F)) W (Proc.devRef .tc main_arg2) = x2
      ∧ after (L04 (F := F)) W (Proc.devRef .tc main_arg3) = x3
      ∧ after (L04 (F := F)) W (Proc.devRef .tc main_arg4) = x4
      ∧ after (L04 (F := F)) W (Proc.devRef .tc main_arg5) = x5
      ∧ after (L04 (F := F)) W (Proc.devRef .tc main_arg6) = x6
      ∧ after (L04 (F := F)) W (Proc.devRef .tc main_arg7) = x7
      ∧ after (L04 (F := F)) W (Proc.devRef .tc main_arg8) = x8
      ∧ after (L04 (F := F)) W (Proc.devRef .tc main_arg9) = x9
      ∧ after (L04 (F := F)) W (Proc.devRef .tc main_arg10) = x10
      ∧ after (L04 (F := F)) W (Proc.devRef .tc main_arg11) = x11
      ∧ after (L04 (F := F)) W (Proc.devRef .tc main_v1) = val_main_v1 (F := F) x0
      ∧ after (L04 (F := F)) W (Proc.devRef .tc main_v3) = val_main_v3 (F := F) x4
      ∧ after (L04 (F := F)) W (Proc.devRef .tc main_v12) = val_main_v12 (F := F) x1 x6
      ∧ after (L04 (F := F)) W (Proc.devRef .tc main_v52) = val_main_v52 (F := F) x0 x1 x3 x6 x8 x9 := by
  unfold L04
  refine ⟨?_, ?_, ?_, ?_, ?_, ?_, ?_, ?_, ?_, ?_, ?_, ?_, ?_, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact a9
  · after_results_simp; exact a10
  · after_results_simp; exact a11
  · after_results_simp; exact h_v1
  · after_results_simp; exact h_v3
  · after_results_simp; exact h_v12
  · after_results_simp
    rw [h_v13, h_v37, h_v34]
    rfl

end Cert.ReferenceIdeal.RefValue

end
-- ==== Proof.RefStage05.lean ====
/-
  The reference program's operations at positions 65 to 88 of its list (the buffers main_cst_10 … main_v71).

  From any contents that hold the arguments and the earlier stages' values at their buffers, the contents after these
  operations hold the arguments and the values of the stages that are read later.
-/
import proofs.«101814_j47201690583535_1_alg».proof.Proof.RefRead

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The operations writing main_cst_10 … main_v71 (positions 65 to 88 of the reference's list). -/
def L05 : List (HloOp τ sig (Elt F)) :=
  [
    nullary main_cst_10 (constant S_ .f32 0x00000000#32),
    binary main_v52 main_cst_10 main_v53 ((fun x v => Host.reduceAdd x v reducesTo_S32x16x2048_S32x16_d2 h_S_) : (⟨S32x16x2048, .f32⟩ : BufTy).Contents (Elt F) → (⟨S_, .f32⟩ : BufTy).Contents (Elt F) → (⟨S32x16, .f32⟩ : BufTy).Contents (Elt F)),
    unary main_v53 main_v54 (broadcastInDim S32x16x1 ![0, 1] bcast_S32x16_S32x16x1_0_1 : (⟨S32x16, .f32⟩ : BufTy).Contents (Elt F) → (⟨S32x16x1, .f32⟩ : BufTy).Contents (Elt F)),
    nullary main_cst_11 (constant S_ .f32 0x45000000#32),
    unary main_cst_11 main_v55 (broadcastInDim S32x16x1 ![] bcast_S_S32x16x1 : (⟨S_, .f32⟩ : BufTy).Contents (Elt F) → (⟨S32x16x1, .f32⟩ : BufTy).Contents (Elt F)),
    binary main_v54 main_v55 main_v56 (Host.divf : (⟨S32x16x1, .f32⟩ : BufTy).Contents (Elt F) → (⟨S32x16x1, .f32⟩ : BufTy).Contents (Elt F) → (⟨S32x16x1, .f32⟩ : BufTy).Contents (Elt F)),
    unary main_v56 main_v57 (broadcastInDim S32x16x2048 ![0, 1, 2] bcast_S32x16x1_S32x16x2048_0_1_2 : (⟨S32x16x1, .f32⟩ : BufTy).Contents (Elt F) → (⟨S32x16x2048, .f32⟩ : BufTy).Contents (Elt F)),
    binary main_v52 main_v57 main_v58 (subf : (⟨S32x16x2048, .f32⟩ : BufTy).Contents (Elt F) → (⟨S32x16x2048, .f32⟩ : BufTy).Contents (Elt F) → (⟨S32x16x2048, .f32⟩ : BufTy).Contents (Elt F)),
    binary main_v58 main_v58 main_v59 (mulf : (⟨S32x16x2048, .f32⟩ : BufTy).Contents (Elt F) → (⟨S32x16x2048, .f32⟩ : BufTy).Contents (Elt F) → (⟨S32x16x2048, .f32⟩ : BufTy).Contents (Elt F)),
    nullary main_cst_12 (constant S_ .f32 0x00000000#32),
    binary main_v59 main_cst_12 main_v60 ((fun x v => Host.reduceAdd x v reducesTo_S32x16x2048_S32x16_d2 h_S_) : (⟨S32x16x2048, .f32⟩ : BufTy).Contents (Elt F) → (⟨S_, .f32⟩ : BufTy).Contents (Elt F) → (⟨S32x16, .f32⟩ : BufTy).Contents (Elt F)),
    unary main_v60 main_v61 (broadcastInDim S32x16x1 ![0, 1] bcast_S32x16_S32x16x1_0_1 : (⟨S32x16, .f32⟩ : BufTy).Contents (Elt F) → (⟨S32x16x1, .f32⟩ : BufTy).Contents (Elt F)),
    nullary main_cst_13 (constant S_ .f32 0x45000000#32),
    unary main_cst_13 main_v62 (broadcastInDim S32x16x1 ![] bcast_S_S32x16x1 : (⟨S_, .f32⟩ : BufTy).Contents (Elt F) → (⟨S32x16x1, .f32⟩ : BufTy).Contents (Elt F)),
    binary main_v61 main_v62 main_v63 (Host.divf : (⟨S32x16x1, .f32⟩ : BufTy).Contents (Elt F) → (⟨S32x16x1, .f32⟩ : BufTy).Contents (Elt F) → (⟨S32x16x1, .f32⟩ : BufTy).Contents (Elt F)),
    unary main_v56 main_v64 (broadcastInDim S32x16x2048 ![0, 1, 2] bcast_S32x16x1_S32x16x2048_0_1_2 : (⟨S32x16x1, .f32⟩ : BufTy).Contents (Elt F) → (⟨S32x16x2048, .f32⟩ : BufTy).Contents (Elt F)),
    binary main_v52 main_v64 main_v65 (subf : (⟨S32x16x2048, .f32⟩ : BufTy).Contents (Elt F) → (⟨S32x16x2048, .f32⟩ : BufTy).Contents (Elt F) → (⟨S32x16x2048, .f32⟩ : BufTy).Contents (Elt F)),
    nullary main_cst_14 (constant S_ .f32 0x3727C5AC#32),
    unary main_cst_14 main_v66 (broadcastInDim S32x16x1 ![] bcast_S_S32x16x1 : (⟨S_, .f32⟩ : BufTy).Contents (Elt F) → (⟨S32x16x1, .f32⟩ : BufTy).Contents (Elt F)),
    binary main_v63 main_v66 main_v67 (addf : (⟨S32x16x1, .f32⟩ : BufTy).Contents (Elt F) → (⟨S32x16x1, .f32⟩ : BufTy).Contents (Elt F) → (⟨S32x16x1, .f32⟩ : BufTy).Contents (Elt F)),
    unary main_v67 main_v68 (Host.sqrt : (⟨S32x16x1, .f32⟩ : BufTy).Contents (Elt F) → (⟨S32x16x1, .f32⟩ : BufTy).Contents (Elt F)),
    unary main_v68 main_v69 (broadcastInDim S32x16x2048 ![0, 1, 2] bcast_S32x16x1_S32x16x2048_0_1_2 : (⟨S32x16x1, .f32⟩ : BufTy).Contents (Elt F) → (⟨S32x16x2048, .f32⟩ : BufTy).Contents (Elt F)),
    binary main_v65 main_v69 main_v70 (Host.divf : (⟨S32x16x2048, .f32⟩ : BufTy).Contents (Elt F) → (⟨S32x16x2048, .f32⟩ : BufTy).Contents (Elt F) → (⟨S32x16x2048, .f32⟩ : BufTy).Contents (Elt F)),
    binary main_v70 main_arg10 main_v71 ((fun l r => Host.dotGeneral dot_S32x16x2048_S2048x2048_S32x16x2048_2_1_01_0_n_n none l r) : (⟨S32x16x2048, .f32⟩ : BufTy).Contents (Elt F) → (⟨S2048x2048, .f32⟩ : BufTy).Contents (Elt F) → (⟨S32x16x2048, .f32⟩ : BufTy).Contents (Elt F)) ]

set_option maxHeartbeats 4000000 in
/-- From any contents that hold the arguments and the earlier stages' values at their buffers, the contents after
    these operations hold the arguments and the stages' values that are read later. -/
theorem stage05 (W : Valuation τ sig (Elt F))
    (x0 : (⟨S32x2048x24x12, .f32⟩ : BufTy).Contents (Elt F))
    (x1 : (⟨S32, .i32⟩ : BufTy).Contents (Elt F))
    (x2 : (⟨S32, .i1⟩ : BufTy).Contents (Elt F))
    (x3 : (⟨S1x16x2048, .f32⟩ : BufTy).Contents (Elt F))
    (x4 : (⟨S1x2048x2048, .f32⟩ : BufTy).Contents (Elt F))
    (x5 : (⟨S1x16x1, .f32⟩ : BufTy).Contents (Elt F))
    (x6 : (⟨S6x1x2048, .f32⟩ : BufTy).Contents (Elt F))
    (x7 : (⟨S1x288x2048, .f32⟩ : BufTy).Contents (Elt F))
    (x8 : (⟨S2048x2048, .f32⟩ : BufTy).Contents (Elt F))
    (x9 : (⟨S2048x2048, .f32⟩ : BufTy).Contents (Elt F))
    (x10 : (⟨S2048x2048, .f32⟩ : BufTy).Contents (Elt F))
    (x11 : (⟨S2048x2048, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (a6 : W (Proc.devRef .tc main_arg6) = x6)
    (a7 : W (Proc.devRef .tc main_arg7) = x7)
    (a8 : W (Proc.devRef .tc main_arg8) = x8)
    (a9 : W (Proc.devRef .tc main_arg9) = x9)
    (a10 : W (Proc.devRef .tc main_arg10) = x10)
    (a11 : W (Proc.devRef .tc main_arg11) = x11)
    (h_v1 : W (Proc.devRef .tc main_v1) = val_main_v1 (F := F) x0)
    (h_v3 : W (Proc.devRef .tc main_v3) = val_main_v3 (F := F) x4)
    (h_v12 : W (Proc.devRef .tc main_v12) = val_main_v12 (F := F) x1 x6)
    (h_v52 : W (Proc.devRef .tc main_v52) = val_main_v52 (F := F) x0 x1 x3 x6 x8 x9) :
    after (L05 (F := F)) W (Proc.devRef .tc main_arg0) = x0
      ∧ after (L05 (F := F)) W (Proc.devRef .tc main_arg1) = x1
      ∧ after (L05 (F := F)) W (Proc.devRef .tc main_arg2) = x2
      ∧ after (L05 (F := F)) W (Proc.devRef .tc main_arg3) = x3
      ∧ after (L05 (F := F)) W (Proc.devRef .tc main_arg4) = x4
      ∧ after (L05 (F := F)) W (Proc.devRef .tc main_arg5) = x5
      ∧ after (L05 (F := F)) W (Proc.devRef .tc main_arg6) = x6
      ∧ after (L05 (F := F)) W (Proc.devRef .tc main_arg7) = x7
      ∧ after (L05 (F := F)) W (Proc.devRef .tc main_arg8) = x8
      ∧ after (L05 (F := F)) W (Proc.devRef .tc main_arg9) = x9
      ∧ after (L05 (F := F)) W (Proc.devRef .tc main_arg10) = x10
      ∧ after (L05 (F := F)) W (Proc.devRef .tc main_arg11) = x11
      ∧ after (L05 (F := F)) W (Proc.devRef .tc main_v1) = val_main_v1 (F := F) x0
      ∧ after (L05 (F := F)) W (Proc.devRef .tc main_v3) = val_main_v3 (F := F) x4
      ∧ after (L05 (F := F)) W (Proc.devRef .tc main_v12) = val_main_v12 (F := F) x1 x6
      ∧ after (L05 (F := F)) W (Proc.devRef .tc main_v52) = val_main_v52 (F := F) x0 x1 x3 x6 x8 x9
      ∧ after (L05 (F := F)) W (Proc.devRef .tc main_v71) = val_main_v71 (F := F) x0 x1 x3 x6 x8 x9 x10 := by
  unfold L05
  refine ⟨?_, ?_, ?_, ?_, ?_, ?_, ?_, ?_, ?_, ?_, ?_, ?_, ?_, ?_, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact a9
  · after_results_simp; exact a10
  · after_results_simp; exact a11
  · after_results_simp; exact h_v1
  · after_results_simp; exact h_v3
  · after_results_simp; exact h_v12
  · after_results_simp; exact h_v52
  · after_results_simp
    rw [h_v52, a10]
    rfl

end Cert.ReferenceIdeal.RefValue

end
-- ==== Proof.RefStage06.lean ====
/-
  The reference program's operations at positions 89 to 120 of its list (the buffers main_cst_15 … main_v96).

  From any contents that hold the arguments and the earlier stages' values at their buffers, the contents after these
  operations hold the arguments and the values of the stages that are read later.
-/
import proofs.«101814_j47201690583535_1_alg».proof.Proof.RefRead

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The operations writing main_cst_15 … main_v96 (positions 89 to 120 of the reference's list). -/
def L06 : List (HloOp τ sig (Elt F)) :=
  [
    nullary main_cst_15 (constant S_ .f32 0x00000000#32),
    binary main_v52 main_cst_15 main_v72 ((fun x v => Host.reduceAdd x v reducesTo_S32x16x2048_S32x2048_d1 h_S_) : (⟨S32x16x2048, .f32⟩ : BufTy).Contents (Elt F) → (⟨S_, .f32⟩ : BufTy).Contents (Elt F) → (⟨S32x2048, .f32⟩ : BufTy).Contents (Elt F)),
    unary main_v72 main_v73 (broadcastInDim S32x1x2048 ![0, 2] bcast_S32x2048_S32x1x2048_0_2 : (⟨S32x2048, .f32⟩ : BufTy).Contents (Elt F) → (⟨S32x1x2048, .f32⟩ : BufTy).Contents (Elt F)),
    nullary main_cst_16 (constant S_ .f32 0x41800000#32),
    unary main_cst_16 main_v74 (broadcastInDim S32x1x2048 ![] bcast_S_S32x1x2048 : (⟨S_, .f32⟩ : BufTy).Contents (Elt F) → (⟨S32x1x2048, .f32⟩ : BufTy).Contents (Elt F)),
    binary main_v73 main_v74 main_v75 (Host.divf : (⟨S32x1x2048, .f32⟩ : BufTy).Contents (Elt F) → (⟨S32x1x2048, .f32⟩ : BufTy).Contents (Elt F) → (⟨S32x1x2048, .f32⟩ : BufTy).Contents (Elt F)),
    unary main_v75 main_v76 (broadcastInDim S32x2048x2048 ![0, 1, 2] bcast_S32x1x2048_S32x2048x2048_0_1_2 : (⟨S32x1x2048, .f32⟩ : BufTy).Contents (Elt F) → (⟨S32x2048x2048, .f32⟩ : BufTy).Contents (Elt F)),
    binary main_v3 main_v76 main_v77 (subf : (⟨S32x2048x2048, .f32⟩ : BufTy).Contents (Elt F) → (⟨S32x2048x2048, .f32⟩ : BufTy).Contents (Elt F) → (⟨S32x2048x2048, .f32⟩ : BufTy).Contents (Elt F)),
    nullary main_cst_17 (constant S_ .f32 0x00000000#32),
    binary main_v77 main_cst_17 main_v78 ((fun x v => Host.reduceAdd x v reducesTo_S32x2048x2048_S32x2048_d2 h_S_) : (⟨S32x2048x2048, .f32⟩ : BufTy).Contents (Elt F) → (⟨S_, .f32⟩ : BufTy).Contents (Elt F) → (⟨S32x2048, .f32⟩ : BufTy).Contents (Elt F)),
    unary main_v78 main_v79 (broadcastInDim S32x2048x1 ![0, 1] bcast_S32x2048_S32x2048x1_0_1 : (⟨S32x2048, .f32⟩ : BufTy).Contents (Elt F) → (⟨S32x2048x1, .f32⟩ : BufTy).Contents (Elt F)),
    nullary main_cst_18 (constant S_ .f32 0x45000000#32),
    unary main_cst_18 main_v80 (broadcastInDim S32x2048x1 ![] bcast_S_S32x2048x1 : (⟨S_, .f32⟩ : BufTy).Contents (Elt F) → (⟨S32x2048x1, .f32⟩ : BufTy).Contents (Elt F)),
    binary main_v79 main_v80 main_v81 (Host.divf : (⟨S32x2048x1, .f32⟩ : BufTy).Contents (Elt F) → (⟨S32x2048x1, .f32⟩ : BufTy).Contents (Elt F) → (⟨S32x2048x1, .f32⟩ : BufTy).Contents (Elt F)),
    unary main_v81 main_v82 (broadcastInDim S32x2048x2048 ![0, 1, 2] bcast_S32x2048x1_S32x2048x2048_0_1_2 : (⟨S32x2048x1, .f32⟩ : BufTy).Contents (Elt F) → (⟨S32x2048x2048, .f32⟩ : BufTy).Contents (Elt F)),
    binary main_v77 main_v82 main_v83 (subf : (⟨S32x2048x2048, .f32⟩ : BufTy).Contents (Elt F) → (⟨S32x2048x2048, .f32⟩ : BufTy).Contents (Elt F) → (⟨S32x2048x2048, .f32⟩ : BufTy).Contents (Elt F)),
    binary main_v83 main_v83 main_v84 (mulf : (⟨S32x2048x2048, .f32⟩ : BufTy).Contents (Elt F) → (⟨S32x2048x2048, .f32⟩ : BufTy).Contents (Elt F) → (⟨S32x2048x2048, .f32⟩ : BufTy).Contents (Elt F)),
    nullary main_cst_19 (constant S_ .f32 0x00000000#32),
    binary main_v84 main_cst_19 main_v85 ((fun x v => Host.reduceAdd x v reducesTo_S32x2048x2048_S32x2048_d2 h_S_) : (⟨S32x2048x2048, .f32⟩ : BufTy).Contents (Elt F) → (⟨S_, .f32⟩ : BufTy).Contents (Elt F) → (⟨S32x2048, .f32⟩ : BufTy).Contents (Elt F)),
    unary main_v85 main_v86 (broadcastInDim S32x2048x1 ![0, 1] bcast_S32x2048_S32x2048x1_0_1 : (⟨S32x2048, .f32⟩ : BufTy).Contents (Elt F) → (⟨S32x2048x1, .f32⟩ : BufTy).Contents (Elt F)),
    nullary main_cst_20 (constant S_ .f32 0x45000000#32),
    unary main_cst_20 main_v87 (broadcastInDim S32x2048x1 ![] bcast_S_S32x2048x1 : (⟨S_, .f32⟩ : BufTy).Contents (Elt F) → (⟨S32x2048x1, .f32⟩ : BufTy).Contents (Elt F)),
    binary main_v86 main_v87 main_v88 (Host.divf : (⟨S32x2048x1, .f32⟩ : BufTy).Contents (Elt F) → (⟨S32x2048x1, .f32⟩ : BufTy).Contents (Elt F) → (⟨S32x2048x1, .f32⟩ : BufTy).Contents (Elt F)),
    unary main_v81 main_v89 (broadcastInDim S32x2048x2048 ![0, 1, 2] bcast_S32x2048x1_S32x2048x2048_0_1_2 : (⟨S32x2048x1, .f32⟩ : BufTy).Contents (Elt F) → (⟨S32x2048x2048, .f32⟩ : BufTy).Contents (Elt F)),
    binary main_v77 main_v89 main_v90 (subf : (⟨S32x2048x2048, .f32⟩ : BufTy).Contents (Elt F) → (⟨S32x2048x2048, .f32⟩ : BufTy).Contents (Elt F) → (⟨S32x2048x2048, .f32⟩ : BufTy).Contents (Elt F)),
    nullary main_cst_21 (constant S_ .f32 0x3727C5AC#32),
    unary main_cst_21 main_v91 (broadcastInDim S32x2048x1 ![] bcast_S_S32x2048x1 : (⟨S_, .f32⟩ : BufTy).Contents (Elt F) → (⟨S32x2048x1, .f32⟩ : BufTy).Contents (Elt F)),
    binary main_v88 main_v91 main_v92 (addf : (⟨S32x2048x1, .f32⟩ : BufTy).Contents (Elt F) → (⟨S32x2048x1, .f32⟩ : BufTy).Contents (Elt F) → (⟨S32x2048x1, .f32⟩ : BufTy).Contents (Elt F)),
    unary main_v92 main_v93 (Host.sqrt : (⟨S32x2048x1, .f32⟩ : BufTy).Contents (Elt F) → (⟨S32x2048x1, .f32⟩ : BufTy).Contents (Elt F)),
    unary main_v93 main_v94 (broadcastInDim S32x2048x2048 ![0, 1, 2] bcast_S32x2048x1_S32x2048x2048_0_1_2 : (⟨S32x2048x1, .f32⟩ : BufTy).Contents (Elt F) → (⟨S32x2048x2048, .f32⟩ : BufTy).Contents (Elt F)),
    binary main_v90 main_v94 main_v95 (Host.divf : (⟨S32x2048x2048, .f32⟩ : BufTy).Contents (Elt F) → (⟨S32x2048x2048, .f32⟩ : BufTy).Contents (Elt F) → (⟨S32x2048x2048, .f32⟩ : BufTy).Contents (Elt F)),
    binary main_v95 main_arg11 main_v96 ((fun l r => Host.dotGeneral dot_S32x2048x2048_S2048x2048_S32x2048x2048_2_1_01_0_n_n none l r) : (⟨S32x2048x2048, .f32⟩ : BufTy).Contents (Elt F) → (⟨S2048x2048, .f32⟩ : BufTy).Contents (Elt F) → (⟨S32x2048x2048, .f32⟩ : BufTy).Contents (Elt F)) ]

set_option maxHeartbeats 4000000 in
/-- From any contents that hold the arguments and the earlier stages' values at their buffers, the contents after
    these operations hold the arguments and the stages' values that are read later. -/
theorem stage06 (W : Valuation τ sig (Elt F))
    (x0 : (⟨S32x2048x24x12, .f32⟩ : BufTy).Contents (Elt F))
    (x1 : (⟨S32, .i32⟩ : BufTy).Contents (Elt F))
    (x2 : (⟨S32, .i1⟩ : BufTy).Contents (Elt F))
    (x3 : (⟨S1x16x2048, .f32⟩ : BufTy).Contents (Elt F))
    (x4 : (⟨S1x2048x2048, .f32⟩ : BufTy).Contents (Elt F))
    (x5 : (⟨S1x16x1, .f32⟩ : BufTy).Contents (Elt F))
    (x6 : (⟨S6x1x2048, .f32⟩ : BufTy).Contents (Elt F))
    (x7 : (⟨S1x288x2048, .f32⟩ : BufTy).Contents (Elt F))
    (x8 : (⟨S2048x2048, .f32⟩ : BufTy).Contents (Elt F))
    (x9 : (⟨S2048x2048, .f32⟩ : BufTy).Contents (Elt F))
    (x10 : (⟨S2048x2048, .f32⟩ : BufTy).Contents (Elt F))
    (x11 : (⟨S2048x2048, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (a6 : W (Proc.devRef .tc main_arg6) = x6)
    (a7 : W (Proc.devRef .tc main_arg7) = x7)
    (a8 : W (Proc.devRef .tc main_arg8) = x8)
    (a9 : W (Proc.devRef .tc main_arg9) = x9)
    (a10 : W (Proc.devRef .tc main_arg10) = x10)
    (a11 : W (Proc.devRef .tc main_arg11) = x11)
    (h_v1 : W (Proc.devRef .tc main_v1) = val_main_v1 (F := F) x0)
    (h_v3 : W (Proc.devRef .tc main_v3) = val_main_v3 (F := F) x4)
    (h_v12 : W (Proc.devRef .tc main_v12) = val_main_v12 (F := F) x1 x6)
    (h_v52 : W (Proc.devRef .tc main_v52) = val_main_v52 (F := F) x0 x1 x3 x6 x8 x9)
    (h_v71 : W (Proc.devRef .tc main_v71) = val_main_v71 (F := F) x0 x1 x3 x6 x8 x9 x10) :
    after (L06 (F := F)) W (Proc.devRef .tc main_arg0) = x0
      ∧ after (L06 (F := F)) W (Proc.devRef .tc main_arg1) = x1
      ∧ after (L06 (F := F)) W (Proc.devRef .tc main_arg2) = x2
      ∧ after (L06 (F := F)) W (Proc.devRef .tc main_arg3) = x3
      ∧ after (L06 (F := F)) W (Proc.devRef .tc main_arg4) = x4
      ∧ after (L06 (F := F)) W (Proc.devRef .tc main_arg5) = x5
      ∧ after (L06 (F := F)) W (Proc.devRef .tc main_arg6) = x6
      ∧ after (L06 (F := F)) W (Proc.devRef .tc main_arg7) = x7
      ∧ after (L06 (F := F)) W (Proc.devRef .tc main_arg8) = x8
      ∧ after (L06 (F := F)) W (Proc.devRef .tc main_arg9) = x9
      ∧ after (L06 (F := F)) W (Proc.devRef .tc main_arg10) = x10
      ∧ after (L06 (F := F)) W (Proc.devRef .tc main_arg11) = x11
      ∧ after (L06 (F := F)) W (Proc.devRef .tc main_v1) = val_main_v1 (F := F) x0
      ∧ after (L06 (F := F)) W (Proc.devRef .tc main_v12) = val_main_v12 (F := F) x1 x6
      ∧ after (L06 (F := F)) W (Proc.devRef .tc main_v52) = val_main_v52 (F := F) x0 x1 x3 x6 x8 x9
      ∧ after (L06 (F := F)) W (Proc.devRef .tc main_v71) = val_main_v71 (F := F) x0 x1 x3 x6 x8 x9 x10
      ∧ after (L06 (F := F)) W (Proc.devRef .tc main_v95) = val_main_v95 (F := F) x0 x1 x3 x4 x6 x8 x9
      ∧ after (L06 (F := F)) W (Proc.devRef .tc main_v96) = val_main_v96 (F := F) x0 x1 x3 x4 x6 x8 x9 x11 := by
  unfold L06
  refine ⟨?_, ?_, ?_, ?_, ?_, ?_, ?_, ?_, ?_, ?_, ?_, ?_, ?_, ?_, ?_, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact a9
  · after_results_simp; exact a10
  · after_results_simp; exact a11
  · after_results_simp; exact h_v1
  · after_results_simp; exact h_v12
  · after_results_simp; exact h_v52
  · after_results_simp; exact h_v71
  · after_results_simp
    rw [h_v3, h_v52]
    rfl
  · after_results_simp
    rw [h_v3, h_v52, a11]
    rfl

end Cert.ReferenceIdeal.RefValue

end
-- ==== Proof.RefStage07.lean ====
/-
  The reference program's operations at positions 121 to 140 of its list (the buffers main_v97 … main_v112).

  From any contents that hold the arguments and the earlier stages' values at their buffers, the contents after these
  operations hold the arguments and the values of the stages that are read later.
-/
import proofs.«101814_j47201690583535_1_alg».proof.Proof.RefRead

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The operations writing main_v97 … main_v112 (positions 121 to 140 of the reference's list). -/
def L07 : List (HloOp τ sig (Elt F)) :=
  [
    binary main_v71 main_v96 main_v97 ((fun l r => Host.dotGeneral dot_S32x16x2048_S32x2048x2048_S32x16x2048_2_2_1_1_0_0 none l r) : (⟨S32x16x2048, .f32⟩ : BufTy).Contents (Elt F) → (⟨S32x2048x2048, .f32⟩ : BufTy).Contents (Elt F) → (⟨S32x16x2048, .f32⟩ : BufTy).Contents (Elt F)),
    nullary main_cst_22 (constant S_ .f32 0x3CB504F3#32),
    unary main_cst_22 main_v98 (broadcastInDim S32x16x2048 ![] bcast_S_S32x16x2048 : (⟨S_, .f32⟩ : BufTy).Contents (Elt F) → (⟨S32x16x2048, .f32⟩ : BufTy).Contents (Elt F)),
    binary main_v97 main_v98 main_v99 (mulf : (⟨S32x16x2048, .f32⟩ : BufTy).Contents (Elt F) → (⟨S32x16x2048, .f32⟩ : BufTy).Contents (Elt F) → (⟨S32x16x2048, .f32⟩ : BufTy).Contents (Elt F)),
    nullary main_cst_23 (constant S_ .f32 0xFF800000#32),
    binary main_v99 main_cst_23 main_v100 ((fun x v => Host.reduce FloatOps.maximumf x v reducesTo_S32x16x2048_S32x16_d2 h_S_) : (⟨S32x16x2048, .f32⟩ : BufTy).Contents (Elt F) → (⟨S_, .f32⟩ : BufTy).Contents (Elt F) → (⟨S32x16, .f32⟩ : BufTy).Contents (Elt F)),
    nullary main_cst_24 (constant S_ .f32 0xFF800000#32),
    unary main_cst_24 main_v101 (broadcastInDim S32x16 ![] bcast_S_S32x16 : (⟨S_, .f32⟩ : BufTy).Contents (Elt F) → (⟨S32x16, .f32⟩ : BufTy).Contents (Elt F)),
    binary main_v101 main_v100 main_v102 (maximumf : (⟨S32x16, .f32⟩ : BufTy).Contents (Elt F) → (⟨S32x16, .f32⟩ : BufTy).Contents (Elt F) → (⟨S32x16, .f32⟩ : BufTy).Contents (Elt F)),
    unary main_v102 main_v103 (broadcastInDim S32x16x1 ![0, 1] bcast_S32x16_S32x16x1_0_1 : (⟨S32x16, .f32⟩ : BufTy).Contents (Elt F) → (⟨S32x16x1, .f32⟩ : BufTy).Contents (Elt F)),
    unary main_v103 main_v104 (broadcastInDim S32x16x2048 ![0, 1, 2] bcast_S32x16x1_S32x16x2048_0_1_2 : (⟨S32x16x1, .f32⟩ : BufTy).Contents (Elt F) → (⟨S32x16x2048, .f32⟩ : BufTy).Contents (Elt F)),
    binary main_v99 main_v104 main_v105 (subf : (⟨S32x16x2048, .f32⟩ : BufTy).Contents (Elt F) → (⟨S32x16x2048, .f32⟩ : BufTy).Contents (Elt F) → (⟨S32x16x2048, .f32⟩ : BufTy).Contents (Elt F)),
    unary main_v105 main_v106 (Host.exp : (⟨S32x16x2048, .f32⟩ : BufTy).Contents (Elt F) → (⟨S32x16x2048, .f32⟩ : BufTy).Contents (Elt F)),
    nullary main_cst_25 (constant S_ .f32 0x00000000#32),
    binary main_v106 main_cst_25 main_v107 ((fun x v => Host.reduceAdd x v reducesTo_S32x16x2048_S32x16_d2 h_S_) : (⟨S32x16x2048, .f32⟩ : BufTy).Contents (Elt F) → (⟨S_, .f32⟩ : BufTy).Contents (Elt F) → (⟨S32x16, .f32⟩ : BufTy).Contents (Elt F)),
    unary main_v107 main_v108 (broadcastInDim S32x16x1 ![0, 1] bcast_S32x16_S32x16x1_0_1 : (⟨S32x16, .f32⟩ : BufTy).Contents (Elt F) → (⟨S32x16x1, .f32⟩ : BufTy).Contents (Elt F)),
    unary main_v108 main_v109 (broadcastInDim S32x16x2048 ![0, 1, 2] bcast_S32x16x1_S32x16x2048_0_1_2 : (⟨S32x16x1, .f32⟩ : BufTy).Contents (Elt F) → (⟨S32x16x2048, .f32⟩ : BufTy).Contents (Elt F)),
    binary main_v106 main_v109 main_v110 (Host.divf : (⟨S32x16x2048, .f32⟩ : BufTy).Contents (Elt F) → (⟨S32x16x2048, .f32⟩ : BufTy).Contents (Elt F) → (⟨S32x16x2048, .f32⟩ : BufTy).Contents (Elt F)),
    binary main_v110 main_v95 main_v111 ((fun l r => Host.dotGeneral dot_S32x16x2048_S32x2048x2048_S32x16x2048_2_1_1_2_0_0 none l r) : (⟨S32x16x2048, .f32⟩ : BufTy).Contents (Elt F) → (⟨S32x2048x2048, .f32⟩ : BufTy).Contents (Elt F) → (⟨S32x16x2048, .f32⟩ : BufTy).Contents (Elt F)),
    binary main_v52 main_v111 main_v112 (addf : (⟨S32x16x2048, .f32⟩ : BufTy).Contents (Elt F) → (⟨S32x16x2048, .f32⟩ : BufTy).Contents (Elt F) → (⟨S32x16x2048, .f32⟩ : BufTy).Contents (Elt F)) ]

/-- From any contents that hold the arguments and the earlier stages' values at their buffers, the contents after
    these operations hold the arguments and the stages' values that are read later. -/
theorem stage07 (W : Valuation τ sig (Elt F))
    (x0 : (⟨S32x2048x24x12, .f32⟩ : BufTy).Contents (Elt F))
    (x1 : (⟨S32, .i32⟩ : BufTy).Contents (Elt F))
    (x2 : (⟨S32, .i1⟩ : BufTy).Contents (Elt F))
    (x3 : (⟨S1x16x2048, .f32⟩ : BufTy).Contents (Elt F))
    (x4 : (⟨S1x2048x2048, .f32⟩ : BufTy).Contents (Elt F))
    (x5 : (⟨S1x16x1, .f32⟩ : BufTy).Contents (Elt F))
    (x6 : (⟨S6x1x2048, .f32⟩ : BufTy).Contents (Elt F))
    (x7 : (⟨S1x288x2048, .f32⟩ : BufTy).Contents (Elt F))
    (x8 : (⟨S2048x2048, .f32⟩ : BufTy).Contents (Elt F))
    (x9 : (⟨S2048x2048, .f32⟩ : BufTy).Contents (Elt F))
    (x10 : (⟨S2048x2048, .f32⟩ : BufTy).Contents (Elt F))
    (x11 : (⟨S2048x2048, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (a6 : W (Proc.devRef .tc main_arg6) = x6)
    (a7 : W (Proc.devRef .tc main_arg7) = x7)
    (a8 : W (Proc.devRef .tc main_arg8) = x8)
    (a9 : W (Proc.devRef .tc main_arg9) = x9)
    (a10 : W (Proc.devRef .tc main_arg10) = x10)
    (a11 : W (Proc.devRef .tc main_arg11) = x11)
    (h_v1 : W (Proc.devRef .tc main_v1) = val_main_v1 (F := F) x0)
    (h_v12 : W (Proc.devRef .tc main_v12) = val_main_v12 (F := F) x1 x6)
    (h_v52 : W (Proc.devRef .tc main_v52) = val_main_v52 (F := F) x0 x1 x3 x6 x8 x9)
    (h_v71 : W (Proc.devRef .tc main_v71) = val_main_v71 (F := F) x0 x1 x3 x6 x8 x9 x10)
    (h_v95 : W (Proc.devRef .tc main_v95) = val_main_v95 (F := F) x0 x1 x3 x4 x6 x8 x9)
    (h_v96 : W (Proc.devRef .tc main_v96) = val_main_v96 (F := F) x0 x1 x3 x4 x6 x8 x9 x11) :
    after (L07 (F := F)) W (Proc.devRef .tc main_arg0) = x0
      ∧ after (L07 (F := F)) W (Proc.devRef .tc main_arg1) = x1
      ∧ after (L07 (F := F)) W (Proc.devRef .tc main_arg2) = x2
      ∧ after (L07 (F := F)) W (Proc.devRef .tc main_arg3) = x3
      ∧ after (L07 (F := F)) W (Proc.devRef .tc main_arg4) = x4
      ∧ after (L07 (F := F)) W (Proc.devRef .tc main_arg5) = x5
      ∧ after (L07 (F := F)) W (Proc.devRef .tc main_arg6) = x6
      ∧ after (L07 (F := F)) W (Proc.devRef .tc main_arg7) = x7
      ∧ after (L07 (F := F)) W (Proc.devRef .tc main_arg8) = x8
      ∧ after (L07 (F := F)) W (Proc.devRef .tc main_arg9) = x9
      ∧ after (L07 (F := F)) W (Proc.devRef .tc main_arg10) = x10
      ∧ after (L07 (F := F)) W (Proc.devRef .tc main_arg11) = x11
      ∧ after (L07 (F := F)) W (Proc.devRef .tc main_v1) = val_main_v1 (F := F) x0
      ∧ after (L07 (F := F)) W (Proc.devRef .tc main_v12) = val_main_v12 (F := F) x1 x6
      ∧ after (L07 (F := F)) W (Proc.devRef .tc main_v52) = val_main_v52 (F := F) x0 x1 x3 x6 x8 x9
      ∧ after (L07 (F := F)) W (Proc.devRef .tc main_v112) = val_main_v112 (F := F) x0 x1 x3 x4 x6 x8 x9 x10 x11 := by
  unfold L07
  refine ⟨?_, ?_, ?_, ?_, ?_, ?_, ?_, ?_, ?_, ?_, ?_, ?_, ?_, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact a9
  · after_results_simp; exact a10
  · after_results_simp; exact a11
  · after_results_simp; exact h_v1
  · after_results_simp; exact h_v12
  · after_results_simp; exact h_v52
  · after_results_simp
    rw [h_v52, h_v71, h_v96, h_v95]
    rfl

end Cert.ReferenceIdeal.RefValue

end
-- ==== Proof.RefStage08.lean ====
/-
  The reference program's operation at position 141 of its list (the buffer main_v113).

  From any contents that hold the arguments and the earlier stages' values at their buffers, the contents after this
  operation hold the arguments and the values of the stages that are read later.
-/
import proofs.«101814_j47201690583535_1_alg».proof.Proof.RefRead

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The operations writing main_v113 … main_v113 (positions 141 to 141 of the reference's list). -/
def L08 : List (HloOp τ sig (Elt F)) :=
  [
    binary main_v112 main_arg8 main_v113 ((fun l r => Host.dotGeneral dot_S32x16x2048_S2048x2048_S32x16x2048_2_1_01_0_n_n none l r) : (⟨S32x16x2048, .f32⟩ : BufTy).Contents (Elt F) → (⟨S2048x2048, .f32⟩ : BufTy).Contents (Elt F) → (⟨S32x16x2048, .f32⟩ : BufTy).Contents (Elt F)) ]

/-- From any contents that hold the arguments and the earlier stages' values at their buffers, the contents after
    these operations hold the arguments and the stages' values that are read later. -/
theorem stage08 (W : Valuation τ sig (Elt F))
    (x0 : (⟨S32x2048x24x12, .f32⟩ : BufTy).Contents (Elt F))
    (x1 : (⟨S32, .i32⟩ : BufTy).Contents (Elt F))
    (x2 : (⟨S32, .i1⟩ : BufTy).Contents (Elt F))
    (x3 : (⟨S1x16x2048, .f32⟩ : BufTy).Contents (Elt F))
    (x4 : (⟨S1x2048x2048, .f32⟩ : BufTy).Contents (Elt F))
    (x5 : (⟨S1x16x1, .f32⟩ : BufTy).Contents (Elt F))
    (x6 : (⟨S6x1x2048, .f32⟩ : BufTy).Contents (Elt F))
    (x7 : (⟨S1x288x2048, .f32⟩ : BufTy).Contents (Elt F))
    (x8 : (⟨S2048x2048, .f32⟩ : BufTy).Contents (Elt F))
    (x9 : (⟨S2048x2048, .f32⟩ : BufTy).Contents (Elt F))
    (x10 : (⟨S2048x2048, .f32⟩ : BufTy).Contents (Elt F))
    (x11 : (⟨S2048x2048, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (a6 : W (Proc.devRef .tc main_arg6) = x6)
    (a7 : W (Proc.devRef .tc main_arg7) = x7)
    (a8 : W (Proc.devRef .tc main_arg8) = x8)
    (a9 : W (Proc.devRef .tc main_arg9) = x9)
    (a10 : W (Proc.devRef .tc main_arg10) = x10)
    (a11 : W (Proc.devRef .tc main_arg11) = x11)
    (h_v1 : W (Proc.devRef .tc main_v1) = val_main_v1 (F := F) x0)
    (h_v12 : W (Proc.devRef .tc main_v12) = val_main_v12 (F := F) x1 x6)
    (h_v52 : W (Proc.devRef .tc main_v52) = val_main_v52 (F := F) x0 x1 x3 x6 x8 x9)
    (h_v112 : W (Proc.devRef .tc main_v112) = val_main_v112 (F := F) x0 x1 x3 x4 x6 x8 x9 x10 x11) :
    after (L08 (F := F)) W (Proc.devRef .tc main_arg0) = x0
      ∧ after (L08 (F := F)) W (Proc.devRef .tc main_arg1) = x1
      ∧ after (L08 (F := F)) W (Proc.devRef .tc main_arg2) = x2
      ∧ after (L08 (F := F)) W (Proc.devRef .tc main_arg3) = x3
      ∧ after (L08 (F := F)) W (Proc.devRef .tc main_arg4) = x4
      ∧ after (L08 (F := F)) W (Proc.devRef .tc main_arg5) = x5
      ∧ after (L08 (F := F)) W (Proc.devRef .tc main_arg6) = x6
      ∧ after (L08 (F := F)) W (Proc.devRef .tc main_arg7) = x7
      ∧ after (L08 (F := F)) W (Proc.devRef .tc main_arg8) = x8
      ∧ after (L08 (F := F)) W (Proc.devRef .tc main_arg9) = x9
      ∧ after (L08 (F := F)) W (Proc.devRef .tc main_arg10) = x10
      ∧ after (L08 (F := F)) W (Proc.devRef .tc main_arg11) = x11
      ∧ after (L08 (F := F)) W (Proc.devRef .tc main_v1) = val_main_v1 (F := F) x0
      ∧ after (L08 (F := F)) W (Proc.devRef .tc main_v12) = val_main_v12 (F := F) x1 x6
      ∧ after (L08 (F := F)) W (Proc.devRef .tc main_v52) = val_main_v52 (F := F) x0 x1 x3 x6 x8 x9
      ∧ after (L08 (F := F)) W (Proc.devRef .tc main_v112) = val_main_v112 (F := F) x0 x1 x3 x4 x6 x8 x9 x10 x11
      ∧ after (L08 (F := F)) W (Proc.devRef .tc main_v113) = val_main_v113 (F := F) x0 x1 x3 x4 x6 x8 x9 x10 x11 := by
  unfold L08
  refine ⟨?_, ?_, ?_, ?_, ?_, ?_, ?_, ?_, ?_, ?_, ?_, ?_, ?_, ?_, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact a9
  · after_results_simp; exact a10
  · after_results_simp; exact a11
  · after_results_simp; exact h_v1
  · after_results_simp; exact h_v12
  · after_results_simp; exact h_v52
  · after_results_simp; exact h_v112
  · after_results_simp
    rw [h_v112, a8]
    rfl

end Cert.ReferenceIdeal.RefValue

end
-- ==== Proof.RefStage09.lean ====
/-
  The reference program's operations at positions 142 to 170 of its list (the buffers main_v114 … main_v137).

  From any contents that hold the arguments and the earlier stages' values at their buffers, the contents after these
  operations hold the arguments and the values of the stages that are read later.
-/
import proofs.«101814_j47201690583535_1_alg».proof.Proof.RefRead

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The operations writing main_v114 … main_v137 (positions 142 to 170 of the reference's list). -/
def L09 : List (HloOp τ sig (Elt F)) :=
  [
    binary main_v1 main_v1 main_v114 (mulf : (⟨S32x288x2048, .f32⟩ : BufTy).Contents (Elt F) → (⟨S32x288x2048, .f32⟩ : BufTy).Contents (Elt F) → (⟨S32x288x2048, .f32⟩ : BufTy).Contents (Elt F)),
    nullary main_cst_26 (constant S_ .f32 0x00000000#32),
    binary main_v114 main_cst_26 main_v115 ((fun x v => Host.reduceAdd x v reducesTo_S32x288x2048_S32x288_d2 h_S_) : (⟨S32x288x2048, .f32⟩ : BufTy).Contents (Elt F) → (⟨S_, .f32⟩ : BufTy).Contents (Elt F) → (⟨S32x288, .f32⟩ : BufTy).Contents (Elt F)),
    unary main_v115 main_v116 (broadcastInDim S32x288x1 ![0, 1] bcast_S32x288_S32x288x1_0_1 : (⟨S32x288, .f32⟩ : BufTy).Contents (Elt F) → (⟨S32x288x1, .f32⟩ : BufTy).Contents (Elt F)),
    unary main_v116 main_v117 (Host.sqrt : (⟨S32x288x1, .f32⟩ : BufTy).Contents (Elt F) → (⟨S32x288x1, .f32⟩ : BufTy).Contents (Elt F)),
    nullary main_cst_27 (constant S_ .f32 0x2B8CBCCC#32),
    unary main_cst_27 main_v118 (broadcastInDim S32x288x1 ![] bcast_S_S32x288x1 : (⟨S_, .f32⟩ : BufTy).Contents (Elt F) → (⟨S32x288x1, .f32⟩ : BufTy).Contents (Elt F)),
    binary main_v117 main_v118 main_v119 (maximumf : (⟨S32x288x1, .f32⟩ : BufTy).Contents (Elt F) → (⟨S32x288x1, .f32⟩ : BufTy).Contents (Elt F) → (⟨S32x288x1, .f32⟩ : BufTy).Contents (Elt F)),
    unary main_v119 main_v120 (broadcastInDim S32x288x2048 ![0, 1, 2] bcast_S32x288x1_S32x288x2048_0_1_2 : (⟨S32x288x1, .f32⟩ : BufTy).Contents (Elt F) → (⟨S32x288x2048, .f32⟩ : BufTy).Contents (Elt F)),
    binary main_v1 main_v120 main_v121 (Host.divf : (⟨S32x288x2048, .f32⟩ : BufTy).Contents (Elt F) → (⟨S32x288x2048, .f32⟩ : BufTy).Contents (Elt F) → (⟨S32x288x2048, .f32⟩ : BufTy).Contents (Elt F)),
    binary main_v121 main_v121 main_v122 ((fun l r => Host.dotGeneral dot_S32x288x2048_S32x288x2048_S32x288x288_2_2_1_1_0_0 none l r) : (⟨S32x288x2048, .f32⟩ : BufTy).Contents (Elt F) → (⟨S32x288x2048, .f32⟩ : BufTy).Contents (Elt F) → (⟨S32x288x288, .f32⟩ : BufTy).Contents (Elt F)),
    nullary main_cst_28 (constant S_ .f32 0xFF800000#32),
    binary main_v122 main_cst_28 main_v123 ((fun x v => Host.reduce FloatOps.maximumf x v reducesTo_S32x288x288_S32x288_d2 h_S_) : (⟨S32x288x288, .f32⟩ : BufTy).Contents (Elt F) → (⟨S_, .f32⟩ : BufTy).Contents (Elt F) → (⟨S32x288, .f32⟩ : BufTy).Contents (Elt F)),
    nullary main_cst_29 (constant S_ .f32 0xFF800000#32),
    unary main_cst_29 main_v124 (broadcastInDim S32x288 ![] bcast_S_S32x288 : (⟨S_, .f32⟩ : BufTy).Contents (Elt F) → (⟨S32x288, .f32⟩ : BufTy).Contents (Elt F)),
    binary main_v124 main_v123 main_v125 (maximumf : (⟨S32x288, .f32⟩ : BufTy).Contents (Elt F) → (⟨S32x288, .f32⟩ : BufTy).Contents (Elt F) → (⟨S32x288, .f32⟩ : BufTy).Contents (Elt F)),
    unary main_v125 main_v126 (broadcastInDim S32x288x1 ![0, 1] bcast_S32x288_S32x288x1_0_1 : (⟨S32x288, .f32⟩ : BufTy).Contents (Elt F) → (⟨S32x288x1, .f32⟩ : BufTy).Contents (Elt F)),
    unary main_v126 main_v127 (broadcastInDim S32x288x288 ![0, 1, 2] bcast_S32x288x1_S32x288x288_0_1_2 : (⟨S32x288x1, .f32⟩ : BufTy).Contents (Elt F) → (⟨S32x288x288, .f32⟩ : BufTy).Contents (Elt F)),
    binary main_v122 main_v127 main_v128 (subf : (⟨S32x288x288, .f32⟩ : BufTy).Contents (Elt F) → (⟨S32x288x288, .f32⟩ : BufTy).Contents (Elt F) → (⟨S32x288x288, .f32⟩ : BufTy).Contents (Elt F)),
    unary main_v128 main_v129 (Host.exp : (⟨S32x288x288, .f32⟩ : BufTy).Contents (Elt F) → (⟨S32x288x288, .f32⟩ : BufTy).Contents (Elt F)),
    nullary main_cst_30 (constant S_ .f32 0x00000000#32),
    binary main_v129 main_cst_30 main_v130 ((fun x v => Host.reduceAdd x v reducesTo_S32x288x288_S32x288_d2 h_S_) : (⟨S32x288x288, .f32⟩ : BufTy).Contents (Elt F) → (⟨S_, .f32⟩ : BufTy).Contents (Elt F) → (⟨S32x288, .f32⟩ : BufTy).Contents (Elt F)),
    unary main_v130 main_v131 (broadcastInDim S32x288x1 ![0, 1] bcast_S32x288_S32x288x1_0_1 : (⟨S32x288, .f32⟩ : BufTy).Contents (Elt F) → (⟨S32x288x1, .f32⟩ : BufTy).Contents (Elt F)),
    unary main_v131 main_v132 (broadcastInDim S32x288x288 ![0, 1, 2] bcast_S32x288x1_S32x288x288_0_1_2 : (⟨S32x288x1, .f32⟩ : BufTy).Contents (Elt F) → (⟨S32x288x288, .f32⟩ : BufTy).Contents (Elt F)),
    binary main_v129 main_v132 main_v133 (Host.divf : (⟨S32x288x288, .f32⟩ : BufTy).Contents (Elt F) → (⟨S32x288x288, .f32⟩ : BufTy).Contents (Elt F) → (⟨S32x288x288, .f32⟩ : BufTy).Contents (Elt F)),
    binary main_v133 main_v1 main_v134 ((fun l r => Host.dotGeneral dot_S32x288x288_S32x288x2048_S32x288x2048_2_1_1_2_0_0 none l r) : (⟨S32x288x288, .f32⟩ : BufTy).Contents (Elt F) → (⟨S32x288x2048, .f32⟩ : BufTy).Contents (Elt F) → (⟨S32x288x2048, .f32⟩ : BufTy).Contents (Elt F)),
    unary main_v12 main_v135 (broadcastInDim S32x288x2048 ![0, 1, 2] bcast_S32x1x2048_S32x288x2048_0_1_2 : (⟨S32x1x2048, .f32⟩ : BufTy).Contents (Elt F) → (⟨S32x288x2048, .f32⟩ : BufTy).Contents (Elt F)),
    binary main_v134 main_v135 main_v136 (addf : (⟨S32x288x2048, .f32⟩ : BufTy).Contents (Elt F) → (⟨S32x288x2048, .f32⟩ : BufTy).Contents (Elt F) → (⟨S32x288x2048, .f32⟩ : BufTy).Contents (Elt F)),
    binary main_v136 main_arg9 main_v137 ((fun l r => Host.dotGeneral dot_S32x288x2048_S2048x2048_S32x288x2048_2_1_01_0_n_n none l r) : (⟨S32x288x2048, .f32⟩ : BufTy).Contents (Elt F) → (⟨S2048x2048, .f32⟩ : BufTy).Contents (Elt F) → (⟨S32x288x2048, .f32⟩ : BufTy).Contents (Elt F)) ]

set_option maxHeartbeats 4000000 in
/-- From any contents that hold the arguments and the earlier stages' values at their buffers, the contents after
    these operations hold the arguments and the stages' values that are read later. -/
theorem stage09 (W : Valuation τ sig (Elt F))
    (x0 : (⟨S32x2048x24x12, .f32⟩ : BufTy).Contents (Elt F))
    (x1 : (⟨S32, .i32⟩ : BufTy).Contents (Elt F))
    (x2 : (⟨S32, .i1⟩ : BufTy).Contents (Elt F))
    (x3 : (⟨S1x16x2048, .f32⟩ : BufTy).Contents (Elt F))
    (x4 : (⟨S1x2048x2048, .f32⟩ : BufTy).Contents (Elt F))
    (x5 : (⟨S1x16x1, .f32⟩ : BufTy).Contents (Elt F))
    (x6 : (⟨S6x1x2048, .f32⟩ : BufTy).Contents (Elt F))
    (x7 : (⟨S1x288x2048, .f32⟩ : BufTy).Contents (Elt F))
    (x8 : (⟨S2048x2048, .f32⟩ : BufTy).Contents (Elt F))
    (x9 : (⟨S2048x2048, .f32⟩ : BufTy).Contents (Elt F))
    (x10 : (⟨S2048x2048, .f32⟩ : BufTy).Contents (Elt F))
    (x11 : (⟨S2048x2048, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (a6 : W (Proc.devRef .tc main_arg6) = x6)
    (a7 : W (Proc.devRef .tc main_arg7) = x7)
    (a8 : W (Proc.devRef .tc main_arg8) = x8)
    (a9 : W (Proc.devRef .tc main_arg9) = x9)
    (a10 : W (Proc.devRef .tc main_arg10) = x10)
    (a11 : W (Proc.devRef .tc main_arg11) = x11)
    (h_v1 : W (Proc.devRef .tc main_v1) = val_main_v1 (F := F) x0)
    (h_v12 : W (Proc.devRef .tc main_v12) = val_main_v12 (F := F) x1 x6)
    (h_v52 : W (Proc.devRef .tc main_v52) = val_main_v52 (F := F) x0 x1 x3 x6 x8 x9)
    (h_v112 : W (Proc.devRef .tc main_v112) = val_main_v112 (F := F) x0 x1 x3 x4 x6 x8 x9 x10 x11)
    (h_v113 : W (Proc.devRef .tc main_v113) = val_main_v113 (F := F) x0 x1 x3 x4 x6 x8 x9 x10 x11) :
    after (L09 (F := F)) W (Proc.devRef .tc main_arg0) = x0
      ∧ after (L09 (F := F)) W (Proc.devRef .tc main_arg1) = x1
      ∧ after (L09 (F := F)) W (Proc.devRef .tc main_arg2) = x2
      ∧ after (L09 (F := F)) W (Proc.devRef .tc main_arg3) = x3
      ∧ after (L09 (F := F)) W (Proc.devRef .tc main_arg4) = x4
      ∧ after (L09 (F := F)) W (Proc.devRef .tc main_arg5) = x5
      ∧ after (L09 (F := F)) W (Proc.devRef .tc main_arg6) = x6
      ∧ after (L09 (F := F)) W (Proc.devRef .tc main_arg7) = x7
      ∧ after (L09 (F := F)) W (Proc.devRef .tc main_arg8) = x8
      ∧ after (L09 (F := F)) W (Proc.devRef .tc main_arg9) = x9
      ∧ after (L09 (F := F)) W (Proc.devRef .tc main_arg10) = x10
      ∧ after (L09 (F := F)) W (Proc.devRef .tc main_arg11) = x11
      ∧ after (L09 (F := F)) W (Proc.devRef .tc main_v1) = val_main_v1 (F := F) x0
      ∧ after (L09 (F := F)) W (Proc.devRef .tc main_v12) = val_main_v12 (F := F) x1 x6
      ∧ after (L09 (F := F)) W (Proc.devRef .tc main_v52) = val_main_v52 (F := F) x0 x1 x3 x6 x8 x9
      ∧ after (L09 (F := F)) W (Proc.devRef .tc main_v112) = val_main_v112 (F := F) x0 x1 x3 x4 x6 x8 x9 x10 x11
      ∧ after (L09 (F := F)) W (Proc.devRef .tc main_v113) = val_main_v113 (F := F) x0 x1 x3 x4 x6 x8 x9 x10 x11
      ∧ after (L09 (F := F)) W (Proc.devRef .tc main_v134) = val_main_v134 (F := F) x0
      ∧ after (L09 (F := F)) W (Proc.devRef .tc main_v137) = val_main_v137 (F := F) x0 x1 x6 x9 := by
  unfold L09
  refine ⟨?_, ?_, ?_, ?_, ?_, ?_, ?_, ?_, ?_, ?_, ?_, ?_, ?_, ?_, ?_, ?_, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact a9
  · after_results_simp; exact a10
  · after_results_simp; exact a11
  · after_results_simp; exact h_v1
  · after_results_simp; exact h_v12
  · after_results_simp; exact h_v52
  · after_results_simp; exact h_v112
  · after_results_simp; exact h_v113
  · after_results_simp
    rw [h_v1]
    rfl
  · after_results_simp
    rw [h_v1, h_v12, a9]
    rfl

end Cert.ReferenceIdeal.RefValue

end
-- ==== Proof.RefStage10.lean ====
/-
  The reference program's operations at positions 171 to 189 of its list (the buffers main_v138 … main_v152).

  From any contents that hold the arguments and the earlier stages' values at their buffers, the contents after these
  operations hold the arguments and the values of the stages that are read later.
-/
import proofs.«101814_j47201690583535_1_alg».proof.Proof.RefRead

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The operations writing main_v138 … main_v152 (positions 171 to 189 of the reference's list). -/
def L10 : List (HloOp τ sig (Elt F)) :=
  [
    binary main_v113 main_v137 main_v138 ((fun l r => Host.dotGeneral dot_S32x16x2048_S32x288x2048_S32x16x288_2_2_1_1_0_0 none l r) : (⟨S32x16x2048, .f32⟩ : BufTy).Contents (Elt F) → (⟨S32x288x2048, .f32⟩ : BufTy).Contents (Elt F) → (⟨S32x16x288, .f32⟩ : BufTy).Contents (Elt F)),
    nullary main_cst_31 (constant S_ .f32 0x3CB504F3#32),
    unary main_cst_31 main_v139 (broadcastInDim S32x16x288 ![] bcast_S_S32x16x288 : (⟨S_, .f32⟩ : BufTy).Contents (Elt F) → (⟨S32x16x288, .f32⟩ : BufTy).Contents (Elt F)),
    binary main_v138 main_v139 main_v140 (mulf : (⟨S32x16x288, .f32⟩ : BufTy).Contents (Elt F) → (⟨S32x16x288, .f32⟩ : BufTy).Contents (Elt F) → (⟨S32x16x288, .f32⟩ : BufTy).Contents (Elt F)),
    nullary main_cst_32 (constant S_ .f32 0xFF800000#32),
    binary main_v140 main_cst_32 main_v141 ((fun x v => Host.reduce FloatOps.maximumf x v reducesTo_S32x16x288_S32x16_d2 h_S_) : (⟨S32x16x288, .f32⟩ : BufTy).Contents (Elt F) → (⟨S_, .f32⟩ : BufTy).Contents (Elt F) → (⟨S32x16, .f32⟩ : BufTy).Contents (Elt F)),
    nullary main_cst_33 (constant S_ .f32 0xFF800000#32),
    unary main_cst_33 main_v142 (broadcastInDim S32x16 ![] bcast_S_S32x16 : (⟨S_, .f32⟩ : BufTy).Contents (Elt F) → (⟨S32x16, .f32⟩ : BufTy).Contents (Elt F)),
    binary main_v142 main_v141 main_v143 (maximumf : (⟨S32x16, .f32⟩ : BufTy).Contents (Elt F) → (⟨S32x16, .f32⟩ : BufTy).Contents (Elt F) → (⟨S32x16, .f32⟩ : BufTy).Contents (Elt F)),
    unary main_v143 main_v144 (broadcastInDim S32x16x1 ![0, 1] bcast_S32x16_S32x16x1_0_1 : (⟨S32x16, .f32⟩ : BufTy).Contents (Elt F) → (⟨S32x16x1, .f32⟩ : BufTy).Contents (Elt F)),
    unary main_v144 main_v145 (broadcastInDim S32x16x288 ![0, 1, 2] bcast_S32x16x1_S32x16x288_0_1_2 : (⟨S32x16x1, .f32⟩ : BufTy).Contents (Elt F) → (⟨S32x16x288, .f32⟩ : BufTy).Contents (Elt F)),
    binary main_v140 main_v145 main_v146 (subf : (⟨S32x16x288, .f32⟩ : BufTy).Contents (Elt F) → (⟨S32x16x288, .f32⟩ : BufTy).Contents (Elt F) → (⟨S32x16x288, .f32⟩ : BufTy).Contents (Elt F)),
    unary main_v146 main_v147 (Host.exp : (⟨S32x16x288, .f32⟩ : BufTy).Contents (Elt F) → (⟨S32x16x288, .f32⟩ : BufTy).Contents (Elt F)),
    nullary main_cst_34 (constant S_ .f32 0x00000000#32),
    binary main_v147 main_cst_34 main_v148 ((fun x v => Host.reduceAdd x v reducesTo_S32x16x288_S32x16_d2 h_S_) : (⟨S32x16x288, .f32⟩ : BufTy).Contents (Elt F) → (⟨S_, .f32⟩ : BufTy).Contents (Elt F) → (⟨S32x16, .f32⟩ : BufTy).Contents (Elt F)),
    unary main_v148 main_v149 (broadcastInDim S32x16x1 ![0, 1] bcast_S32x16_S32x16x1_0_1 : (⟨S32x16, .f32⟩ : BufTy).Contents (Elt F) → (⟨S32x16x1, .f32⟩ : BufTy).Contents (Elt F)),
    unary main_v149 main_v150 (broadcastInDim S32x16x288 ![0, 1, 2] bcast_S32x16x1_S32x16x288_0_1_2 : (⟨S32x16x1, .f32⟩ : BufTy).Contents (Elt F) → (⟨S32x16x288, .f32⟩ : BufTy).Contents (Elt F)),
    binary main_v147 main_v150 main_v151 (Host.divf : (⟨S32x16x288, .f32⟩ : BufTy).Contents (Elt F) → (⟨S32x16x288, .f32⟩ : BufTy).Contents (Elt F) → (⟨S32x16x288, .f32⟩ : BufTy).Contents (Elt F)),
    binary main_v151 main_v134 main_v152 ((fun l r => Host.dotGeneral dot_S32x16x288_S32x288x2048_S32x16x2048_2_1_1_2_0_0 none l r) : (⟨S32x16x288, .f32⟩ : BufTy).Contents (Elt F) → (⟨S32x288x2048, .f32⟩ : BufTy).Contents (Elt F) → (⟨S32x16x2048, .f32⟩ : BufTy).Contents (Elt F)) ]

/-- From any contents that hold the arguments and the earlier stages' values at their buffers, the contents after
    these operations hold the arguments and the stages' values that are read later. -/
theorem stage10 (W : Valuation τ sig (Elt F))
    (x0 : (⟨S32x2048x24x12, .f32⟩ : BufTy).Contents (Elt F))
    (x1 : (⟨S32, .i32⟩ : BufTy).Contents (Elt F))
    (x2 : (⟨S32, .i1⟩ : BufTy).Contents (Elt F))
    (x3 : (⟨S1x16x2048, .f32⟩ : BufTy).Contents (Elt F))
    (x4 : (⟨S1x2048x2048, .f32⟩ : BufTy).Contents (Elt F))
    (x5 : (⟨S1x16x1, .f32⟩ : BufTy).Contents (Elt F))
    (x6 : (⟨S6x1x2048, .f32⟩ : BufTy).Contents (Elt F))
    (x7 : (⟨S1x288x2048, .f32⟩ : BufTy).Contents (Elt F))
    (x8 : (⟨S2048x2048, .f32⟩ : BufTy).Contents (Elt F))
    (x9 : (⟨S2048x2048, .f32⟩ : BufTy).Contents (Elt F))
    (x10 : (⟨S2048x2048, .f32⟩ : BufTy).Contents (Elt F))
    (x11 : (⟨S2048x2048, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (a6 : W (Proc.devRef .tc main_arg6) = x6)
    (a7 : W (Proc.devRef .tc main_arg7) = x7)
    (a8 : W (Proc.devRef .tc main_arg8) = x8)
    (a9 : W (Proc.devRef .tc main_arg9) = x9)
    (a10 : W (Proc.devRef .tc main_arg10) = x10)
    (a11 : W (Proc.devRef .tc main_arg11) = x11)
    (h_v1 : W (Proc.devRef .tc main_v1) = val_main_v1 (F := F) x0)
    (h_v12 : W (Proc.devRef .tc main_v12) = val_main_v12 (F := F) x1 x6)
    (h_v52 : W (Proc.devRef .tc main_v52) = val_main_v52 (F := F) x0 x1 x3 x6 x8 x9)
    (h_v112 : W (Proc.devRef .tc main_v112) = val_main_v112 (F := F) x0 x1 x3 x4 x6 x8 x9 x10 x11)
    (h_v113 : W (Proc.devRef .tc main_v113) = val_main_v113 (F := F) x0 x1 x3 x4 x6 x8 x9 x10 x11)
    (h_v134 : W (Proc.devRef .tc main_v134) = val_main_v134 (F := F) x0)
    (h_v137 : W (Proc.devRef .tc main_v137) = val_main_v137 (F := F) x0 x1 x6 x9) :
    after (L10 (F := F)) W (Proc.devRef .tc main_arg0) = x0
      ∧ after (L10 (F := F)) W (Proc.devRef .tc main_arg1) = x1
      ∧ after (L10 (F := F)) W (Proc.devRef .tc main_arg2) = x2
      ∧ after (L10 (F := F)) W (Proc.devRef .tc main_arg3) = x3
      ∧ after (L10 (F := F)) W (Proc.devRef .tc main_arg4) = x4
      ∧ after (L10 (F := F)) W (Proc.devRef .tc main_arg5) = x5
      ∧ after (L10 (F := F)) W (Proc.devRef .tc main_arg6) = x6
      ∧ after (L10 (F := F)) W (Proc.devRef .tc main_arg7) = x7
      ∧ after (L10 (F := F)) W (Proc.devRef .tc main_arg8) = x8
      ∧ after (L10 (F := F)) W (Proc.devRef .tc main_arg9) = x9
      ∧ after (L10 (F := F)) W (Proc.devRef .tc main_arg10) = x10
      ∧ after (L10 (F := F)) W (Proc.devRef .tc main_arg11) = x11
      ∧ after (L10 (F := F)) W (Proc.devRef .tc main_v1) = val_main_v1 (F := F) x0
      ∧ after (L10 (F := F)) W (Proc.devRef .tc main_v12) = val_main_v12 (F := F) x1 x6
      ∧ after (L10 (F := F)) W (Proc.devRef .tc main_v52) = val_main_v52 (F := F) x0 x1 x3 x6 x8 x9
      ∧ after (L10 (F := F)) W (Proc.devRef .tc main_v112) = val_main_v112 (F := F) x0 x1 x3 x4 x6 x8 x9 x10 x11
      ∧ after (L10 (F := F)) W (Proc.devRef .tc main_v152) = val_main_v152 (F := F) x0 x1 x3 x4 x6 x8 x9 x10 x11 := by
  unfold L10
  refine ⟨?_, ?_, ?_, ?_, ?_, ?_, ?_, ?_, ?_, ?_, ?_, ?_, ?_, ?_, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact a9
  · after_results_simp; exact a10
  · after_results_simp; exact a11
  · after_results_simp; exact h_v1
  · after_results_simp; exact h_v12
  · after_results_simp; exact h_v52
  · after_results_simp; exact h_v112
  · after_results_simp
    rw [h_v113, h_v137, h_v134]
    rfl

end Cert.ReferenceIdeal.RefValue

end
-- ==== Proof.RefStage11.lean ====
/-
  The reference program's operations at positions 190 to 218 of its list (the buffers main_v153 … main_v175).

  From any contents that hold the arguments and the earlier stages' values at their buffers, the contents after these
  operations hold the arguments and the values of the stages that are read later.
-/
import proofs.«101814_j47201690583535_1_alg».proof.Proof.RefRead

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The operations writing main_v153 … main_v175 (positions 190 to 218 of the reference's list). -/
def L11 : List (HloOp τ sig (Elt F)) :=
  [
    reshape main_v12 main_v153 rfl shapeCasts_S32x1x2048_S8x1x4x1x2048,
    unary main_v153 main_v154 (broadcastInDim S8x4x4x1x2048 ![0, 1, 2, 3, 4] bcast_S8x1x4x1x2048_S8x4x4x1x2048_0_1_2_3_4 : (⟨S8x1x4x1x2048, .f32⟩ : BufTy).Contents (Elt F) → (⟨S8x4x4x1x2048, .f32⟩ : BufTy).Contents (Elt F)),
    reshape main_v154 main_v155 rfl shapeCasts_S8x4x4x1x2048_S32x4x2048,
    reshape main_v1 main_v156 rfl shapeCasts_S32x288x2048_S8x1x4x288x2048,
    unary main_v156 main_v157 (broadcastInDim S8x4x4x288x2048 ![0, 1, 2, 3, 4] bcast_S8x1x4x288x2048_S8x4x4x288x2048_0_1_2_3_4 : (⟨S8x1x4x288x2048, .f32⟩ : BufTy).Contents (Elt F) → (⟨S8x4x4x288x2048, .f32⟩ : BufTy).Contents (Elt F)),
    reshape main_v157 main_v158 rfl shapeCasts_S8x4x4x288x2048_S32x1152x2048,
    unary main_arg2 main_v159 ((extui 32 · natLt_1_32) : (⟨S32, .i1⟩ : BufTy).Contents (Elt F) → (⟨S32, .i32⟩ : BufTy).Contents (Elt F)),
    TRef.nullary (TRef.of (T := ⟨S32, .i32⟩) main_call0_v0) (iotaInDim S32 32 0),
    TRef.binary (TRef.of (T := ⟨S32, .i32⟩) main_v159) (TRef.of (T := ⟨S32, .i32⟩) main_call0_v0) (TRef.of (T := ⟨S32, .i32⟩) main_call0_v1_0) (fun x y => (Host.sort2 S32 0 comparator_i32_i32_d0 x y).1),
    TRef.binary (TRef.of (T := ⟨S32, .i32⟩) main_v159) (TRef.of (T := ⟨S32, .i32⟩) main_call0_v0) (TRef.of (T := ⟨S32, .i32⟩) main_v160) (fun x y => (Host.sort2 S32 0 comparator_i32_i32_d0 x y).2),
    nullary main_c_35 (constantI S_ 32 0#32),
    unary main_c_35 main_v161 (broadcastInDim S32 ![] bcast_S_S32 : (⟨S_, .i32⟩ : BufTy).Contents (Elt F) → (⟨S32, .i32⟩ : BufTy).Contents (Elt F)),
    binary main_v160 main_v161 main_v162 (cmpi .slt : (⟨S32, .i32⟩ : BufTy).Contents (Elt F) → (⟨S32, .i32⟩ : BufTy).Contents (Elt F) → (⟨S32, .i1⟩ : BufTy).Contents (Elt F)),
    nullary main_c_36 (constantI S_ 32 32#32),
    unary main_c_36 main_v163 (broadcastInDim S32 ![] bcast_S_S32 : (⟨S_, .i32⟩ : BufTy).Contents (Elt F) → (⟨S32, .i32⟩ : BufTy).Contents (Elt F)),
    binary main_v160 main_v163 main_v164 (addi : (⟨S32, .i32⟩ : BufTy).Contents (Elt F) → (⟨S32, .i32⟩ : BufTy).Contents (Elt F) → (⟨S32, .i32⟩ : BufTy).Contents (Elt F)),
    ternary main_v162 main_v164 main_v160 main_v165 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v165 main_v166 (broadcastInDim S32x1 ![0] bcast_S32_S32x1_0 : (⟨S32, .i32⟩ : BufTy).Contents (Elt F) → (⟨S32x1, .i32⟩ : BufTy).Contents (Elt F)),
    binary main_v155 main_v166 main_v167 ((fun x i => Host.gather gather_S32x4x2048_S32x1_S32x4x2048_12_0_n_n_0_1_142048 x i) : (⟨S32x4x2048, .f32⟩ : BufTy).Contents (Elt F) → (⟨S32x1, .i32⟩ : BufTy).Contents (Elt F) → (⟨S32x4x2048, .f32⟩ : BufTy).Contents (Elt F)),
    nullary main_c_37 (constantI S_ 32 0#32),
    unary main_c_37 main_v168 (broadcastInDim S32 ![] bcast_S_S32 : (⟨S_, .i32⟩ : BufTy).Contents (Elt F) → (⟨S32, .i32⟩ : BufTy).Contents (Elt F)),
    binary main_v160 main_v168 main_v169 (cmpi .slt : (⟨S32, .i32⟩ : BufTy).Contents (Elt F) → (⟨S32, .i32⟩ : BufTy).Contents (Elt F) → (⟨S32, .i1⟩ : BufTy).Contents (Elt F)),
    nullary main_c_38 (constantI S_ 32 32#32),
    unary main_c_38 main_v170 (broadcastInDim S32 ![] bcast_S_S32 : (⟨S_, .i32⟩ : BufTy).Contents (Elt F) → (⟨S32, .i32⟩ : BufTy).Contents (Elt F)),
    binary main_v160 main_v170 main_v171 (addi : (⟨S32, .i32⟩ : BufTy).Contents (Elt F) → (⟨S32, .i32⟩ : BufTy).Contents (Elt F) → (⟨S32, .i32⟩ : BufTy).Contents (Elt F)),
    ternary main_v169 main_v171 main_v160 main_v172 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v172 main_v173 (broadcastInDim S32x1 ![0] bcast_S32_S32x1_0 : (⟨S32, .i32⟩ : BufTy).Contents (Elt F) → (⟨S32x1, .i32⟩ : BufTy).Contents (Elt F)),
    binary main_v158 main_v173 main_v174 ((fun x i => Host.gather gather_S32x1152x2048_S32x1_S32x1152x2048_12_0_n_n_0_1_111522048 x i) : (⟨S32x1152x2048, .f32⟩ : BufTy).Contents (Elt F) → (⟨S32x1, .i32⟩ : BufTy).Contents (Elt F) → (⟨S32x1152x2048, .f32⟩ : BufTy).Contents (Elt F)),
    binary main_v112 main_arg8 main_v175 ((fun l r => Host.dotGeneral dot_S32x16x2048_S2048x2048_S32x16x2048_2_1_01_0_n_n none l r) : (⟨S32x16x2048, .f32⟩ : BufTy).Contents (Elt F) → (⟨S2048x2048, .f32⟩ : BufTy).Contents (Elt F) → (⟨S32x16x2048, .f32⟩ : BufTy).Contents (Elt F)) ]

set_option maxHeartbeats 4000000 in
/-- From any contents that hold the arguments and the earlier stages' values at their buffers, the contents after
    these operations hold the arguments and the stages' values that are read later. -/
theorem stage11 (W : Valuation τ sig (Elt F))
    (x0 : (⟨S32x2048x24x12, .f32⟩ : BufTy).Contents (Elt F))
    (x1 : (⟨S32, .i32⟩ : BufTy).Contents (Elt F))
    (x2 : (⟨S32, .i1⟩ : BufTy).Contents (Elt F))
    (x3 : (⟨S1x16x2048, .f32⟩ : BufTy).Contents (Elt F))
    (x4 : (⟨S1x2048x2048, .f32⟩ : BufTy).Contents (Elt F))
    (x5 : (⟨S1x16x1, .f32⟩ : BufTy).Contents (Elt F))
    (x6 : (⟨S6x1x2048, .f32⟩ : BufTy).Contents (Elt F))
    (x7 : (⟨S1x288x2048, .f32⟩ : BufTy).Contents (Elt F))
    (x8 : (⟨S2048x2048, .f32⟩ : BufTy).Contents (Elt F))
    (x9 : (⟨S2048x2048, .f32⟩ : BufTy).Contents (Elt F))
    (x10 : (⟨S2048x2048, .f32⟩ : BufTy).Contents (Elt F))
    (x11 : (⟨S2048x2048, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (a6 : W (Proc.devRef .tc main_arg6) = x6)
    (a7 : W (Proc.devRef .tc main_arg7) = x7)
    (a8 : W (Proc.devRef .tc main_arg8) = x8)
    (a9 : W (Proc.devRef .tc main_arg9) = x9)
    (a10 : W (Proc.devRef .tc main_arg10) = x10)
    (a11 : W (Proc.devRef .tc main_arg11) = x11)
    (h_v1 : W (Proc.devRef .tc main_v1) = val_main_v1 (F := F) x0)
    (h_v12 : W (Proc.devRef .tc main_v12) = val_main_v12 (F := F) x1 x6)
    (h_v52 : W (Proc.devRef .tc main_v52) = val_main_v52 (F := F) x0 x1 x3 x6 x8 x9)
    (h_v112 : W (Proc.devRef .tc main_v112) = val_main_v112 (F := F) x0 x1 x3 x4 x6 x8 x9 x10 x11)
    (h_v152 : W (Proc.devRef .tc main_v152) = val_main_v152 (F := F) x0 x1 x3 x4 x6 x8 x9 x10 x11) :
    after (L11 (F := F)) W (Proc.devRef .tc main_arg0) = x0
      ∧ after (L11 (F := F)) W (Proc.devRef .tc main_arg1) = x1
      ∧ after (L11 (F := F)) W (Proc.devRef .tc main_arg2) = x2
      ∧ after (L11 (F := F)) W (Proc.devRef .tc main_arg3) = x3
      ∧ after (L11 (F := F)) W (Proc.devRef .tc main_arg4) = x4
      ∧ after (L11 (F := F)) W (Proc.devRef .tc main_arg5) = x5
      ∧ after (L11 (F := F)) W (Proc.devRef .tc main_arg6) = x6
      ∧ after (L11 (F := F)) W (Proc.devRef .tc main_arg7) = x7
      ∧ after (L11 (F := F)) W (Proc.devRef .tc main_arg8) = x8
      ∧ after (L11 (F := F)) W (Proc.devRef .tc main_arg9) = x9
      ∧ after (L11 (F := F)) W (Proc.devRef .tc main_arg10) = x10
      ∧ after (L11 (F := F)) W (Proc.devRef .tc main_arg11) = x11
      ∧ after (L11 (F := F)) W (Proc.devRef .tc main_v52) = val_main_v52 (F := F) x0 x1 x3 x6 x8 x9
      ∧ after (L11 (F := F)) W (Proc.devRef .tc main_v112) = val_main_v112 (F := F) x0 x1 x3 x4 x6 x8 x9 x10 x11
      ∧ after (L11 (F := F)) W (Proc.devRef .tc main_v152) = val_main_v152 (F := F) x0 x1 x3 x4 x6 x8 x9 x10 x11
      ∧ after (L11 (F := F)) W (Proc.devRef .tc main_v167) = val_main_v167 (F := F) x1 x2 x6
      ∧ after (L11 (F := F)) W (Proc.devRef .tc main_v174) = val_main_v174 (F := F) x0 x2
      ∧ after (L11 (F := F)) W (Proc.devRef .tc main_v175) = val_main_v175 (F := F) x0 x1 x3 x4 x6 x8 x9 x10 x11 := by
  unfold L11
  refine ⟨?_, ?_, ?_, ?_, ?_, ?_, ?_, ?_, ?_, ?_, ?_, ?_, ?_, ?_, ?_, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact a9
  · after_results_simp; exact a10
  · after_results_simp; exact a11
  · after_results_simp; exact h_v52
  · after_results_simp; exact h_v112
  · after_results_simp; exact h_v152
  · after_results_simp
    rw [h_v12, a2]
    rfl
  · after_results_simp
    rw [h_v1, a2]
    rfl
  · after_results_simp
    rw [h_v112, a8]
    rfl

end Cert.ReferenceIdeal.RefValue

end
-- ==== Proof.RefStage12.lean ====
/-
  The reference program's operations at positions 219 to 245 of its list (the buffers main_v176 … main_v197).

  From any contents that hold the arguments and the earlier stages' values at their buffers, the contents after these
  operations hold the arguments and the values of the stages that are read later.
-/
import proofs.«101814_j47201690583535_1_alg».proof.Proof.RefRead

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The operations writing main_v176 … main_v197 (positions 219 to 245 of the reference's list). -/
def L12 : List (HloOp τ sig (Elt F)) :=
  [
    reshape main_v174 main_v176 rfl shapeCasts_S32x1152x2048_S128x288x2048,
    binary main_v176 main_v176 main_v177 (mulf : (⟨S128x288x2048, .f32⟩ : BufTy).Contents (Elt F) → (⟨S128x288x2048, .f32⟩ : BufTy).Contents (Elt F) → (⟨S128x288x2048, .f32⟩ : BufTy).Contents (Elt F)),
    nullary main_cst_39 (constant S_ .f32 0x00000000#32),
    binary main_v177 main_cst_39 main_v178 ((fun x v => Host.reduceAdd x v reducesTo_S128x288x2048_S128x288_d2 h_S_) : (⟨S128x288x2048, .f32⟩ : BufTy).Contents (Elt F) → (⟨S_, .f32⟩ : BufTy).Contents (Elt F) → (⟨S128x288, .f32⟩ : BufTy).Contents (Elt F)),
    unary main_v178 main_v179 (broadcastInDim S128x288x1 ![0, 1] bcast_S128x288_S128x288x1_0_1 : (⟨S128x288, .f32⟩ : BufTy).Contents (Elt F) → (⟨S128x288x1, .f32⟩ : BufTy).Contents (Elt F)),
    unary main_v179 main_v180 (Host.sqrt : (⟨S128x288x1, .f32⟩ : BufTy).Contents (Elt F) → (⟨S128x288x1, .f32⟩ : BufTy).Contents (Elt F)),
    nullary main_cst_40 (constant S_ .f32 0x2B8CBCCC#32),
    unary main_cst_40 main_v181 (broadcastInDim S128x288x1 ![] bcast_S_S128x288x1 : (⟨S_, .f32⟩ : BufTy).Contents (Elt F) → (⟨S128x288x1, .f32⟩ : BufTy).Contents (Elt F)),
    binary main_v180 main_v181 main_v182 (maximumf : (⟨S128x288x1, .f32⟩ : BufTy).Contents (Elt F) → (⟨S128x288x1, .f32⟩ : BufTy).Contents (Elt F) → (⟨S128x288x1, .f32⟩ : BufTy).Contents (Elt F)),
    unary main_v182 main_v183 (broadcastInDim S128x288x2048 ![0, 1, 2] bcast_S128x288x1_S128x288x2048_0_1_2 : (⟨S128x288x1, .f32⟩ : BufTy).Contents (Elt F) → (⟨S128x288x2048, .f32⟩ : BufTy).Contents (Elt F)),
    binary main_v176 main_v183 main_v184 (Host.divf : (⟨S128x288x2048, .f32⟩ : BufTy).Contents (Elt F) → (⟨S128x288x2048, .f32⟩ : BufTy).Contents (Elt F) → (⟨S128x288x2048, .f32⟩ : BufTy).Contents (Elt F)),
    binary main_v184 main_v184 main_v185 ((fun l r => Host.dotGeneral dot_S128x288x2048_S128x288x2048_S128x288x288_2_2_1_1_0_0 none l r) : (⟨S128x288x2048, .f32⟩ : BufTy).Contents (Elt F) → (⟨S128x288x2048, .f32⟩ : BufTy).Contents (Elt F) → (⟨S128x288x288, .f32⟩ : BufTy).Contents (Elt F)),
    nullary main_cst_41 (constant S_ .f32 0xFF800000#32),
    binary main_v185 main_cst_41 main_v186 ((fun x v => Host.reduce FloatOps.maximumf x v reducesTo_S128x288x288_S128x288_d2 h_S_) : (⟨S128x288x288, .f32⟩ : BufTy).Contents (Elt F) → (⟨S_, .f32⟩ : BufTy).Contents (Elt F) → (⟨S128x288, .f32⟩ : BufTy).Contents (Elt F)),
    nullary main_cst_42 (constant S_ .f32 0xFF800000#32),
    unary main_cst_42 main_v187 (broadcastInDim S128x288 ![] bcast_S_S128x288 : (⟨S_, .f32⟩ : BufTy).Contents (Elt F) → (⟨S128x288, .f32⟩ : BufTy).Contents (Elt F)),
    binary main_v187 main_v186 main_v188 (maximumf : (⟨S128x288, .f32⟩ : BufTy).Contents (Elt F) → (⟨S128x288, .f32⟩ : BufTy).Contents (Elt F) → (⟨S128x288, .f32⟩ : BufTy).Contents (Elt F)),
    unary main_v188 main_v189 (broadcastInDim S128x288x1 ![0, 1] bcast_S128x288_S128x288x1_0_1 : (⟨S128x288, .f32⟩ : BufTy).Contents (Elt F) → (⟨S128x288x1, .f32⟩ : BufTy).Contents (Elt F)),
    unary main_v189 main_v190 (broadcastInDim S128x288x288 ![0, 1, 2] bcast_S128x288x1_S128x288x288_0_1_2 : (⟨S128x288x1, .f32⟩ : BufTy).Contents (Elt F) → (⟨S128x288x288, .f32⟩ : BufTy).Contents (Elt F)),
    binary main_v185 main_v190 main_v191 (subf : (⟨S128x288x288, .f32⟩ : BufTy).Contents (Elt F) → (⟨S128x288x288, .f32⟩ : BufTy).Contents (Elt F) → (⟨S128x288x288, .f32⟩ : BufTy).Contents (Elt F)),
    unary main_v191 main_v192 (Host.exp : (⟨S128x288x288, .f32⟩ : BufTy).Contents (Elt F) → (⟨S128x288x288, .f32⟩ : BufTy).Contents (Elt F)),
    nullary main_cst_43 (constant S_ .f32 0x00000000#32),
    binary main_v192 main_cst_43 main_v193 ((fun x v => Host.reduceAdd x v reducesTo_S128x288x288_S128x288_d2 h_S_) : (⟨S128x288x288, .f32⟩ : BufTy).Contents (Elt F) → (⟨S_, .f32⟩ : BufTy).Contents (Elt F) → (⟨S128x288, .f32⟩ : BufTy).Contents (Elt F)),
    unary main_v193 main_v194 (broadcastInDim S128x288x1 ![0, 1] bcast_S128x288_S128x288x1_0_1 : (⟨S128x288, .f32⟩ : BufTy).Contents (Elt F) → (⟨S128x288x1, .f32⟩ : BufTy).Contents (Elt F)),
    unary main_v194 main_v195 (broadcastInDim S128x288x288 ![0, 1, 2] bcast_S128x288x1_S128x288x288_0_1_2 : (⟨S128x288x1, .f32⟩ : BufTy).Contents (Elt F) → (⟨S128x288x288, .f32⟩ : BufTy).Contents (Elt F)),
    binary main_v192 main_v195 main_v196 (Host.divf : (⟨S128x288x288, .f32⟩ : BufTy).Contents (Elt F) → (⟨S128x288x288, .f32⟩ : BufTy).Contents (Elt F) → (⟨S128x288x288, .f32⟩ : BufTy).Contents (Elt F)),
    binary main_v196 main_v176 main_v197 ((fun l r => Host.dotGeneral dot_S128x288x288_S128x288x2048_S128x288x2048_2_1_1_2_0_0 none l r) : (⟨S128x288x288, .f32⟩ : BufTy).Contents (Elt F) → (⟨S128x288x2048, .f32⟩ : BufTy).Contents (Elt F) → (⟨S128x288x2048, .f32⟩ : BufTy).Contents (Elt F)) ]

set_option maxHeartbeats 4000000 in
/-- From any contents that hold the arguments and the earlier stages' values at their buffers, the contents after
    these operations hold the arguments and the stages' values that are read later. -/
theorem stage12 (W : Valuation τ sig (Elt F))
    (x0 : (⟨S32x2048x24x12, .f32⟩ : BufTy).Contents (Elt F))
    (x1 : (⟨S32, .i32⟩ : BufTy).Contents (Elt F))
    (x2 : (⟨S32, .i1⟩ : BufTy).Contents (Elt F))
    (x3 : (⟨S1x16x2048, .f32⟩ : BufTy).Contents (Elt F))
    (x4 : (⟨S1x2048x2048, .f32⟩ : BufTy).Contents (Elt F))
    (x5 : (⟨S1x16x1, .f32⟩ : BufTy).Contents (Elt F))
    (x6 : (⟨S6x1x2048, .f32⟩ : BufTy).Contents (Elt F))
    (x7 : (⟨S1x288x2048, .f32⟩ : BufTy).Contents (Elt F))
    (x8 : (⟨S2048x2048, .f32⟩ : BufTy).Contents (Elt F))
    (x9 : (⟨S2048x2048, .f32⟩ : BufTy).Contents (Elt F))
    (x10 : (⟨S2048x2048, .f32⟩ : BufTy).Contents (Elt F))
    (x11 : (⟨S2048x2048, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (a6 : W (Proc.devRef .tc main_arg6) = x6)
    (a7 : W (Proc.devRef .tc main_arg7) = x7)
    (a8 : W (Proc.devRef .tc main_arg8) = x8)
    (a9 : W (Proc.devRef .tc main_arg9) = x9)
    (a10 : W (Proc.devRef .tc main_arg10) = x10)
    (a11 : W (Proc.devRef .tc main_arg11) = x11)
    (h_v52 : W (Proc.devRef .tc main_v52) = val_main_v52 (F := F) x0 x1 x3 x6 x8 x9)
    (h_v112 : W (Proc.devRef .tc main_v112) = val_main_v112 (F := F) x0 x1 x3 x4 x6 x8 x9 x10 x11)
    (h_v152 : W (Proc.devRef .tc main_v152) = val_main_v152 (F := F) x0 x1 x3 x4 x6 x8 x9 x10 x11)
    (h_v167 : W (Proc.devRef .tc main_v167) = val_main_v167 (F := F) x1 x2 x6)
    (h_v174 : W (Proc.devRef .tc main_v174) = val_main_v174 (F := F) x0 x2)
    (h_v175 : W (Proc.devRef .tc main_v175) = val_main_v175 (F := F) x0 x1 x3 x4 x6 x8 x9 x10 x11) :
    after (L12 (F := F)) W (Proc.devRef .tc main_arg0) = x0
      ∧ after (L12 (F := F)) W (Proc.devRef .tc main_arg1) = x1
      ∧ after (L12 (F := F)) W (Proc.devRef .tc main_arg2) = x2
      ∧ after (L12 (F := F)) W (Proc.devRef .tc main_arg3) = x3
      ∧ after (L12 (F := F)) W (Proc.devRef .tc main_arg4) = x4
      ∧ after (L12 (F := F)) W (Proc.devRef .tc main_arg5) = x5
      ∧ after (L12 (F := F)) W (Proc.devRef .tc main_arg6) = x6
      ∧ after (L12 (F := F)) W (Proc.devRef .tc main_arg7) = x7
      ∧ after (L12 (F := F)) W (Proc.devRef .tc main_arg8) = x8
      ∧ after (L12 (F := F)) W (Proc.devRef .tc main_arg9) = x9
      ∧ after (L12 (F := F)) W (Proc.devRef .tc main_arg10) = x10
      ∧ after (L12 (F := F)) W (Proc.devRef .tc main_arg11) = x11
      ∧ after (L12 (F := F)) W (Proc.devRef .tc main_v52) = val_main_v52 (F := F) x0 x1 x3 x6 x8 x9
      ∧ after (L12 (F := F)) W (Proc.devRef .tc main_v112) = val_main_v112 (F := F) x0 x1 x3 x4 x6 x8 x9 x10 x11
      ∧ after (L12 (F := F)) W (Proc.devRef .tc main_v152) = val_main_v152 (F := F) x0 x1 x3 x4 x6 x8 x9 x10 x11
      ∧ after (L12 (F := F)) W (Proc.devRef .tc main_v167) = val_main_v167 (F := F) x1 x2 x6
      ∧ after (L12 (F := F)) W (Proc.devRef .tc main_v175) = val_main_v175 (F := F) x0 x1 x3 x4 x6 x8 x9 x10 x11
      ∧ after (L12 (F := F)) W (Proc.devRef .tc main_v197) = val_main_v197 (F := F) x0 x2 := by
  unfold L12
  refine ⟨?_, ?_, ?_, ?_, ?_, ?_, ?_, ?_, ?_, ?_, ?_, ?_, ?_, ?_, ?_, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact a9
  · after_results_simp; exact a10
  · after_results_simp; exact a11
  · after_results_simp; exact h_v52
  · after_results_simp; exact h_v112
  · after_results_simp; exact h_v152
  · after_results_simp; exact h_v167
  · after_results_simp; exact h_v175
  · after_results_simp
    rw [h_v174]
    rfl

end Cert.ReferenceIdeal.RefValue

end
-- ==== Proof.RefStage13.lean ====
/-
  The reference program's operations at positions 246 to 251 of its list (the buffers main_v198 … main_v203).

  From any contents that hold the arguments and the earlier stages' values at their buffers, the contents after these
  operations hold the arguments and the values of the stages that are read later.
-/
import proofs.«101814_j47201690583535_1_alg».proof.Proof.RefRead

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The operations writing main_v198 … main_v203 (positions 246 to 251 of the reference's list). -/
def L13 : List (HloOp τ sig (Elt F)) :=
  [
    reshape main_v167 main_v198 rfl shapeCasts_S32x4x2048_S128x1x2048,
    unary main_v198 main_v199 (broadcastInDim S128x288x2048 ![0, 1, 2] bcast_S128x1x2048_S128x288x2048_0_1_2 : (⟨S128x1x2048, .f32⟩ : BufTy).Contents (Elt F) → (⟨S128x288x2048, .f32⟩ : BufTy).Contents (Elt F)),
    binary main_v197 main_v199 main_v200 (addf : (⟨S128x288x2048, .f32⟩ : BufTy).Contents (Elt F) → (⟨S128x288x2048, .f32⟩ : BufTy).Contents (Elt F) → (⟨S128x288x2048, .f32⟩ : BufTy).Contents (Elt F)),
    reshape main_v197 main_v201 rfl shapeCasts_S128x288x2048_S32x1152x2048,
    reshape main_v200 main_v202 rfl shapeCasts_S128x288x2048_S32x1152x2048,
    binary main_v202 main_arg9 main_v203 ((fun l r => Host.dotGeneral dot_S32x1152x2048_S2048x2048_S32x1152x2048_2_1_01_0_n_n none l r) : (⟨S32x1152x2048, .f32⟩ : BufTy).Contents (Elt F) → (⟨S2048x2048, .f32⟩ : BufTy).Contents (Elt F) → (⟨S32x1152x2048, .f32⟩ : BufTy).Contents (Elt F)) ]

/-- From any contents that hold the arguments and the earlier stages' values at their buffers, the contents after
    these operations hold the arguments and the stages' values that are read later. -/
theorem stage13 (W : Valuation τ sig (Elt F))
    (x0 : (⟨S32x2048x24x12, .f32⟩ : BufTy).Contents (Elt F))
    (x1 : (⟨S32, .i32⟩ : BufTy).Contents (Elt F))
    (x2 : (⟨S32, .i1⟩ : BufTy).Contents (Elt F))
    (x3 : (⟨S1x16x2048, .f32⟩ : BufTy).Contents (Elt F))
    (x4 : (⟨S1x2048x2048, .f32⟩ : BufTy).Contents (Elt F))
    (x5 : (⟨S1x16x1, .f32⟩ : BufTy).Contents (Elt F))
    (x6 : (⟨S6x1x2048, .f32⟩ : BufTy).Contents (Elt F))
    (x7 : (⟨S1x288x2048, .f32⟩ : BufTy).Contents (Elt F))
    (x8 : (⟨S2048x2048, .f32⟩ : BufTy).Contents (Elt F))
    (x9 : (⟨S2048x2048, .f32⟩ : BufTy).Contents (Elt F))
    (x10 : (⟨S2048x2048, .f32⟩ : BufTy).Contents (Elt F))
    (x11 : (⟨S2048x2048, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (a6 : W (Proc.devRef .tc main_arg6) = x6)
    (a7 : W (Proc.devRef .tc main_arg7) = x7)
    (a8 : W (Proc.devRef .tc main_arg8) = x8)
    (a9 : W (Proc.devRef .tc main_arg9) = x9)
    (a10 : W (Proc.devRef .tc main_arg10) = x10)
    (a11 : W (Proc.devRef .tc main_arg11) = x11)
    (h_v52 : W (Proc.devRef .tc main_v52) = val_main_v52 (F := F) x0 x1 x3 x6 x8 x9)
    (h_v112 : W (Proc.devRef .tc main_v112) = val_main_v112 (F := F) x0 x1 x3 x4 x6 x8 x9 x10 x11)
    (h_v152 : W (Proc.devRef .tc main_v152) = val_main_v152 (F := F) x0 x1 x3 x4 x6 x8 x9 x10 x11)
    (h_v167 : W (Proc.devRef .tc main_v167) = val_main_v167 (F := F) x1 x2 x6)
    (h_v175 : W (Proc.devRef .tc main_v175) = val_main_v175 (F := F) x0 x1 x3 x4 x6 x8 x9 x10 x11)
    (h_v197 : W (Proc.devRef .tc main_v197) = val_main_v197 (F := F) x0 x2) :
    after (L13 (F := F)) W (Proc.devRef .tc main_arg0) = x0
      ∧ after (L13 (F := F)) W (Proc.devRef .tc main_arg1) = x1
      ∧ after (L13 (F := F)) W (Proc.devRef .tc main_arg2) = x2
      ∧ after (L13 (F := F)) W (Proc.devRef .tc main_arg3) = x3
      ∧ after (L13 (F := F)) W (Proc.devRef .tc main_arg4) = x4
      ∧ after (L13 (F := F)) W (Proc.devRef .tc main_arg5) = x5
      ∧ after (L13 (F := F)) W (Proc.devRef .tc main_arg6) = x6
      ∧ after (L13 (F := F)) W (Proc.devRef .tc main_arg7) = x7
      ∧ after (L13 (F := F)) W (Proc.devRef .tc main_arg8) = x8
      ∧ after (L13 (F := F)) W (Proc.devRef .tc main_arg9) = x9
      ∧ after (L13 (F := F)) W (Proc.devRef .tc main_arg10) = x10
      ∧ after (L13 (F := F)) W (Proc.devRef .tc main_arg11) = x11
      ∧ after (L13 (F := F)) W (Proc.devRef .tc main_v52) = val_main_v52 (F := F) x0 x1 x3 x6 x8 x9
      ∧ after (L13 (F := F)) W (Proc.devRef .tc main_v112) = val_main_v112 (F := F) x0 x1 x3 x4 x6 x8 x9 x10 x11
      ∧ after (L13 (F := F)) W (Proc.devRef .tc main_v152) = val_main_v152 (F := F) x0 x1 x3 x4 x6 x8 x9 x10 x11
      ∧ after (L13 (F := F)) W (Proc.devRef .tc main_v175) = val_main_v175 (F := F) x0 x1 x3 x4 x6 x8 x9 x10 x11
      ∧ after (L13 (F := F)) W (Proc.devRef .tc main_v201) = val_main_v201 (F := F) x0 x2
      ∧ after (L13 (F := F)) W (Proc.devRef .tc main_v203) = val_main_v203 (F := F) x0 x1 x2 x6 x9 := by
  unfold L13
  refine ⟨?_, ?_, ?_, ?_, ?_, ?_, ?_, ?_, ?_, ?_, ?_, ?_, ?_, ?_, ?_, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact a9
  · after_results_simp; exact a10
  · after_results_simp; exact a11
  · after_results_simp; exact h_v52
  · after_results_simp; exact h_v112
  · after_results_simp; exact h_v152
  · after_results_simp; exact h_v175
  · after_results_simp
    rw [h_v197]
    rfl
  · after_results_simp
    rw [h_v197, h_v167, a9]
    rfl

end Cert.ReferenceIdeal.RefValue

end
-- ==== Proof.RefStage14.lean ====
/-
  The reference program's operations at positions 252 to 270 of its list (the buffers main_v204 … main_v218).

  From any contents that hold the arguments and the earlier stages' values at their buffers, the contents after these
  operations hold the arguments and the values of the stages that are read later.
-/
import proofs.«101814_j47201690583535_1_alg».proof.Proof.RefRead

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The operations writing main_v204 … main_v218 (positions 252 to 270 of the reference's list). -/
def L14 : List (HloOp τ sig (Elt F)) :=
  [
    binary main_v175 main_v203 main_v204 ((fun l r => Host.dotGeneral dot_S32x16x2048_S32x1152x2048_S32x16x1152_2_2_1_1_0_0 none l r) : (⟨S32x16x2048, .f32⟩ : BufTy).Contents (Elt F) → (⟨S32x1152x2048, .f32⟩ : BufTy).Contents (Elt F) → (⟨S32x16x1152, .f32⟩ : BufTy).Contents (Elt F)),
    nullary main_cst_44 (constant S_ .f32 0x3CB504F3#32),
    unary main_cst_44 main_v205 (broadcastInDim S32x16x1152 ![] bcast_S_S32x16x1152 : (⟨S_, .f32⟩ : BufTy).Contents (Elt F) → (⟨S32x16x1152, .f32⟩ : BufTy).Contents (Elt F)),
    binary main_v204 main_v205 main_v206 (mulf : (⟨S32x16x1152, .f32⟩ : BufTy).Contents (Elt F) → (⟨S32x16x1152, .f32⟩ : BufTy).Contents (Elt F) → (⟨S32x16x1152, .f32⟩ : BufTy).Contents (Elt F)),
    nullary main_cst_45 (constant S_ .f32 0xFF800000#32),
    binary main_v206 main_cst_45 main_v207 ((fun x v => Host.reduce FloatOps.maximumf x v reducesTo_S32x16x1152_S32x16_d2 h_S_) : (⟨S32x16x1152, .f32⟩ : BufTy).Contents (Elt F) → (⟨S_, .f32⟩ : BufTy).Contents (Elt F) → (⟨S32x16, .f32⟩ : BufTy).Contents (Elt F)),
    nullary main_cst_46 (constant S_ .f32 0xFF800000#32),
    unary main_cst_46 main_v208 (broadcastInDim S32x16 ![] bcast_S_S32x16 : (⟨S_, .f32⟩ : BufTy).Contents (Elt F) → (⟨S32x16, .f32⟩ : BufTy).Contents (Elt F)),
    binary main_v208 main_v207 main_v209 (maximumf : (⟨S32x16, .f32⟩ : BufTy).Contents (Elt F) → (⟨S32x16, .f32⟩ : BufTy).Contents (Elt F) → (⟨S32x16, .f32⟩ : BufTy).Contents (Elt F)),
    unary main_v209 main_v210 (broadcastInDim S32x16x1 ![0, 1] bcast_S32x16_S32x16x1_0_1 : (⟨S32x16, .f32⟩ : BufTy).Contents (Elt F) → (⟨S32x16x1, .f32⟩ : BufTy).Contents (Elt F)),
    unary main_v210 main_v211 (broadcastInDim S32x16x1152 ![0, 1, 2] bcast_S32x16x1_S32x16x1152_0_1_2 : (⟨S32x16x1, .f32⟩ : BufTy).Contents (Elt F) → (⟨S32x16x1152, .f32⟩ : BufTy).Contents (Elt F)),
    binary main_v206 main_v211 main_v212 (subf : (⟨S32x16x1152, .f32⟩ : BufTy).Contents (Elt F) → (⟨S32x16x1152, .f32⟩ : BufTy).Contents (Elt F) → (⟨S32x16x1152, .f32⟩ : BufTy).Contents (Elt F)),
    unary main_v212 main_v213 (Host.exp : (⟨S32x16x1152, .f32⟩ : BufTy).Contents (Elt F) → (⟨S32x16x1152, .f32⟩ : BufTy).Contents (Elt F)),
    nullary main_cst_47 (constant S_ .f32 0x00000000#32),
    binary main_v213 main_cst_47 main_v214 ((fun x v => Host.reduceAdd x v reducesTo_S32x16x1152_S32x16_d2 h_S_) : (⟨S32x16x1152, .f32⟩ : BufTy).Contents (Elt F) → (⟨S_, .f32⟩ : BufTy).Contents (Elt F) → (⟨S32x16, .f32⟩ : BufTy).Contents (Elt F)),
    unary main_v214 main_v215 (broadcastInDim S32x16x1 ![0, 1] bcast_S32x16_S32x16x1_0_1 : (⟨S32x16, .f32⟩ : BufTy).Contents (Elt F) → (⟨S32x16x1, .f32⟩ : BufTy).Contents (Elt F)),
    unary main_v215 main_v216 (broadcastInDim S32x16x1152 ![0, 1, 2] bcast_S32x16x1_S32x16x1152_0_1_2 : (⟨S32x16x1, .f32⟩ : BufTy).Contents (Elt F) → (⟨S32x16x1152, .f32⟩ : BufTy).Contents (Elt F)),
    binary main_v213 main_v216 main_v217 (Host.divf : (⟨S32x16x1152, .f32⟩ : BufTy).Contents (Elt F) → (⟨S32x16x1152, .f32⟩ : BufTy).Contents (Elt F) → (⟨S32x16x1152, .f32⟩ : BufTy).Contents (Elt F)),
    binary main_v217 main_v201 main_v218 ((fun l r => Host.dotGeneral dot_S32x16x1152_S32x1152x2048_S32x16x2048_2_1_1_2_0_0 none l r) : (⟨S32x16x1152, .f32⟩ : BufTy).Contents (Elt F) → (⟨S32x1152x2048, .f32⟩ : BufTy).Contents (Elt F) → (⟨S32x16x2048, .f32⟩ : BufTy).Contents (Elt F)) ]

/-- From any contents that hold the arguments and the earlier stages' values at their buffers, the contents after
    these operations hold the arguments and the stages' values that are read later. -/
theorem stage14 (W : Valuation τ sig (Elt F))
    (x0 : (⟨S32x2048x24x12, .f32⟩ : BufTy).Contents (Elt F))
    (x1 : (⟨S32, .i32⟩ : BufTy).Contents (Elt F))
    (x2 : (⟨S32, .i1⟩ : BufTy).Contents (Elt F))
    (x3 : (⟨S1x16x2048, .f32⟩ : BufTy).Contents (Elt F))
    (x4 : (⟨S1x2048x2048, .f32⟩ : BufTy).Contents (Elt F))
    (x5 : (⟨S1x16x1, .f32⟩ : BufTy).Contents (Elt F))
    (x6 : (⟨S6x1x2048, .f32⟩ : BufTy).Contents (Elt F))
    (x7 : (⟨S1x288x2048, .f32⟩ : BufTy).Contents (Elt F))
    (x8 : (⟨S2048x2048, .f32⟩ : BufTy).Contents (Elt F))
    (x9 : (⟨S2048x2048, .f32⟩ : BufTy).Contents (Elt F))
    (x10 : (⟨S2048x2048, .f32⟩ : BufTy).Contents (Elt F))
    (x11 : (⟨S2048x2048, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (a6 : W (Proc.devRef .tc main_arg6) = x6)
    (a7 : W (Proc.devRef .tc main_arg7) = x7)
    (a8 : W (Proc.devRef .tc main_arg8) = x8)
    (a9 : W (Proc.devRef .tc main_arg9) = x9)
    (a10 : W (Proc.devRef .tc main_arg10) = x10)
    (a11 : W (Proc.devRef .tc main_arg11) = x11)
    (h_v52 : W (Proc.devRef .tc main_v52) = val_main_v52 (F := F) x0 x1 x3 x6 x8 x9)
    (h_v112 : W (Proc.devRef .tc main_v112) = val_main_v112 (F := F) x0 x1 x3 x4 x6 x8 x9 x10 x11)
    (h_v152 : W (Proc.devRef .tc main_v152) = val_main_v152 (F := F) x0 x1 x3 x4 x6 x8 x9 x10 x11)
    (h_v175 : W (Proc.devRef .tc main_v175) = val_main_v175 (F := F) x0 x1 x3 x4 x6 x8 x9 x10 x11)
    (h_v201 : W (Proc.devRef .tc main_v201) = val_main_v201 (F := F) x0 x2)
    (h_v203 : W (Proc.devRef .tc main_v203) = val_main_v203 (F := F) x0 x1 x2 x6 x9) :
    after (L14 (F := F)) W (Proc.devRef .tc main_arg0) = x0
      ∧ after (L14 (F := F)) W (Proc.devRef .tc main_arg1) = x1
      ∧ after (L14 (F := F)) W (Proc.devRef .tc main_arg2) = x2
      ∧ after (L14 (F := F)) W (Proc.devRef .tc main_arg3) = x3
      ∧ after (L14 (F := F)) W (Proc.devRef .tc main_arg4) = x4
      ∧ after (L14 (F := F)) W (Proc.devRef .tc main_arg5) = x5
      ∧ after (L14 (F := F)) W (Proc.devRef .tc main_arg6) = x6
      ∧ after (L14 (F := F)) W (Proc.devRef .tc main_arg7) = x7
      ∧ after (L14 (F := F)) W (Proc.devRef .tc main_arg8) = x8
      ∧ after (L14 (F := F)) W (Proc.devRef .tc main_arg9) = x9
      ∧ after (L14 (F := F)) W (Proc.devRef .tc main_arg10) = x10
      ∧ after (L14 (F := F)) W (Proc.devRef .tc main_arg11) = x11
      ∧ after (L14 (F := F)) W (Proc.devRef .tc main_v52) = val_main_v52 (F := F) x0 x1 x3 x6 x8 x9
      ∧ after (L14 (F := F)) W (Proc.devRef .tc main_v112) = val_main_v112 (F := F) x0 x1 x3 x4 x6 x8 x9 x10 x11
      ∧ after (L14 (F := F)) W (Proc.devRef .tc main_v152) = val_main_v152 (F := F) x0 x1 x3 x4 x6 x8 x9 x10 x11
      ∧ after (L14 (F := F)) W (Proc.devRef .tc main_v218) = val_main_v218 (F := F) x0 x1 x2 x3 x4 x6 x8 x9 x10 x11 := by
  unfold L14
  refine ⟨?_, ?_, ?_, ?_, ?_, ?_, ?_, ?_, ?_, ?_, ?_, ?_, ?_, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact a9
  · after_results_simp; exact a10
  · after_results_simp; exact a11
  · after_results_simp; exact h_v52
  · after_results_simp; exact h_v112
  · after_results_simp; exact h_v152
  · after_results_simp
    rw [h_v175, h_v203, h_v201]
    rfl

end Cert.ReferenceIdeal.RefValue

end
-- ==== Proof.RefStage15.lean ====
/-
  The reference program's operations at positions 271 to 286 of its list (the buffers main_cst_48 … main_v231).

  From any contents that hold the arguments and the earlier stages' values at their buffers, the contents after these
  operations hold the arguments and the values of the stages that are read later.
-/
import proofs.«101814_j47201690583535_1_alg».proof.Proof.RefRead

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The operations writing main_cst_48 … main_v231 (positions 271 to 286 of the reference's list). -/
def L15 : List (HloOp τ sig (Elt F)) :=
  [
    nullary main_cst_48 (constant S_ .f32 0xFF800000#32),
    binary main_arg5 main_cst_48 main_v219 ((fun x v => Host.reduce FloatOps.maximumf x v reducesTo_S1x16x1_S1x1_d1 h_S_) : (⟨S1x16x1, .f32⟩ : BufTy).Contents (Elt F) → (⟨S_, .f32⟩ : BufTy).Contents (Elt F) → (⟨S1x1, .f32⟩ : BufTy).Contents (Elt F)),
    nullary main_cst_49 (constant S_ .f32 0xFF800000#32),
    unary main_cst_49 main_v220 (broadcastInDim S1x1 ![] bcast_S_S1x1 : (⟨S_, .f32⟩ : BufTy).Contents (Elt F) → (⟨S1x1, .f32⟩ : BufTy).Contents (Elt F)),
    binary main_v220 main_v219 main_v221 (maximumf : (⟨S1x1, .f32⟩ : BufTy).Contents (Elt F) → (⟨S1x1, .f32⟩ : BufTy).Contents (Elt F) → (⟨S1x1, .f32⟩ : BufTy).Contents (Elt F)),
    unary main_v221 main_v222 (broadcastInDim S1x1x1 ![0, 2] bcast_S1x1_S1x1x1_0_2 : (⟨S1x1, .f32⟩ : BufTy).Contents (Elt F) → (⟨S1x1x1, .f32⟩ : BufTy).Contents (Elt F)),
    unary main_v222 main_v223 (broadcastInDim S1x16x1 ![0, 1, 2] bcast_S1x1x1_S1x16x1_0_1_2 : (⟨S1x1x1, .f32⟩ : BufTy).Contents (Elt F) → (⟨S1x16x1, .f32⟩ : BufTy).Contents (Elt F)),
    binary main_arg5 main_v223 main_v224 (subf : (⟨S1x16x1, .f32⟩ : BufTy).Contents (Elt F) → (⟨S1x16x1, .f32⟩ : BufTy).Contents (Elt F) → (⟨S1x16x1, .f32⟩ : BufTy).Contents (Elt F)),
    unary main_v224 main_v225 (Host.exp : (⟨S1x16x1, .f32⟩ : BufTy).Contents (Elt F) → (⟨S1x16x1, .f32⟩ : BufTy).Contents (Elt F)),
    nullary main_cst_50 (constant S_ .f32 0x00000000#32),
    binary main_v225 main_cst_50 main_v226 ((fun x v => Host.reduceAdd x v reducesTo_S1x16x1_S1x1_d1 h_S_) : (⟨S1x16x1, .f32⟩ : BufTy).Contents (Elt F) → (⟨S_, .f32⟩ : BufTy).Contents (Elt F) → (⟨S1x1, .f32⟩ : BufTy).Contents (Elt F)),
    unary main_v226 main_v227 (broadcastInDim S1x1x1 ![0, 2] bcast_S1x1_S1x1x1_0_2 : (⟨S1x1, .f32⟩ : BufTy).Contents (Elt F) → (⟨S1x1x1, .f32⟩ : BufTy).Contents (Elt F)),
    unary main_v227 main_v228 (broadcastInDim S1x16x1 ![0, 1, 2] bcast_S1x1x1_S1x16x1_0_1_2 : (⟨S1x1x1, .f32⟩ : BufTy).Contents (Elt F) → (⟨S1x16x1, .f32⟩ : BufTy).Contents (Elt F)),
    binary main_v225 main_v228 main_v229 (Host.divf : (⟨S1x16x1, .f32⟩ : BufTy).Contents (Elt F) → (⟨S1x16x1, .f32⟩ : BufTy).Contents (Elt F) → (⟨S1x16x1, .f32⟩ : BufTy).Contents (Elt F)),
    unary main_v229 main_v230 (broadcastInDim S32x16x2048 ![0, 1, 2] bcast_S1x16x1_S32x16x2048_0_1_2 : (⟨S1x16x1, .f32⟩ : BufTy).Contents (Elt F) → (⟨S32x16x2048, .f32⟩ : BufTy).Contents (Elt F)),
    binary main_v230 main_v112 main_v231 (mulf : (⟨S32x16x2048, .f32⟩ : BufTy).Contents (Elt F) → (⟨S32x16x2048, .f32⟩ : BufTy).Contents (Elt F) → (⟨S32x16x2048, .f32⟩ : BufTy).Contents (Elt F)) ]

/-- From any contents that hold the arguments and the earlier stages' values at their buffers, the contents after
    these operations hold the arguments and the stages' values that are read later. -/
theorem stage15 (W : Valuation τ sig (Elt F))
    (x0 : (⟨S32x2048x24x12, .f32⟩ : BufTy).Contents (Elt F))
    (x1 : (⟨S32, .i32⟩ : BufTy).Contents (Elt F))
    (x2 : (⟨S32, .i1⟩ : BufTy).Contents (Elt F))
    (x3 : (⟨S1x16x2048, .f32⟩ : BufTy).Contents (Elt F))
    (x4 : (⟨S1x2048x2048, .f32⟩ : BufTy).Contents (Elt F))
    (x5 : (⟨S1x16x1, .f32⟩ : BufTy).Contents (Elt F))
    (x6 : (⟨S6x1x2048, .f32⟩ : BufTy).Contents (Elt F))
    (x7 : (⟨S1x288x2048, .f32⟩ : BufTy).Contents (Elt F))
    (x8 : (⟨S2048x2048, .f32⟩ : BufTy).Contents (Elt F))
    (x9 : (⟨S2048x2048, .f32⟩ : BufTy).Contents (Elt F))
    (x10 : (⟨S2048x2048, .f32⟩ : BufTy).Contents (Elt F))
    (x11 : (⟨S2048x2048, .f32⟩ : BufTy).Contents (Elt F))
    (a0 : W (Proc.devRef .tc main_arg0) = x0)
    (a1 : W (Proc.devRef .tc main_arg1) = x1)
    (a2 : W (Proc.devRef .tc main_arg2) = x2)
    (a3 : W (Proc.devRef .tc main_arg3) = x3)
    (a4 : W (Proc.devRef .tc main_arg4) = x4)
    (a5 : W (Proc.devRef .tc main_arg5) = x5)
    (a6 : W (Proc.devRef .tc main_arg6) = x6)
    (a7 : W (Proc.devRef .tc main_arg7) = x7)
    (a8 : W (Proc.devRef .tc main_arg8) = x8)
    (a9 : W (Proc.devRef .tc main_arg9) = x9)
    (a10 : W (Proc.devRef .tc main_arg10) = x10)
    (a11 : W (Proc.devRef .tc main_arg11) = x11)
    (h_v52 : W (Proc.devRef .tc main_v52) = val_main_v52 (F := F) x0 x1 x3 x6 x8 x9)
    (h_v112 : W (Proc.devRef .tc main_v112) = val_main_v112 (F := F) x0 x1 x3 x4 x6 x8 x9 x10 x11)
    (h_v152 : W (Proc.devRef .tc main_v152) = val_main_v152 (F := F) x0 x1 x3 x4 x6 x8 x9 x10 x11)
    (h_v218 : W (Proc.devRef .tc main_v218) = val_main_v218 (F := F) x0 x1 x2 x3 x4 x6 x8 x9 x10 x11) :
    after (L15 (F := F)) W (Proc.devRef .tc main_arg0) = x0
      ∧ after (L15 (F := F)) W (Proc.devRef .tc main_arg1) = x1
      ∧ after (L15 (F := F)) W (Proc.devRef .tc main_arg2) = x2
      ∧ after (L15 (F := F)) W (Proc.devRef .tc main_arg3) = x3
      ∧ after (L15 (F := F)) W (Proc.devRef .tc main_arg4) = x4
      ∧ after (L15 (F := F)) W (Proc.devRef .tc main_arg5) = x5
      ∧ after (L15 (F := F)) W (Proc.devRef .tc main_arg6) = x6
      ∧ after (L15 (F := F)) W (Proc.devRef .tc main_arg7) = x7
      ∧ after (L15 (F := F)) W (Proc.devRef .tc main_arg8) = x8
      ∧ after (L15 (F := F)) W (Proc.devRef .tc main_arg9) = x9
      ∧ after (L15 (F := F)) W (Proc.devRef .tc main_arg10) = x10
      ∧ after (L15 (F := F)) W (Proc.devRef .tc main_arg11) = x11
      ∧ after (L15 (F := F)) W (Proc.devRef .tc main_v52) = val_main_v52 (F := F) x0 x1 x3 x6 x8 x9
      ∧ after (L15 (F := F)) W (Proc.devRef .tc main_v152) = val_main_v152 (F := F) x0 x1 x3 x4 x6 x8 x9 x10 x11
      ∧ after (L15 (F := F)) W (Proc.devRef .tc main_v218) = val_main_v218 (F := F) x0 x1 x2 x3 x4 x6 x8 x9 x10 x11
      ∧ after (L15 (F := F)) W (Proc.devRef .tc main_v231) = val_main_v231 (F := F) x0 x1 x3 x4 x5 x6 x8 x9 x10 x11 := by
  unfold L15
  refine ⟨?_, ?_, ?_, ?_, ?_, ?_, ?_, ?_, ?_, ?_, ?_, ?_, ?_, ?_, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact a9
  · after_results_simp; exact a10
  · after_results_simp; exact a11
  · after_results_simp; exact h_v52
  · after_results_simp; exact h_v152
  · after_results_simp; exact h_v218
  · after_results_simp
    rw [a5, h_v112]
    rfl

end Cert.ReferenceIdeal.RefValue

end
-- ==== Proof.RefStages.lean ====
/-
  The reference program's run, read stage by stage.

  The reference is a straight line of 287 operations. Its list is cut into fifteen consecutive lists. For each
  list, from ANY contents that hold the arguments and the values of the earlier stages at their buffers, the contents
  after the list hold the arguments and the values of the stages read later. Chaining the
  fifteen statements from the launch contents gives the four results as the stage values of the arguments, and the
  arguments unchanged; the run of the program ends at those contents.
-/
import proofs.«101814_j47201690583535_1_alg».proof.Proof.RefStage01
import proofs.«101814_j47201690583535_1_alg».proof.Proof.RefStage02
import proofs.«101814_j47201690583535_1_alg».proof.Proof.RefStage03
import proofs.«101814_j47201690583535_1_alg».proof.Proof.RefStage04
import proofs.«101814_j47201690583535_1_alg».proof.Proof.RefStage05
import proofs.«101814_j47201690583535_1_alg».proof.Proof.RefStage06
import proofs.«101814_j47201690583535_1_alg».proof.Proof.RefStage07
import proofs.«101814_j47201690583535_1_alg».proof.Proof.RefStage08
import proofs.«101814_j47201690583535_1_alg».proof.Proof.RefStage09
import proofs.«101814_j47201690583535_1_alg».proof.Proof.RefStage10
import proofs.«101814_j47201690583535_1_alg».proof.Proof.RefStage11
import proofs.«101814_j47201690583535_1_alg».proof.Proof.RefStage12
import proofs.«101814_j47201690583535_1_alg».proof.Proof.RefStage13
import proofs.«101814_j47201690583535_1_alg».proof.Proof.RefStage14
import proofs.«101814_j47201690583535_1_alg».proof.Proof.RefStage15

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- Running two lists of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 16384 in
set_option maxHeartbeats 4000000 in
/-- The reference's operations are the stages' lists in order. -/
theorem ops_eq : (ops : List (HloOp τ sig (Elt F))) = L01 (F := F) ++ (L02 (F := F) ++ (L03 (F := F) ++ (L04 (F := F) ++ (L05 (F := F) ++ (L06 (F := F) ++ (L07 (F := F) ++ (L08 (F := F) ++ (L09 (F := F) ++ (L10 (F := F) ++ (L11 (F := F) ++ (L12 (F := F) ++ (L13 (F := F) ++ (L14 (F := F) ++ (L15 (F := F))))))))))))))) := rfl

/-- The contents after the whole list, as the stages' lists run one after the other. -/
theorem after_ops_eq (V : Valuation τ sig (Elt F)) :
    after (ops (F := F)) V = after (L15 (F := F)) (after (L14 (F := F)) (after (L13 (F := F)) (after (L12 (F := F)) (after (L11 (F := F)) (after (L10 (F := F)) (after (L09 (F := F)) (after (L08 (F := F)) (after (L07 (F := F)) (after (L06 (F := F)) (after (L05 (F := F)) (after (L04 (F := F)) (after (L03 (F := F)) (after (L02 (F := F)) (after (L01 (F := F)) (V))))))))))))))) := by
  rw [ops_eq]; simp only [after_append]

/-- From any contents, the contents after the reference's operations hold the four results as the stage values of the
    arguments, and the arguments as they were. -/
theorem after_ops (V : Valuation τ sig (Elt F)) :
    after (ops (F := F)) V (Proc.devRef .tc main_v52) = val_main_v52 (F := F) (V (Proc.devRef .tc main_arg0)) (V (Proc.devRef .tc main_arg1)) (V (Proc.devRef .tc main_arg3)) (V (Proc.devRef .tc main_arg6)) (V (Proc.devRef .tc main_arg8)) (V (Proc.devRef .tc main_arg9))
      ∧ after (ops (F := F)) V (Proc.devRef .tc main_v231) = val_main_v231 (F := F) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg8)) (V (Proc.devRef .tc main_arg9)) (V (Proc.devRef .tc main_arg10)) (V (Proc.devRef .tc main_arg11))
      ∧ after (ops (F := F)) V (Proc.devRef .tc main_v152) = val_main_v152 (F := F) (V (Proc.devRef .tc main_arg0)) (V (Proc.devRef .tc main_arg1)) (V (Proc.devRef .tc main_arg3)) (V (Proc.devRef .tc main_arg4)) (V (Proc.devRef .tc main_arg6)) (V (Proc.devRef .tc main_arg8)) (V (Proc.devRef .tc main_arg9)) (V (Proc.devRef .tc main_arg10)) (V (Proc.devRef .tc main_arg11))
      ∧ after (ops (F := F)) V (Proc.devRef .tc main_v218) = val_main_v218 (F := F) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg8)) (V (Proc.devRef .tc main_arg9)) (V (Proc.devRef .tc main_arg10)) (V (Proc.devRef .tc main_arg11))
      ∧ after (ops (F := F)) V (Proc.devRef .tc main_arg0) = V (Proc.devRef .tc main_arg0)
      ∧ after (ops (F := F)) V (Proc.devRef .tc main_arg1) = V (Proc.devRef .tc main_arg1)
      ∧ after (ops (F := F)) V (Proc.devRef .tc main_arg2) = V (Proc.devRef .tc main_arg2)
      ∧ after (ops (F := F)) V (Proc.devRef .tc main_arg3) = V (Proc.devRef .tc main_arg3)
      ∧ after (ops (F := F)) V (Proc.devRef .tc main_arg4) = V (Proc.devRef .tc main_arg4)
      ∧ after (ops (F := F)) V (Proc.devRef .tc main_arg5) = V (Proc.devRef .tc main_arg5)
      ∧ after (ops (F := F)) V (Proc.devRef .tc main_arg6) = V (Proc.devRef .tc main_arg6)
      ∧ after (ops (F := F)) V (Proc.devRef .tc main_arg7) = V (Proc.devRef .tc main_arg7)
      ∧ after (ops (F := F)) V (Proc.devRef .tc main_arg8) = V (Proc.devRef .tc main_arg8)
      ∧ after (ops (F := F)) V (Proc.devRef .tc main_arg9) = V (Proc.devRef .tc main_arg9)
      ∧ after (ops (F := F)) V (Proc.devRef .tc main_arg10) = V (Proc.devRef .tc main_arg10)
      ∧ after (ops (F := F)) V (Proc.devRef .tc main_arg11) = V (Proc.devRef .tc main_arg11) := by
  rw [after_ops_eq]
  obtain ⟨s1_a0, s1_a1, s1_a2, s1_a3, s1_a4, s1_a5, s1_a6, s1_a7, s1_a8, s1_a9, s1_a10, s1_a11, s1_v1, s1_v3, s1_v12, s1_v13⟩ :=
    stage01 (F := F) (V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      rfl rfl rfl rfl rfl rfl rfl rfl rfl rfl rfl rfl
  obtain ⟨s2_a0, s2_a1, s2_a2, s2_a3, s2_a4, s2_a5, s2_a6, s2_a7, s2_a8, s2_a9, s2_a10, s2_a11, s2_v1, s2_v3, s2_v12, s2_v13, s2_v34⟩ :=
    stage02 (F := F) (after (L01 (F := F)) (V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      s1_a0 s1_a1 s1_a2 s1_a3 s1_a4 s1_a5 s1_a6 s1_a7 s1_a8 s1_a9 s1_a10 s1_a11 s1_v1 s1_v3 s1_v12 s1_v13
  obtain ⟨s3_a0, s3_a1, s3_a2, s3_a3, s3_a4, s3_a5, s3_a6, s3_a7, s3_a8, s3_a9, s3_a10, s3_a11, s3_v1, s3_v3, s3_v12, s3_v13, s3_v34, s3_v37⟩ :=
    stage03 (F := F) (after (L02 (F := F)) (after (L01 (F := F)) (V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      s2_a0 s2_a1 s2_a2 s2_a3 s2_a4 s2_a5 s2_a6 s2_a7 s2_a8 s2_a9 s2_a10 s2_a11 s2_v1 s2_v3 s2_v12 s2_v13 s2_v34
  obtain ⟨s4_a0, s4_a1, s4_a2, s4_a3, s4_a4, s4_a5, s4_a6, s4_a7, s4_a8, s4_a9, s4_a10, s4_a11, s4_v1, s4_v3, s4_v12, s4_v52⟩ :=
    stage04 (F := F) (after (L03 (F := F)) (after (L02 (F := F)) (after (L01 (F := F)) (V)))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      s3_a0 s3_a1 s3_a2 s3_a3 s3_a4 s3_a5 s3_a6 s3_a7 s3_a8 s3_a9 s3_a10 s3_a11 s3_v1 s3_v3 s3_v12 s3_v13 s3_v34 s3_v37
  obtain ⟨s5_a0, s5_a1, s5_a2, s5_a3, s5_a4, s5_a5, s5_a6, s5_a7, s5_a8, s5_a9, s5_a10, s5_a11, s5_v1, s5_v3, s5_v12, s5_v52, s5_v71⟩ :=
    stage05 (F := F) (after (L04 (F := F)) (after (L03 (F := F)) (after (L02 (F := F)) (after (L01 (F := F)) (V))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      s4_a0 s4_a1 s4_a2 s4_a3 s4_a4 s4_a5 s4_a6 s4_a7 s4_a8 s4_a9 s4_a10 s4_a11 s4_v1 s4_v3 s4_v12 s4_v52
  obtain ⟨s6_a0, s6_a1, s6_a2, s6_a3, s6_a4, s6_a5, s6_a6, s6_a7, s6_a8, s6_a9, s6_a10, s6_a11, s6_v1, s6_v12, s6_v52, s6_v71, s6_v95, s6_v96⟩ :=
    stage06 (F := F) (after (L05 (F := F)) (after (L04 (F := F)) (after (L03 (F := F)) (after (L02 (F := F)) (after (L01 (F := F)) (V)))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      s5_a0 s5_a1 s5_a2 s5_a3 s5_a4 s5_a5 s5_a6 s5_a7 s5_a8 s5_a9 s5_a10 s5_a11 s5_v1 s5_v3 s5_v12 s5_v52 s5_v71
  obtain ⟨s7_a0, s7_a1, s7_a2, s7_a3, s7_a4, s7_a5, s7_a6, s7_a7, s7_a8, s7_a9, s7_a10, s7_a11, s7_v1, s7_v12, s7_v52, s7_v112⟩ :=
    stage07 (F := F) (after (L06 (F := F)) (after (L05 (F := F)) (after (L04 (F := F)) (after (L03 (F := F)) (after (L02 (F := F)) (after (L01 (F := F)) (V))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      s6_a0 s6_a1 s6_a2 s6_a3 s6_a4 s6_a5 s6_a6 s6_a7 s6_a8 s6_a9 s6_a10 s6_a11 s6_v1 s6_v12 s6_v52 s6_v71 s6_v95 s6_v96
  obtain ⟨s8_a0, s8_a1, s8_a2, s8_a3, s8_a4, s8_a5, s8_a6, s8_a7, s8_a8, s8_a9, s8_a10, s8_a11, s8_v1, s8_v12, s8_v52, s8_v112, s8_v113⟩ :=
    stage08 (F := F) (after (L07 (F := F)) (after (L06 (F := F)) (after (L05 (F := F)) (after (L04 (F := F)) (after (L03 (F := F)) (after (L02 (F := F)) (after (L01 (F := F)) (V)))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      s7_a0 s7_a1 s7_a2 s7_a3 s7_a4 s7_a5 s7_a6 s7_a7 s7_a8 s7_a9 s7_a10 s7_a11 s7_v1 s7_v12 s7_v52 s7_v112
  obtain ⟨s9_a0, s9_a1, s9_a2, s9_a3, s9_a4, s9_a5, s9_a6, s9_a7, s9_a8, s9_a9, s9_a10, s9_a11, s9_v1, s9_v12, s9_v52, s9_v112, s9_v113, s9_v134, s9_v137⟩ :=
    stage09 (F := F) (after (L08 (F := F)) (after (L07 (F := F)) (after (L06 (F := F)) (after (L05 (F := F)) (after (L04 (F := F)) (after (L03 (F := F)) (after (L02 (F := F)) (after (L01 (F := F)) (V))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      s8_a0 s8_a1 s8_a2 s8_a3 s8_a4 s8_a5 s8_a6 s8_a7 s8_a8 s8_a9 s8_a10 s8_a11 s8_v1 s8_v12 s8_v52 s8_v112 s8_v113
  obtain ⟨s10_a0, s10_a1, s10_a2, s10_a3, s10_a4, s10_a5, s10_a6, s10_a7, s10_a8, s10_a9, s10_a10, s10_a11, s10_v1, s10_v12, s10_v52, s10_v112, s10_v152⟩ :=
    stage10 (F := F) (after (L09 (F := F)) (after (L08 (F := F)) (after (L07 (F := F)) (after (L06 (F := F)) (after (L05 (F := F)) (after (L04 (F := F)) (after (L03 (F := F)) (after (L02 (F := F)) (after (L01 (F := F)) (V)))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      s9_a0 s9_a1 s9_a2 s9_a3 s9_a4 s9_a5 s9_a6 s9_a7 s9_a8 s9_a9 s9_a10 s9_a11 s9_v1 s9_v12 s9_v52 s9_v112 s9_v113 s9_v134 s9_v137
  obtain ⟨s11_a0, s11_a1, s11_a2, s11_a3, s11_a4, s11_a5, s11_a6, s11_a7, s11_a8, s11_a9, s11_a10, s11_a11, s11_v52, s11_v112, s11_v152, s11_v167, s11_v174, s11_v175⟩ :=
    stage11 (F := F) (after (L10 (F := F)) (after (L09 (F := F)) (after (L08 (F := F)) (after (L07 (F := F)) (after (L06 (F := F)) (after (L05 (F := F)) (after (L04 (F := F)) (after (L03 (F := F)) (after (L02 (F := F)) (after (L01 (F := F)) (V))))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      s10_a0 s10_a1 s10_a2 s10_a3 s10_a4 s10_a5 s10_a6 s10_a7 s10_a8 s10_a9 s10_a10 s10_a11 s10_v1 s10_v12 s10_v52 s10_v112 s10_v152
  obtain ⟨s12_a0, s12_a1, s12_a2, s12_a3, s12_a4, s12_a5, s12_a6, s12_a7, s12_a8, s12_a9, s12_a10, s12_a11, s12_v52, s12_v112, s12_v152, s12_v167, s12_v175, s12_v197⟩ :=
    stage12 (F := F) (after (L11 (F := F)) (after (L10 (F := F)) (after (L09 (F := F)) (after (L08 (F := F)) (after (L07 (F := F)) (after (L06 (F := F)) (after (L05 (F := F)) (after (L04 (F := F)) (after (L03 (F := F)) (after (L02 (F := F)) (after (L01 (F := F)) (V)))))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      s11_a0 s11_a1 s11_a2 s11_a3 s11_a4 s11_a5 s11_a6 s11_a7 s11_a8 s11_a9 s11_a10 s11_a11 s11_v52 s11_v112 s11_v152 s11_v167 s11_v174 s11_v175
  obtain ⟨s13_a0, s13_a1, s13_a2, s13_a3, s13_a4, s13_a5, s13_a6, s13_a7, s13_a8, s13_a9, s13_a10, s13_a11, s13_v52, s13_v112, s13_v152, s13_v175, s13_v201, s13_v203⟩ :=
    stage13 (F := F) (after (L12 (F := F)) (after (L11 (F := F)) (after (L10 (F := F)) (after (L09 (F := F)) (after (L08 (F := F)) (after (L07 (F := F)) (after (L06 (F := F)) (after (L05 (F := F)) (after (L04 (F := F)) (after (L03 (F := F)) (after (L02 (F := F)) (after (L01 (F := F)) (V))))))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      s12_a0 s12_a1 s12_a2 s12_a3 s12_a4 s12_a5 s12_a6 s12_a7 s12_a8 s12_a9 s12_a10 s12_a11 s12_v52 s12_v112 s12_v152 s12_v167 s12_v175 s12_v197
  obtain ⟨s14_a0, s14_a1, s14_a2, s14_a3, s14_a4, s14_a5, s14_a6, s14_a7, s14_a8, s14_a9, s14_a10, s14_a11, s14_v52, s14_v112, s14_v152, s14_v218⟩ :=
    stage14 (F := F) (after (L13 (F := F)) (after (L12 (F := F)) (after (L11 (F := F)) (after (L10 (F := F)) (after (L09 (F := F)) (after (L08 (F := F)) (after (L07 (F := F)) (after (L06 (F := F)) (after (L05 (F := F)) (after (L04 (F := F)) (after (L03 (F := F)) (after (L02 (F := F)) (after (L01 (F := F)) (V)))))))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      s13_a0 s13_a1 s13_a2 s13_a3 s13_a4 s13_a5 s13_a6 s13_a7 s13_a8 s13_a9 s13_a10 s13_a11 s13_v52 s13_v112 s13_v152 s13_v175 s13_v201 s13_v203
  obtain ⟨s15_a0, s15_a1, s15_a2, s15_a3, s15_a4, s15_a5, s15_a6, s15_a7, s15_a8, s15_a9, s15_a10, s15_a11, s15_v52, s15_v152, s15_v218, s15_v231⟩ :=
    stage15 (F := F) (after (L14 (F := F)) (after (L13 (F := F)) (after (L12 (F := F)) (after (L11 (F := F)) (after (L10 (F := F)) (after (L09 (F := F)) (after (L08 (F := F)) (after (L07 (F := F)) (after (L06 (F := F)) (after (L05 (F := F)) (after (L04 (F := F)) (after (L03 (F := F)) (after (L02 (F := F)) (after (L01 (F := F)) (V))))))))))))))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
      s14_a0 s14_a1 s14_a2 s14_a3 s14_a4 s14_a5 s14_a6 s14_a7 s14_a8 s14_a9 s14_a10 s14_a11 s14_v52 s14_v112 s14_v152 s14_v218
  exact ⟨s15_v52, s15_v231, s15_v152, s15_v218, s15_a0, s15_a1, s15_a2, s15_a3, s15_a4, s15_a5, s15_a6, s15_a7, s15_a8, s15_a9, s15_a10, s15_a11⟩

/-- The reference's run: every weakly fair execution terminates with the four results at the stage values of the
    arguments and the arguments unchanged. -/
theorem ref_run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v52) = val_main_v52 (F := F) (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg8)) (m ((c.tc : Thread nD τ).loc main_arg9))
      ∧ r.2.mem ((c.tc : Thread nD τ).loc main_v231) = val_main_v231 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v152) = val_main_v152 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v218) = val_main_v218 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ?_) (run_after m ρ)
  obtain ⟨e0, e1, e2, e3, e4, e5, e6, e7, e8, e9, e10, e11, e12, e13, e14, e15⟩ := after_ops (F := F) (launchContents m c)
  exact ⟨(h c main_v52).trans e0, (h c main_v231).trans e1, (h c main_v152).trans e2, (h c main_v218).trans e3, (h c main_arg0).trans e4, (h c main_arg1).trans e5, (h c main_arg2).trans e6, (h c main_arg3).trans e7, (h c main_arg4).trans e8, (h c main_arg5).trans e9, (h c main_arg6).trans e10, (h c main_arg7).trans e11, (h c main_arg8).trans e12, (h c main_arg9).trans e13, (h c main_arg10).trans e14, (h c main_arg11).trans e15⟩

end Cert.ReferenceIdeal.RefValue

end
-- ==== Proof.lean ====
/-
  The proof of the certificate's claim.

  Both programs are read against the same functions of the launch arguments: the reference program, a straight line of
  host operations, ends with its four results at four of its stage values of its arguments; the kernel program, host
  stretches and twelve kernel regions, ends with its four results at the same four stage values of its own arguments.
  From memories that agree on the twelve arguments the results are therefore equal, array by array, and every argument
  array ends as it was launched. The three frame claims read only the arguments off the same runs.
-/
import proofs.«101814_j47201690583535_1_alg».proof.Defs
import proofs.«101814_j47201690583535_1_alg».proof.Proof.Gen.Kernel
import proofs.«101814_j47201690583535_1_alg».proof.Proof.Gen.Kernel.Frame
import proofs.«101814_j47201690583535_1_alg».proof.Proof.Gen.KernelIdeal
import proofs.«101814_j47201690583535_1_alg».proof.Proof.Gen.KernelIdeal.Frame
import proofs.«101814_j47201690583535_1_alg».proof.Proof.Gen.ReferenceIdeal
import proofs.«101814_j47201690583535_1_alg».proof.Proof.Gen.Pre_finite_inputs
import proofs.«101814_j47201690583535_1_alg».proof.Proof.KernelRun
import proofs.«101814_j47201690583535_1_alg».proof.Proof.ChainFinal
import proofs.«101814_j47201690583535_1_alg».proof.Proof.RefStages
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- The kernel program on the extended reals runs and leaves its arguments as launched. -/
theorem frame_kernelIdeal : Cert.frame_KernelIdeal := fun m ρ _ => Cert.KernelIdeal.Gen.frame m ρ

/-- The reference program runs and leaves its arguments as launched: its run, without the four results. -/
theorem frame_referenceIdeal : Cert.frame_ReferenceIdeal := fun m ρ _ =>
  (θ_run Cert.ReferenceIdeal.defs _ _).mono (fun _ h c => (h c).2.2.2.2) (Cert.ReferenceIdeal.RefValue.ref_run (F := Ideal) m ρ)

/-- No operation was rewritten between the kernel program and its reading on the extended reals. -/
theorem preserves : Cert.preserves_Kernel_KernelIdeal := trivial

/-- On the extended reals, from memories that agree on the arguments, both programs run and end with their four results
    at the same four stage values of the arguments, the arguments unchanged. -/
theorem algebraic : Cert.algebraic_KernelIdeal_ReferenceIdeal := by
  intro m ρ m' ρ' _ hagree
  refine ⟨(fun c => Cert.ReferenceIdeal.ReadP.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))),
    (fun c => Cert.ReferenceIdeal.ReadP.val_main_v231 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))),
    (fun c => Cert.ReferenceIdeal.ReadP.val_main_v152 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))),
    (fun c => Cert.ReferenceIdeal.ReadP.val_main_v218 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))),
    ?_, ?_⟩
  · refine (θ_run Cert.KernelIdeal.defs _ _).mono (fun r h c => ?_) (Cert.KernelIdeal.RunValue.run_last (F := Ideal) m ρ)
    exact ⟨(h c Cert.KernelIdeal.main_v31 (by decide)).trans (Cert.KernelIdeal.Chain.kernel_v31 m ρ c),
      (h c Cert.KernelIdeal.main_v107 (by decide)).trans (Cert.KernelIdeal.Chain.kernel_v107 m ρ c),
      (h c Cert.KernelIdeal.main_v63 (by decide)).trans (Cert.KernelIdeal.Chain.kernel_v63 m ρ c),
      (h c Cert.KernelIdeal.main_v96 (by decide)).trans (Cert.KernelIdeal.Chain.kernel_v96 m ρ c),
      (h c Cert.KernelIdeal.main_arg0 (by decide)).trans (Cert.KernelIdeal.Gen.W26_main_arg0 m ρ c),
      (h c Cert.KernelIdeal.main_arg1 (by decide)).trans (Cert.KernelIdeal.Gen.W26_main_arg1 m ρ c),
      (h c Cert.KernelIdeal.main_arg2 (by decide)).trans (Cert.KernelIdeal.Gen.W26_main_arg2 m ρ c),
      (h c Cert.KernelIdeal.main_arg3 (by decide)).trans (Cert.KernelIdeal.Gen.W26_main_arg3 m ρ c),
      (h c Cert.KernelIdeal.main_arg4 (by decide)).trans (Cert.KernelIdeal.Gen.W26_main_arg4 m ρ c),
      (h c Cert.KernelIdeal.main_arg5 (by decide)).trans (Cert.KernelIdeal.Gen.W26_main_arg5 m ρ c),
      (h c Cert.KernelIdeal.main_arg6 (by decide)).trans (Cert.KernelIdeal.Gen.W26_main_arg6 m ρ c),
      (h c Cert.KernelIdeal.main_arg7 (by decide)).trans (Cert.KernelIdeal.Gen.W26_main_arg7 m ρ c),
      (h c Cert.KernelIdeal.main_arg8 (by decide)).trans (Cert.KernelIdeal.Gen.W26_main_arg8 m ρ c),
      (h c Cert.KernelIdeal.main_arg9 (by decide)).trans (Cert.KernelIdeal.Gen.W26_main_arg9 m ρ c),
      (h c Cert.KernelIdeal.main_arg10 (by decide)).trans (Cert.KernelIdeal.Gen.W26_main_arg10 m ρ c),
      (h c Cert.KernelIdeal.main_arg11 (by decide)).trans (Cert.KernelIdeal.Gen.W26_main_arg11 m ρ c)⟩
  · refine (θ_run Cert.ReferenceIdeal.defs _ _).mono (fun r h c => ?_) (Cert.ReferenceIdeal.RefValue.ref_run (F := Ideal) m' ρ')
    obtain ⟨e0, e1, e2, e3, ea⟩ := h c
    obtain ⟨g0, g1, g2, g3, g4, g5, g6, g7, g8, g9, g10, g11⟩ := hagree c
    refine ⟨e0.trans ?_, e1.trans ?_, e2.trans ?_, e3.trans ?_, ea⟩
    · rw [g0, g1, g3, g6, g8, g9]
    · rw [g0, g1, g3, g4, g5, g6, g8, g9, g10, g11]
    · rw [g0, g1, g3, g4, g6, g8, g9, g10, g11]
    · rw [g0, g1, g2, g3, g4, g6, g8, g9, g10, g11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
